-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v4_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v4_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x128 : Shape := ⟨3, ![8, 512, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S8x512x128 : S_.BroadcastsInDim S8x512x128 (![] : Fin 0 → Fin S8x512x128.rank)
  reducesTo_S8x512x128_S_d0_1_2 : S8x512x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_arg5 : FVec F S128x128 .f32) (main_arg6 : FVec F S128 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S8x512x128 .f32) (main_arg1 : FVec F S128x128 .f32) (main_arg2 : FVec F S128 .f32) (main_arg3 : FVec F S128x1 .f32) (main_arg4 : FVec F S1 .f32) (main_arg5 : FVec F S128x128 .f32) (main_arg6 : FVec F S128 .f32) : IVec S_ 1 :=
  let main_v0 : FVec F S8x512x128 .f32 := Host.absf main_arg0
  let main_cst : FVec F S_ .f32 := constant S_ .f32 0x7F800000#32
  let main_v1 : FVec F S8x512x128 .f32 := broadcastInDim S8x512x128 ![] bcast_S_S8x512x128 main_cst
  let main_v2 : IVec S8x512x128 1 := cmpf .olt main_v0 main_v1
  let main_c : IVec S_ 1 := constantI S_ 1 1#1
  let main_v3 : IVec S_ 1 := (fun x v => Host.reduce IntOp.andi x v reducesTo_S8x512x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1 .f32 := Host.absf main_arg3
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg4 main_arg5 main_arg6 main_v13 main_v16
-- ==== Kernel.lean ====
abbrev S8x512x128 : Shape := ⟨3, ![8, 512, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x128 : Shape := ⟨2, ![1, 128]⟩
abbrev S1x1 : Shape := ⟨2, ![1, 1]⟩
abbrev S8x512x512 : Shape := ⟨3, ![8, 512, 512]⟩
abbrev S8x512x1 : Shape := ⟨3, ![8, 512, 1]⟩
abbrev S1x128x128 : Shape := ⟨3, ![1, 128, 128]⟩
abbrev S1x128x1 : Shape := ⟨3, ![1, 128, 1]⟩
abbrev S128x1x128 : Shape := ⟨3, ![128, 1, 128]⟩
abbrev S128x128x128 : Shape := ⟨3, ![128, 128, 128]⟩
abbrev S16384x128 : Shape := ⟨2, ![16384, 128]⟩
abbrev S16384 : Shape := ⟨1, ![16384]⟩
abbrev S8x512 : Shape := ⟨2, ![8, 512]⟩
abbrev S8x1x512 : Shape := ⟨3, ![8, 1, 512]⟩
abbrev S1x512x128 : Shape := ⟨3, ![1, 512, 128]⟩
abbrev S1x128x512 : Shape := ⟨3, ![1, 128, 512]⟩
abbrev S1x1x512 : Shape := ⟨3, ![1, 1, 512]⟩
abbrev S512x128 : Shape := ⟨2, ![512, 128]⟩
abbrev S128x512 : Shape := ⟨2, ![128, 512]⟩
abbrev S1x512 : Shape := ⟨2, ![1, 512]⟩

abbrev nBuf : Space → Nat
  | .hbm => 18
  | .vmem => 26
  | .smem => 0
  | _ => 0

abbrev bufTy : (tb : Table) → Fin (tcTables nBuf tb) → BufTy
  | .hbm, ⟨0, _⟩ => ⟨S8x512x128, .f32⟩
  | .hbm, ⟨1, _⟩ => ⟨S128x128, .f32⟩
  | .hbm, ⟨2, _⟩ => ⟨S128, .f32⟩
  | .hbm, ⟨3, _⟩ => ⟨S128x1, .f32⟩
  | .hbm, ⟨4, _⟩ => ⟨S1, .f32⟩
  | .hbm, ⟨5, _⟩ => ⟨S128x128, .f32⟩
  | .hbm, ⟨6, _⟩ => ⟨S128, .f32⟩
  | .hbm, ⟨7, _⟩ => ⟨S1x128, .f32⟩
  | .hbm, ⟨8, _⟩ => ⟨S1x128, .f32⟩
  | .hbm, ⟨9, _⟩ => ⟨S1x1, .f32⟩
  | .hbm, ⟨10, _⟩ => ⟨S1x128, .f32⟩
  | .hbm, ⟨11, _⟩ => ⟨S8x512x512, .f32⟩
  | .hbm, ⟨12, _⟩ => ⟨S8x512x1, .f32⟩
  | .hbm, ⟨13, _⟩ => ⟨S8x512, .f32⟩
  | .hbm, ⟨14, _⟩ => ⟨S8x512, .f32⟩
  | .hbm, ⟨15, _⟩ => ⟨S8x512x1, .f32⟩
  | .hbm, ⟨16, _⟩ => ⟨S8x1x512, .f32⟩
  | .hbm, ⟨17, _⟩ => ⟨S8x512x128, .f32⟩
  | .local _ .vmem, ⟨0, _⟩ => ⟨S1x128x128, .f32⟩
  | .local _ .vmem, ⟨1, _⟩ => ⟨S1x128x128, .f32⟩
  | .local _ .vmem, ⟨2, _⟩ => ⟨S1x128x128, .f32⟩
  | .local _ .vmem, ⟨3, _⟩ => ⟨S1x128x128, .f32⟩
  | .local _ .vmem, ⟨4, _⟩ => ⟨S128x128, .f32⟩
  | .local _ .vmem, ⟨5, _⟩ => ⟨S1x128, .f32⟩
  | .local _ .vmem, ⟨6, _⟩ => ⟨S1x128, .f32⟩
  | .local _ .vmem, ⟨7, _⟩ => ⟨S1x1, .f32⟩
  | .local _ .vmem, ⟨8, _⟩ => ⟨S1x128x128, .f32⟩
  | .local _ .vmem, ⟨9, _⟩ => ⟨S1x128x128, .f32⟩
  | .local _ .vmem, ⟨10, _⟩ => ⟨S1x128x1, .f32⟩
  | .local _ .vmem, ⟨11, _⟩ => ⟨S1x128x1, .f32⟩
  | .local _ .vmem, ⟨12, _⟩ => ⟨S128x1, .f32⟩
  | .local _ .vmem, ⟨13, _⟩ => ⟨S1x512x128, .f32⟩
  | .local _ .vmem, ⟨14, _⟩ => ⟨S1x512x128, .f32⟩
  | .local _ .vmem, ⟨15, _⟩ => ⟨S128x128, .f32⟩
  | .local _ .vmem, ⟨16, _⟩ => ⟨S1x128x512, .f32⟩
  | .local _ .vmem, ⟨17, _⟩ => ⟨S1x128x512, .f32⟩
  | .local _ .vmem, ⟨18, _⟩ => ⟨S1x128x1, .f32⟩
  | .local _ .vmem, ⟨19, _⟩ => ⟨S1x128x1, .f32⟩
  | .local _ .vmem, ⟨20, _⟩ => ⟨S1x1x512, .f32⟩
  | .local _ .vmem, ⟨21, _⟩ => ⟨S1x1x512, .f32⟩
  | .local _ .vmem, ⟨22, _⟩ => ⟨S1x128, .f32⟩
  | .local _ .vmem, ⟨23, _⟩ => ⟨S1x128x128, .f32⟩
  | .local _ .vmem, ⟨24, _⟩ => ⟨S1x128x128, .f32⟩
  | .local _ .vmem, ⟨25, _⟩ => ⟨S512x128, .f32⟩
  | _, _ => ⟨S8x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg6_1 : Ref sig .tc := ⟨.vmem, 24, rfl⟩
abbrev cc1_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v49 : BitVec 1 := Scalar.cmpi .eq arg2 c3_i32
  let v50 : BitVec 32 := Scalar.extui v49
  let c0_i32_24 : BitVec 32 := 0#32
  let v51 : BitVec 1 := Scalar.cmpi .ne v50 c0_i32_24
  v51

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x128x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x128x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x128x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  shapeCasts_S128_S1x128 : S128.ShapeCasts S1x128
  shapeCasts_S128x1_S1x128 : S128x1.ShapeCasts S1x128
  shapeCasts_S1_S1x1 : S1.ShapeCasts S1x1
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  bitsLt_bf16_f32 : FTy.bits .bf16 < FTy.bits .f32
  shapeCasts_S128x128_S128x1x128 : S128x128.ShapeCasts S128x1x128
  shapeCasts_S128x128_S1x128x128 : S128x128.ShapeCasts S1x128x128
  broadcasts_S128x1x128_S128x128x128 : S128x1x128.Broadcasts S128x128x128
  broadcasts_S1x128x128_S128x128x128 : S1x128x128.Broadcasts S128x128x128
  shapeCasts_S128x128x128_S16384x128 : S128x128x128.ShapeCasts S16384x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S16384x128 : S1x128.Broadcasts S16384x128
  reduces_S16384x128_S16384 : S16384x128.Reduces [1] S16384
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S16384_S128x128 : S16384.ShapeCasts S128x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  reduces_S128x128_S128 : S128x128.Reduces [1] S128
  shapeCasts_S128_S128x1 : S128.ShapeCasts S128x1
  inb_S1x128x1_S1x128x1_0_0_0 : ∀ a, (![0, 0, 0] : Fin 3 → Nat) a + S1x128x1.size a ≤ S1x128x1.size a
  h_S1x128x1 : 0 < S1x128x1.numel
  shapeCasts_S1x128x1_S128x1 : S1x128x1.ShapeCasts S128x1
  shapeCasts_S128x1_S1x128x1 : S128x1.ShapeCasts S1x128x1
  shapeCasts_S8x512x1_S8x512 : S8x512x1.ShapeCasts S8x512
  bcast_S8x512_S8x512x1_0_1 : S8x512.BroadcastsInDim S8x512x1 (![0, 1] : Fin 2 → Fin S8x512x1.rank)
  bcast_S8x512_S8x1x512_0_2 : S8x512.BroadcastsInDim S8x1x512 (![0, 2] : Fin 2 → Fin S8x1x512.rank)
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S128x1_S128x512 : S128x1.Broadcasts S128x512
  broadcasts_S1x512_S128x512 : S1x512.Broadcasts S128x512
  broadcasts_S1x128_S128x128 : S1x128.Broadcasts S128x128
  dot_S16384x128_S128x128_S16384x128_1_0_0_1_n_n_wf : DotDims.WF S16384x128 S128x128 S16384x128 [1] [0] [0] [1] [] []
  dot_S512x128_S128x128_S512x128_1_0_0_1_n_n_wf : DotDims.WF S512x128 S128x128 S512x128 [1] [0] [0] [1] [] []
  dot_S128x512_S512x128_S128x128_1_0_0_1_n_n_wf : DotDims.WF S128x512 S512x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x128.size a ≤ S8x512x128.size a
  hwx0_0 : ∀ i : grid0.Coords, EltTy.bits .f32 = 32 ∨ (Rect.block (s := S8x512x128) S1x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S8x512x128.size a
  hwx0_1 : ∀ i : grid0.Coords, EltTy.bits .f32 = 32 ∨ (Rect.block (s := S8x512x128) S1x128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x128x128.size a ≤ S8x512x512.size a
  hwx0_6 : ∀ i : grid0.Coords, EltTy.bits .f32 = 32 ∨ (Rect.block (s := S8x512x512) S1x128x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x128x1.size a ≤ S8x512x1.size a
  hwx0_7 : ∀ i : grid0.Coords, EltTy.bits .f32 = 32 ∨ (Rect.block (s := S8x512x1) S1x128x1.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x128.size a ≤ S8x512x128.size a
  hwx1_0 : ∀ i : grid1.Coords, EltTy.bits .f32 = 32 ∨ (Rect.block (s := S8x512x128) S1x512x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128x512.size a ≤ S8x512x512.size a
  hwx1_2 : ∀ i : grid1.Coords, EltTy.bits .f32 = 32 ∨ (Rect.block (s := S8x512x512) S1x128x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128x1.size a ≤ S8x512x1.size a
  hwx1_3 : ∀ i : grid1.Coords, EltTy.bits .f32 = 32 ∨ (Rect.block (s := S8x512x1) S1x128x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x512.size a ≤ S8x1x512.size a
  hwx1_4 : ∀ i : grid1.Coords, EltTy.bits .f32 = 32 ∨ (Rect.block (s := S8x1x512) S1x1x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x128x128.size a ≤ S8x512x128.size a
  hwx1_6 : ∀ i : grid1.Coords, EltTy.bits .f32 = 32 ∨ (Rect.block (s := S8x512x128) S1x128x128.size (cc1_transform_6 i) (hinb1_6 i)).WholeWords (EltTy.packing .f32)

variable [Facts₀]

def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S128x512_S512x128_S128x128_1_0_0_1_n_n : DotDims S128x512 S512x128 S128x128 where
  lhsContracting := [1]
  rhsContracting := [0]
  lhsNonContracting := [0]
  rhsNonContracting := [1]
  lhsBatch := []
  rhsBatch := []
  wf := dot_S128x512_S512x128_S128x128_1_0_0_1_n_n_wf

abbrev win0_0 : Pipeline.Window sig grid0 :=
  Pipeline.Window.ofSpec (Memref.whole main_arg0) S1x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4_0) S1x128x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_1) S1x128x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

abbrev win1_0 : Pipeline.Window sig grid1 :=
  Pipeline.Window.ofSpec (Memref.whole main_arg0) S1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4_0) S1x128x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x128x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1x1x512.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v3) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v9) S1x128x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S8x512x128 : Shape := ⟨3, ![8, 512, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S8x512x1x128 : Shape := ⟨4, ![8, 512, 1, 128]⟩
abbrev S8x1x512x128 : Shape := ⟨4, ![8, 1, 512, 128]⟩
abbrev S8x512x512x128 : Shape := ⟨4, ![8, 512, 512, 128]⟩
abbrev S1x1x1x128 : Shape := ⟨4, ![1, 1, 1, 128]⟩
abbrev S_ : Shape := ⟨0, ![]⟩
abbrev S8x512x512x1 : Shape := ⟨4, ![8, 512, 512, 1]⟩
abbrev S8x512x512 : Shape := ⟨3, ![8, 512, 512]⟩
abbrev S8x512 : Shape := ⟨2, ![8, 512]⟩
abbrev S8x512x1 : Shape := ⟨3, ![8, 512, 1]⟩
abbrev S8x1x512 : Shape := ⟨3, ![8, 1, 512]⟩
abbrev S1x1x128 : Shape := ⟨3, ![1, 1, 128]⟩

abbrev nBuf : Space → Nat
  | .hbm => 47
  | .vmem => 0
  | .smem => 0
  | _ => 0

abbrev bufTy : (tb : Table) → Fin (tcTables nBuf tb) → BufTy
  | .hbm, ⟨0, _⟩ => ⟨S8x512x128, .f32⟩
  | .hbm, ⟨1, _⟩ => ⟨S128x128, .f32⟩
  | .hbm, ⟨2, _⟩ => ⟨S128, .f32⟩
  | .hbm, ⟨3, _⟩ => ⟨S128x1, .f32⟩
  | .hbm, ⟨4, _⟩ => ⟨S1, .f32⟩
  | .hbm, ⟨5, _⟩ => ⟨S128x128, .f32⟩
  | .hbm, ⟨6, _⟩ => ⟨S128, .f32⟩
  | .hbm, ⟨7, _⟩ => ⟨S8x512x1x128, .f32⟩
  | .hbm, ⟨8, _⟩ => ⟨S8x1x512x128, .f32⟩
  | .hbm, ⟨9, _⟩ => ⟨S8x512x512x128, .f32⟩
  | .hbm, ⟨10, _⟩ => ⟨S8x512x512x128, .f32⟩
  | .hbm, ⟨11, _⟩ => ⟨S8x512x512x128, .f32⟩
  | .hbm, ⟨12, _⟩ => ⟨S8x512x512x128, .f32⟩
  | .hbm, ⟨13, _⟩ => ⟨S8x512x512x128, .f32⟩
  | .hbm, ⟨14, _⟩ => ⟨S1x1x1x128, .f32⟩
  | .hbm, ⟨15, _⟩ => ⟨S8x512x512x128, .f32⟩
  | .hbm, ⟨16, _⟩ => ⟨S8x512x512x128, .f32⟩
  | .hbm, ⟨17, _⟩ => ⟨S_, .f32⟩
  | .hbm, ⟨18, _⟩ => ⟨S8x512x512x128, .f32⟩
  | .hbm, ⟨19, _⟩ => ⟨S8x512x512x128, .f32⟩
  | .hbm, ⟨20, _⟩ => ⟨S8x512x512x1, .f32⟩
  | .hbm, ⟨21, _⟩ => ⟨S8x512x512, .f32⟩
  | .hbm, ⟨22, _⟩ => ⟨S_, .f32⟩
  | .hbm, ⟨23, _⟩ => ⟨S8x512x512, .f32⟩
  | .hbm, ⟨24, _⟩ => ⟨S8x512x512, .f32⟩
  | .hbm, ⟨25, _⟩ => ⟨S8x512x512, .f32⟩
  | .hbm, ⟨26, _⟩ => ⟨S8x512x512, .f32⟩
  | .hbm, ⟨27, _⟩ => ⟨S_, .f32⟩
  | .hbm, ⟨28, _⟩ => ⟨S8x512x512, .f32⟩
  | .hbm, ⟨29, _⟩ => ⟨S8x512x512, .f32⟩
  | .hbm, ⟨30, _⟩ => ⟨S_, .f32⟩
  | .hbm, ⟨31, _⟩ => ⟨S8x512x512, .f32⟩
  | .hbm, ⟨32, _⟩ => ⟨S8x512x512, .f32⟩
  | .hbm, ⟨33, _⟩ => ⟨S_, .f32⟩
  | .hbm, ⟨34, _⟩ => ⟨S8x512, .f32⟩
  | .hbm, ⟨35, _⟩ => ⟨S8x512, .f32⟩
  | .hbm, ⟨36, _⟩ => ⟨S8x512x1, .f32⟩
  | .hbm, ⟨37, _⟩ => ⟨S8x512x512, .f32⟩
  | .hbm, ⟨38, _⟩ => ⟨S8x512x512, .f32⟩
  | .hbm, ⟨39, _⟩ => ⟨S8x1x512, .f32⟩
  | .hbm, ⟨40, _⟩ => ⟨S8x512x512, .f32⟩
  | .hbm, ⟨41, _⟩ => ⟨S8x512x512, .f32⟩
  | .hbm, ⟨42, _⟩ => ⟨S8x512x128, .f32⟩
  | .hbm, ⟨43, _⟩ => ⟨S8x512x128, .f32⟩
  | .hbm, ⟨44, _⟩ => ⟨S1x1x128, .f32⟩
  | .hbm, ⟨45, _⟩ => ⟨S8x512x128, .f32⟩
  | .hbm, ⟨46, _⟩ => ⟨S8x512x128, .f32⟩
  | _, _ => ⟨S8x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_cst : Ref sig .tc := ⟨.hbm, 17, rfl⟩
abbrev main_call0_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_cst_0 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]

class Facts₀ : Prop where
  bcast_S8x512x128_S8x512x1x128_0_1_3 : S8x512x128.BroadcastsInDim S8x512x1x128 (![0, 1, 3] : Fin 3 → Fin S8x512x1x128.rank)
  bcast_S8x512x128_S8x1x512x128_0_2_3 : S8x512x128.BroadcastsInDim S8x1x512x128 (![0, 2, 3] : Fin 3 → Fin S8x1x512x128.rank)
  bcast_S8x512x1x128_S8x512x512x128_0_1_2_3 : S8x512x1x128.BroadcastsInDim S8x512x512x128 (![0, 1, 2, 3] : Fin 4 → Fin S8x512x512x128.rank)
  bcast_S8x1x512x128_S8x512x512x128_0_1_2_3 : S8x1x512x128.BroadcastsInDim S8x512x512x128 (![0, 1, 2, 3] : Fin 4 → Fin S8x512x512x128.rank)
  bcast_S128_S1x1x1x128_3 : S128.BroadcastsInDim S1x1x1x128 (![3] : Fin 1 → Fin S1x1x1x128.rank)
  bcast_S1x1x1x128_S8x512x512x128_0_1_2_3 : S1x1x1x128.BroadcastsInDim S8x512x512x128 (![0, 1, 2, 3] : Fin 4 → Fin S8x512x512x128.rank)
  bcast_S_S8x512x512x128 : S_.BroadcastsInDim S8x512x512x128 (![] : Fin 0 → Fin S8x512x512x128.rank)
  shapeCasts_S8x512x512x1_S8x512x512 : S8x512x512x1.ShapeCasts S8x512x512
  shapeCasts_S1_S_ : S1.ShapeCasts S_
  bcast_S_S8x512x512 : S_.BroadcastsInDim S8x512x512 (![] : Fin 0 → Fin S8x512x512.rank)
  reducesTo_S8x512x512_S8x512_d2 : S8x512x512.ReducesTo [2] S8x512
  h_S_ : 0 < S_.numel
  bcast_S8x512_S8x512x1_0_1 : S8x512.BroadcastsInDim S8x512x1 (![0, 1] : Fin 2 → Fin S8x512x1.rank)
  bcast_S8x512x1_S8x512x512_0_1_2 : S8x512x1.BroadcastsInDim S8x512x512 (![0, 1, 2] : Fin 3 → Fin S8x512x512.rank)
  bcast_S8x512_S8x1x512_0_2 : S8x512.BroadcastsInDim S8x1x512 (![0, 2] : Fin 2 → Fin S8x1x512.rank)
  bcast_S8x1x512_S8x512x512_0_1_2 : S8x1x512.BroadcastsInDim S8x512x512 (![0, 1, 2] : Fin 3 → Fin S8x512x512.rank)
  bcast_S128_S1x1x128_2 : S128.BroadcastsInDim S1x1x128 (![2] : Fin 1 → Fin S1x1x128.rank)
  bcast_S1x1x128_S8x512x128_0_1_2 : S1x1x128.BroadcastsInDim S8x512x128 (![0, 1, 2] : Fin 3 → Fin S8x512x128.rank)
  dot_S8x512x512x128_S128x128_S8x512x512x128_3_0_012_1_n_n_wf : DotDims.WF S8x512x512x128 S128x128 S8x512x512x128 [3] [0] [0, 1, 2] [1] [] []
  dot_S8x512x512x128_S128x1_S8x512x512x1_3_0_012_1_n_n_wf : DotDims.WF S8x512x512x128 S128x1 S8x512x512x1 [3] [0] [0, 1, 2] [1] [] []
  dot_S8x512x128_S128x128_S8x512x128_2_0_01_1_n_n_wf : DotDims.WF S8x512x128 S128x128 S8x512x128 [2] [0] [0, 1] [1] [] []
  dot_S8x512x512_S8x512x128_S8x512x128_2_1_1_2_0_0_wf : DotDims.WF S8x512x512 S8x512x128 S8x512x128 [2] [1] [1] [2] [0] [0]

variable [Facts₀]

def dot_S8x512x512x128_S128x128_S8x512x512x128_3_0_012_1_n_n : DotDims S8x512x512x128 S128x128 S8x512x512x128 where
  lhsContracting := [3]
  rhsContracting := [0]
  lhsNonContracting := [0, 1, 2]
  rhsNonContracting := [1]
  lhsBatch := []
  rhsBatch := []
  wf := dot_S8x512x512x128_S128x128_S8x512x512x128_3_0_012_1_n_n_wf
def dot_S8x512x512x128_S128x1_S8x512x512x1_3_0_012_1_n_n : DotDims S8x512x512x128 S128x1 S8x512x512x1 where
  lhsContracting := [3]
  rhsContracting := [0]
  lhsNonContracting := [0, 1, 2]
  rhsNonContracting := [1]
  lhsBatch := []
  rhsBatch := []
  wf := dot_S8x512x512x128_S128x1_S8x512x512x1_3_0_012_1_n_n_wf
def dot_S8x512x128_S128x128_S8x512x128_2_0_01_1_n_n : DotDims S8x512x128 S128x128 S8x512x128 where
  lhsContracting := [2]
  rhsContracting := [0]
  lhsNonContracting := [0, 1]
  rhsNonContracting := [1]
  lhsBatch := []
  rhsBatch := []
  wf := dot_S8x512x128_S128x128_S8x512x128_2_0_01_1_n_n_wf
def dot_S8x512x512_S8x512x128_S8x512x128_2_1_1_2_0_0 : DotDims S8x512x512 S8x512x128 S8x512x128 where
  lhsContracting := [2]
  rhsContracting := [1]
  lhsNonContracting := [1]
  rhsNonContracting := [2]
  lhsBatch := [0]
  rhsBatch := [0]
  wf := dot_S8x512x512_S8x512x128_S8x512x128_2_1_1_2_0_0_wf

class Facts : Prop extends Facts₀ where

variable [Facts]
-- ==== Proof.K0Kit.lean ====
/-
  The first kernel region (the edge-weight kernel): what its runs and its proof data are stated over.

  The grid has 128 points t = 16 b + 4 i + j (graph b, row tile i, column tile j). The body resets its column
  accumulator when j = 0 and copies it to the degree output when j = 3; the blocks the input windows hold at a
  point are read off the arrays as the region finds them, whatever those are (V).
-/
import proofs.«112107_j17961553231914_2_alg».proof.Proof.Gen.Kernel.Launch
import proofs.«112107_j17961553231914_2_alg».proof.Proof.Gen.Kernel.Skeleton
import proofs.«112107_j17961553231914_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: an input that
    is not fetched has not moved its block index, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: an input that
    is not fetched has not moved its block index, and the body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: an input that
    is not fetched has not moved its block index, and the body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: an input that
    is not fetched has not moved its block index, and the body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not: an input that
    is not fetched has not moved its block index, and the body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not: an input that
    is not fetched has not moved its block index, and the body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, decided over the grid -/

/-- The first conditional's condition (the column tile is the first), from the grid coordinates. -/
abbrev cond0_0 (i : grid0.Coords) : Prop := (Scalar.cmpi .ne (Scalar.extui (Scalar.cmpi .eq (BitVec.ofNat 32 (i 2).val) 0#32)) 0#32) = 1#1
/-- It holds exactly at the points whose column tile is 0. -/
theorem hcond0_0 : ∀ t : Fin cfg0.N, cond0_0 (grid0.coords t) ↔ t.val % 4 = 0 :=
  (by decide +kernel : ∀ t : Fin grid0.N, cond0_0 (grid0.coords t) ↔ t.val % 4 = 0)

/-- The second conditional's condition (the column tile is the last). -/
abbrev cond0_1 (i : grid0.Coords) : Prop := k0_cond2 i = 1#1
/-- It holds exactly at the points whose column tile is 3. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- Where the column tile is not the last the degree output is idle (nothing is stored into it) -/
theorem idleAt0_7 : ∀ t : Fin cfg0.N, ¬cond0_1 (grid0.coords t) → cfg0.idle 7 (grid0.coords t) = true := by decide +kernel
/-- and is not written back; -/
theorem noFlush0_7 : ∀ t : Fin cfg0.N, ¬cond0_1 (grid0.coords t) → (cfg0.win 7).flush t = false := by decide +kernel
/-- where it is the last, the degree output is live. -/
theorem liveAt0_7 : ∀ t : Fin cfg0.N, cond0_1 (grid0.coords t) → cfg0.idle 7 (grid0.coords t) = false := by decide +kernel

/-! ## The memrefs the body is called with -/

abbrev ms0_0 (t : Fin cfg0.N) : Memref sig .tc .vmem S1x128x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128x1 .f32 := win0_7.stage (cfg0.slots t 7)
abbrev hs0_7 (t : Fin cfg0.N) : (ms0_7 t).IsWhole := hstage0_7 ((cfg0.slots t 7).cast nbuf0_7)
/-- The column accumulator: a whole scoped buffer of the kernel's own. -/
abbrev scM0 : Memref sig .tc .vmem S128x1 .f32 := Memref.whole cc0_scratch0
/-- Views through which the contents of the two outputs' staging buffers and of the accumulator are stated. -/
abbrev VO0_6 : View sig .tc .vmem S1x128x128 .f32 := (Memref.whole cc0_stg6_0 : Memref sig .tc .vmem S1x128x128 .f32).view
abbrev VO0_7 : View sig .tc .vmem S1x128x1 .f32 := (Memref.whole cc0_stg7_0 : Memref sig .tc .vmem S1x128x1 .f32).view
abbrev VS0 : View sig .tc .vmem S128x1 .f32 := scM0.view

/-- The scoped buffers that are neither a staging buffer of this region nor its accumulator, each at some contents. -/
def rest13 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f))

/-- The region's class invariant with the accumulator named: it, the other scoped buffers, the generator register. -/
theorem PhiA0_eq (c : Dev nD) :
    (Pipeline.ΦA spec0 c : sProp 𝕄)
      = iprop(iprop((∃ d, owns (c : Thread nD τ) scM0 fullShare d) ∗ rest13 c) ∗ (∃ r, prngReg c r)) := by
  unfold Pipeline.ΦA rest13; rw [scopedRest0_eq]; simp only [scM0, owns_whole]; try rfl

end Cert.Kernel.R0

end
-- ==== Proof.K0RunA.lean ====
/-
  The first kernel's body run whole in case A: the column tile is the first (the accumulator is reset, then gains the block's row sums) and not the last (nothing is stored into the degree output).
  On whole staging memrefs — the six inputs' at their contents, the edge-weight output's at anything, the degree output's
  at contents handed back untouched, the column accumulator at anything — the body runs to the continuation holding
  the inputs' as they were and each buffer it stored into with its stores written as pieces; the pieces are what the run finds.
-/
import proofs.«112107_j17961553231914_2_alg».proof.Proof.Gen.Kernel.Launch
import proofs.«112107_j17961553231914_2_alg».proof.Proof.Gen.Kernel.Skeleton
import proofs.«112107_j17961553231914_2_alg».proof.Proof.Gen.Kernel.Points
import proofs.«112107_j17961553231914_2_alg».proof.Proof.K0Kit
import Idealize.ShloMosaic.Lib.Pipeline.FrameBody
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
noncomputable def kernelRun0_A (c : Dev nD) (i : grid0.Coords) (arg3 : Memref sig .tc .vmem S1x128x128 .f32) (harg3 : arg3.IsWhole) (arg4 : Memref sig .tc .vmem S1x128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x128x128 .f32) (harg9 : arg9.IsWhole) (arg10 : Memref sig .tc .vmem S1x128x1 .f32) (harg10 : arg10.IsWhole) (arg11 : Memref sig .tc .vmem S128x1 .f32) (harg11 : arg11.IsWhole) (hc0 : cond0_0 i) (hc1 : ¬cond0_1 i)
    (x0 : Vec F S1x128x128 .f32) (x1 : Vec F S1x128x128 .f32) (x2 : Vec F S128x128 .f32) (x3 : Vec F S1x128 .f32) (x4 : Vec F S1x128 .f32) (x5 : Vec F S1x1 .f32) :
    Σ' (L6 : List (View.Piece (Elt F) S1x128x128 .f32)) (L7 : List (View.Piece (Elt F) S1x128x1 .f32)), { LS0 : List (View.Piece (Elt F) S128x1 .f32) //
      ∀ (xi7 : Vec F S1x128x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xi7 ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ owns (c : Thread nD τ) arg10 fullShare xi7 ∗ (∃ f, arg11.view.loc (c : Thread nD τ) ↦[arg11.view.set]{fullShare} arg11.view.writes (Elt F) f LS0)) -∗ K ⟨⟩))
          ⊢ wp frame (wpE (defs₀ (F := F)) Variants.none c none) E (cc0__adj_kernel i arg3 harg3 arg4 harg4 arg5 harg5 arg6 harg6 arg7 harg7 arg8 harg8 arg9 harg9 arg10 harg10 arg11 harg11) K } := by
  refine ⟨?_, [], ?_, fun xi7 E K => ?run⟩
  case run =>
    simp only [cc0__adj_kernel_eq_skeleton]; unfold cc0__adj_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hf7
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]
    · iexists _; isplitr; · ipureintro; exact harg10.read_unread _
      iexact H7
    iexists _; iexact HS0

end Cert.Kernel.R0

end
-- ==== Proof.K0RunB.lean ====
/-
  The first kernel's body run whole in case B: the column tile is neither the first nor the last: the accumulator gains the block's row sums.
  On whole staging memrefs — the six inputs' at their contents, the edge-weight output's at anything, the degree output's
  at contents handed back untouched, the column accumulator at what the point before left — the body runs to the continuation holding
  the inputs' as they were and each buffer it stored into with its stores written as pieces; the pieces are what the run finds.
-/
import proofs.«112107_j17961553231914_2_alg».proof.Proof.Gen.Kernel.Launch
import proofs.«112107_j17961553231914_2_alg».proof.Proof.Gen.Kernel.Skeleton
import proofs.«112107_j17961553231914_2_alg».proof.Proof.Gen.Kernel.Points
import proofs.«112107_j17961553231914_2_alg».proof.Proof.K0RunA
import Idealize.ShloMosaic.Lib.Pipeline.FrameBody
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
noncomputable def kernelRun0_B (c : Dev nD) (i : grid0.Coords) (arg3 : Memref sig .tc .vmem S1x128x128 .f32) (harg3 : arg3.IsWhole) (arg4 : Memref sig .tc .vmem S1x128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x128x128 .f32) (harg9 : arg9.IsWhole) (arg10 : Memref sig .tc .vmem S1x128x1 .f32) (harg10 : arg10.IsWhole) (arg11 : Memref sig .tc .vmem S128x1 .f32) (harg11 : arg11.IsWhole) (hc0 : ¬cond0_0 i) (hc1 : ¬cond0_1 i)
    (x0 : Vec F S1x128x128 .f32) (x1 : Vec F S1x128x128 .f32) (x2 : Vec F S128x128 .f32) (x3 : Vec F S1x128 .f32) (x4 : Vec F S1x128 .f32) (x5 : Vec F S1x1 .f32) (xs0 : Vec F S128x1 .f32) :
    Σ' (L6 : List (View.Piece (Elt F) S1x128x128 .f32)) (L7 : List (View.Piece (Elt F) S1x128x1 .f32)), { LS0 : List (View.Piece (Elt F) S128x1 .f32) //
      ∀ (xi7 : Vec F S1x128x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xi7 ∗ owns (c : Thread nD τ) arg11 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ owns (c : Thread nD τ) arg10 fullShare xi7 ∗ (∃ f, arg11.view.loc (c : Thread nD τ) ↦[arg11.view.set]{fullShare} arg11.view.writes (Elt F) f LS0)) -∗ K ⟨⟩))
          ⊢ wp frame (wpE (defs₀ (F := F)) Variants.none c none) E (cc0__adj_kernel i arg3 harg3 arg4 harg4 arg5 harg5 arg6 harg6 arg7 harg7 arg8 harg8 arg9 harg9 arg10 harg10 arg11 harg11) K } := by
  refine ⟨?_, [], ?_, fun xi7 E K => ?run⟩
  case run =>
    simp only [cc0__adj_kernel_eq_skeleton]; unfold cc0__adj_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hf7; obtain rfl := harg11.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]
    · iexists _; isplitr; · ipureintro; exact harg10.read_unread _
      iexact H7
    iexists _; iexact HS0

end Cert.Kernel.R0

end
-- ==== Proof.K0RunC.lean ====
/-
  The first kernel's body run whole in case C: the column tile is the last: the accumulator gains the block's row sums and is copied to the degree output.
  On whole staging memrefs — the six inputs' at their contents, the edge-weight output's at anything, the degree output's
  at anything, the column accumulator at what the point before left — the body runs to the continuation holding
  the inputs' as they were and each buffer it stored into with its stores written as pieces; the pieces are what the run finds.
-/
import proofs.«112107_j17961553231914_2_alg».proof.Proof.Gen.Kernel.Launch
import proofs.«112107_j17961553231914_2_alg».proof.Proof.Gen.Kernel.Skeleton
import proofs.«112107_j17961553231914_2_alg».proof.Proof.Gen.Kernel.Points
import proofs.«112107_j17961553231914_2_alg».proof.Proof.K0RunB
import Idealize.ShloMosaic.Lib.Pipeline.FrameBody
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
noncomputable def kernelRun0_C (c : Dev nD) (i : grid0.Coords) (arg3 : Memref sig .tc .vmem S1x128x128 .f32) (harg3 : arg3.IsWhole) (arg4 : Memref sig .tc .vmem S1x128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x128x128 .f32) (harg9 : arg9.IsWhole) (arg10 : Memref sig .tc .vmem S1x128x1 .f32) (harg10 : arg10.IsWhole) (arg11 : Memref sig .tc .vmem S128x1 .f32) (harg11 : arg11.IsWhole) (hc0 : ¬cond0_0 i) (hc1 : cond0_1 i)
    (x0 : Vec F S1x128x128 .f32) (x1 : Vec F S1x128x128 .f32) (x2 : Vec F S128x128 .f32) (x3 : Vec F S1x128 .f32) (x4 : Vec F S1x128 .f32) (x5 : Vec F S1x1 .f32) (xs0 : Vec F S128x1 .f32) :
    Σ' (L6 : List (View.Piece (Elt F) S1x128x128 .f32)) (L7 : List (View.Piece (Elt F) S1x128x1 .f32)), { LS0 : List (View.Piece (Elt F) S128x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ owns (c : Thread nD τ) arg11 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS0)) -∗ K ⟨⟩))
          ⊢ wp frame (wpE (defs₀ (F := F)) Variants.none c none) E (cc0__adj_kernel i arg3 harg3 arg4 harg4 arg5 harg5 arg6 harg6 arg7 harg7 arg8 harg8 arg9 harg9 arg10 harg10 arg11 harg11) K } := by
  refine ⟨?_, ?_, ?_, fun E K => ?run⟩
  case run =>
    simp only [cc0__adj_kernel_eq_skeleton]; unfold cc0__adj_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg11.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]; · iexists _; iexact H7
    iexists _; iexact HS0

end Cert.Kernel.R0

end
-- ==== Proof.K0Frame.lean ====
/-
  The first kernel region's proof data and body obligation.

  After the body at point t = 16 b + 4 i + j the edge-weight output's staging buffer holds the block of pair scores the
  point computed, and the column accumulator holds the row sums of the blocks of the column tiles 0 … j of its row tile
  (reset at j = 0); at j = 3 the degree output's staging buffer receives the accumulator. What each buffer holds is
  stated through the pieces the body's run leaves, case by case, and point by point by recursion (the accumulator at a
  point with j > 0 is built over what the point before left). The invariant between points carries the accumulator.
-/
import proofs.«112107_j17961553231914_2_alg».proof.Proof.Gen.Kernel.Launch
import proofs.«112107_j17961553231914_2_alg».proof.Proof.Gen.Kernel.Skeleton
import proofs.«112107_j17961553231914_2_alg».proof.Proof.Gen.Kernel.Points
import proofs.«112107_j17961553231914_2_alg».proof.Proof.K0RunC
import Idealize.ShloMosaic.Lib.Pipeline.FrameBody
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What case A leaves in the edge-weight output's staging buffer: its pieces read back. -/
def out0_A_6 (c : Dev nD) (i : grid0.Coords) (arg3 : Memref sig .tc .vmem S1x128x128 .f32) (harg3 : arg3.IsWhole) (arg4 : Memref sig .tc .vmem S1x128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x128x128 .f32) (harg9 : arg9.IsWhole) (arg10 : Memref sig .tc .vmem S1x128x1 .f32) (harg10 : arg10.IsWhole) (arg11 : Memref sig .tc .vmem S128x1 .f32) (harg11 : arg11.IsWhole) (hc0 : cond0_0 i) (hc1 : ¬cond0_1 i)
    (x0 : Vec F S1x128x128 .f32) (x1 : Vec F S1x128x128 .f32) (x2 : Vec F S128x128 .f32) (x3 : Vec F S1x128 .f32) (x4 : Vec F S1x128 .f32) (x5 : Vec F S1x1 .f32) : Vec F S1x128x128 .f32 :=
  VO0_6.read (Elt F) (VO0_6.writes (Elt F) VO0_6.junk (kernelRun0_A c i arg3 harg3 arg4 harg4 arg5 harg5 arg6 harg6 arg7 harg7 arg8 harg8 arg9 harg9 arg10 harg10 arg11 harg11 hc0 hc1 x0 x1 x2 x3 x4 x5).1)
/-- Its one store tiles the block, so the pieces cover it. -/
theorem cover0_A_6 (c : Dev nD) (i : grid0.Coords) (arg3 : Memref sig .tc .vmem S1x128x128 .f32) (harg3 : arg3.IsWhole) (arg4 : Memref sig .tc .vmem S1x128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x128x128 .f32) (harg9 : arg9.IsWhole) (arg10 : Memref sig .tc .vmem S1x128x1 .f32) (harg10 : arg10.IsWhole) (arg11 : Memref sig .tc .vmem S128x1 .f32) (harg11 : arg11.IsWhole) (hc0 : cond0_0 i) (hc1 : ¬cond0_1 i)
    (x0 : Vec F S1x128x128 .f32) (x1 : Vec F S1x128x128 .f32) (x2 : Vec F S128x128 .f32) (x3 : Vec F S1x128 .f32) (x4 : Vec F S1x128 .f32) (x5 : Vec F S1x1 .f32) (y : S1x128x128.Idx) : ∃ pc ∈ (kernelRun0_A c i arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun0_A c i arg3 harg3 arg4 harg4 arg5 harg5 arg6 harg6 arg7 harg7 arg8 harg8 arg9 harg9 arg10 harg10 arg11 harg11 hc0 hc1 x0 x1 x2 x3 x4 x5).1 S1x128x128.size (by sl_kernel_rfl) y
/-- What case A leaves in the degree output's staging buffer (nothing is stored: a placeholder no one consults, the window being idle there). -/
def out0_A_7 (c : Dev nD) (i : grid0.Coords) (arg3 : Memref sig .tc .vmem S1x128x128 .f32) (harg3 : arg3.IsWhole) (arg4 : Memref sig .tc .vmem S1x128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x128x128 .f32) (harg9 : arg9.IsWhole) (arg10 : Memref sig .tc .vmem S1x128x1 .f32) (harg10 : arg10.IsWhole) (arg11 : Memref sig .tc .vmem S128x1 .f32) (harg11 : arg11.IsWhole) (hc0 : cond0_0 i) (hc1 : ¬cond0_1 i)
    (x0 : Vec F S1x128x128 .f32) (x1 : Vec F S1x128x128 .f32) (x2 : Vec F S128x128 .f32) (x3 : Vec F S1x128 .f32) (x4 : Vec F S1x128 .f32) (x5 : Vec F S1x1 .f32) : Vec F S1x128x1 .f32 :=
  VO0_7.read (Elt F) (VO0_7.writes (Elt F) VO0_7.junk (kernelRun0_A c i arg3 harg3 arg4 harg4 arg5 harg5 arg6 harg6 arg7 harg7 arg8 harg8 arg9 harg9 arg10 harg10 arg11 harg11 hc0 hc1 x0 x1 x2 x3 x4 x5).2.1)
/-- Case A's stores into the column accumulator cover it. -/
theorem scover0_A (c : Dev nD) (i : grid0.Coords) (arg3 : Memref sig .tc .vmem S1x128x128 .f32) (harg3 : arg3.IsWhole) (arg4 : Memref sig .tc .vmem S1x128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x128x128 .f32) (harg9 : arg9.IsWhole) (arg10 : Memref sig .tc .vmem S1x128x1 .f32) (harg10 : arg10.IsWhole) (arg11 : Memref sig .tc .vmem S128x1 .f32) (harg11 : arg11.IsWhole) (hc0 : cond0_0 i) (hc1 : ¬cond0_1 i)
    (x0 : Vec F S1x128x128 .f32) (x1 : Vec F S1x128x128 .f32) (x2 : Vec F S128x128 .f32) (x3 : Vec F S1x128 .f32) (x4 : Vec F S1x128 .f32) (x5 : Vec F S1x1 .f32) (y : S128x1.Idx) : ∃ pc ∈ (kernelRun0_A c i arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun0_A c i arg3 harg3 arg4 harg4 arg5 harg5 arg6 harg6 arg7 harg7 arg8 harg8 arg9 harg9 arg10 harg10 arg11 harg11 hc0 hc1 x0 x1 x2 x3 x4 x5).2.2.1 S128x1.size (by sl_kernel_rfl) y
/-- What case A leaves in the column accumulator. -/
def sout0_A (c : Dev nD) (i : grid0.Coords) (arg3 : Memref sig .tc .vmem S1x128x128 .f32) (harg3 : arg3.IsWhole) (arg4 : Memref sig .tc .vmem S1x128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x128x128 .f32) (harg9 : arg9.IsWhole) (arg10 : Memref sig .tc .vmem S1x128x1 .f32) (harg10 : arg10.IsWhole) (arg11 : Memref sig .tc .vmem S128x1 .f32) (harg11 : arg11.IsWhole) (hc0 : cond0_0 i) (hc1 : ¬cond0_1 i)
    (x0 : Vec F S1x128x128 .f32) (x1 : Vec F S1x128x128 .f32) (x2 : Vec F S128x128 .f32) (x3 : Vec F S1x128 .f32) (x4 : Vec F S1x128 .f32) (x5 : Vec F S1x1 .f32) : Vec F S128x1 .f32 :=
  VS0.read (Elt F) (VS0.writes (Elt F) VS0.junk (kernelRun0_A c i arg3 harg3 arg4 harg4 arg5 harg5 arg6 harg6 arg7 harg7 arg8 harg8 arg9 harg9 arg10 harg10 arg11 harg11 hc0 hc1 x0 x1 x2 x3 x4 x5).2.2.1)

/-- What case B leaves in the edge-weight output's staging buffer: its pieces read back. -/
def out0_B_6 (c : Dev nD) (i : grid0.Coords) (arg3 : Memref sig .tc .vmem S1x128x128 .f32) (harg3 : arg3.IsWhole) (arg4 : Memref sig .tc .vmem S1x128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x128x128 .f32) (harg9 : arg9.IsWhole) (arg10 : Memref sig .tc .vmem S1x128x1 .f32) (harg10 : arg10.IsWhole) (arg11 : Memref sig .tc .vmem S128x1 .f32) (harg11 : arg11.IsWhole) (hc0 : ¬cond0_0 i) (hc1 : ¬cond0_1 i)
    (x0 : Vec F S1x128x128 .f32) (x1 : Vec F S1x128x128 .f32) (x2 : Vec F S128x128 .f32) (x3 : Vec F S1x128 .f32) (x4 : Vec F S1x128 .f32) (x5 : Vec F S1x1 .f32) (xs0 : Vec F S128x1 .f32) : Vec F S1x128x128 .f32 :=
  VO0_6.read (Elt F) (VO0_6.writes (Elt F) VO0_6.junk (kernelRun0_B c i arg3 harg3 arg4 harg4 arg5 harg5 arg6 harg6 arg7 harg7 arg8 harg8 arg9 harg9 arg10 harg10 arg11 harg11 hc0 hc1 x0 x1 x2 x3 x4 x5 xs0).1)
/-- Its one store tiles the block, so the pieces cover it. -/
theorem cover0_B_6 (c : Dev nD) (i : grid0.Coords) (arg3 : Memref sig .tc .vmem S1x128x128 .f32) (harg3 : arg3.IsWhole) (arg4 : Memref sig .tc .vmem S1x128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x128x128 .f32) (harg9 : arg9.IsWhole) (arg10 : Memref sig .tc .vmem S1x128x1 .f32) (harg10 : arg10.IsWhole) (arg11 : Memref sig .tc .vmem S128x1 .f32) (harg11 : arg11.IsWhole) (hc0 : ¬cond0_0 i) (hc1 : ¬cond0_1 i)
    (x0 : Vec F S1x128x128 .f32) (x1 : Vec F S1x128x128 .f32) (x2 : Vec F S128x128 .f32) (x3 : Vec F S1x128 .f32) (x4 : Vec F S1x128 .f32) (x5 : Vec F S1x1 .f32) (xs0 : Vec F S128x1 .f32) (y : S1x128x128.Idx) : ∃ pc ∈ (kernelRun0_B c i arg3 harg3 arg4 harg4 arg5 harg5 arg6 harg6 arg7 harg7 arg8 harg8 arg9 harg9 arg10 harg10 arg11 harg11 hc0 hc1 x0 x1 x2 x3 x4 x5 xs0).1, y ∈ pc.1.set :=
  View.cover_of_tiledL (kernelRun0_B c i arg3 harg3 arg4 harg4 arg5 harg5 arg6 harg6 arg7 harg7 arg8 harg8 arg9 harg9 arg10 harg10 arg11 harg11 hc0 hc1 x0 x1 x2 x3 x4 x5 xs0).1 S1x128x128.size (by sl_kernel_rfl) y
/-- What case B leaves in the degree output's staging buffer (nothing is stored: a placeholder no one consults, the window being idle there). -/
def out0_B_7 (c : Dev nD) (i : grid0.Coords) (arg3 : Memref sig .tc .vmem S1x128x128 .f32) (harg3 : arg3.IsWhole) (arg4 : Memref sig .tc .vmem S1x128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x128x128 .f32) (harg9 : arg9.IsWhole) (arg10 : Memref sig .tc .vmem S1x128x1 .f32) (harg10 : arg10.IsWhole) (arg11 : Memref sig .tc .vmem S128x1 .f32) (harg11 : arg11.IsWhole) (hc0 : ¬cond0_0 i) (hc1 : ¬cond0_1 i)
    (x0 : Vec F S1x128x128 .f32) (x1 : Vec F S1x128x128 .f32) (x2 : Vec F S128x128 .f32) (x3 : Vec F S1x128 .f32) (x4 : Vec F S1x128 .f32) (x5 : Vec F S1x1 .f32) (xs0 : Vec F S128x1 .f32) : Vec F S1x128x1 .f32 :=
  VO0_7.read (Elt F) (VO0_7.writes (Elt F) VO0_7.junk (kernelRun0_B c i arg3 harg3 arg4 harg4 arg5 harg5 arg6 harg6 arg7 harg7 arg8 harg8 arg9 harg9 arg10 harg10 arg11 harg11 hc0 hc1 x0 x1 x2 x3 x4 x5 xs0).2.1)
/-- Case B's stores into the column accumulator cover it. -/
theorem scover0_B (c : Dev nD) (i : grid0.Coords) (arg3 : Memref sig .tc .vmem S1x128x128 .f32) (harg3 : arg3.IsWhole) (arg4 : Memref sig .tc .vmem S1x128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x128x128 .f32) (harg9 : arg9.IsWhole) (arg10 : Memref sig .tc .vmem S1x128x1 .f32) (harg10 : arg10.IsWhole) (arg11 : Memref sig .tc .vmem S128x1 .f32) (harg11 : arg11.IsWhole) (hc0 : ¬cond0_0 i) (hc1 : ¬cond0_1 i)
    (x0 : Vec F S1x128x128 .f32) (x1 : Vec F S1x128x128 .f32) (x2 : Vec F S128x128 .f32) (x3 : Vec F S1x128 .f32) (x4 : Vec F S1x128 .f32) (x5 : Vec F S1x1 .f32) (xs0 : Vec F S128x1 .f32) (y : S128x1.Idx) : ∃ pc ∈ (kernelRun0_B c i arg3 harg3 arg4 harg4 arg5 harg5 arg6 harg6 arg7 harg7 arg8 harg8 arg9 harg9 arg10 harg10 arg11 harg11 hc0 hc1 x0 x1 x2 x3 x4 x5 xs0).2.2.1, y ∈ pc.1.set :=
  View.cover_of_tiledL (kernelRun0_B c i arg3 harg3 arg4 harg4 arg5 harg5 arg6 harg6 arg7 harg7 arg8 harg8 arg9 harg9 arg10 harg10 arg11 harg11 hc0 hc1 x0 x1 x2 x3 x4 x5 xs0).2.2.1 S128x1.size (by sl_kernel_rfl) y
/-- What case B leaves in the column accumulator. -/
def sout0_B (c : Dev nD) (i : grid0.Coords) (arg3 : Memref sig .tc .vmem S1x128x128 .f32) (harg3 : arg3.IsWhole) (arg4 : Memref sig .tc .vmem S1x128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x128x128 .f32) (harg9 : arg9.IsWhole) (arg10 : Memref sig .tc .vmem S1x128x1 .f32) (harg10 : arg10.IsWhole) (arg11 : Memref sig .tc .vmem S128x1 .f32) (harg11 : arg11.IsWhole) (hc0 : ¬cond0_0 i) (hc1 : ¬cond0_1 i)
    (x0 : Vec F S1x128x128 .f32) (x1 : Vec F S1x128x128 .f32) (x2 : Vec F S128x128 .f32) (x3 : Vec F S1x128 .f32) (x4 : Vec F S1x128 .f32) (x5 : Vec F S1x1 .f32) (xs0 : Vec F S128x1 .f32) : Vec F S128x1 .f32 :=
  VS0.read (Elt F) (VS0.writes (Elt F) VS0.junk (kernelRun0_B c i arg3 harg3 arg4 harg4 arg5 harg5 arg6 harg6 arg7 harg7 arg8 harg8 arg9 harg9 arg10 harg10 arg11 harg11 hc0 hc1 x0 x1 x2 x3 x4 x5 xs0).2.2.1)

/-- What case C leaves in the edge-weight output's staging buffer: its pieces read back. -/
def out0_C_6 (c : Dev nD) (i : grid0.Coords) (arg3 : Memref sig .tc .vmem S1x128x128 .f32) (harg3 : arg3.IsWhole) (arg4 : Memref sig .tc .vmem S1x128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x128x128 .f32) (harg9 : arg9.IsWhole) (arg10 : Memref sig .tc .vmem S1x128x1 .f32) (harg10 : arg10.IsWhole) (arg11 : Memref sig .tc .vmem S128x1 .f32) (harg11 : arg11.IsWhole) (hc0 : ¬cond0_0 i) (hc1 : cond0_1 i)
    (x0 : Vec F S1x128x128 .f32) (x1 : Vec F S1x128x128 .f32) (x2 : Vec F S128x128 .f32) (x3 : Vec F S1x128 .f32) (x4 : Vec F S1x128 .f32) (x5 : Vec F S1x1 .f32) (xs0 : Vec F S128x1 .f32) : Vec F S1x128x128 .f32 :=
  VO0_6.read (Elt F) (VO0_6.writes (Elt F) VO0_6.junk (kernelRun0_C c i arg3 harg3 arg4 harg4 arg5 harg5 arg6 harg6 arg7 harg7 arg8 harg8 arg9 harg9 arg10 harg10 arg11 harg11 hc0 hc1 x0 x1 x2 x3 x4 x5 xs0).1)
/-- Its one store tiles the block, so the pieces cover it. -/
theorem cover0_C_6 (c : Dev nD) (i : grid0.Coords) (arg3 : Memref sig .tc .vmem S1x128x128 .f32) (harg3 : arg3.IsWhole) (arg4 : Memref sig .tc .vmem S1x128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x128x128 .f32) (harg9 : arg9.IsWhole) (arg10 : Memref sig .tc .vmem S1x128x1 .f32) (harg10 : arg10.IsWhole) (arg11 : Memref sig .tc .vmem S128x1 .f32) (harg11 : arg11.IsWhole) (hc0 : ¬cond0_0 i) (hc1 : cond0_1 i)
    (x0 : Vec F S1x128x128 .f32) (x1 : Vec F S1x128x128 .f32) (x2 : Vec F S128x128 .f32) (x3 : Vec F S1x128 .f32) (x4 : Vec F S1x128 .f32) (x5 : Vec F S1x1 .f32) (xs0 : Vec F S128x1 .f32) (y : S1x128x128.Idx) : ∃ pc ∈ (kernelRun0_C c i arg3 harg3 arg4 harg4 arg5 harg5 arg6 harg6 arg7 harg7 arg8 harg8 arg9 harg9 arg10 harg10 arg11 harg11 hc0 hc1 x0 x1 x2 x3 x4 x5 xs0).1, y ∈ pc.1.set :=
  View.cover_of_tiledL (kernelRun0_C c i arg3 harg3 arg4 harg4 arg5 harg5 arg6 harg6 arg7 harg7 arg8 harg8 arg9 harg9 arg10 harg10 arg11 harg11 hc0 hc1 x0 x1 x2 x3 x4 x5 xs0).1 S1x128x128.size (by sl_kernel_rfl) y
/-- What case C leaves in the degree output's staging buffer: its pieces read back. -/
def out0_C_7 (c : Dev nD) (i : grid0.Coords) (arg3 : Memref sig .tc .vmem S1x128x128 .f32) (harg3 : arg3.IsWhole) (arg4 : Memref sig .tc .vmem S1x128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x128x128 .f32) (harg9 : arg9.IsWhole) (arg10 : Memref sig .tc .vmem S1x128x1 .f32) (harg10 : arg10.IsWhole) (arg11 : Memref sig .tc .vmem S128x1 .f32) (harg11 : arg11.IsWhole) (hc0 : ¬cond0_0 i) (hc1 : cond0_1 i)
    (x0 : Vec F S1x128x128 .f32) (x1 : Vec F S1x128x128 .f32) (x2 : Vec F S128x128 .f32) (x3 : Vec F S1x128 .f32) (x4 : Vec F S1x128 .f32) (x5 : Vec F S1x1 .f32) (xs0 : Vec F S128x1 .f32) : Vec F S1x128x1 .f32 :=
  VO0_7.read (Elt F) (VO0_7.writes (Elt F) VO0_7.junk (kernelRun0_C c i arg3 harg3 arg4 harg4 arg5 harg5 arg6 harg6 arg7 harg7 arg8 harg8 arg9 harg9 arg10 harg10 arg11 harg11 hc0 hc1 x0 x1 x2 x3 x4 x5 xs0).2.1)
theorem cover0_C_7 (c : Dev nD) (i : grid0.Coords) (arg3 : Memref sig .tc .vmem S1x128x128 .f32) (harg3 : arg3.IsWhole) (arg4 : Memref sig .tc .vmem S1x128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x128x128 .f32) (harg9 : arg9.IsWhole) (arg10 : Memref sig .tc .vmem S1x128x1 .f32) (harg10 : arg10.IsWhole) (arg11 : Memref sig .tc .vmem S128x1 .f32) (harg11 : arg11.IsWhole) (hc0 : ¬cond0_0 i) (hc1 : cond0_1 i)
    (x0 : Vec F S1x128x128 .f32) (x1 : Vec F S1x128x128 .f32) (x2 : Vec F S128x128 .f32) (x3 : Vec F S1x128 .f32) (x4 : Vec F S1x128 .f32) (x5 : Vec F S1x1 .f32) (xs0 : Vec F S128x1 .f32) (y : S1x128x1.Idx) : ∃ pc ∈ (kernelRun0_C c i arg3 harg3 arg4 harg4 arg5 harg5 arg6 harg6 arg7 harg7 arg8 harg8 arg9 harg9 arg10 harg10 arg11 harg11 hc0 hc1 x0 x1 x2 x3 x4 x5 xs0).2.1, y ∈ pc.1.set :=
  View.cover_of_tiledL (kernelRun0_C c i arg3 harg3 arg4 harg4 arg5 harg5 arg6 harg6 arg7 harg7 arg8 harg8 arg9 harg9 arg10 harg10 arg11 harg11 hc0 hc1 x0 x1 x2 x3 x4 x5 xs0).2.1 S1x128x1.size (by sl_kernel_rfl) y
/-- Case C's stores into the column accumulator cover it. -/
theorem scover0_C (c : Dev nD) (i : grid0.Coords) (arg3 : Memref sig .tc .vmem S1x128x128 .f32) (harg3 : arg3.IsWhole) (arg4 : Memref sig .tc .vmem S1x128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x128x128 .f32) (harg9 : arg9.IsWhole) (arg10 : Memref sig .tc .vmem S1x128x1 .f32) (harg10 : arg10.IsWhole) (arg11 : Memref sig .tc .vmem S128x1 .f32) (harg11 : arg11.IsWhole) (hc0 : ¬cond0_0 i) (hc1 : cond0_1 i)
    (x0 : Vec F S1x128x128 .f32) (x1 : Vec F S1x128x128 .f32) (x2 : Vec F S128x128 .f32) (x3 : Vec F S1x128 .f32) (x4 : Vec F S1x128 .f32) (x5 : Vec F S1x1 .f32) (xs0 : Vec F S128x1 .f32) (y : S128x1.Idx) : ∃ pc ∈ (kernelRun0_C c i arg3 harg3 arg4 harg4 arg5 harg5 arg6 harg6 arg7 harg7 arg8 harg8 arg9 harg9 arg10 harg10 arg11 harg11 hc0 hc1 x0 x1 x2 x3 x4 x5 xs0).2.2.1, y ∈ pc.1.set :=
  View.cover_of_tiledL (kernelRun0_C c i arg3 harg3 arg4 harg4 arg5 harg5 arg6 harg6 arg7 harg7 arg8 harg8 arg9 harg9 arg10 harg10 arg11 harg11 hc0 hc1 x0 x1 x2 x3 x4 x5 xs0).2.2.1 S128x1.size (by sl_kernel_rfl) y
/-- What case C leaves in the column accumulator. -/
def sout0_C (c : Dev nD) (i : grid0.Coords) (arg3 : Memref sig .tc .vmem S1x128x128 .f32) (harg3 : arg3.IsWhole) (arg4 : Memref sig .tc .vmem S1x128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x128x128 .f32) (harg9 : arg9.IsWhole) (arg10 : Memref sig .tc .vmem S1x128x1 .f32) (harg10 : arg10.IsWhole) (arg11 : Memref sig .tc .vmem S128x1 .f32) (harg11 : arg11.IsWhole) (hc0 : ¬cond0_0 i) (hc1 : cond0_1 i)
    (x0 : Vec F S1x128x128 .f32) (x1 : Vec F S1x128x128 .f32) (x2 : Vec F S128x128 .f32) (x3 : Vec F S1x128 .f32) (x4 : Vec F S1x128 .f32) (x5 : Vec F S1x1 .f32) (xs0 : Vec F S128x1 .f32) : Vec F S128x1 .f32 :=
  VS0.read (Elt F) (VS0.writes (Elt F) VS0.junk (kernelRun0_C c i arg3 harg3 arg4 harg4 arg5 harg5 arg6 harg6 arg7 harg7 arg8 harg8 arg9 harg9 arg10 harg10 arg11 harg11 hc0 hc1 x0 x1 x2 x3 x4 x5 xs0).2.2.1)

/-! ## What the buffers hold after each point -/

/-- After the body at position n: the edge-weight output's staging buffer, the degree output's, the column accumulator —
    the case the closed forms select at n, run at the point's memrefs and input blocks, the accumulator read at what
    position n - 1 left when the column tile is not the first. -/
def outsAt0 (c : Dev nD) : (n : ℕ) → n < cfg0.N → Vec F S1x128x128 .f32 × Vec F S1x128x1 .f32 × Vec F S128x1 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩))
  | n + 1, hn =>
    if h0 : (n + 1) % 4 = 0 then
      (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) ((hcond0_0 ⟨n + 1, hn⟩).mpr h0) (fun h => (fun h => by (try dsimp only at h); omega) ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) ((hcond0_0 ⟨n + 1, hn⟩).mpr h0) (fun h => (fun h => by (try dsimp only at h); omega) ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) ((hcond0_0 ⟨n + 1, hn⟩).mpr h0) (fun h => (fun h => by (try dsimp only at h); omega) ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩))
    else
      if h1 : (n + 1) % 4 = 3 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt0 c n (Nat.lt_of_succ_lt hn)).2.2, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt0 c n (Nat.lt_of_succ_lt hn)).2.2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt0 c n (Nat.lt_of_succ_lt hn)).2.2)
      else
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) (fun h => h0 ((hcond0_0 ⟨n + 1, hn⟩).mp h)) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt0 c n (Nat.lt_of_succ_lt hn)).2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) (fun h => h0 ((hcond0_0 ⟨n + 1, hn⟩).mp h)) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt0 c n (Nat.lt_of_succ_lt hn)).2.2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) (fun h => h0 ((hcond0_0 ⟨n + 1, hn⟩).mp h)) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt0 c n (Nat.lt_of_succ_lt hn)).2.2)

theorem outsAt0_A (c : Dev nD) (t : Fin cfg0.N) (h0 : t.val % 4 = 0) :
    outsAt0 V c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) ((hcond0_0 t).mpr h0) (fun h => (fun h => by (try dsimp only at h); omega) ((hcond0_1 t).mp h)) (iblk V c 0 t) (iblk V c 1 t) (iblk V c 2 t) (iblk V c 3 t) (iblk V c 4 t) (iblk V c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) ((hcond0_0 t).mpr h0) (fun h => (fun h => by (try dsimp only at h); omega) ((hcond0_1 t).mp h)) (iblk V c 0 t) (iblk V c 1 t) (iblk V c 2 t) (iblk V c 3 t) (iblk V c 4 t) (iblk V c 5 t), sout0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) ((hcond0_0 t).mpr h0) (fun h => (fun h => by (try dsimp only at h); omega) ((hcond0_1 t).mp h)) (iblk V c 0 t) (iblk V c 1 t) (iblk V c 2 t) (iblk V c 3 t) (iblk V c 4 t) (iblk V c 5 t)) := by
  obtain ⟨n, hn⟩ := t
  cases n with
  | zero => exact rfl
  | succ n => exact (dif_pos h0).trans rfl

theorem outsAt0_B (c : Dev nD) (t : Fin cfg0.N) (h0 : ¬t.val % 4 = 0) (h1 : ¬t.val % 4 = 3) :
    outsAt0 V c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) (fun h => h1 ((hcond0_1 t).mp h)) (iblk V c 0 t) (iblk V c 1 t) (iblk V c 2 t) (iblk V c 3 t) (iblk V c 4 t) (iblk V c 5 t) (outsAt0 V c (t.val - 1) (Nat.lt_of_le_of_lt (Nat.sub_le _ _) t.isLt)).2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) (fun h => h1 ((hcond0_1 t).mp h)) (iblk V c 0 t) (iblk V c 1 t) (iblk V c 2 t) (iblk V c 3 t) (iblk V c 4 t) (iblk V c 5 t) (outsAt0 V c (t.val - 1) (Nat.lt_of_le_of_lt (Nat.sub_le _ _) t.isLt)).2.2, sout0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) (fun h => h1 ((hcond0_1 t).mp h)) (iblk V c 0 t) (iblk V c 1 t) (iblk V c 2 t) (iblk V c 3 t) (iblk V c 4 t) (iblk V c 5 t) (outsAt0 V c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) ((hcond0_1 t).mpr h1) (iblk V c 0 t) (iblk V c 1 t) (iblk V c 2 t) (iblk V c 3 t) (iblk V c 4 t) (iblk V c 5 t) (outsAt0 V c (t.val - 1) (Nat.lt_of_le_of_lt (Nat.sub_le _ _) t.isLt)).2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) ((hcond0_1 t).mpr h1) (iblk V c 0 t) (iblk V c 1 t) (iblk V c 2 t) (iblk V c 3 t) (iblk V c 4 t) (iblk V c 5 t) (outsAt0 V c (t.val - 1) (Nat.lt_of_le_of_lt (Nat.sub_le _ _) t.isLt)).2.2, sout0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) ((hcond0_1 t).mpr h1) (iblk V c 0 t) (iblk V c 1 t) (iblk V c 2 t) (iblk V c 3 t) (iblk V c 4 t) (iblk V c 5 t) (outsAt0 V c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_pos h1).trans rfl)

/-- The region's invariant before position n: before the first point the class's (every scoped buffer that is no staging
    buffer at anything, the generator register at some state); afterwards the same with the column accumulator at what
    the point before left in it. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2.2) ∗ rest13 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare ((outsAt0 V c n hn).2.2) ∗ rest13 c) ∗ (∃ r, prngReg c r)) := rfl

theorem PhiS_pos (c : Dev nD) (n : ℕ) (h : n ≤ cfg0.N) (hz : n ≠ 0) :
    PhiS V c n h = iprop(iprop(owns (c : Thread nD τ) scM0 fullShare ((outsAt0 V c (n - 1) (by omega)).2.2) ∗ rest13 c) ∗ (∃ r, prngReg c r)) := by
  cases n with
  | zero => exact absurd rfl hz
  | succ n => rfl

/-! ## The proof data -/

/-- The region's proof data on core c: the arrays as the region finds them; after the body each input's buffer at its
    block and the outputs' at what the point leaves; the invariant above; nothing owed. The node features are read
    through two windows, which hold the array at the two halves of the full share. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (outsAt0 V c t.val t.isLt).1
    | ⟨7, _⟩ => (outsAt0 V c t.val t.isLt).2.1
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = iblk V c 2 t := by dsimp only [dat]
theorem after0_3 (c : Dev nD) (t : Fin cfg0.N) : (dat V c).after 3 t = iblk V c 3 t := by dsimp only [dat]
theorem after0_4 (c : Dev nD) (t : Fin cfg0.N) : (dat V c).after 4 t = iblk V c 4 t := by dsimp only [dat]
theorem after0_5 (c : Dev nD) (t : Fin cfg0.N) : (dat V c).after 5 t = iblk V c 5 t := by dsimp only [dat]
theorem after0_6 (c : Dev nD) (t : Fin cfg0.N) : (dat V c).after 6 t = (outsAt0 V c t.val t.isLt).1 := by dsimp only [dat]
theorem after0_7 (c : Dev nD) (t : Fin cfg0.N) : (dat V c).after 7 t = (outsAt0 V c t.val t.isLt).2.1 := by dsimp only [dat]

theorem before0_0 (c : Dev nD) (t : Fin cfg0.N) (d) : (dat V c).before 0 t d = iblk V c 0 t :=
  before0_0_of V (dat V c) (A_eq V c 0) (after0_0 V c) t d
theorem before0_1 (c : Dev nD) (t : Fin cfg0.N) (d) : (dat V c).before 1 t d = iblk V c 1 t :=
  before0_1_of V (dat V c) (A_eq V c 1) (after0_1 V c) t d
theorem before0_2 (c : Dev nD) (t : Fin cfg0.N) (d) : (dat V c).before 2 t d = iblk V c 2 t :=
  before0_2_of V (dat V c) (A_eq V c 2) (after0_2 V c) t d
theorem before0_3 (c : Dev nD) (t : Fin cfg0.N) (d) : (dat V c).before 3 t d = iblk V c 3 t :=
  before0_3_of V (dat V c) (A_eq V c 3) (after0_3 V c) t d
theorem before0_4 (c : Dev nD) (t : Fin cfg0.N) (d) : (dat V c).before 4 t d = iblk V c 4 t :=
  before0_4_of V (dat V c) (A_eq V c 4) (after0_4 V c) t d
theorem before0_5 (c : Dev nD) (t : Fin cfg0.N) (d) : (dat V c).before 5 t d = iblk V c 5 t :=
  before0_5_of V (dat V c) (A_eq V c 5) (after0_5 V c) t d

/-! ## The body obligation, at a generic point -/

def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d))
    ∗ (∃ d, owns (c : Thread nD τ) (ms0_4 t) fullShare ((dat V c).before 4 t d))
    ∗ (∃ d, owns (c : Thread nD τ) (ms0_5 t) fullShare ((dat V c).before 5 t d))
    ∗ (∃ d, owns (c : Thread nD τ) (ms0_6 t) fullShare ((dat V c).before 6 t d))
    ∗ (∃ d, owns (c : Thread nD τ) (ms0_7 t) fullShare ((dat V c).before 7 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t)

set_option maxHeartbeats 8000000 in
/-- The body at any point: the inputs' memrefs hold their blocks; the closed forms say which case the point is in; the
    invariant hands the body the accumulator (at anything at the first point, at what the point before left afterwards)
    and takes it back at this point's contents; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4, before0_5]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0_0 t) fullShare ((dat V c).after 0 t) from by
    unfold Dat.leavesExact; rw [liveAt0_0 t], after0_0]
  rw [show (dat V c).leavesExact 1 t = owns (c : Thread nD τ) (ms0_1 t) fullShare ((dat V c).after 1 t) from by
    unfold Dat.leavesExact; rw [liveAt0_1 t], after0_1]
  rw [show (dat V c).leavesExact 2 t = owns (c : Thread nD τ) (ms0_2 t) fullShare ((dat V c).after 2 t) from by
    unfold Dat.leavesExact; rw [liveAt0_2 t], after0_2]
  rw [show (dat V c).leavesExact 3 t = owns (c : Thread nD τ) (ms0_3 t) fullShare ((dat V c).after 3 t) from by
    unfold Dat.leavesExact; rw [liveAt0_3 t], after0_3]
  rw [show (dat V c).leavesExact 4 t = owns (c : Thread nD τ) (ms0_4 t) fullShare ((dat V c).after 4 t) from by
    unfold Dat.leavesExact; rw [liveAt0_4 t], after0_4]
  rw [show (dat V c).leavesExact 5 t = owns (c : Thread nD τ) (ms0_5 t) fullShare ((dat V c).after 5 t) from by
    unfold Dat.leavesExact; rw [liveAt0_5 t], after0_5]
  rw [show (dat V c).leavesExact 6 t = owns (c : Thread nD τ) (ms0_6 t) fullShare ((dat V c).after 6 t) from by
    unfold Dat.leavesExact; rw [liveAt0_6 t], after0_6]
  by_cases h0 : t.val % 4 = 0
  · rw [Dat.leavesExact_idle (dat V c) 7 t (idleAt0_7 t (fun h => (fun h => by (try dsimp only at h); omega) ((hcond0_1 t).mp h))) (noFlush0_7 t (fun h => (fun h => by (try dsimp only at h); omega) ((hcond0_1 t).mp h)))]
    rw [outsAt0_A V c t h0]
    unfold out0_A_6 sout0_A; (try dsimp only)
    by_cases hz : t.val = 0
    · rw [PhiS_castSucc V c t, PhiS_zero V c _ _ hz, PhiA0_eq]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (fun h => (fun h => by (try dsimp only at h); omega) ((hcond0_1 t).mp h)) (iblk V c 0 t) (iblk V c 1 t) (iblk V c 2 t) (iblk V c 3 t) (iblk V c 4 t) (iblk V c 5 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      iintro ⟨H0, H1, H2, H3, H4, H5, ⟨%e6, H6⟩, H7, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A c _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _)
      iexists _; iexact H7
    · rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (fun h => (fun h => by (try dsimp only at h); omega) ((hcond0_1 t).mp h)) (iblk V c 0 t) (iblk V c 1 t) (iblk V c 2 t) (iblk V c 3 t) (iblk V c 4 t) (iblk V c 5 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexists _; iexact HS0
      iintro ⟨H0, H1, H2, H3, H4, H5, ⟨%e6, H6⟩, H7, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A c _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _)
      iexists _; iexact H7
  · have hz : t.val ≠ 0 := fun e => h0 (by rw [e])
    by_cases h1 : t.val % 4 = 3
    · rw [show (dat V c).leavesExact 7 t = owns (c : Thread nD τ) (ms0_7 t) fullShare ((dat V c).after 7 t) from by
        unfold Dat.leavesExact; rw [liveAt0_7 t ((hcond0_1 t).mpr h1)], after0_7]
      rw [outsAt0_C V c t h0 h1]
      unfold out0_C_6 out0_C_7 sout0_C; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C c (grid0.coords t) _ _ _ _ _ _ _ _ _ _ _ _ _ _ _ _ _ _ (fun h => h0 ((hcond0_0 t).mp h)) ((hcond0_1 t).mpr h1) (iblk V c 0 t) (iblk V c 1 t) (iblk V c 2 t) (iblk V c 3 t) (iblk V c 4 t) (iblk V c 5 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C c _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _)
      unfold owns; iexists _; isplitr
      swap; · iexact H7
      ipureintro; exact View.read_writes_of_cover _ _ _ _ _ (cover0_C_7 c _ _ _ _ _ _ _ _ _ _ _ _ _ _ _ _ _ _ _ _ _ _ _ _ _ _ _ _)
    · rw [Dat.leavesExact_idle (dat V c) 7 t (idleAt0_7 t (fun h => h1 ((hcond0_1 t).mp h))) (noFlush0_7 t (fun h => h1 ((hcond0_1 t).mp h)))]
      rw [outsAt0_B V c t h0 h1]
      unfold out0_B_6 sout0_B; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ (fun h => h0 ((hcond0_0 t).mp h)) (fun h => h1 ((hcond0_1 t).mp h)) (iblk V c 0 t) (iblk V c 1 t) (iblk V c 2 t) (iblk V c 3 t) (iblk V c 4 t) (iblk V c 5 t) _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      iintro ⟨H0, H1, H2, H3, H4, H5, ⟨%e6, H6⟩, H7, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B c _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _)
      iexists _; iexact H7

/-- The library's body obligation, at every point. -/
theorem body_obligation (c : Dev nD) : BodyObligation (dat (F := F) V c) (defs₀ (F := F)) Variants.none () Set.univ := fun t => by
  rw [bigSep_W0, bigSep_W0]
  exact sound_body V c t

/-- What the region is handed is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives it back: the accumulator's named contents are forgotten. -/
theorem hout (c : Dev nD) : (dat V c).Φ (Fin.last cfg0.N) ⊢ Pipeline.ΦA spec0 c := by
  have hN : cfg0.N = 128 := N_0
  rw [show (dat V c).Φ (Fin.last cfg0.N) = PhiS V c (Fin.last cfg0.N).val (Nat.le_of_lt_succ (Fin.last cfg0.N).isLt) from rfl,
    PhiS_pos V c _ _ (by rw [Fin.val_last]; omega), PhiA0_eq]
  iintro ⟨⟨HS0, HR⟩, Hg⟩
  isplitl [HS0 HR]
  · isplitl [HS0]
    · iexists _; iexact HS0
    iexact HR
  iexact Hg

end Cert.Kernel.R0

end
-- ==== Proof.K1Kit.lean ====
/-
  The second kernel region (the aggregation layer), stated over an arbitrary valuation V of the core's buffers
  at the region's entry: what the runs of its body share.

  The grid has 32 points, t = 4 * b + i for graph b and row block i. The body projects the graph's features
  into a scratch buffer at the first row block of each graph (i = 0) and reads that scratch at every row block;
  it then stores the row block's output whole. Here: each window's block at a point as read off V, the fact
  that an input's staging buffer holds its block at every point (fetched there or not), the branch condition
  in closed form, the staging and scratch memrefs, and the region's invariant with the scratch buffer singled
  out among the scoped buffers.
-/
import proofs.«112107_j17961553231914_2_alg».proof.Proof.Gen.Kernel.Launch
import proofs.«112107_j17961553231914_2_alg».proof.Proof.Gen.Kernel.Skeleton
import proofs.«112107_j17961553231914_2_alg».proof.Proof.Gen.Kernel.Points
import Idealize.ShloMosaic.Lib.Pipeline.FrameBody
import Idealize.ShloMosaic.Lib.Ring
import Idealize.ShloMosaic.Lib.Tactic

-- membership in a rectangle of these extents is decided structurally, one step per coordinate of the long axes
set_option maxRecDepth 16384

noncomputable section

namespace Cert.Kernel.R1

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: where the window is not fetched its block
    index has not moved. -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is `V`'s and whose body leaves the block in place: where the window is not fetched its block
    index has not moved. -/
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is `V`'s and whose body leaves the block in place: where the window is not fetched its block
    index has not moved. -/
theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof
    data whose array is `V`'s and whose body leaves the block in place: where the window is not fetched its block
    index has not moved. -/
theorem before3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof
    data whose array is `V`'s and whose body leaves the block in place: where the window is not fetched its block
    index has not moved. -/
theorem before4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not, for any proof
    data whose array is `V`'s and whose body leaves the block in place: where the window is not fetched its block
    index has not moved. -/
theorem before5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- The condition of the body's one conditional: the row-block coordinate is zero. -/
abbrev cond0 (i : grid1.Coords) : Prop := (Scalar.cmpi .ne (Scalar.extui (Scalar.cmpi .eq (BitVec.ofNat 32 (i 1).val) 0#32)) 0#32) = 1#1
/-- It holds exactly at the first point of each graph's group of four. -/
theorem hcond0 : ∀ t : Fin cfg1.N, cond0 (grid1.coords t) ↔ t.val % 4 = 0 :=
  (by decide +kernel : ∀ t : Fin grid1.N, cond0 (grid1.coords t) ↔ t.val % 4 = 0)

/-! ## The staging and scratch memrefs -/

/-- One staging buffer of the output window, through which its contents are stated (the choice does not matter). -/
abbrev VO6 : View sig .tc .vmem S1x128x128 .f32 := (Memref.whole cc1_stg6_0 : Memref sig .tc .vmem S1x128x128 .f32).view
abbrev ms0 (t : Fin cfg1.N) : Memref sig .tc .vmem S1x512x128 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S128x128 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x128x512 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x128x1 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1x1x512 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S1x128 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S1x128x128 .f32 := win1_6.stage (cfg1.slots t 6)
abbrev hs6 (t : Fin cfg1.N) : (ms6 t).IsWhole := hstage1_6 ((cfg1.slots t 6).cast nbuf1_6)
/-- The scratch operand: a whole scoped buffer of the kernel's own, holding the projected features. -/
abbrev scM : Memref sig .tc .vmem S512x128 .f32 := Memref.whole cc1_scratch0
/-- The scratch as a view: what it holds is stated through it. -/
abbrev VS : View sig .tc .vmem S512x128 .f32 := scM.view

/-! ## The invariant with the scratch singled out -/

/-- The core's scoped buffers that are no staging buffer of this region: the thirteen that belong to the first
    region, each whole at some contents, and then this kernel's scratch in the state `P`. -/
def scopedWith (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_scratch0), ((c : Thread nD τ).loc cc0_scratch0) ↦{fullShare} f) ∗ P)

/-- The region's invariant as the launch states it: every scoped buffer at some contents — the scratch among
    them, owned as a memref — and the generator register at some state. -/
theorem PhiA_eq (c : Dev nD) :
    (Pipeline.ΦA spec1 c : sProp 𝕄)
      = iprop(scopedWith c (iprop(∃ d, owns (c : Thread nD τ) scM fullShare d)) ∗ (∃ r, prngReg c r)) := by
  unfold Pipeline.ΦA scopedWith; rw [scopedRest1_eq]; simp only [scM, owns_whole]; try rfl

end Cert.Kernel.R1

end
-- ==== Proof.K1RunA.lean ====
/-
  The body of the second kernel region run once, at a point where the row-block coordinate is zero: the
  projected features are computed from the feature block and the weight block and stored whole into the
  scratch, which is then read back for the aggregation; the output block is stored whole.

  The statement holds the input staging buffers at given contents and the output's staging buffer and the
  scratch at arbitrary contents (both are loaded before they are stored, the loaded values unused), and hands
  the continuation the inputs as they were and the two written buffers as lists of written pieces.
-/
import proofs.«112107_j17961553231914_2_alg».proof.Proof.K1Kit

-- membership in a rectangle of these extents is decided structurally, one step per coordinate of the long axes
set_option maxRecDepth 16384

noncomputable section

namespace Cert.Kernel.R1

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large)
set_option maxHeartbeats 4000000 in
/-- The pieces the body's stores leave in the output's staging memref (`L6`) and in the scratch (`LS`) when the
    condition holds, with the body's triple: from whole memrefs — the six inputs at `x0 … x5`, the output's
    buffer and the scratch at anything — the body runs to the continuation holding the inputs as they were and
    the two others with their pieces written. -/
noncomputable def kernelRunA (c : Dev nD) (i : grid1.Coords) (arg2 : Memref sig .tc .vmem S1x512x128 .f32) (harg2 : arg2.IsWhole) (arg3 : Memref sig .tc .vmem S128x128 .f32) (harg3 : arg3.IsWhole) (arg4 : Memref sig .tc .vmem S1x128x512 .f32) (harg4 : arg4.IsWhole) (arg5 : Memref sig .tc .vmem S1x128x1 .f32) (harg5 : arg5.IsWhole) (arg6 : Memref sig .tc .vmem S1x1x512 .f32) (harg6 : arg6.IsWhole) (arg7 : Memref sig .tc .vmem S1x128 .f32) (harg7 : arg7.IsWhole) (arg8 : Memref sig .tc .vmem S1x128x128 .f32) (harg8 : arg8.IsWhole) (arg9 : Memref sig .tc .vmem S512x128 .f32) (harg9 : arg9.IsWhole) (hc0 : cond0 i)
    (x0 : Vec F S1x512x128 .f32) (x1 : Vec F S128x128 .f32) (x2 : Vec F S1x128x512 .f32) (x3 : Vec F S1x128x1 .f32) (x4 : Vec F S1x1x512 .f32) (x5 : Vec F S1x128 .f32) :
    Σ' (L6 : List (View.Piece (Elt F) S1x128x128 .f32)), { LS : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS)) -∗ K ⟨⟩))
          ⊢ wp frame (wpE (defs₀ (F := F)) Variants.none c none) E (cc1__out_kernel i arg2 harg2 arg3 harg3 arg4 harg4 arg5 harg5 arg6 harg6 arg7 harg7 arg8 harg8 arg9 harg9) K } := by
  refine ⟨?_, ?_, fun E K => ?run⟩
  case run =>
    simp only [cc1__out_kernel_eq_skeleton]; unfold cc1__out_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS

end Cert.Kernel.R1

end
-- ==== Proof.K1RunB.lean ====
/-
  The body of the second kernel region run once, at a point where the row-block coordinate is not zero: nothing
  is stored into the scratch, which still holds the projected features the first row block of the graph left
  there; they are read for the aggregation and the output block is stored whole.

  The statement holds the input staging buffers and the scratch at given contents and the output's staging
  buffer at arbitrary contents (it is loaded before it is stored, the loaded value unused), and hands the
  continuation the inputs and the scratch as they were and the output's buffer as a list of written pieces.
-/
import proofs.«112107_j17961553231914_2_alg».proof.Proof.K1RunA

-- membership in a rectangle of these extents is decided structurally, one step per coordinate of the long axes
set_option maxRecDepth 16384

noncomputable section

namespace Cert.Kernel.R1

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large)
set_option maxHeartbeats 4000000 in
/-- The pieces the body's store leaves in the output's staging memref when the condition fails, with the body's
    triple: from whole memrefs — the six inputs at `x0 … x5`, the scratch at `xs`, the output's buffer at
    anything — the body runs to the continuation holding the inputs and the scratch as they were and the
    output's buffer with its pieces written. -/
noncomputable def kernelRunB (c : Dev nD) (i : grid1.Coords) (arg2 : Memref sig .tc .vmem S1x512x128 .f32) (harg2 : arg2.IsWhole) (arg3 : Memref sig .tc .vmem S128x128 .f32) (harg3 : arg3.IsWhole) (arg4 : Memref sig .tc .vmem S1x128x512 .f32) (harg4 : arg4.IsWhole) (arg5 : Memref sig .tc .vmem S1x128x1 .f32) (harg5 : arg5.IsWhole) (arg6 : Memref sig .tc .vmem S1x1x512 .f32) (harg6 : arg6.IsWhole) (arg7 : Memref sig .tc .vmem S1x128 .f32) (harg7 : arg7.IsWhole) (arg8 : Memref sig .tc .vmem S1x128x128 .f32) (harg8 : arg8.IsWhole) (arg9 : Memref sig .tc .vmem S512x128 .f32) (harg9 : arg9.IsWhole) (hc0 : ¬cond0 i)
    (x0 : Vec F S1x512x128 .f32) (x1 : Vec F S128x128 .f32) (x2 : Vec F S1x128x512 .f32) (x3 : Vec F S1x128x1 .f32) (x4 : Vec F S1x1x512 .f32) (x5 : Vec F S1x128 .f32) (xs : Vec F S512x128 .f32) :
    { L6 : List (View.Piece (Elt F) S1x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xs) -∗ K ⟨⟩))
          ⊢ wp frame (wpE (defs₀ (F := F)) Variants.none c none) E (cc1__out_kernel i arg2 harg2 arg3 harg3 arg4 harg4 arg5 harg5 arg6 harg6 arg7 harg7 arg8 harg8 arg9 harg9) K } := by
  refine ⟨?_, fun E K => ?run⟩
  case run =>
    simp only [cc1__out_kernel_eq_skeleton]; unfold cc1__out_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; isplitr; · ipureintro; exact harg9.read_unread _
    iexact HS

end Cert.Kernel.R1

end
-- ==== Proof.K1Frame.lean ====
/-
  The second kernel region's proof data and body obligation, over an arbitrary entry valuation V.

  Per case of the body's conditional: what the run's stores leave in the output's staging buffer and in the
  scratch, with the fact that the stored pieces cover them. Point by point: the pair (output block, scratch
  contents) after the body, by recursion on the point — where the row-block coordinate is zero the scratch is
  recomputed from that point's feature and weight blocks, elsewhere it is what the point before left. The
  invariant carries the scratch at exactly those contents between points; the other scoped buffers and the
  generator register are held at anything. Then the proof data, the body obligation at every point (by cases on
  the condition's closed form), the invariant's two ends, and the two value equations: the scratch after a point
  is the projection payload of the blocks at the first point of the point's group of four, and the output block
  after a point is the aggregation payload of the point's blocks and that scratch.
-/
import proofs.«112107_j17961553231914_2_alg».proof.Proof.K1RunB

-- membership in a rectangle of these extents is decided structurally, one step per coordinate of the long axes
set_option maxRecDepth 16384

noncomputable section

namespace Cert.Kernel.R1

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case's run leaves -/

/-- Where the condition holds, the run's pieces for the output tile its block, so they cover it. -/
theorem coverA_6 (c : Dev nD) (i : grid1.Coords) (arg2 : Memref sig .tc .vmem S1x512x128 .f32) (harg2 : arg2.IsWhole) (arg3 : Memref sig .tc .vmem S128x128 .f32) (harg3 : arg3.IsWhole) (arg4 : Memref sig .tc .vmem S1x128x512 .f32) (harg4 : arg4.IsWhole) (arg5 : Memref sig .tc .vmem S1x128x1 .f32) (harg5 : arg5.IsWhole) (arg6 : Memref sig .tc .vmem S1x1x512 .f32) (harg6 : arg6.IsWhole) (arg7 : Memref sig .tc .vmem S1x128 .f32) (harg7 : arg7.IsWhole) (arg8 : Memref sig .tc .vmem S1x128x128 .f32) (harg8 : arg8.IsWhole) (arg9 : Memref sig .tc .vmem S512x128 .f32) (harg9 : arg9.IsWhole) (hc0 : cond0 i)
    (x0 : Vec F S1x512x128 .f32) (x1 : Vec F S128x128 .f32) (x2 : Vec F S1x128x512 .f32) (x3 : Vec F S1x128x1 .f32) (x4 : Vec F S1x1x512 .f32) (x5 : Vec F S1x128 .f32) (y : S1x128x128.Idx) :
    ∃ pc ∈ (kernelRunA c i arg2 harg2 arg3 harg3 arg4 harg4 arg5 harg5 arg6 harg6 arg7 harg7 arg8 harg8 arg9 harg9 hc0 x0 x1 x2 x3 x4 x5).1, y ∈ pc.1.set :=
  View.cover_of_tiledL (kernelRunA c i arg2 harg2 arg3 harg3 arg4 harg4 arg5 harg5 arg6 harg6 arg7 harg7 arg8 harg8 arg9 harg9 hc0 x0 x1 x2 x3 x4 x5).1 S1x128x128.size (by sl_kernel_rfl) y

/-- What that run leaves in the output's staging buffer: its pieces read back over junk. -/
def outA_6 (c : Dev nD) (i : grid1.Coords) (arg2 : Memref sig .tc .vmem S1x512x128 .f32) (harg2 : arg2.IsWhole) (arg3 : Memref sig .tc .vmem S128x128 .f32) (harg3 : arg3.IsWhole) (arg4 : Memref sig .tc .vmem S1x128x512 .f32) (harg4 : arg4.IsWhole) (arg5 : Memref sig .tc .vmem S1x128x1 .f32) (harg5 : arg5.IsWhole) (arg6 : Memref sig .tc .vmem S1x1x512 .f32) (harg6 : arg6.IsWhole) (arg7 : Memref sig .tc .vmem S1x128 .f32) (harg7 : arg7.IsWhole) (arg8 : Memref sig .tc .vmem S1x128x128 .f32) (harg8 : arg8.IsWhole) (arg9 : Memref sig .tc .vmem S512x128 .f32) (harg9 : arg9.IsWhole) (hc0 : cond0 i)
    (x0 : Vec F S1x512x128 .f32) (x1 : Vec F S128x128 .f32) (x2 : Vec F S1x128x512 .f32) (x3 : Vec F S1x128x1 .f32) (x4 : Vec F S1x1x512 .f32) (x5 : Vec F S1x128 .f32) : Vec F S1x128x128 .f32 :=
  VO6.read (Elt F) (VO6.writes (Elt F) VO6.junk (kernelRunA c i arg2 harg2 arg3 harg3 arg4 harg4 arg5 harg5 arg6 harg6 arg7 harg7 arg8 harg8 arg9 harg9 hc0 x0 x1 x2 x3 x4 x5).1)

/-- Its pieces for the scratch tile it, so they cover it. -/
theorem scoverA (c : Dev nD) (i : grid1.Coords) (arg2 : Memref sig .tc .vmem S1x512x128 .f32) (harg2 : arg2.IsWhole) (arg3 : Memref sig .tc .vmem S128x128 .f32) (harg3 : arg3.IsWhole) (arg4 : Memref sig .tc .vmem S1x128x512 .f32) (harg4 : arg4.IsWhole) (arg5 : Memref sig .tc .vmem S1x128x1 .f32) (harg5 : arg5.IsWhole) (arg6 : Memref sig .tc .vmem S1x1x512 .f32) (harg6 : arg6.IsWhole) (arg7 : Memref sig .tc .vmem S1x128 .f32) (harg7 : arg7.IsWhole) (arg8 : Memref sig .tc .vmem S1x128x128 .f32) (harg8 : arg8.IsWhole) (arg9 : Memref sig .tc .vmem S512x128 .f32) (harg9 : arg9.IsWhole) (hc0 : cond0 i)
    (x0 : Vec F S1x512x128 .f32) (x1 : Vec F S128x128 .f32) (x2 : Vec F S1x128x512 .f32) (x3 : Vec F S1x128x1 .f32) (x4 : Vec F S1x1x512 .f32) (x5 : Vec F S1x128 .f32) (y : S512x128.Idx) :
    ∃ pc ∈ (kernelRunA c i arg2 harg2 arg3 harg3 arg4 harg4 arg5 harg5 arg6 harg6 arg7 harg7 arg8 harg8 arg9 harg9 hc0 x0 x1 x2 x3 x4 x5).2.1, y ∈ pc.1.set :=
  View.cover_of_tiledL (kernelRunA c i arg2 harg2 arg3 harg3 arg4 harg4 arg5 harg5 arg6 harg6 arg7 harg7 arg8 harg8 arg9 harg9 hc0 x0 x1 x2 x3 x4 x5).2.1 S512x128.size (by sl_kernel_rfl) y

/-- What that run leaves in the scratch: its pieces read back over junk. -/
def soutA (c : Dev nD) (i : grid1.Coords) (arg2 : Memref sig .tc .vmem S1x512x128 .f32) (harg2 : arg2.IsWhole) (arg3 : Memref sig .tc .vmem S128x128 .f32) (harg3 : arg3.IsWhole) (arg4 : Memref sig .tc .vmem S1x128x512 .f32) (harg4 : arg4.IsWhole) (arg5 : Memref sig .tc .vmem S1x128x1 .f32) (harg5 : arg5.IsWhole) (arg6 : Memref sig .tc .vmem S1x1x512 .f32) (harg6 : arg6.IsWhole) (arg7 : Memref sig .tc .vmem S1x128 .f32) (harg7 : arg7.IsWhole) (arg8 : Memref sig .tc .vmem S1x128x128 .f32) (harg8 : arg8.IsWhole) (arg9 : Memref sig .tc .vmem S512x128 .f32) (harg9 : arg9.IsWhole) (hc0 : cond0 i)
    (x0 : Vec F S1x512x128 .f32) (x1 : Vec F S128x128 .f32) (x2 : Vec F S1x128x512 .f32) (x3 : Vec F S1x128x1 .f32) (x4 : Vec F S1x1x512 .f32) (x5 : Vec F S1x128 .f32) : Vec F S512x128 .f32 :=
  VS.read (Elt F) (VS.writes (Elt F) VS.junk (kernelRunA c i arg2 harg2 arg3 harg3 arg4 harg4 arg5 harg5 arg6 harg6 arg7 harg7 arg8 harg8 arg9 harg9 hc0 x0 x1 x2 x3 x4 x5).2.1)

/-- Where the condition fails, the run's pieces for the output tile its block, so they cover it. -/
theorem coverB_6 (c : Dev nD) (i : grid1.Coords) (arg2 : Memref sig .tc .vmem S1x512x128 .f32) (harg2 : arg2.IsWhole) (arg3 : Memref sig .tc .vmem S128x128 .f32) (harg3 : arg3.IsWhole) (arg4 : Memref sig .tc .vmem S1x128x512 .f32) (harg4 : arg4.IsWhole) (arg5 : Memref sig .tc .vmem S1x128x1 .f32) (harg5 : arg5.IsWhole) (arg6 : Memref sig .tc .vmem S1x1x512 .f32) (harg6 : arg6.IsWhole) (arg7 : Memref sig .tc .vmem S1x128 .f32) (harg7 : arg7.IsWhole) (arg8 : Memref sig .tc .vmem S1x128x128 .f32) (harg8 : arg8.IsWhole) (arg9 : Memref sig .tc .vmem S512x128 .f32) (harg9 : arg9.IsWhole) (hc0 : ¬cond0 i)
    (x0 : Vec F S1x512x128 .f32) (x1 : Vec F S128x128 .f32) (x2 : Vec F S1x128x512 .f32) (x3 : Vec F S1x128x1 .f32) (x4 : Vec F S1x1x512 .f32) (x5 : Vec F S1x128 .f32) (xs : Vec F S512x128 .f32) (y : S1x128x128.Idx) :
    ∃ pc ∈ (kernelRunB c i arg2 harg2 arg3 harg3 arg4 harg4 arg5 harg5 arg6 harg6 arg7 harg7 arg8 harg8 arg9 harg9 hc0 x0 x1 x2 x3 x4 x5 xs).1, y ∈ pc.1.set :=
  View.cover_of_tiledL (kernelRunB c i arg2 harg2 arg3 harg3 arg4 harg4 arg5 harg5 arg6 harg6 arg7 harg7 arg8 harg8 arg9 harg9 hc0 x0 x1 x2 x3 x4 x5 xs).1 S1x128x128.size (by sl_kernel_rfl) y

/-- What that run leaves in the output's staging buffer: its pieces read back over junk. -/
def outB_6 (c : Dev nD) (i : grid1.Coords) (arg2 : Memref sig .tc .vmem S1x512x128 .f32) (harg2 : arg2.IsWhole) (arg3 : Memref sig .tc .vmem S128x128 .f32) (harg3 : arg3.IsWhole) (arg4 : Memref sig .tc .vmem S1x128x512 .f32) (harg4 : arg4.IsWhole) (arg5 : Memref sig .tc .vmem S1x128x1 .f32) (harg5 : arg5.IsWhole) (arg6 : Memref sig .tc .vmem S1x1x512 .f32) (harg6 : arg6.IsWhole) (arg7 : Memref sig .tc .vmem S1x128 .f32) (harg7 : arg7.IsWhole) (arg8 : Memref sig .tc .vmem S1x128x128 .f32) (harg8 : arg8.IsWhole) (arg9 : Memref sig .tc .vmem S512x128 .f32) (harg9 : arg9.IsWhole) (hc0 : ¬cond0 i)
    (x0 : Vec F S1x512x128 .f32) (x1 : Vec F S128x128 .f32) (x2 : Vec F S1x128x512 .f32) (x3 : Vec F S1x128x1 .f32) (x4 : Vec F S1x1x512 .f32) (x5 : Vec F S1x128 .f32) (xs : Vec F S512x128 .f32) : Vec F S1x128x128 .f32 :=
  VO6.read (Elt F) (VO6.writes (Elt F) VO6.junk (kernelRunB c i arg2 harg2 arg3 harg3 arg4 harg4 arg5 harg5 arg6 harg6 arg7 harg7 arg8 harg8 arg9 harg9 hc0 x0 x1 x2 x3 x4 x5 xs).1)

/-! ## What the output's buffer and the scratch hold after each point -/

/-- The output's staging buffer and the scratch after the body at position `n`: where the row-block coordinate is
    zero what that case's run leaves from the point's blocks; elsewhere the output from the point's blocks and the
    scratch the point before left, and the scratch unchanged. -/
def outsAt (c : Dev nD) : (n : ℕ) → n < cfg1.N → Vec F S1x128x128 .f32 × Vec F S512x128 .f32
  | 0, hn => (outA_6 c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) scM (Memref.isWhole_whole _) ((hcond0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩), soutA c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) scM (Memref.isWhole_whole _) ((hcond0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩))
  | n + 1, hn =>
    if h0 : (n + 1) % 4 = 0 then
      (outA_6 c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM (Memref.isWhole_whole _) ((hcond0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩), soutA c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM (Memref.isWhole_whole _) ((hcond0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩))
    else
      (outB_6 c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM (Memref.isWhole_whole _) (fun h => h0 ((hcond0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt c n (Nat.lt_of_succ_lt hn)).2, (outsAt c n (Nat.lt_of_succ_lt hn)).2)

/-- `outsAt` at a point where the condition holds. -/
theorem outsAt_A (c : Dev nD) (t : Fin cfg1.N) (h0 : t.val % 4 = 0) :
    outsAt V c t.val t.isLt = (outA_6 c (grid1.coords t) (ms0 t) (hs0 t) (ms1 t) (hs1 t) (ms2 t) (hs2 t) (ms3 t) (hs3 t) (ms4 t) (hs4 t) (ms5 t) (hs5 t) (ms6 t) (hs6 t) scM (Memref.isWhole_whole _) ((hcond0 t).mpr h0) (iblk V c 0 t) (iblk V c 1 t) (iblk V c 2 t) (iblk V c 3 t) (iblk V c 4 t) (iblk V c 5 t), soutA c (grid1.coords t) (ms0 t) (hs0 t) (ms1 t) (hs1 t) (ms2 t) (hs2 t) (ms3 t) (hs3 t) (ms4 t) (hs4 t) (ms5 t) (hs5 t) (ms6 t) (hs6 t) scM (Memref.isWhole_whole _) ((hcond0 t).mpr h0) (iblk V c 0 t) (iblk V c 1 t) (iblk V c 2 t) (iblk V c 3 t) (iblk V c 4 t) (iblk V c 5 t)) := by
  obtain ⟨n, hn⟩ := t
  cases n with
  | zero => exact rfl
  | succ n => exact (dif_pos h0).trans rfl

/-- `outsAt` at a point where it fails: over what the point before left. -/
theorem outsAt_B (c : Dev nD) (t : Fin cfg1.N) (h0 : ¬t.val % 4 = 0) :
    outsAt V c t.val t.isLt = (outB_6 c (grid1.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcond0 t).mp h)) (iblk V c 0 t) (iblk V c 1 t) (iblk V c 2 t) (iblk V c 3 t) (iblk V c 4 t) (iblk V c 5 t) (outsAt V c (t.val - 1) (Nat.lt_of_le_of_lt (Nat.sub_le _ _) t.isLt)).2, (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The invariant -/

/-- The region's invariant before position `n`: before the first point what the launch hands over (every scoped
    buffer at anything); afterwards the scratch at what the point before left in it, the other scoped buffers at
    anything, and the generator register at some state. -/
def PhiS (c : Dev nD) : (n : ℕ) → n ≤ cfg1.N → sProp 𝕄
  | 0, _ => Pipeline.ΦA spec1 c
  | n + 1, hn => iprop(scopedWith c (owns (c : Thread nD τ) scM fullShare ((outsAt V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(scopedWith c (owns (c : Thread nD τ) scM fullShare ((outsAt V c n hn).2)) ∗ (∃ r, prngReg c r)) := rfl

theorem PhiS_pos (c : Dev nD) (n : ℕ) (h : n ≤ cfg1.N) (hz : n ≠ 0) :
    PhiS V c n h = iprop(scopedWith c (owns (c : Thread nD τ) scM fullShare ((outsAt V c (n - 1) (by omega)).2)) ∗ (∃ r, prngReg c r)) := by
  cases n with
  | zero => exact absurd rfl hz
  | succ n => rfl

/-! ## The proof data -/

/-- The region's proof data on core `c`: the arrays as the region finds them; after the body at point `t` each
    input's buffer at its block and the output's at `outsAt`'s first component; the invariant `PhiS`; nothing owed;
    full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = iblk V c 3 t := by dsimp only [dat]
theorem after4 (c : Dev nD) (t : Fin cfg1.N) : (dat V c).after 4 t = iblk V c 4 t := by dsimp only [dat]
theorem after5 (c : Dev nD) (t : Fin cfg1.N) : (dat V c).after 5 t = iblk V c 5 t := by dsimp only [dat]
theorem after6 (c : Dev nD) (t : Fin cfg1.N) : (dat V c).after 6 t = (outsAt V c t.val t.isLt).1 := by dsimp only [dat]

theorem before0 (c : Dev nD) (t : Fin cfg1.N) (d) : (dat V c).before 0 t d = iblk V c 0 t :=
  before0_of V (dat V c) (A_eq V c 0) (after0 V c) t d
theorem before1 (c : Dev nD) (t : Fin cfg1.N) (d) : (dat V c).before 1 t d = iblk V c 1 t :=
  before1_of V (dat V c) (A_eq V c 1) (after1 V c) t d
theorem before2 (c : Dev nD) (t : Fin cfg1.N) (d) : (dat V c).before 2 t d = iblk V c 2 t :=
  before2_of V (dat V c) (A_eq V c 2) (after2 V c) t d
theorem before3 (c : Dev nD) (t : Fin cfg1.N) (d) : (dat V c).before 3 t d = iblk V c 3 t :=
  before3_of V (dat V c) (A_eq V c 3) (after3 V c) t d
theorem before4 (c : Dev nD) (t : Fin cfg1.N) (d) : (dat V c).before 4 t d = iblk V c 4 t :=
  before4_of V (dat V c) (A_eq V c 4) (after4 V c) t d
theorem before5 (c : Dev nD) (t : Fin cfg1.N) (d) : (dat V c).before 5 t d = iblk V c 5 t :=
  before5_of V (dat V c) (A_eq V c 5) (after5 V c) t d

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d)))

/-- and what it returns: no window is idle at any point, so each buffer at what the body leaves. -/
def bodyPost (c : Dev nD) (t : Fin cfg1.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t)
    ∗ owns (c : Thread nD τ) (ms5 t) fullShare ((dat V c).after 5 t)
    ∗ owns (c : Thread nD τ) (ms6 t) fullShare ((dat V c).after 6 t))

set_option maxHeartbeats 4800000 in
/-- The body at any point. The inputs' memrefs hold their blocks; the closed form of the condition says which case
    the point is in. The invariant hands the body the scratch — at anything before the first point, at what the
    point before left otherwise — and takes it back at this point's contents; the output's buffer goes in at
    anything and comes back with this point's block; the other scoped buffers, the generator register and the
    core's dues pass through. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4, before5]
  rw [show (dat V c).owesAt () t.succ = (dat V c).owesAt () t.castSucc from rfl]
  rw [show (dat V c).Φ t.succ = PhiS V c (t.val + 1) t.isLt from rfl, PhiS_succ]
  rw [after0, after1, after2, after3, after4, after5, after6]
  by_cases h0 : t.val % 4 = 0
  · rw [outsAt_A V c t h0]
    unfold outA_6 soutA; (try dsimp only)
    by_cases hz : t.val = 0
    · rw [PhiS_castSucc V c t, PhiS_zero V c _ _ hz, PhiA_eq]; unfold scopedWith
      iintro ⟨⟨⟨HR0, HR1, HR2, HR3, HR4, HR5, HR6, HR7, HR8, HR9, HR10, HR11, HR12, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRunA c (grid1.coords t) _ _ _ _ _ _ _ _ _ _ _ _ _ _ _ _ ((hcond0 t).mpr h0) (iblk V c 0 t) (iblk V c 1 t) (iblk V c 2 t) (iblk V c 3 t) (iblk V c 4 t) (iblk V c 5 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, ⟨%es, HS⟩⟩
      isplitl [HR0 HR1 HR2 HR3 HR4 HR5 HR6 HR7 HR8 HR9 HR10 HR11 HR12 HS Hg]
      · isplitl [HR0 HR1 HR2 HR3 HR4 HR5 HR6 HR7 HR8 HR9 HR10 HR11 HR12 HS]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          unfold owns; iexists _; isplitr
          swap; · iexact HS
          ipureintro; exact View.read_writes_of_cover _ _ _ _ _ (scoverA c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverA_6 c _ _ _ _ _ _ _ _ _ _ _ _ _ _ _ _ _ _ _ _ _ _ _ _)
    · rw [PhiS_castSucc V c t, PhiS_pos V c _ _ hz]; unfold scopedWith
      iintro ⟨⟨⟨HR0, HR1, HR2, HR3, HR4, HR5, HR6, HR7, HR8, HR9, HR10, HR11, HR12, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRunA c (grid1.coords t) _ _ _ _ _ _ _ _ _ _ _ _ _ _ _ _ ((hcond0 t).mpr h0) (iblk V c 0 t) (iblk V c 1 t) (iblk V c 2 t) (iblk V c 3 t) (iblk V c 4 t) (iblk V c 5 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexists _; iexact HS
      iintro ⟨H0, H1, H2, H3, H4, H5, ⟨%e6, H6⟩, ⟨%es, HS⟩⟩
      isplitl [HR0 HR1 HR2 HR3 HR4 HR5 HR6 HR7 HR8 HR9 HR10 HR11 HR12 HS Hg]
      · isplitl [HR0 HR1 HR2 HR3 HR4 HR5 HR6 HR7 HR8 HR9 HR10 HR11 HR12 HS]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          unfold owns; iexists _; isplitr
          swap; · iexact HS
          ipureintro; exact View.read_writes_of_cover _ _ _ _ _ (scoverA c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverA_6 c _ _ _ _ _ _ _ _ _ _ _ _ _ _ _ _ _ _ _ _ _ _ _ _)
  · rw [outsAt_B V c t h0]
    unfold outB_6; (try dsimp only)
    have hz : t.val ≠ 0 := fun h => h0 (by rw [h])
    rw [PhiS_castSucc V c t, PhiS_pos V c _ _ hz]; unfold scopedWith
    iintro ⟨⟨⟨HR0, HR1, HR2, HR3, HR4, HR5, HR6, HR7, HR8, HR9, HR10, HR11, HR12, HS⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRunB c (grid1.coords t) _ _ _ _ _ _ _ _ _ _ _ _ _ _ _ _ (fun h => h0 ((hcond0 t).mp h)) (iblk V c 0 t) (iblk V c 1 t) (iblk V c 2 t) (iblk V c 3 t) (iblk V c 4 t) (iblk V c 5 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, ⟨%e6, H6⟩, HS⟩
    isplitl [HR0 HR1 HR2 HR3 HR4 HR5 HR6 HR7 HR8 HR9 HR10 HR11 HR12 HS Hg]
    · isplitl [HR0 HR1 HR2 HR3 HR4 HR5 HR6 HR7 HR8 HR9 HR10 HR11 HR12 HS]
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        isplitl [HR10]; · iexact HR10
        isplitl [HR11]; · iexact HR11
        isplitl [HR12]; · iexact HR12
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (coverB_6 c _ _ _ _ _ _ _ _ _ _ _ _ _ _ _ _ _ _ _ _ _ _ _ _ _)

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives the launch's form back: the scratch's contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]; unfold scopedWith
  iintro ⟨⟨HR0, HR1, HR2, HR3, HR4, HR5, HR6, HR7, HR8, HR9, HR10, HR11, HR12, HS⟩, Hg⟩
  isplitl [HR0 HR1 HR2 HR3 HR4 HR5 HR6 HR7 HR8 HR9 HR10 HR11 HR12 HS]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    iexists _; iexact HS
  iexact Hg

/-- The same after the last point. -/
theorem hout (c : Dev nD) : (dat V c).Φ (Fin.last cfg1.N) ⊢ Pipeline.ΦA spec1 c :=
  Phi_out V c _ (by rw [Fin.val_last]; have : cfg1.N = 32 := N_1; omega)

end Cert.Kernel.R1

end
-- ==== Proof.LibSharedOctet.lean ====
/-
  Dealing one array between two of a pipeline's eight windows, and giving it back.

  A pipeline kernel with eight windows of which the first two read ONE array (two block specifications over the
  same operand) while each of the other six has an array of its own cannot be handed the shared array twice at
  the full share. At the region's entry the seven distinct buffers behind the eight windows' arrays are each held
  whole at the full share; the shared one is split along a decomposition of the full share into the two windows'
  shares and the other six go to their windows undivided (arrays_split_octet). At the exit, when both windows hold
  the shared array at the same contents, the two pieces join into the buffer held whole again (arrays_join_octet).
-/
import Idealize.ShloMosaic.Lib.Pipeline.Frame

noncomputable section

namespace Idealize.ShloMosaic

open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA
open scoped PCS
open TcCoe

namespace Pipeline

open Idealize.ShloMosaic.Rounds

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- THE ENTRY SPLIT for eight windows on seven arrays. Windows w0 and w1 read one array (h01), each of w2 … w7 has an
    array of its own and the seven arrays are distinct buffers (hrefs); there is no other window (huniv, hnd). The
    shared array's full share is the composite of its two windows' shares (hq) and every other window holds its array at
    the full share. Then the seven buffers, whole at the full share at V, are the pipeline's arrays at F, where F reads V
    at each window's array (hF): a points-to splits along its share. -/
theorem arrays_split_octet (cfgs : P → Cfg sig Λ₀)
    (dats : (p : P) → (c : Dev nD) → Dat τ Val Unit ℕ (UR sig nD τ) ℕ (cfgs p) c) (p : P) (c : Dev nD)
    (harr : ∀ w, ((cfgs p).spec w).arr.IsWhole)
    (w0 w1 w2 w3 w4 w5 w6 w7 : Fin (cfgs p).W)
    (huniv : (Finset.univ : Finset (Fin (cfgs p).W)) = [w0, w1, w2, w3, w4, w5, w6, w7].toFinset)
    (hnd : [w0, w1, w2, w3, w4, w5, w6, w7].Nodup)
    (h01 : arrRef (cfgs p).spec w1 = arrRef (cfgs p).spec w0)
    (hrefs : [arrRef (cfgs p).spec w0, arrRef (cfgs p).spec w2, arrRef (cfgs p).spec w3, arrRef (cfgs p).spec w4, arrRef (cfgs p).spec w5, arrRef (cfgs p).spec w6, arrRef (cfgs p).spec w7].Nodup)
    (q₁ q₂ : PosShare TreeShare) (hq : fullShare ∈ q₁ ·? q₂)
    (hs0 : (dats p c).share w0 = q₁) (hs1 : (dats p c).share w1 = q₂)
    (hs2 : (dats p c).share w2 = fullShare) (hs3 : (dats p c).share w3 = fullShare) (hs4 : (dats p c).share w4 = fullShare) (hs5 : (dats p c).share w5 = fullShare) (hs6 : (dats p c).share w6 = fullShare) (hs7 : (dats p c).share w7 = fullShare)
    (V : (b : Ref sig .tc) → Buf Val ((c.tc : Thread nD τ).loc b))
    (F : (w : Fin (cfgs p).W) → Buf Val (((cfgs p).spec w).arr.view.loc (c.tc : Thread nD τ)))
    (hF : ∀ w, F w = V (arrRef (cfgs p).spec w)) :
    (arrBufs (cfgs p).spec c V : sProp 𝕄) ⊢ (dats p c).arrays F := by
  classical
  let Pt : PosShare TreeShare → Ref sig .tc → sProp 𝕄 := fun q b => ((c.tc : Thread nD τ).loc b) ↦{q} V b
  have hΦ : ∀ w : Fin (cfgs p).W,
      ((((cfgs p).spec w).arr.view.loc (c.tc : Thread nD τ) ↦[((cfgs p).spec w).arr.view.set]{(dats p c).share w} F w : sProp 𝕄))
        = Pt ((dats p c).share w) (arrRef (cfgs p).spec w) := fun w => by
    rw [(harr w).set_eq_univ, hF w]
  have himg : Finset.univ.image (arrRef (cfgs p).spec)
      = [arrRef (cfgs p).spec w0, arrRef (cfgs p).spec w2, arrRef (cfgs p).spec w3, arrRef (cfgs p).spec w4, arrRef (cfgs p).spec w5, arrRef (cfgs p).spec w6, arrRef (cfgs p).spec w7].toFinset := by
    rw [huniv]
    simp only [List.toFinset_cons, List.toFinset_nil, Finset.image_insert, Finset.image_empty, h01, Finset.insert_idem]
  unfold Dat.arrays arrBufs
  rw [bigSep_congr (fun w _ => hΦ w), BI.bigSep_eq_bigSepL_of_eq _ huniv hnd, BI.bigSep_eq_bigSepL_of_eq _ himg hrefs]
  show iprop(Pt fullShare (arrRef (cfgs p).spec w0) ∗ Pt fullShare (arrRef (cfgs p).spec w2) ∗ Pt fullShare (arrRef (cfgs p).spec w3) ∗ Pt fullShare (arrRef (cfgs p).spec w4) ∗ Pt fullShare (arrRef (cfgs p).spec w5) ∗ Pt fullShare (arrRef (cfgs p).spec w6) ∗ Pt fullShare (arrRef (cfgs p).spec w7))
    ⊢ iprop(Pt ((dats p c).share w0) (arrRef (cfgs p).spec w0) ∗ Pt ((dats p c).share w1) (arrRef (cfgs p).spec w1) ∗ Pt ((dats p c).share w2) (arrRef (cfgs p).spec w2) ∗ Pt ((dats p c).share w3) (arrRef (cfgs p).spec w3) ∗ Pt ((dats p c).share w4) (arrRef (cfgs p).spec w4) ∗ Pt ((dats p c).share w5) (arrRef (cfgs p).spec w5) ∗ Pt ((dats p c).share w6) (arrRef (cfgs p).spec w6) ∗ Pt ((dats p c).share w7) (arrRef (cfgs p).spec w7))
  rw [hs0, hs1, hs2, hs3, hs4, hs5, hs6, hs7, h01]
  iintro ⟨H0, H2, H3, H4, H5, H6, H7⟩
  ihave H0' := (pointsTo_share hq).1 $$ H0
  icases H0' with ⟨H0a, H0b⟩
  isplitl [H0a]; · iexact H0a
  isplitl [H0b]; · iexact H0b
  isplitl [H2]; · iexact H2
  isplitl [H3]; · iexact H3
  isplitl [H4]; · iexact H4
  isplitl [H5]; · iexact H5
  isplitl [H6]; · iexact H6
  iexact H7

/-- THE EXIT JOIN, the converse: the pipeline's arrays at F are the seven buffers each whole at the full share at V,
    the shared array's two pieces joined. -/
theorem arrays_join_octet (cfgs : P → Cfg sig Λ₀)
    (dats : (p : P) → (c : Dev nD) → Dat τ Val Unit ℕ (UR sig nD τ) ℕ (cfgs p) c) (p : P) (c : Dev nD)
    (harr : ∀ w, ((cfgs p).spec w).arr.IsWhole)
    (w0 w1 w2 w3 w4 w5 w6 w7 : Fin (cfgs p).W)
    (huniv : (Finset.univ : Finset (Fin (cfgs p).W)) = [w0, w1, w2, w3, w4, w5, w6, w7].toFinset)
    (hnd : [w0, w1, w2, w3, w4, w5, w6, w7].Nodup)
    (h01 : arrRef (cfgs p).spec w1 = arrRef (cfgs p).spec w0)
    (hrefs : [arrRef (cfgs p).spec w0, arrRef (cfgs p).spec w2, arrRef (cfgs p).spec w3, arrRef (cfgs p).spec w4, arrRef (cfgs p).spec w5, arrRef (cfgs p).spec w6, arrRef (cfgs p).spec w7].Nodup)
    (q₁ q₂ : PosShare TreeShare) (hq : fullShare ∈ q₁ ·? q₂)
    (hs0 : (dats p c).share w0 = q₁) (hs1 : (dats p c).share w1 = q₂)
    (hs2 : (dats p c).share w2 = fullShare) (hs3 : (dats p c).share w3 = fullShare) (hs4 : (dats p c).share w4 = fullShare) (hs5 : (dats p c).share w5 = fullShare) (hs6 : (dats p c).share w6 = fullShare) (hs7 : (dats p c).share w7 = fullShare)
    (V : (b : Ref sig .tc) → Buf Val ((c.tc : Thread nD τ).loc b))
    (F : (w : Fin (cfgs p).W) → Buf Val (((cfgs p).spec w).arr.view.loc (c.tc : Thread nD τ)))
    (hF : ∀ w, F w = V (arrRef (cfgs p).spec w)) :
    (dats p c).arrays F ⊢ (arrBufs (cfgs p).spec c V : sProp 𝕄) := by
  classical
  let Pt : PosShare TreeShare → Ref sig .tc → sProp 𝕄 := fun q b => ((c.tc : Thread nD τ).loc b) ↦{q} V b
  have hΦ : ∀ w : Fin (cfgs p).W,
      ((((cfgs p).spec w).arr.view.loc (c.tc : Thread nD τ) ↦[((cfgs p).spec w).arr.view.set]{(dats p c).share w} F w : sProp 𝕄))
        = Pt ((dats p c).share w) (arrRef (cfgs p).spec w) := fun w => by
    rw [(harr w).set_eq_univ, hF w]
  have himg : Finset.univ.image (arrRef (cfgs p).spec)
      = [arrRef (cfgs p).spec w0, arrRef (cfgs p).spec w2, arrRef (cfgs p).spec w3, arrRef (cfgs p).spec w4, arrRef (cfgs p).spec w5, arrRef (cfgs p).spec w6, arrRef (cfgs p).spec w7].toFinset := by
    rw [huniv]
    simp only [List.toFinset_cons, List.toFinset_nil, Finset.image_insert, Finset.image_empty, h01, Finset.insert_idem]
  unfold Dat.arrays arrBufs
  rw [bigSep_congr (fun w _ => hΦ w), BI.bigSep_eq_bigSepL_of_eq _ huniv hnd, BI.bigSep_eq_bigSepL_of_eq _ himg hrefs]
  show iprop(Pt ((dats p c).share w0) (arrRef (cfgs p).spec w0) ∗ Pt ((dats p c).share w1) (arrRef (cfgs p).spec w1) ∗ Pt ((dats p c).share w2) (arrRef (cfgs p).spec w2) ∗ Pt ((dats p c).share w3) (arrRef (cfgs p).spec w3) ∗ Pt ((dats p c).share w4) (arrRef (cfgs p).spec w4) ∗ Pt ((dats p c).share w5) (arrRef (cfgs p).spec w5) ∗ Pt ((dats p c).share w6) (arrRef (cfgs p).spec w6) ∗ Pt ((dats p c).share w7) (arrRef (cfgs p).spec w7))
    ⊢ iprop(Pt fullShare (arrRef (cfgs p).spec w0) ∗ Pt fullShare (arrRef (cfgs p).spec w2) ∗ Pt fullShare (arrRef (cfgs p).spec w3) ∗ Pt fullShare (arrRef (cfgs p).spec w4) ∗ Pt fullShare (arrRef (cfgs p).spec w5) ∗ Pt fullShare (arrRef (cfgs p).spec w6) ∗ Pt fullShare (arrRef (cfgs p).spec w7))
  rw [hs0, hs1, hs2, hs3, hs4, hs5, hs6, hs7, h01]
  iintro ⟨H0a, H0b, H2, H3, H4, H5, H6, H7⟩
  isplitl [H0a H0b]
  · iapply (pointsTo_share hq).2
    isplitl [H0a]; · iexact H0a
    iexact H0b
  isplitl [H2]; · iexact H2
  isplitl [H3]; · iexact H3
  isplitl [H4]; · iexact H4
  isplitl [H5]; · iexact H5
  isplitl [H6]; · iexact H6
  iexact H7

end Pipeline

end Idealize.ShloMosaic

end
-- ==== Proof.KMain.lean ====
/-
  The program's run as its four items in order: the four reshapes before the first kernel region, that region, the
  host lines that turn the degree into its power -1/2 as a column and as a row, the second kernel region.

  Between two items every unscoped buffer of a core is held whole at a valuation: W0 the launch memory, W1 after the
  reshapes, W2 the same with the first region's two outputs at what its pipeline leaves, W3 after the host lines, W4
  with the second region's output at what its pipeline leaves. The first region reads the node features through two
  windows: entering it the array is dealt to them at the two halves of the full share, and leaving it the halves are
  joined. The run's post says every unscoped buffer ends at W4; the frame and the results are read off it.
-/
import proofs.«112107_j17961553231914_2_alg».proof.Proof.Gen.Kernel.Regions
import proofs.«112107_j17961553231914_2_alg».proof.Proof.K0Frame
import proofs.«112107_j17961553231914_2_alg».proof.Proof.K1Frame
import proofs.«112107_j17961553231914_2_alg».proof.Proof.LibSharedOctet
import Idealize.ShloMosaic.Lib.Pipeline.Frame
import Idealize.ShloMosaic.Lib.Pipeline.Regions
import Idealize.ShloMosaic.Lib.Pipeline.RegionsLoop

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- Core c's buffers at launch. -/
abbrev W0 (c : Dev nD) : Valuation τ sig (Elt F) := fun b => m (c, b)
/-- After the four reshapes. -/
abbrev W1 (c : Dev nD) : Valuation τ sig (Elt F) := StableHlo.after hostOps0 (W0 m c)
/-- The same read at the TensorCore's references: what the first region's proof data take. -/
abbrev E1 : (c : Dev nD) → (b : Ref sig .tc) → Buf (Elt F) ((c : Thread nD τ).loc b) := fun c b => W1 m c b
/-- After the first region: its two outputs at what its pipeline leaves, every other buffer as entered. -/
def W2 (c : Dev nD) : Valuation τ sig (Elt F) :=
  Function.update (Function.update (W1 m c) main_v4_0 ((R0.dat (E1 m) c).arrAt 6 cfg0.N)) main_v4_1 ((R0.dat (E1 m) c).arrAt 7 cfg0.N)
/-- After the host lines between the regions. -/
abbrev W3 (c : Dev nD) : Valuation τ sig (Elt F) := StableHlo.after hostOps1 (W2 m c)
abbrev E3 : (c : Dev nD) → (b : Ref sig .tc) → Buf (Elt F) ((c : Thread nD τ).loc b) := fun c b => W3 m c b
/-- After the second region: its output at what its pipeline leaves. -/
def W4 (c : Dev nD) : Valuation τ sig (Elt F) :=
  Function.update (W3 m c) main_v9 ((R1.dat (E3 m) c).arrAt 6 cfg1.N)

theorem W2_v4_0 (c : Dev nD) : W2 m c main_v4_0 = (R0.dat (E1 m) c).arrAt 6 cfg0.N := by
  unfold W2
  rw [Function.update_of_ne (StableHlo.devRef_ne_of_ne (by decide : main_v4_0 ≠ main_v4_1)), Function.update_self]
theorem W2_v4_1 (c : Dev nD) : W2 m c main_v4_1 = (R0.dat (E1 m) c).arrAt 7 cfg0.N := by
  unfold W2; rw [Function.update_self]
theorem W2_of (c : Dev nD) (r : Ref sig .tc) (h0 : r ≠ main_v4_0) (h1 : r ≠ main_v4_1) : W2 m c r = W1 m c r := by
  unfold W2
  rw [Function.update_of_ne (StableHlo.devRef_ne_of_ne h1), Function.update_of_ne (StableHlo.devRef_ne_of_ne h0)]
theorem W4_v9 (c : Dev nD) : W4 m c main_v9 = (R1.dat (E3 m) c).arrAt 6 cfg1.N := by
  unfold W4; rw [Function.update_self]
theorem W4_of (c : Dev nD) (r : Ref sig .tc) (h : r ≠ main_v9) : W4 m c r = W3 m c r := by
  unfold W4; rw [Function.update_of_ne (StableHlo.devRef_ne_of_ne h)]
theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h

/-- Leaving the first region each window's array holds what the next valuation says: an input's as entered, the two
    outputs' what the pipeline leaves. -/
theorem hF0 (c : Dev nD) (w : Fin cfg0.W) : (R0.dat (E1 m) c).arrAt w cfg0.N = W2 m c (Pipeline.arrRef spec0 w) :=
  match w with
  | ⟨0, _⟩ => (((R0.dat (E1 m) c).arrAt_in 0 rfl _).trans (R0.A_eq (E1 m) c 0)).trans (W2_of m c main_arg0 (by decide) (by decide)).symm
  | ⟨1, _⟩ => (((R0.dat (E1 m) c).arrAt_in 1 rfl _).trans (R0.A_eq (E1 m) c 1)).trans (W2_of m c main_arg0 (by decide) (by decide)).symm
  | ⟨2, _⟩ => (((R0.dat (E1 m) c).arrAt_in 2 rfl _).trans (R0.A_eq (E1 m) c 2)).trans (W2_of m c main_arg1 (by decide) (by decide)).symm
  | ⟨3, _⟩ => (((R0.dat (E1 m) c).arrAt_in 3 rfl _).trans (R0.A_eq (E1 m) c 3)).trans (W2_of m c main_v0 (by decide) (by decide)).symm
  | ⟨4, _⟩ => (((R0.dat (E1 m) c).arrAt_in 4 rfl _).trans (R0.A_eq (E1 m) c 4)).trans (W2_of m c main_v1 (by decide) (by decide)).symm
  | ⟨5, _⟩ => (((R0.dat (E1 m) c).arrAt_in 5 rfl _).trans (R0.A_eq (E1 m) c 5)).trans (W2_of m c main_v2 (by decide) (by decide)).symm
  | ⟨6, _⟩ => (W2_v4_0 m c).symm
  | ⟨7, _⟩ => (W2_v4_1 m c).symm

/-- Every buffer that is no array of the first region's is left as entered. -/
theorem hrest0 (c : Dev nD) (b : Ref sig .tc) (hb : b ∉ Finset.univ.image (Pipeline.arrRef spec0)) : W2 m c b = W1 m c b :=
  W2_of m c b (fun e => hb (Finset.mem_image.mpr ⟨6, Finset.mem_univ _, e.symm⟩)) (fun e => hb (Finset.mem_image.mpr ⟨7, Finset.mem_univ _, e.symm⟩))

theorem hF1 (c : Dev nD) (w : Fin cfg1.W) : (R1.dat (E3 m) c).arrAt w cfg1.N = W4 m c (Pipeline.arrRef spec1 w) :=
  match w with
  | ⟨0, _⟩ => (((R1.dat (E3 m) c).arrAt_in 0 rfl _).trans (R1.A_eq (E3 m) c 0)).trans (W4_of m c main_arg0 (by decide)).symm
  | ⟨1, _⟩ => (((R1.dat (E3 m) c).arrAt_in 1 rfl _).trans (R1.A_eq (E3 m) c 1)).trans (W4_of m c main_arg5 (by decide)).symm
  | ⟨2, _⟩ => (((R1.dat (E3 m) c).arrAt_in 2 rfl _).trans (R1.A_eq (E3 m) c 2)).trans (W4_of m c main_v4_0 (by decide)).symm
  | ⟨3, _⟩ => (((R1.dat (E3 m) c).arrAt_in 3 rfl _).trans (R1.A_eq (E3 m) c 3)).trans (W4_of m c main_v7 (by decide)).symm
  | ⟨4, _⟩ => (((R1.dat (E3 m) c).arrAt_in 4 rfl _).trans (R1.A_eq (E3 m) c 4)).trans (W4_of m c main_v8 (by decide)).symm
  | ⟨5, _⟩ => (((R1.dat (E3 m) c).arrAt_in 5 rfl _).trans (R1.A_eq (E3 m) c 5)).trans (W4_of m c main_v3 (by decide)).symm
  | ⟨6, _⟩ => (W4_v9 m c).symm

theorem hrest1 (c : Dev nD) (b : Ref sig .tc) (hb : b ∉ Finset.univ.image (Pipeline.arrRef spec1)) : W4 m c b = W3 m c b :=
  W4_of m c b (fun e => hb (Finset.mem_image.mpr ⟨6, Finset.mem_univ _, e.symm⟩))

/-! ## The proof data family and the thread state -/

abbrev adm : (p : Fin 2) → (pcfgs (F := F) p).Adm := fun p => (cfgs p).toPCfg_adm

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => R0.dat (E1 m) c
  | ⟨1, _⟩ => fun c => R1.dat (E3 m) c

abbrev 𝒱₀ : Variants := Variants.none
abbrev L : GSem nD τ sig → Finset Unit := fun _ => ∅
abbrev lv : GSem nD τ sig → Unit → ℕ := fun _ _ => 0

/-- What rides beside the buffers through every item: the generator register at some state and the core owing nothing. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the owes. -/
abbrev Tₙ (c : Dev nD) : sProp 𝕄 := iprop(StableHlo.held (c : Thread nD τ) (Pipeline.ucRefs τ sig) (W4 m c) ∗ ∃ r, prngReg c r)

/-! ## The first region's arrays at its entry and its exit: the shared array dealt and joined -/

/-- ENTRY: every unscoped buffer at W1 is the first region's arrays at their entry contents — the node features dealt
    between the two windows that read them — beside the unscoped rest. -/
theorem entry0 (c : Dev nD) :
    (unscopedBufs c (fun b => W1 m c b) : sProp 𝕄)
      ⊢ iprop((pdats m 0 c).arrays ((pdats m 0 c).arrAt · 0) ∗ Pipeline.unscopedRest (Ix := Unit) (Name := ℕ) (U := UR sig nD τ) (Lvl := ℕ) spec0 c (E1 m c)) := by
  rw [Pipeline.unscopedBufs_split₀ cfgs 0 winFacts₀0.arr_unscoped c (fun b => W1 m c b)]
  refine sep_mono ?_ .rfl
  exact Pipeline.arrays_split_octet cfgs (fun p c => pdats m p c) 0 c arr_whole0 0 1 2 3 4 5 6 7 (by decide) (by decide) rfl (by decide)
    fullShare.left fullShare.right (PosShare.mem_left_op_right fullShare) rfl rfl rfl rfl rfl rfl rfl rfl
    (fun b => W1 m c b) _ (fun w => R0.A_eq (E1 m) c w)

/-- EXIT: the arrays at what the pipeline leaves, beside the unscoped rest as entered, are every unscoped buffer at W2. -/
theorem exit0 (c : Dev nD) :
    iprop((pdats m 0 c).arrays ((pdats m 0 c).arrAt · cfg0.N) ∗ Pipeline.unscopedRest (Ix := Unit) (Name := ℕ) (U := UR sig nD τ) (Lvl := ℕ) spec0 c (E1 m c))
      ⊢ (unscopedBufs c (fun b => W2 m c b) : sProp 𝕄) := by
  rw [Pipeline.unscopedBufs_split₀ cfgs 0 winFacts₀0.arr_unscoped c (fun b => W2 m c b)]
  refine sep_mono ?_ (Entails.of_eq ?_)
  · exact Pipeline.arrays_join_octet cfgs (fun p c => pdats m p c) 0 c arr_whole0 0 1 2 3 4 5 6 7 (by decide) (by decide) rfl (by decide)
      fullShare.left fullShare.right (PosShare.mem_left_op_right fullShare) rfl rfl rfl rfl rfl rfl rfl rfl
      (fun b => W2 m c b) _ (fun w => hF0 m c w)
  · unfold Pipeline.unscopedRest
    exact bigSep_congr fun b hb => by
      show (((c : Thread nD τ).loc b) ↦{fullShare} W1 m c b : sProp 𝕄) = (((c : Thread nD τ).loc b) ↦{fullShare} W2 m c b)
      rw [hrest0 m c b (Finset.mem_sdiff.mp hb).2]

/-! ## The regions as segments -/

set_option backward.isDefEq.respectTransparency.types false in
/-- The first kernel region over the thread state: entered from every unscoped buffer at W1, left at W2. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (R0.body_obligation (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := entry0 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (R0.hin (E1 m) c)
    unfold Pipeline.ΦA
    iintro ⟨Hp, -, Hr⟩
    isplitl [Hr]; · iexact Hr
    iexact Hp
  hout c := by
    rw [Pipeline.ownSems0_none]
    refine (R0.hout (E1 m) c).trans ?_
    unfold Pipeline.ΦA
    iintro ⟨Hr, Hp⟩
    isplitl [Hp]; · iexact Hp
    isplitr; · iempintro
    iexact Hr
  hexit c := by
    have hjoin := exit0 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel region: entered from every unscoped buffer at W3, left at W4. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun w => R1.A_eq (E3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (R1.hin (E3 m) c)
    unfold Pipeline.ΦA
    iintro ⟨Hp, -, Hr⟩
    isplitl [Hr]; · iexact Hr
    iexact Hp
  hout c := by
    rw [Pipeline.ownSems0_none]
    refine (R1.hout (E3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (fun b => W4 m c b) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]

theorem main_run (c : Dev nD) : main (F := F) c = Pipeline.Seg.run (segs m) := (main_chain c).trans (by chain_rfl)

set_option backward.isDefEq.respectTransparency.types false in
/-- THE RUN. From any memory with zero counters every weakly fair execution of the program terminates, nothing
    faulting, and in every final memory every unscoped buffer of every core holds what W4 says. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      rw [ownU_emb₁]
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-! ## What the arguments end at -/

theorem W4_main_arg0 (c : Dev nD) : W4 m c main_arg0 = m ((c : Thread nD τ).loc main_arg0) :=
  (W4_of m c main_arg0 (by decide)).trans <| (W3_of m c main_arg0 (by decide)).trans <| (W2_of m c main_arg0 (by decide) (by decide)).trans <| (W1_of m c main_arg0 (by decide)).trans rfl
theorem W4_main_arg1 (c : Dev nD) : W4 m c main_arg1 = m ((c : Thread nD τ).loc main_arg1) :=
  (W4_of m c main_arg1 (by decide)).trans <| (W3_of m c main_arg1 (by decide)).trans <| (W2_of m c main_arg1 (by decide) (by decide)).trans <| (W1_of m c main_arg1 (by decide)).trans rfl
theorem W4_main_arg2 (c : Dev nD) : W4 m c main_arg2 = m ((c : Thread nD τ).loc main_arg2) :=
  (W4_of m c main_arg2 (by decide)).trans <| (W3_of m c main_arg2 (by decide)).trans <| (W2_of m c main_arg2 (by decide) (by decide)).trans <| (W1_of m c main_arg2 (by decide)).trans rfl
theorem W4_main_arg3 (c : Dev nD) : W4 m c main_arg3 = m ((c : Thread nD τ).loc main_arg3) :=
  (W4_of m c main_arg3 (by decide)).trans <| (W3_of m c main_arg3 (by decide)).trans <| (W2_of m c main_arg3 (by decide) (by decide)).trans <| (W1_of m c main_arg3 (by decide)).trans rfl
theorem W4_main_arg4 (c : Dev nD) : W4 m c main_arg4 = m ((c : Thread nD τ).loc main_arg4) :=
  (W4_of m c main_arg4 (by decide)).trans <| (W3_of m c main_arg4 (by decide)).trans <| (W2_of m c main_arg4 (by decide) (by decide)).trans <| (W1_of m c main_arg4 (by decide)).trans rfl
theorem W4_main_arg5 (c : Dev nD) : W4 m c main_arg5 = m ((c : Thread nD τ).loc main_arg5) :=
  (W4_of m c main_arg5 (by decide)).trans <| (W3_of m c main_arg5 (by decide)).trans <| (W2_of m c main_arg5 (by decide) (by decide)).trans <| (W1_of m c main_arg5 (by decide)).trans rfl
theorem W4_main_arg6 (c : Dev nD) : W4 m c main_arg6 = m ((c : Thread nD τ).loc main_arg6) :=
  (W4_of m c main_arg6 (by decide)).trans <| (W3_of m c main_arg6 (by decide)).trans <| (W2_of m c main_arg6 (by decide) (by decide)).trans <| (W1_of m c main_arg6 (by decide)).trans rfl

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c)⟩) (run m ρ)

/-- The results: the two result arrays end at what the pipelines leave, the arguments as launched. -/
theorem results : θ_run defs (onTc (τ := τ) (main (F := F))) ⟨m, fun _ => 0, ρ⟩ (fun r => ∀ c : Dev nD,
      r.2.mem ((c.tc : Thread nD τ).loc main_v9) = (R1.dat (E3 m) c).arrAt 6 cfg1.N
      ∧ r.2.mem ((c.tc : Thread nD τ).loc main_v4_0) = (R0.dat (E1 m) c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v9 (by decide))).trans (W4_v9 m c),
     (h c _ (mem_uc main_v4_0 (by decide))).trans ((W4_of m c main_v4_0 (by decide)).trans ((W3_of m c main_v4_0 (by decide)).trans (W2_v4_0 m c))),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c)⟩) (run m ρ)

end Cert.Kernel.Run

end
-- ==== Proof.KI0Kit.lean ====
/-
  The first kernel region (the edge-weight kernel): what its runs and its proof data are stated over.

  The grid has 128 points t = 16 b + 4 i + j (graph b, row tile i, column tile j). The body resets its column
  accumulator when j = 0 and copies it to the degree output when j = 3; the blocks the input windows hold at a
  point are read off the arrays as the region finds them, whatever those are (V).
-/
import proofs.«112107_j17961553231914_2_alg».proof.Proof.Gen.KernelIdeal.Launch
import proofs.«112107_j17961553231914_2_alg».proof.Proof.Gen.KernelIdeal.Skeleton
import proofs.«112107_j17961553231914_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: an input that
    is not fetched has not moved its block index, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: an input that
    is not fetched has not moved its block index, and the body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: an input that
    is not fetched has not moved its block index, and the body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: an input that
    is not fetched has not moved its block index, and the body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not: an input that
    is not fetched has not moved its block index, and the body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not: an input that
    is not fetched has not moved its block index, and the body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, decided over the grid -/

/-- The first conditional's condition (the column tile is the first), from the grid coordinates. -/
abbrev cond0_0 (i : grid0.Coords) : Prop := (Scalar.cmpi .ne (Scalar.extui (Scalar.cmpi .eq (BitVec.ofNat 32 (i 2).val) 0#32)) 0#32) = 1#1
/-- It holds exactly at the points whose column tile is 0. -/
theorem hcond0_0 : ∀ t : Fin cfg0.N, cond0_0 (grid0.coords t) ↔ t.val % 4 = 0 :=
  (by decide +kernel : ∀ t : Fin grid0.N, cond0_0 (grid0.coords t) ↔ t.val % 4 = 0)

/-- The second conditional's condition (the column tile is the last). -/
abbrev cond0_1 (i : grid0.Coords) : Prop := k0_cond2 i = 1#1
/-- It holds exactly at the points whose column tile is 3. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- Where the column tile is not the last the degree output is idle (nothing is stored into it) -/
theorem idleAt0_7 : ∀ t : Fin cfg0.N, ¬cond0_1 (grid0.coords t) → cfg0.idle 7 (grid0.coords t) = true := by decide +kernel
/-- and is not written back; -/
theorem noFlush0_7 : ∀ t : Fin cfg0.N, ¬cond0_1 (grid0.coords t) → (cfg0.win 7).flush t = false := by decide +kernel
/-- where it is the last, the degree output is live. -/
theorem liveAt0_7 : ∀ t : Fin cfg0.N, cond0_1 (grid0.coords t) → cfg0.idle 7 (grid0.coords t) = false := by decide +kernel

/-! ## The memrefs the body is called with -/

abbrev ms0_0 (t : Fin cfg0.N) : Memref sig .tc .vmem S1x128x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128x1 .f32 := win0_7.stage (cfg0.slots t 7)
abbrev hs0_7 (t : Fin cfg0.N) : (ms0_7 t).IsWhole := hstage0_7 ((cfg0.slots t 7).cast nbuf0_7)
/-- The column accumulator: a whole scoped buffer of the kernel's own. -/
abbrev scM0 : Memref sig .tc .vmem S128x1 .f32 := Memref.whole cc0_scratch0
/-- Views through which the contents of the two outputs' staging buffers and of the accumulator are stated. -/
abbrev VO0_6 : View sig .tc .vmem S1x128x128 .f32 := (Memref.whole cc0_stg6_0 : Memref sig .tc .vmem S1x128x128 .f32).view
abbrev VO0_7 : View sig .tc .vmem S1x128x1 .f32 := (Memref.whole cc0_stg7_0 : Memref sig .tc .vmem S1x128x1 .f32).view
abbrev VS0 : View sig .tc .vmem S128x1 .f32 := scM0.view

/-- The scoped buffers that are neither a staging buffer of this region nor its accumulator, each at some contents. -/
def rest13 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f))

/-- The region's class invariant with the accumulator named: it, the other scoped buffers, the generator register. -/
theorem PhiA0_eq (c : Dev nD) :
    (Pipeline.ΦA spec0 c : sProp 𝕄)
      = iprop(iprop((∃ d, owns (c : Thread nD τ) scM0 fullShare d) ∗ rest13 c) ∗ (∃ r, prngReg c r)) := by
  unfold Pipeline.ΦA rest13; rw [scopedRest0_eq]; simp only [scM0, owns_whole]; try rfl

end Cert.KernelIdeal.R0

end
-- ==== Proof.KI0RunA.lean ====
/-
  The first kernel's body run whole in case A: the column tile is the first (the accumulator is reset, then gains the block's row sums) and not the last (nothing is stored into the degree output).
  On whole staging memrefs — the six inputs' at their contents, the edge-weight output's at anything, the degree output's
  at contents handed back untouched, the column accumulator at anything — the body runs to the continuation holding
  the inputs' as they were and each buffer it stored into with its stores written as pieces; the pieces are what the run finds.
-/
import proofs.«112107_j17961553231914_2_alg».proof.Proof.Gen.KernelIdeal.Launch
import proofs.«112107_j17961553231914_2_alg».proof.Proof.Gen.KernelIdeal.Skeleton
import proofs.«112107_j17961553231914_2_alg».proof.Proof.Gen.KernelIdeal.Points
import proofs.«112107_j17961553231914_2_alg».proof.Proof.KI0Kit
import Idealize.ShloMosaic.Lib.Pipeline.FrameBody
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
noncomputable def kernelRun0_A (c : Dev nD) (i : grid0.Coords) (arg3 : Memref sig .tc .vmem S1x128x128 .f32) (harg3 : arg3.IsWhole) (arg4 : Memref sig .tc .vmem S1x128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x128x128 .f32) (harg9 : arg9.IsWhole) (arg10 : Memref sig .tc .vmem S1x128x1 .f32) (harg10 : arg10.IsWhole) (arg11 : Memref sig .tc .vmem S128x1 .f32) (harg11 : arg11.IsWhole) (hc0 : cond0_0 i) (hc1 : ¬cond0_1 i)
    (x0 : Vec F S1x128x128 .f32) (x1 : Vec F S1x128x128 .f32) (x2 : Vec F S128x128 .f32) (x3 : Vec F S1x128 .f32) (x4 : Vec F S1x128 .f32) (x5 : Vec F S1x1 .f32) :
    Σ' (L6 : List (View.Piece (Elt F) S1x128x128 .f32)) (L7 : List (View.Piece (Elt F) S1x128x1 .f32)), { LS0 : List (View.Piece (Elt F) S128x1 .f32) //
      ∀ (xi7 : Vec F S1x128x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xi7 ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ owns (c : Thread nD τ) arg10 fullShare xi7 ∗ (∃ f, arg11.view.loc (c : Thread nD τ) ↦[arg11.view.set]{fullShare} arg11.view.writes (Elt F) f LS0)) -∗ K ⟨⟩))
          ⊢ wp frame (wpE (defs₀ (F := F)) Variants.none c none) E (cc0__adj_kernel i arg3 harg3 arg4 harg4 arg5 harg5 arg6 harg6 arg7 harg7 arg8 harg8 arg9 harg9 arg10 harg10 arg11 harg11) K } := by
  refine ⟨?_, [], ?_, fun xi7 E K => ?run⟩
  case run =>
    simp only [cc0__adj_kernel_eq_skeleton]; unfold cc0__adj_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hf7
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]
    · iexists _; isplitr; · ipureintro; exact harg10.read_unread _
      iexact H7
    iexists _; iexact HS0

end Cert.KernelIdeal.R0

end
-- ==== Proof.KI0RunB.lean ====
/-
  The first kernel's body run whole in case B: the column tile is neither the first nor the last: the accumulator gains the block's row sums.
  On whole staging memrefs — the six inputs' at their contents, the edge-weight output's at anything, the degree output's
  at contents handed back untouched, the column accumulator at what the point before left — the body runs to the continuation holding
  the inputs' as they were and each buffer it stored into with its stores written as pieces; the pieces are what the run finds.
-/
import proofs.«112107_j17961553231914_2_alg».proof.Proof.Gen.KernelIdeal.Launch
import proofs.«112107_j17961553231914_2_alg».proof.Proof.Gen.KernelIdeal.Skeleton
import proofs.«112107_j17961553231914_2_alg».proof.Proof.Gen.KernelIdeal.Points
import proofs.«112107_j17961553231914_2_alg».proof.Proof.KI0RunA
import Idealize.ShloMosaic.Lib.Pipeline.FrameBody
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
noncomputable def kernelRun0_B (c : Dev nD) (i : grid0.Coords) (arg3 : Memref sig .tc .vmem S1x128x128 .f32) (harg3 : arg3.IsWhole) (arg4 : Memref sig .tc .vmem S1x128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x128x128 .f32) (harg9 : arg9.IsWhole) (arg10 : Memref sig .tc .vmem S1x128x1 .f32) (harg10 : arg10.IsWhole) (arg11 : Memref sig .tc .vmem S128x1 .f32) (harg11 : arg11.IsWhole) (hc0 : ¬cond0_0 i) (hc1 : ¬cond0_1 i)
    (x0 : Vec F S1x128x128 .f32) (x1 : Vec F S1x128x128 .f32) (x2 : Vec F S128x128 .f32) (x3 : Vec F S1x128 .f32) (x4 : Vec F S1x128 .f32) (x5 : Vec F S1x1 .f32) (xs0 : Vec F S128x1 .f32) :
    Σ' (L6 : List (View.Piece (Elt F) S1x128x128 .f32)) (L7 : List (View.Piece (Elt F) S1x128x1 .f32)), { LS0 : List (View.Piece (Elt F) S128x1 .f32) //
      ∀ (xi7 : Vec F S1x128x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xi7 ∗ owns (c : Thread nD τ) arg11 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ owns (c : Thread nD τ) arg10 fullShare xi7 ∗ (∃ f, arg11.view.loc (c : Thread nD τ) ↦[arg11.view.set]{fullShare} arg11.view.writes (Elt F) f LS0)) -∗ K ⟨⟩))
          ⊢ wp frame (wpE (defs₀ (F := F)) Variants.none c none) E (cc0__adj_kernel i arg3 harg3 arg4 harg4 arg5 harg5 arg6 harg6 arg7 harg7 arg8 harg8 arg9 harg9 arg10 harg10 arg11 harg11) K } := by
  refine ⟨?_, [], ?_, fun xi7 E K => ?run⟩
  case run =>
    simp only [cc0__adj_kernel_eq_skeleton]; unfold cc0__adj_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hf7; obtain rfl := harg11.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]
    · iexists _; isplitr; · ipureintro; exact harg10.read_unread _
      iexact H7
    iexists _; iexact HS0

end Cert.KernelIdeal.R0

end
-- ==== Proof.KI0RunC.lean ====
/-
  The first kernel's body run whole in case C: the column tile is the last: the accumulator gains the block's row sums and is copied to the degree output.
  On whole staging memrefs — the six inputs' at their contents, the edge-weight output's at anything, the degree output's
  at anything, the column accumulator at what the point before left — the body runs to the continuation holding
  the inputs' as they were and each buffer it stored into with its stores written as pieces; the pieces are what the run finds.
-/
import proofs.«112107_j17961553231914_2_alg».proof.Proof.Gen.KernelIdeal.Launch
import proofs.«112107_j17961553231914_2_alg».proof.Proof.Gen.KernelIdeal.Skeleton
import proofs.«112107_j17961553231914_2_alg».proof.Proof.Gen.KernelIdeal.Points
import proofs.«112107_j17961553231914_2_alg».proof.Proof.KI0RunB
import Idealize.ShloMosaic.Lib.Pipeline.FrameBody
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
noncomputable def kernelRun0_C (c : Dev nD) (i : grid0.Coords) (arg3 : Memref sig .tc .vmem S1x128x128 .f32) (harg3 : arg3.IsWhole) (arg4 : Memref sig .tc .vmem S1x128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x128x128 .f32) (harg9 : arg9.IsWhole) (arg10 : Memref sig .tc .vmem S1x128x1 .f32) (harg10 : arg10.IsWhole) (arg11 : Memref sig .tc .vmem S128x1 .f32) (harg11 : arg11.IsWhole) (hc0 : ¬cond0_0 i) (hc1 : cond0_1 i)
    (x0 : Vec F S1x128x128 .f32) (x1 : Vec F S1x128x128 .f32) (x2 : Vec F S128x128 .f32) (x3 : Vec F S1x128 .f32) (x4 : Vec F S1x128 .f32) (x5 : Vec F S1x1 .f32) (xs0 : Vec F S128x1 .f32) :
    Σ' (L6 : List (View.Piece (Elt F) S1x128x128 .f32)) (L7 : List (View.Piece (Elt F) S1x128x1 .f32)), { LS0 : List (View.Piece (Elt F) S128x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ owns (c : Thread nD τ) arg11 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS0)) -∗ K ⟨⟩))
          ⊢ wp frame (wpE (defs₀ (F := F)) Variants.none c none) E (cc0__adj_kernel i arg3 harg3 arg4 harg4 arg5 harg5 arg6 harg6 arg7 harg7 arg8 harg8 arg9 harg9 arg10 harg10 arg11 harg11) K } := by
  refine ⟨?_, ?_, ?_, fun E K => ?run⟩
  case run =>
    simp only [cc0__adj_kernel_eq_skeleton]; unfold cc0__adj_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg11.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]; · iexists _; iexact H7
    iexists _; iexact HS0

end Cert.KernelIdeal.R0

end
-- ==== Proof.KI0Frame.lean ====
/-
  The first kernel region's proof data and body obligation.

  After the body at point t = 16 b + 4 i + j the edge-weight output's staging buffer holds the block of pair scores the
  point computed, and the column accumulator holds the row sums of the blocks of the column tiles 0 … j of its row tile
  (reset at j = 0); at j = 3 the degree output's staging buffer receives the accumulator. What each buffer holds is
  stated through the pieces the body's run leaves, case by case, and point by point by recursion (the accumulator at a
  point with j > 0 is built over what the point before left). The invariant between points carries the accumulator.
-/
import proofs.«112107_j17961553231914_2_alg».proof.Proof.Gen.KernelIdeal.Launch
import proofs.«112107_j17961553231914_2_alg».proof.Proof.Gen.KernelIdeal.Skeleton
import proofs.«112107_j17961553231914_2_alg».proof.Proof.Gen.KernelIdeal.Points
import proofs.«112107_j17961553231914_2_alg».proof.Proof.KI0RunC
import Idealize.ShloMosaic.Lib.Pipeline.FrameBody
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What case A leaves in the edge-weight output's staging buffer: its pieces read back. -/
def out0_A_6 (c : Dev nD) (i : grid0.Coords) (arg3 : Memref sig .tc .vmem S1x128x128 .f32) (harg3 : arg3.IsWhole) (arg4 : Memref sig .tc .vmem S1x128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x128x128 .f32) (harg9 : arg9.IsWhole) (arg10 : Memref sig .tc .vmem S1x128x1 .f32) (harg10 : arg10.IsWhole) (arg11 : Memref sig .tc .vmem S128x1 .f32) (harg11 : arg11.IsWhole) (hc0 : cond0_0 i) (hc1 : ¬cond0_1 i)
    (x0 : Vec F S1x128x128 .f32) (x1 : Vec F S1x128x128 .f32) (x2 : Vec F S128x128 .f32) (x3 : Vec F S1x128 .f32) (x4 : Vec F S1x128 .f32) (x5 : Vec F S1x1 .f32) : Vec F S1x128x128 .f32 :=
  VO0_6.read (Elt F) (VO0_6.writes (Elt F) VO0_6.junk (kernelRun0_A c i arg3 harg3 arg4 harg4 arg5 harg5 arg6 harg6 arg7 harg7 arg8 harg8 arg9 harg9 arg10 harg10 arg11 harg11 hc0 hc1 x0 x1 x2 x3 x4 x5).1)
/-- Its one store tiles the block, so the pieces cover it. -/
theorem cover0_A_6 (c : Dev nD) (i : grid0.Coords) (arg3 : Memref sig .tc .vmem S1x128x128 .f32) (harg3 : arg3.IsWhole) (arg4 : Memref sig .tc .vmem S1x128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x128x128 .f32) (harg9 : arg9.IsWhole) (arg10 : Memref sig .tc .vmem S1x128x1 .f32) (harg10 : arg10.IsWhole) (arg11 : Memref sig .tc .vmem S128x1 .f32) (harg11 : arg11.IsWhole) (hc0 : cond0_0 i) (hc1 : ¬cond0_1 i)
    (x0 : Vec F S1x128x128 .f32) (x1 : Vec F S1x128x128 .f32) (x2 : Vec F S128x128 .f32) (x3 : Vec F S1x128 .f32) (x4 : Vec F S1x128 .f32) (x5 : Vec F S1x1 .f32) (y : S1x128x128.Idx) : ∃ pc ∈ (kernelRun0_A c i arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun0_A c i arg3 harg3 arg4 harg4 arg5 harg5 arg6 harg6 arg7 harg7 arg8 harg8 arg9 harg9 arg10 harg10 arg11 harg11 hc0 hc1 x0 x1 x2 x3 x4 x5).1 S1x128x128.size (by sl_kernel_rfl) y
/-- What case A leaves in the degree output's staging buffer (nothing is stored: a placeholder no one consults, the window being idle there). -/
def out0_A_7 (c : Dev nD) (i : grid0.Coords) (arg3 : Memref sig .tc .vmem S1x128x128 .f32) (harg3 : arg3.IsWhole) (arg4 : Memref sig .tc .vmem S1x128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x128x128 .f32) (harg9 : arg9.IsWhole) (arg10 : Memref sig .tc .vmem S1x128x1 .f32) (harg10 : arg10.IsWhole) (arg11 : Memref sig .tc .vmem S128x1 .f32) (harg11 : arg11.IsWhole) (hc0 : cond0_0 i) (hc1 : ¬cond0_1 i)
    (x0 : Vec F S1x128x128 .f32) (x1 : Vec F S1x128x128 .f32) (x2 : Vec F S128x128 .f32) (x3 : Vec F S1x128 .f32) (x4 : Vec F S1x128 .f32) (x5 : Vec F S1x1 .f32) : Vec F S1x128x1 .f32 :=
  VO0_7.read (Elt F) (VO0_7.writes (Elt F) VO0_7.junk (kernelRun0_A c i arg3 harg3 arg4 harg4 arg5 harg5 arg6 harg6 arg7 harg7 arg8 harg8 arg9 harg9 arg10 harg10 arg11 harg11 hc0 hc1 x0 x1 x2 x3 x4 x5).2.1)
/-- Case A's stores into the column accumulator cover it. -/
theorem scover0_A (c : Dev nD) (i : grid0.Coords) (arg3 : Memref sig .tc .vmem S1x128x128 .f32) (harg3 : arg3.IsWhole) (arg4 : Memref sig .tc .vmem S1x128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x128x128 .f32) (harg9 : arg9.IsWhole) (arg10 : Memref sig .tc .vmem S1x128x1 .f32) (harg10 : arg10.IsWhole) (arg11 : Memref sig .tc .vmem S128x1 .f32) (harg11 : arg11.IsWhole) (hc0 : cond0_0 i) (hc1 : ¬cond0_1 i)
    (x0 : Vec F S1x128x128 .f32) (x1 : Vec F S1x128x128 .f32) (x2 : Vec F S128x128 .f32) (x3 : Vec F S1x128 .f32) (x4 : Vec F S1x128 .f32) (x5 : Vec F S1x1 .f32) (y : S128x1.Idx) : ∃ pc ∈ (kernelRun0_A c i arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun0_A c i arg3 harg3 arg4 harg4 arg5 harg5 arg6 harg6 arg7 harg7 arg8 harg8 arg9 harg9 arg10 harg10 arg11 harg11 hc0 hc1 x0 x1 x2 x3 x4 x5).2.2.1 S128x1.size (by sl_kernel_rfl) y
/-- What case A leaves in the column accumulator. -/
def sout0_A (c : Dev nD) (i : grid0.Coords) (arg3 : Memref sig .tc .vmem S1x128x128 .f32) (harg3 : arg3.IsWhole) (arg4 : Memref sig .tc .vmem S1x128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x128x128 .f32) (harg9 : arg9.IsWhole) (arg10 : Memref sig .tc .vmem S1x128x1 .f32) (harg10 : arg10.IsWhole) (arg11 : Memref sig .tc .vmem S128x1 .f32) (harg11 : arg11.IsWhole) (hc0 : cond0_0 i) (hc1 : ¬cond0_1 i)
    (x0 : Vec F S1x128x128 .f32) (x1 : Vec F S1x128x128 .f32) (x2 : Vec F S128x128 .f32) (x3 : Vec F S1x128 .f32) (x4 : Vec F S1x128 .f32) (x5 : Vec F S1x1 .f32) : Vec F S128x1 .f32 :=
  VS0.read (Elt F) (VS0.writes (Elt F) VS0.junk (kernelRun0_A c i arg3 harg3 arg4 harg4 arg5 harg5 arg6 harg6 arg7 harg7 arg8 harg8 arg9 harg9 arg10 harg10 arg11 harg11 hc0 hc1 x0 x1 x2 x3 x4 x5).2.2.1)

/-- What case B leaves in the edge-weight output's staging buffer: its pieces read back. -/
def out0_B_6 (c : Dev nD) (i : grid0.Coords) (arg3 : Memref sig .tc .vmem S1x128x128 .f32) (harg3 : arg3.IsWhole) (arg4 : Memref sig .tc .vmem S1x128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x128x128 .f32) (harg9 : arg9.IsWhole) (arg10 : Memref sig .tc .vmem S1x128x1 .f32) (harg10 : arg10.IsWhole) (arg11 : Memref sig .tc .vmem S128x1 .f32) (harg11 : arg11.IsWhole) (hc0 : ¬cond0_0 i) (hc1 : ¬cond0_1 i)
    (x0 : Vec F S1x128x128 .f32) (x1 : Vec F S1x128x128 .f32) (x2 : Vec F S128x128 .f32) (x3 : Vec F S1x128 .f32) (x4 : Vec F S1x128 .f32) (x5 : Vec F S1x1 .f32) (xs0 : Vec F S128x1 .f32) : Vec F S1x128x128 .f32 :=
  VO0_6.read (Elt F) (VO0_6.writes (Elt F) VO0_6.junk (kernelRun0_B c i arg3 harg3 arg4 harg4 arg5 harg5 arg6 harg6 arg7 harg7 arg8 harg8 arg9 harg9 arg10 harg10 arg11 harg11 hc0 hc1 x0 x1 x2 x3 x4 x5 xs0).1)
/-- Its one store tiles the block, so the pieces cover it. -/
theorem cover0_B_6 (c : Dev nD) (i : grid0.Coords) (arg3 : Memref sig .tc .vmem S1x128x128 .f32) (harg3 : arg3.IsWhole) (arg4 : Memref sig .tc .vmem S1x128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x128x128 .f32) (harg9 : arg9.IsWhole) (arg10 : Memref sig .tc .vmem S1x128x1 .f32) (harg10 : arg10.IsWhole) (arg11 : Memref sig .tc .vmem S128x1 .f32) (harg11 : arg11.IsWhole) (hc0 : ¬cond0_0 i) (hc1 : ¬cond0_1 i)
    (x0 : Vec F S1x128x128 .f32) (x1 : Vec F S1x128x128 .f32) (x2 : Vec F S128x128 .f32) (x3 : Vec F S1x128 .f32) (x4 : Vec F S1x128 .f32) (x5 : Vec F S1x1 .f32) (xs0 : Vec F S128x1 .f32) (y : S1x128x128.Idx) : ∃ pc ∈ (kernelRun0_B c i arg3 harg3 arg4 harg4 arg5 harg5 arg6 harg6 arg7 harg7 arg8 harg8 arg9 harg9 arg10 harg10 arg11 harg11 hc0 hc1 x0 x1 x2 x3 x4 x5 xs0).1, y ∈ pc.1.set :=
  View.cover_of_tiledL (kernelRun0_B c i arg3 harg3 arg4 harg4 arg5 harg5 arg6 harg6 arg7 harg7 arg8 harg8 arg9 harg9 arg10 harg10 arg11 harg11 hc0 hc1 x0 x1 x2 x3 x4 x5 xs0).1 S1x128x128.size (by sl_kernel_rfl) y
/-- What case B leaves in the degree output's staging buffer (nothing is stored: a placeholder no one consults, the window being idle there). -/
def out0_B_7 (c : Dev nD) (i : grid0.Coords) (arg3 : Memref sig .tc .vmem S1x128x128 .f32) (harg3 : arg3.IsWhole) (arg4 : Memref sig .tc .vmem S1x128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x128x128 .f32) (harg9 : arg9.IsWhole) (arg10 : Memref sig .tc .vmem S1x128x1 .f32) (harg10 : arg10.IsWhole) (arg11 : Memref sig .tc .vmem S128x1 .f32) (harg11 : arg11.IsWhole) (hc0 : ¬cond0_0 i) (hc1 : ¬cond0_1 i)
    (x0 : Vec F S1x128x128 .f32) (x1 : Vec F S1x128x128 .f32) (x2 : Vec F S128x128 .f32) (x3 : Vec F S1x128 .f32) (x4 : Vec F S1x128 .f32) (x5 : Vec F S1x1 .f32) (xs0 : Vec F S128x1 .f32) : Vec F S1x128x1 .f32 :=
  VO0_7.read (Elt F) (VO0_7.writes (Elt F) VO0_7.junk (kernelRun0_B c i arg3 harg3 arg4 harg4 arg5 harg5 arg6 harg6 arg7 harg7 arg8 harg8 arg9 harg9 arg10 harg10 arg11 harg11 hc0 hc1 x0 x1 x2 x3 x4 x5 xs0).2.1)
/-- Case B's stores into the column accumulator cover it. -/
theorem scover0_B (c : Dev nD) (i : grid0.Coords) (arg3 : Memref sig .tc .vmem S1x128x128 .f32) (harg3 : arg3.IsWhole) (arg4 : Memref sig .tc .vmem S1x128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x128x128 .f32) (harg9 : arg9.IsWhole) (arg10 : Memref sig .tc .vmem S1x128x1 .f32) (harg10 : arg10.IsWhole) (arg11 : Memref sig .tc .vmem S128x1 .f32) (harg11 : arg11.IsWhole) (hc0 : ¬cond0_0 i) (hc1 : ¬cond0_1 i)
    (x0 : Vec F S1x128x128 .f32) (x1 : Vec F S1x128x128 .f32) (x2 : Vec F S128x128 .f32) (x3 : Vec F S1x128 .f32) (x4 : Vec F S1x128 .f32) (x5 : Vec F S1x1 .f32) (xs0 : Vec F S128x1 .f32) (y : S128x1.Idx) : ∃ pc ∈ (kernelRun0_B c i arg3 harg3 arg4 harg4 arg5 harg5 arg6 harg6 arg7 harg7 arg8 harg8 arg9 harg9 arg10 harg10 arg11 harg11 hc0 hc1 x0 x1 x2 x3 x4 x5 xs0).2.2.1, y ∈ pc.1.set :=
  View.cover_of_tiledL (kernelRun0_B c i arg3 harg3 arg4 harg4 arg5 harg5 arg6 harg6 arg7 harg7 arg8 harg8 arg9 harg9 arg10 harg10 arg11 harg11 hc0 hc1 x0 x1 x2 x3 x4 x5 xs0).2.2.1 S128x1.size (by sl_kernel_rfl) y
/-- What case B leaves in the column accumulator. -/
def sout0_B (c : Dev nD) (i : grid0.Coords) (arg3 : Memref sig .tc .vmem S1x128x128 .f32) (harg3 : arg3.IsWhole) (arg4 : Memref sig .tc .vmem S1x128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x128x128 .f32) (harg9 : arg9.IsWhole) (arg10 : Memref sig .tc .vmem S1x128x1 .f32) (harg10 : arg10.IsWhole) (arg11 : Memref sig .tc .vmem S128x1 .f32) (harg11 : arg11.IsWhole) (hc0 : ¬cond0_0 i) (hc1 : ¬cond0_1 i)
    (x0 : Vec F S1x128x128 .f32) (x1 : Vec F S1x128x128 .f32) (x2 : Vec F S128x128 .f32) (x3 : Vec F S1x128 .f32) (x4 : Vec F S1x128 .f32) (x5 : Vec F S1x1 .f32) (xs0 : Vec F S128x1 .f32) : Vec F S128x1 .f32 :=
  VS0.read (Elt F) (VS0.writes (Elt F) VS0.junk (kernelRun0_B c i arg3 harg3 arg4 harg4 arg5 harg5 arg6 harg6 arg7 harg7 arg8 harg8 arg9 harg9 arg10 harg10 arg11 harg11 hc0 hc1 x0 x1 x2 x3 x4 x5 xs0).2.2.1)

/-- What case C leaves in the edge-weight output's staging buffer: its pieces read back. -/
def out0_C_6 (c : Dev nD) (i : grid0.Coords) (arg3 : Memref sig .tc .vmem S1x128x128 .f32) (harg3 : arg3.IsWhole) (arg4 : Memref sig .tc .vmem S1x128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x128x128 .f32) (harg9 : arg9.IsWhole) (arg10 : Memref sig .tc .vmem S1x128x1 .f32) (harg10 : arg10.IsWhole) (arg11 : Memref sig .tc .vmem S128x1 .f32) (harg11 : arg11.IsWhole) (hc0 : ¬cond0_0 i) (hc1 : cond0_1 i)
    (x0 : Vec F S1x128x128 .f32) (x1 : Vec F S1x128x128 .f32) (x2 : Vec F S128x128 .f32) (x3 : Vec F S1x128 .f32) (x4 : Vec F S1x128 .f32) (x5 : Vec F S1x1 .f32) (xs0 : Vec F S128x1 .f32) : Vec F S1x128x128 .f32 :=
  VO0_6.read (Elt F) (VO0_6.writes (Elt F) VO0_6.junk (kernelRun0_C c i arg3 harg3 arg4 harg4 arg5 harg5 arg6 harg6 arg7 harg7 arg8 harg8 arg9 harg9 arg10 harg10 arg11 harg11 hc0 hc1 x0 x1 x2 x3 x4 x5 xs0).1)
/-- Its one store tiles the block, so the pieces cover it. -/
theorem cover0_C_6 (c : Dev nD) (i : grid0.Coords) (arg3 : Memref sig .tc .vmem S1x128x128 .f32) (harg3 : arg3.IsWhole) (arg4 : Memref sig .tc .vmem S1x128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x128x128 .f32) (harg9 : arg9.IsWhole) (arg10 : Memref sig .tc .vmem S1x128x1 .f32) (harg10 : arg10.IsWhole) (arg11 : Memref sig .tc .vmem S128x1 .f32) (harg11 : arg11.IsWhole) (hc0 : ¬cond0_0 i) (hc1 : cond0_1 i)
    (x0 : Vec F S1x128x128 .f32) (x1 : Vec F S1x128x128 .f32) (x2 : Vec F S128x128 .f32) (x3 : Vec F S1x128 .f32) (x4 : Vec F S1x128 .f32) (x5 : Vec F S1x1 .f32) (xs0 : Vec F S128x1 .f32) (y : S1x128x128.Idx) : ∃ pc ∈ (kernelRun0_C c i arg3 harg3 arg4 harg4 arg5 harg5 arg6 harg6 arg7 harg7 arg8 harg8 arg9 harg9 arg10 harg10 arg11 harg11 hc0 hc1 x0 x1 x2 x3 x4 x5 xs0).1, y ∈ pc.1.set :=
  View.cover_of_tiledL (kernelRun0_C c i arg3 harg3 arg4 harg4 arg5 harg5 arg6 harg6 arg7 harg7 arg8 harg8 arg9 harg9 arg10 harg10 arg11 harg11 hc0 hc1 x0 x1 x2 x3 x4 x5 xs0).1 S1x128x128.size (by sl_kernel_rfl) y
/-- What case C leaves in the degree output's staging buffer: its pieces read back. -/
def out0_C_7 (c : Dev nD) (i : grid0.Coords) (arg3 : Memref sig .tc .vmem S1x128x128 .f32) (harg3 : arg3.IsWhole) (arg4 : Memref sig .tc .vmem S1x128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x128x128 .f32) (harg9 : arg9.IsWhole) (arg10 : Memref sig .tc .vmem S1x128x1 .f32) (harg10 : arg10.IsWhole) (arg11 : Memref sig .tc .vmem S128x1 .f32) (harg11 : arg11.IsWhole) (hc0 : ¬cond0_0 i) (hc1 : cond0_1 i)
    (x0 : Vec F S1x128x128 .f32) (x1 : Vec F S1x128x128 .f32) (x2 : Vec F S128x128 .f32) (x3 : Vec F S1x128 .f32) (x4 : Vec F S1x128 .f32) (x5 : Vec F S1x1 .f32) (xs0 : Vec F S128x1 .f32) : Vec F S1x128x1 .f32 :=
  VO0_7.read (Elt F) (VO0_7.writes (Elt F) VO0_7.junk (kernelRun0_C c i arg3 harg3 arg4 harg4 arg5 harg5 arg6 harg6 arg7 harg7 arg8 harg8 arg9 harg9 arg10 harg10 arg11 harg11 hc0 hc1 x0 x1 x2 x3 x4 x5 xs0).2.1)
theorem cover0_C_7 (c : Dev nD) (i : grid0.Coords) (arg3 : Memref sig .tc .vmem S1x128x128 .f32) (harg3 : arg3.IsWhole) (arg4 : Memref sig .tc .vmem S1x128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x128x128 .f32) (harg9 : arg9.IsWhole) (arg10 : Memref sig .tc .vmem S1x128x1 .f32) (harg10 : arg10.IsWhole) (arg11 : Memref sig .tc .vmem S128x1 .f32) (harg11 : arg11.IsWhole) (hc0 : ¬cond0_0 i) (hc1 : cond0_1 i)
    (x0 : Vec F S1x128x128 .f32) (x1 : Vec F S1x128x128 .f32) (x2 : Vec F S128x128 .f32) (x3 : Vec F S1x128 .f32) (x4 : Vec F S1x128 .f32) (x5 : Vec F S1x1 .f32) (xs0 : Vec F S128x1 .f32) (y : S1x128x1.Idx) : ∃ pc ∈ (kernelRun0_C c i arg3 harg3 arg4 harg4 arg5 harg5 arg6 harg6 arg7 harg7 arg8 harg8 arg9 harg9 arg10 harg10 arg11 harg11 hc0 hc1 x0 x1 x2 x3 x4 x5 xs0).2.1, y ∈ pc.1.set :=
  View.cover_of_tiledL (kernelRun0_C c i arg3 harg3 arg4 harg4 arg5 harg5 arg6 harg6 arg7 harg7 arg8 harg8 arg9 harg9 arg10 harg10 arg11 harg11 hc0 hc1 x0 x1 x2 x3 x4 x5 xs0).2.1 S1x128x1.size (by sl_kernel_rfl) y
/-- Case C's stores into the column accumulator cover it. -/
theorem scover0_C (c : Dev nD) (i : grid0.Coords) (arg3 : Memref sig .tc .vmem S1x128x128 .f32) (harg3 : arg3.IsWhole) (arg4 : Memref sig .tc .vmem S1x128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x128x128 .f32) (harg9 : arg9.IsWhole) (arg10 : Memref sig .tc .vmem S1x128x1 .f32) (harg10 : arg10.IsWhole) (arg11 : Memref sig .tc .vmem S128x1 .f32) (harg11 : arg11.IsWhole) (hc0 : ¬cond0_0 i) (hc1 : cond0_1 i)
    (x0 : Vec F S1x128x128 .f32) (x1 : Vec F S1x128x128 .f32) (x2 : Vec F S128x128 .f32) (x3 : Vec F S1x128 .f32) (x4 : Vec F S1x128 .f32) (x5 : Vec F S1x1 .f32) (xs0 : Vec F S128x1 .f32) (y : S128x1.Idx) : ∃ pc ∈ (kernelRun0_C c i arg3 harg3 arg4 harg4 arg5 harg5 arg6 harg6 arg7 harg7 arg8 harg8 arg9 harg9 arg10 harg10 arg11 harg11 hc0 hc1 x0 x1 x2 x3 x4 x5 xs0).2.2.1, y ∈ pc.1.set :=
  View.cover_of_tiledL (kernelRun0_C c i arg3 harg3 arg4 harg4 arg5 harg5 arg6 harg6 arg7 harg7 arg8 harg8 arg9 harg9 arg10 harg10 arg11 harg11 hc0 hc1 x0 x1 x2 x3 x4 x5 xs0).2.2.1 S128x1.size (by sl_kernel_rfl) y
/-- What case C leaves in the column accumulator. -/
def sout0_C (c : Dev nD) (i : grid0.Coords) (arg3 : Memref sig .tc .vmem S1x128x128 .f32) (harg3 : arg3.IsWhole) (arg4 : Memref sig .tc .vmem S1x128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x128x128 .f32) (harg9 : arg9.IsWhole) (arg10 : Memref sig .tc .vmem S1x128x1 .f32) (harg10 : arg10.IsWhole) (arg11 : Memref sig .tc .vmem S128x1 .f32) (harg11 : arg11.IsWhole) (hc0 : ¬cond0_0 i) (hc1 : cond0_1 i)
    (x0 : Vec F S1x128x128 .f32) (x1 : Vec F S1x128x128 .f32) (x2 : Vec F S128x128 .f32) (x3 : Vec F S1x128 .f32) (x4 : Vec F S1x128 .f32) (x5 : Vec F S1x1 .f32) (xs0 : Vec F S128x1 .f32) : Vec F S128x1 .f32 :=
  VS0.read (Elt F) (VS0.writes (Elt F) VS0.junk (kernelRun0_C c i arg3 harg3 arg4 harg4 arg5 harg5 arg6 harg6 arg7 harg7 arg8 harg8 arg9 harg9 arg10 harg10 arg11 harg11 hc0 hc1 x0 x1 x2 x3 x4 x5 xs0).2.2.1)

/-! ## What the buffers hold after each point -/

/-- After the body at position n: the edge-weight output's staging buffer, the degree output's, the column accumulator —
    the case the closed forms select at n, run at the point's memrefs and input blocks, the accumulator read at what
    position n - 1 left when the column tile is not the first. -/
def outsAt0 (c : Dev nD) : (n : ℕ) → n < cfg0.N → Vec F S1x128x128 .f32 × Vec F S1x128x1 .f32 × Vec F S128x1 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩))
  | n + 1, hn =>
    if h0 : (n + 1) % 4 = 0 then
      (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) ((hcond0_0 ⟨n + 1, hn⟩).mpr h0) (fun h => (fun h => by (try dsimp only at h); omega) ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) ((hcond0_0 ⟨n + 1, hn⟩).mpr h0) (fun h => (fun h => by (try dsimp only at h); omega) ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) ((hcond0_0 ⟨n + 1, hn⟩).mpr h0) (fun h => (fun h => by (try dsimp only at h); omega) ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩))
    else
      if h1 : (n + 1) % 4 = 3 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt0 c n (Nat.lt_of_succ_lt hn)).2.2, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt0 c n (Nat.lt_of_succ_lt hn)).2.2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt0 c n (Nat.lt_of_succ_lt hn)).2.2)
      else
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) (fun h => h0 ((hcond0_0 ⟨n + 1, hn⟩).mp h)) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt0 c n (Nat.lt_of_succ_lt hn)).2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) (fun h => h0 ((hcond0_0 ⟨n + 1, hn⟩).mp h)) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt0 c n (Nat.lt_of_succ_lt hn)).2.2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) (fun h => h0 ((hcond0_0 ⟨n + 1, hn⟩).mp h)) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt0 c n (Nat.lt_of_succ_lt hn)).2.2)

theorem outsAt0_A (c : Dev nD) (t : Fin cfg0.N) (h0 : t.val % 4 = 0) :
    outsAt0 V c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) ((hcond0_0 t).mpr h0) (fun h => (fun h => by (try dsimp only at h); omega) ((hcond0_1 t).mp h)) (iblk V c 0 t) (iblk V c 1 t) (iblk V c 2 t) (iblk V c 3 t) (iblk V c 4 t) (iblk V c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) ((hcond0_0 t).mpr h0) (fun h => (fun h => by (try dsimp only at h); omega) ((hcond0_1 t).mp h)) (iblk V c 0 t) (iblk V c 1 t) (iblk V c 2 t) (iblk V c 3 t) (iblk V c 4 t) (iblk V c 5 t), sout0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) ((hcond0_0 t).mpr h0) (fun h => (fun h => by (try dsimp only at h); omega) ((hcond0_1 t).mp h)) (iblk V c 0 t) (iblk V c 1 t) (iblk V c 2 t) (iblk V c 3 t) (iblk V c 4 t) (iblk V c 5 t)) := by
  obtain ⟨n, hn⟩ := t
  cases n with
  | zero => exact rfl
  | succ n => exact (dif_pos h0).trans rfl

theorem outsAt0_B (c : Dev nD) (t : Fin cfg0.N) (h0 : ¬t.val % 4 = 0) (h1 : ¬t.val % 4 = 3) :
    outsAt0 V c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) (fun h => h1 ((hcond0_1 t).mp h)) (iblk V c 0 t) (iblk V c 1 t) (iblk V c 2 t) (iblk V c 3 t) (iblk V c 4 t) (iblk V c 5 t) (outsAt0 V c (t.val - 1) (Nat.lt_of_le_of_lt (Nat.sub_le _ _) t.isLt)).2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) (fun h => h1 ((hcond0_1 t).mp h)) (iblk V c 0 t) (iblk V c 1 t) (iblk V c 2 t) (iblk V c 3 t) (iblk V c 4 t) (iblk V c 5 t) (outsAt0 V c (t.val - 1) (Nat.lt_of_le_of_lt (Nat.sub_le _ _) t.isLt)).2.2, sout0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) (fun h => h1 ((hcond0_1 t).mp h)) (iblk V c 0 t) (iblk V c 1 t) (iblk V c 2 t) (iblk V c 3 t) (iblk V c 4 t) (iblk V c 5 t) (outsAt0 V c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) ((hcond0_1 t).mpr h1) (iblk V c 0 t) (iblk V c 1 t) (iblk V c 2 t) (iblk V c 3 t) (iblk V c 4 t) (iblk V c 5 t) (outsAt0 V c (t.val - 1) (Nat.lt_of_le_of_lt (Nat.sub_le _ _) t.isLt)).2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) ((hcond0_1 t).mpr h1) (iblk V c 0 t) (iblk V c 1 t) (iblk V c 2 t) (iblk V c 3 t) (iblk V c 4 t) (iblk V c 5 t) (outsAt0 V c (t.val - 1) (Nat.lt_of_le_of_lt (Nat.sub_le _ _) t.isLt)).2.2, sout0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) ((hcond0_1 t).mpr h1) (iblk V c 0 t) (iblk V c 1 t) (iblk V c 2 t) (iblk V c 3 t) (iblk V c 4 t) (iblk V c 5 t) (outsAt0 V c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_pos h1).trans rfl)

/-- The region's invariant before position n: before the first point the class's (every scoped buffer that is no staging
    buffer at anything, the generator register at some state); afterwards the same with the column accumulator at what
    the point before left in it. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2.2) ∗ rest13 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare ((outsAt0 V c n hn).2.2) ∗ rest13 c) ∗ (∃ r, prngReg c r)) := rfl

theorem PhiS_pos (c : Dev nD) (n : ℕ) (h : n ≤ cfg0.N) (hz : n ≠ 0) :
    PhiS V c n h = iprop(iprop(owns (c : Thread nD τ) scM0 fullShare ((outsAt0 V c (n - 1) (by omega)).2.2) ∗ rest13 c) ∗ (∃ r, prngReg c r)) := by
  cases n with
  | zero => exact absurd rfl hz
  | succ n => rfl

/-! ## The proof data -/

/-- The region's proof data on core c: the arrays as the region finds them; after the body each input's buffer at its
    block and the outputs' at what the point leaves; the invariant above; nothing owed. The node features are read
    through two windows, which hold the array at the two halves of the full share. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (outsAt0 V c t.val t.isLt).1
    | ⟨7, _⟩ => (outsAt0 V c t.val t.isLt).2.1
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = iblk V c 2 t := by dsimp only [dat]
theorem after0_3 (c : Dev nD) (t : Fin cfg0.N) : (dat V c).after 3 t = iblk V c 3 t := by dsimp only [dat]
theorem after0_4 (c : Dev nD) (t : Fin cfg0.N) : (dat V c).after 4 t = iblk V c 4 t := by dsimp only [dat]
theorem after0_5 (c : Dev nD) (t : Fin cfg0.N) : (dat V c).after 5 t = iblk V c 5 t := by dsimp only [dat]
theorem after0_6 (c : Dev nD) (t : Fin cfg0.N) : (dat V c).after 6 t = (outsAt0 V c t.val t.isLt).1 := by dsimp only [dat]
theorem after0_7 (c : Dev nD) (t : Fin cfg0.N) : (dat V c).after 7 t = (outsAt0 V c t.val t.isLt).2.1 := by dsimp only [dat]

theorem before0_0 (c : Dev nD) (t : Fin cfg0.N) (d) : (dat V c).before 0 t d = iblk V c 0 t :=
  before0_0_of V (dat V c) (A_eq V c 0) (after0_0 V c) t d
theorem before0_1 (c : Dev nD) (t : Fin cfg0.N) (d) : (dat V c).before 1 t d = iblk V c 1 t :=
  before0_1_of V (dat V c) (A_eq V c 1) (after0_1 V c) t d
theorem before0_2 (c : Dev nD) (t : Fin cfg0.N) (d) : (dat V c).before 2 t d = iblk V c 2 t :=
  before0_2_of V (dat V c) (A_eq V c 2) (after0_2 V c) t d
theorem before0_3 (c : Dev nD) (t : Fin cfg0.N) (d) : (dat V c).before 3 t d = iblk V c 3 t :=
  before0_3_of V (dat V c) (A_eq V c 3) (after0_3 V c) t d
theorem before0_4 (c : Dev nD) (t : Fin cfg0.N) (d) : (dat V c).before 4 t d = iblk V c 4 t :=
  before0_4_of V (dat V c) (A_eq V c 4) (after0_4 V c) t d
theorem before0_5 (c : Dev nD) (t : Fin cfg0.N) (d) : (dat V c).before 5 t d = iblk V c 5 t :=
  before0_5_of V (dat V c) (A_eq V c 5) (after0_5 V c) t d

/-! ## The body obligation, at a generic point -/

def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d))
    ∗ (∃ d, owns (c : Thread nD τ) (ms0_4 t) fullShare ((dat V c).before 4 t d))
    ∗ (∃ d, owns (c : Thread nD τ) (ms0_5 t) fullShare ((dat V c).before 5 t d))
    ∗ (∃ d, owns (c : Thread nD τ) (ms0_6 t) fullShare ((dat V c).before 6 t d))
    ∗ (∃ d, owns (c : Thread nD τ) (ms0_7 t) fullShare ((dat V c).before 7 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t)

set_option maxHeartbeats 8000000 in
/-- The body at any point: the inputs' memrefs hold their blocks; the closed forms say which case the point is in; the
    invariant hands the body the accumulator (at anything at the first point, at what the point before left afterwards)
    and takes it back at this point's contents; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4, before0_5]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0_0 t) fullShare ((dat V c).after 0 t) from by
    unfold Dat.leavesExact; rw [liveAt0_0 t], after0_0]
  rw [show (dat V c).leavesExact 1 t = owns (c : Thread nD τ) (ms0_1 t) fullShare ((dat V c).after 1 t) from by
    unfold Dat.leavesExact; rw [liveAt0_1 t], after0_1]
  rw [show (dat V c).leavesExact 2 t = owns (c : Thread nD τ) (ms0_2 t) fullShare ((dat V c).after 2 t) from by
    unfold Dat.leavesExact; rw [liveAt0_2 t], after0_2]
  rw [show (dat V c).leavesExact 3 t = owns (c : Thread nD τ) (ms0_3 t) fullShare ((dat V c).after 3 t) from by
    unfold Dat.leavesExact; rw [liveAt0_3 t], after0_3]
  rw [show (dat V c).leavesExact 4 t = owns (c : Thread nD τ) (ms0_4 t) fullShare ((dat V c).after 4 t) from by
    unfold Dat.leavesExact; rw [liveAt0_4 t], after0_4]
  rw [show (dat V c).leavesExact 5 t = owns (c : Thread nD τ) (ms0_5 t) fullShare ((dat V c).after 5 t) from by
    unfold Dat.leavesExact; rw [liveAt0_5 t], after0_5]
  rw [show (dat V c).leavesExact 6 t = owns (c : Thread nD τ) (ms0_6 t) fullShare ((dat V c).after 6 t) from by
    unfold Dat.leavesExact; rw [liveAt0_6 t], after0_6]
  by_cases h0 : t.val % 4 = 0
  · rw [Dat.leavesExact_idle (dat V c) 7 t (idleAt0_7 t (fun h => (fun h => by (try dsimp only at h); omega) ((hcond0_1 t).mp h))) (noFlush0_7 t (fun h => (fun h => by (try dsimp only at h); omega) ((hcond0_1 t).mp h)))]
    rw [outsAt0_A V c t h0]
    unfold out0_A_6 sout0_A; (try dsimp only)
    by_cases hz : t.val = 0
    · rw [PhiS_castSucc V c t, PhiS_zero V c _ _ hz, PhiA0_eq]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (fun h => (fun h => by (try dsimp only at h); omega) ((hcond0_1 t).mp h)) (iblk V c 0 t) (iblk V c 1 t) (iblk V c 2 t) (iblk V c 3 t) (iblk V c 4 t) (iblk V c 5 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      iintro ⟨H0, H1, H2, H3, H4, H5, ⟨%e6, H6⟩, H7, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A c _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _)
      iexists _; iexact H7
    · rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (fun h => (fun h => by (try dsimp only at h); omega) ((hcond0_1 t).mp h)) (iblk V c 0 t) (iblk V c 1 t) (iblk V c 2 t) (iblk V c 3 t) (iblk V c 4 t) (iblk V c 5 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexists _; iexact HS0
      iintro ⟨H0, H1, H2, H3, H4, H5, ⟨%e6, H6⟩, H7, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A c _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _)
      iexists _; iexact H7
  · have hz : t.val ≠ 0 := fun e => h0 (by rw [e])
    by_cases h1 : t.val % 4 = 3
    · rw [show (dat V c).leavesExact 7 t = owns (c : Thread nD τ) (ms0_7 t) fullShare ((dat V c).after 7 t) from by
        unfold Dat.leavesExact; rw [liveAt0_7 t ((hcond0_1 t).mpr h1)], after0_7]
      rw [outsAt0_C V c t h0 h1]
      unfold out0_C_6 out0_C_7 sout0_C; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C c (grid0.coords t) _ _ _ _ _ _ _ _ _ _ _ _ _ _ _ _ _ _ (fun h => h0 ((hcond0_0 t).mp h)) ((hcond0_1 t).mpr h1) (iblk V c 0 t) (iblk V c 1 t) (iblk V c 2 t) (iblk V c 3 t) (iblk V c 4 t) (iblk V c 5 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C c _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _)
      unfold owns; iexists _; isplitr
      swap; · iexact H7
      ipureintro; exact View.read_writes_of_cover _ _ _ _ _ (cover0_C_7 c _ _ _ _ _ _ _ _ _ _ _ _ _ _ _ _ _ _ _ _ _ _ _ _ _ _ _ _)
    · rw [Dat.leavesExact_idle (dat V c) 7 t (idleAt0_7 t (fun h => h1 ((hcond0_1 t).mp h))) (noFlush0_7 t (fun h => h1 ((hcond0_1 t).mp h)))]
      rw [outsAt0_B V c t h0 h1]
      unfold out0_B_6 sout0_B; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ (fun h => h0 ((hcond0_0 t).mp h)) (fun h => h1 ((hcond0_1 t).mp h)) (iblk V c 0 t) (iblk V c 1 t) (iblk V c 2 t) (iblk V c 3 t) (iblk V c 4 t) (iblk V c 5 t) _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      iintro ⟨H0, H1, H2, H3, H4, H5, ⟨%e6, H6⟩, H7, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B c _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _)
      iexists _; iexact H7

/-- The library's body obligation, at every point. -/
theorem body_obligation (c : Dev nD) : BodyObligation (dat (F := F) V c) (defs₀ (F := F)) Variants.none () Set.univ := fun t => by
  rw [bigSep_W0, bigSep_W0]
  exact sound_body V c t

/-- What the region is handed is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives it back: the accumulator's named contents are forgotten. -/
theorem hout (c : Dev nD) : (dat V c).Φ (Fin.last cfg0.N) ⊢ Pipeline.ΦA spec0 c := by
  have hN : cfg0.N = 128 := N_0
  rw [show (dat V c).Φ (Fin.last cfg0.N) = PhiS V c (Fin.last cfg0.N).val (Nat.le_of_lt_succ (Fin.last cfg0.N).isLt) from rfl,
    PhiS_pos V c _ _ (by rw [Fin.val_last]; omega), PhiA0_eq]
  iintro ⟨⟨HS0, HR⟩, Hg⟩
  isplitl [HS0 HR]
  · isplitl [HS0]
    · iexists _; iexact HS0
    iexact HR
  iexact Hg

end Cert.KernelIdeal.R0

end
-- ==== Proof.KI1Kit.lean ====
/-
  The second kernel region (the aggregation layer), stated over an arbitrary valuation V of the core's buffers
  at the region's entry: what the runs of its body share.

  The grid has 32 points, t = 4 * b + i for graph b and row block i. The body projects the graph's features
  into a scratch buffer at the first row block of each graph (i = 0) and reads that scratch at every row block;
  it then stores the row block's output whole. Here: each window's block at a point as read off V, the fact
  that an input's staging buffer holds its block at every point (fetched there or not), the branch condition
  in closed form, the staging and scratch memrefs, and the region's invariant with the scratch buffer singled
  out among the scoped buffers.
-/
import proofs.«112107_j17961553231914_2_alg».proof.Proof.Gen.KernelIdeal.Launch
import proofs.«112107_j17961553231914_2_alg».proof.Proof.Gen.KernelIdeal.Skeleton
import proofs.«112107_j17961553231914_2_alg».proof.Proof.Gen.KernelIdeal.Points
import Idealize.ShloMosaic.Lib.Pipeline.FrameBody
import Idealize.ShloMosaic.Lib.Ring
import Idealize.ShloMosaic.Lib.Tactic

-- membership in a rectangle of these extents is decided structurally, one step per coordinate of the long axes
set_option maxRecDepth 16384

noncomputable section

namespace Cert.KernelIdeal.R1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: where the window is not fetched its block
    index has not moved. -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is `V`'s and whose body leaves the block in place: where the window is not fetched its block
    index has not moved. -/
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is `V`'s and whose body leaves the block in place: where the window is not fetched its block
    index has not moved. -/
theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof
    data whose array is `V`'s and whose body leaves the block in place: where the window is not fetched its block
    index has not moved. -/
theorem before3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof
    data whose array is `V`'s and whose body leaves the block in place: where the window is not fetched its block
    index has not moved. -/
theorem before4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not, for any proof
    data whose array is `V`'s and whose body leaves the block in place: where the window is not fetched its block
    index has not moved. -/
theorem before5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- The condition of the body's one conditional: the row-block coordinate is zero. -/
abbrev cond0 (i : grid1.Coords) : Prop := (Scalar.cmpi .ne (Scalar.extui (Scalar.cmpi .eq (BitVec.ofNat 32 (i 1).val) 0#32)) 0#32) = 1#1
/-- It holds exactly at the first point of each graph's group of four. -/
theorem hcond0 : ∀ t : Fin cfg1.N, cond0 (grid1.coords t) ↔ t.val % 4 = 0 :=
  (by decide +kernel : ∀ t : Fin grid1.N, cond0 (grid1.coords t) ↔ t.val % 4 = 0)

/-! ## The staging and scratch memrefs -/

/-- One staging buffer of the output window, through which its contents are stated (the choice does not matter). -/
abbrev VO6 : View sig .tc .vmem S1x128x128 .f32 := (Memref.whole cc1_stg6_0 : Memref sig .tc .vmem S1x128x128 .f32).view
abbrev ms0 (t : Fin cfg1.N) : Memref sig .tc .vmem S1x512x128 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S128x128 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x128x512 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x128x1 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1x1x512 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S1x128 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S1x128x128 .f32 := win1_6.stage (cfg1.slots t 6)
abbrev hs6 (t : Fin cfg1.N) : (ms6 t).IsWhole := hstage1_6 ((cfg1.slots t 6).cast nbuf1_6)
/-- The scratch operand: a whole scoped buffer of the kernel's own, holding the projected features. -/
abbrev scM : Memref sig .tc .vmem S512x128 .f32 := Memref.whole cc1_scratch0
/-- The scratch as a view: what it holds is stated through it. -/
abbrev VS : View sig .tc .vmem S512x128 .f32 := scM.view

/-! ## The invariant with the scratch singled out -/

/-- The core's scoped buffers that are no staging buffer of this region: the thirteen that belong to the first
    region, each whole at some contents, and then this kernel's scratch in the state `P`. -/
def scopedWith (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_scratch0), ((c : Thread nD τ).loc cc0_scratch0) ↦{fullShare} f) ∗ P)

/-- The region's invariant as the launch states it: every scoped buffer at some contents — the scratch among
    them, owned as a memref — and the generator register at some state. -/
theorem PhiA_eq (c : Dev nD) :
    (Pipeline.ΦA spec1 c : sProp 𝕄)
      = iprop(scopedWith c (iprop(∃ d, owns (c : Thread nD τ) scM fullShare d)) ∗ (∃ r, prngReg c r)) := by
  unfold Pipeline.ΦA scopedWith; rw [scopedRest1_eq]; simp only [scM, owns_whole]; try rfl

end Cert.KernelIdeal.R1

end
-- ==== Proof.KI1RunA.lean ====
/-
  The body of the second kernel region run once, at a point where the row-block coordinate is zero: the
  projected features are computed from the feature block and the weight block and stored whole into the
  scratch, which is then read back for the aggregation; the output block is stored whole.

  The statement holds the input staging buffers at given contents and the output's staging buffer and the
  scratch at arbitrary contents (both are loaded before they are stored, the loaded values unused), and hands
  the continuation the inputs as they were and the two written buffers as lists of written pieces.
-/
import proofs.«112107_j17961553231914_2_alg».proof.Proof.KI1Kit

-- membership in a rectangle of these extents is decided structurally, one step per coordinate of the long axes
set_option maxRecDepth 16384

noncomputable section

namespace Cert.KernelIdeal.R1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large)
set_option maxHeartbeats 4000000 in
/-- The pieces the body's stores leave in the output's staging memref (`L6`) and in the scratch (`LS`) when the
    condition holds, with the body's triple: from whole memrefs — the six inputs at `x0 … x5`, the output's
    buffer and the scratch at anything — the body runs to the continuation holding the inputs as they were and
    the two others with their pieces written. -/
noncomputable def kernelRunA (c : Dev nD) (i : grid1.Coords) (arg2 : Memref sig .tc .vmem S1x512x128 .f32) (harg2 : arg2.IsWhole) (arg3 : Memref sig .tc .vmem S128x128 .f32) (harg3 : arg3.IsWhole) (arg4 : Memref sig .tc .vmem S1x128x512 .f32) (harg4 : arg4.IsWhole) (arg5 : Memref sig .tc .vmem S1x128x1 .f32) (harg5 : arg5.IsWhole) (arg6 : Memref sig .tc .vmem S1x1x512 .f32) (harg6 : arg6.IsWhole) (arg7 : Memref sig .tc .vmem S1x128 .f32) (harg7 : arg7.IsWhole) (arg8 : Memref sig .tc .vmem S1x128x128 .f32) (harg8 : arg8.IsWhole) (arg9 : Memref sig .tc .vmem S512x128 .f32) (harg9 : arg9.IsWhole) (hc0 : cond0 i)
    (x0 : Vec F S1x512x128 .f32) (x1 : Vec F S128x128 .f32) (x2 : Vec F S1x128x512 .f32) (x3 : Vec F S1x128x1 .f32) (x4 : Vec F S1x1x512 .f32) (x5 : Vec F S1x128 .f32) :
    Σ' (L6 : List (View.Piece (Elt F) S1x128x128 .f32)), { LS : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS)) -∗ K ⟨⟩))
          ⊢ wp frame (wpE (defs₀ (F := F)) Variants.none c none) E (cc1__out_kernel i arg2 harg2 arg3 harg3 arg4 harg4 arg5 harg5 arg6 harg6 arg7 harg7 arg8 harg8 arg9 harg9) K } := by
  refine ⟨?_, ?_, fun E K => ?run⟩
  case run =>
    simp only [cc1__out_kernel_eq_skeleton]; unfold cc1__out_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS

end Cert.KernelIdeal.R1

end
-- ==== Proof.KI1RunB.lean ====
/-
  The body of the second kernel region run once, at a point where the row-block coordinate is not zero: nothing
  is stored into the scratch, which still holds the projected features the first row block of the graph left
  there; they are read for the aggregation and the output block is stored whole.

  The statement holds the input staging buffers and the scratch at given contents and the output's staging
  buffer at arbitrary contents (it is loaded before it is stored, the loaded value unused), and hands the
  continuation the inputs and the scratch as they were and the output's buffer as a list of written pieces.
-/
import proofs.«112107_j17961553231914_2_alg».proof.Proof.KI1RunA

-- membership in a rectangle of these extents is decided structurally, one step per coordinate of the long axes
set_option maxRecDepth 16384

noncomputable section

namespace Cert.KernelIdeal.R1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large)
set_option maxHeartbeats 4000000 in
/-- The pieces the body's store leaves in the output's staging memref when the condition fails, with the body's
    triple: from whole memrefs — the six inputs at `x0 … x5`, the scratch at `xs`, the output's buffer at
    anything — the body runs to the continuation holding the inputs and the scratch as they were and the
    output's buffer with its pieces written. -/
noncomputable def kernelRunB (c : Dev nD) (i : grid1.Coords) (arg2 : Memref sig .tc .vmem S1x512x128 .f32) (harg2 : arg2.IsWhole) (arg3 : Memref sig .tc .vmem S128x128 .f32) (harg3 : arg3.IsWhole) (arg4 : Memref sig .tc .vmem S1x128x512 .f32) (harg4 : arg4.IsWhole) (arg5 : Memref sig .tc .vmem S1x128x1 .f32) (harg5 : arg5.IsWhole) (arg6 : Memref sig .tc .vmem S1x1x512 .f32) (harg6 : arg6.IsWhole) (arg7 : Memref sig .tc .vmem S1x128 .f32) (harg7 : arg7.IsWhole) (arg8 : Memref sig .tc .vmem S1x128x128 .f32) (harg8 : arg8.IsWhole) (arg9 : Memref sig .tc .vmem S512x128 .f32) (harg9 : arg9.IsWhole) (hc0 : ¬cond0 i)
    (x0 : Vec F S1x512x128 .f32) (x1 : Vec F S128x128 .f32) (x2 : Vec F S1x128x512 .f32) (x3 : Vec F S1x128x1 .f32) (x4 : Vec F S1x1x512 .f32) (x5 : Vec F S1x128 .f32) (xs : Vec F S512x128 .f32) :
    { L6 : List (View.Piece (Elt F) S1x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xs) -∗ K ⟨⟩))
          ⊢ wp frame (wpE (defs₀ (F := F)) Variants.none c none) E (cc1__out_kernel i arg2 harg2 arg3 harg3 arg4 harg4 arg5 harg5 arg6 harg6 arg7 harg7 arg8 harg8 arg9 harg9) K } := by
  refine ⟨?_, fun E K => ?run⟩
  case run =>
    simp only [cc1__out_kernel_eq_skeleton]; unfold cc1__out_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; isplitr; · ipureintro; exact harg9.read_unread _
    iexact HS

end Cert.KernelIdeal.R1

end
-- ==== Proof.KI1Frame.lean ====
/-
  The second kernel region's proof data and body obligation, over an arbitrary entry valuation V.

  Per case of the body's conditional: what the run's stores leave in the output's staging buffer and in the
  scratch, with the fact that the stored pieces cover them. Point by point: the pair (output block, scratch
  contents) after the body, by recursion on the point — where the row-block coordinate is zero the scratch is
  recomputed from that point's feature and weight blocks, elsewhere it is what the point before left. The
  invariant carries the scratch at exactly those contents between points; the other scoped buffers and the
  generator register are held at anything. Then the proof data, the body obligation at every point (by cases on
  the condition's closed form), the invariant's two ends, and the two value equations: the scratch after a point
  is the projection payload of the blocks at the first point of the point's group of four, and the output block
  after a point is the aggregation payload of the point's blocks and that scratch.
-/
import proofs.«112107_j17961553231914_2_alg».proof.Proof.KI1RunB

-- membership in a rectangle of these extents is decided structurally, one step per coordinate of the long axes
set_option maxRecDepth 16384

noncomputable section

namespace Cert.KernelIdeal.R1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case's run leaves -/

/-- Where the condition holds, the run's pieces for the output tile its block, so they cover it. -/
theorem coverA_6 (c : Dev nD) (i : grid1.Coords) (arg2 : Memref sig .tc .vmem S1x512x128 .f32) (harg2 : arg2.IsWhole) (arg3 : Memref sig .tc .vmem S128x128 .f32) (harg3 : arg3.IsWhole) (arg4 : Memref sig .tc .vmem S1x128x512 .f32) (harg4 : arg4.IsWhole) (arg5 : Memref sig .tc .vmem S1x128x1 .f32) (harg5 : arg5.IsWhole) (arg6 : Memref sig .tc .vmem S1x1x512 .f32) (harg6 : arg6.IsWhole) (arg7 : Memref sig .tc .vmem S1x128 .f32) (harg7 : arg7.IsWhole) (arg8 : Memref sig .tc .vmem S1x128x128 .f32) (harg8 : arg8.IsWhole) (arg9 : Memref sig .tc .vmem S512x128 .f32) (harg9 : arg9.IsWhole) (hc0 : cond0 i)
    (x0 : Vec F S1x512x128 .f32) (x1 : Vec F S128x128 .f32) (x2 : Vec F S1x128x512 .f32) (x3 : Vec F S1x128x1 .f32) (x4 : Vec F S1x1x512 .f32) (x5 : Vec F S1x128 .f32) (y : S1x128x128.Idx) :
    ∃ pc ∈ (kernelRunA c i arg2 harg2 arg3 harg3 arg4 harg4 arg5 harg5 arg6 harg6 arg7 harg7 arg8 harg8 arg9 harg9 hc0 x0 x1 x2 x3 x4 x5).1, y ∈ pc.1.set :=
  View.cover_of_tiledL (kernelRunA c i arg2 harg2 arg3 harg3 arg4 harg4 arg5 harg5 arg6 harg6 arg7 harg7 arg8 harg8 arg9 harg9 hc0 x0 x1 x2 x3 x4 x5).1 S1x128x128.size (by sl_kernel_rfl) y

/-- What that run leaves in the output's staging buffer: its pieces read back over junk. -/
def outA_6 (c : Dev nD) (i : grid1.Coords) (arg2 : Memref sig .tc .vmem S1x512x128 .f32) (harg2 : arg2.IsWhole) (arg3 : Memref sig .tc .vmem S128x128 .f32) (harg3 : arg3.IsWhole) (arg4 : Memref sig .tc .vmem S1x128x512 .f32) (harg4 : arg4.IsWhole) (arg5 : Memref sig .tc .vmem S1x128x1 .f32) (harg5 : arg5.IsWhole) (arg6 : Memref sig .tc .vmem S1x1x512 .f32) (harg6 : arg6.IsWhole) (arg7 : Memref sig .tc .vmem S1x128 .f32) (harg7 : arg7.IsWhole) (arg8 : Memref sig .tc .vmem S1x128x128 .f32) (harg8 : arg8.IsWhole) (arg9 : Memref sig .tc .vmem S512x128 .f32) (harg9 : arg9.IsWhole) (hc0 : cond0 i)
    (x0 : Vec F S1x512x128 .f32) (x1 : Vec F S128x128 .f32) (x2 : Vec F S1x128x512 .f32) (x3 : Vec F S1x128x1 .f32) (x4 : Vec F S1x1x512 .f32) (x5 : Vec F S1x128 .f32) : Vec F S1x128x128 .f32 :=
  VO6.read (Elt F) (VO6.writes (Elt F) VO6.junk (kernelRunA c i arg2 harg2 arg3 harg3 arg4 harg4 arg5 harg5 arg6 harg6 arg7 harg7 arg8 harg8 arg9 harg9 hc0 x0 x1 x2 x3 x4 x5).1)

/-- Its pieces for the scratch tile it, so they cover it. -/
theorem scoverA (c : Dev nD) (i : grid1.Coords) (arg2 : Memref sig .tc .vmem S1x512x128 .f32) (harg2 : arg2.IsWhole) (arg3 : Memref sig .tc .vmem S128x128 .f32) (harg3 : arg3.IsWhole) (arg4 : Memref sig .tc .vmem S1x128x512 .f32) (harg4 : arg4.IsWhole) (arg5 : Memref sig .tc .vmem S1x128x1 .f32) (harg5 : arg5.IsWhole) (arg6 : Memref sig .tc .vmem S1x1x512 .f32) (harg6 : arg6.IsWhole) (arg7 : Memref sig .tc .vmem S1x128 .f32) (harg7 : arg7.IsWhole) (arg8 : Memref sig .tc .vmem S1x128x128 .f32) (harg8 : arg8.IsWhole) (arg9 : Memref sig .tc .vmem S512x128 .f32) (harg9 : arg9.IsWhole) (hc0 : cond0 i)
    (x0 : Vec F S1x512x128 .f32) (x1 : Vec F S128x128 .f32) (x2 : Vec F S1x128x512 .f32) (x3 : Vec F S1x128x1 .f32) (x4 : Vec F S1x1x512 .f32) (x5 : Vec F S1x128 .f32) (y : S512x128.Idx) :
    ∃ pc ∈ (kernelRunA c i arg2 harg2 arg3 harg3 arg4 harg4 arg5 harg5 arg6 harg6 arg7 harg7 arg8 harg8 arg9 harg9 hc0 x0 x1 x2 x3 x4 x5).2.1, y ∈ pc.1.set :=
  View.cover_of_tiledL (kernelRunA c i arg2 harg2 arg3 harg3 arg4 harg4 arg5 harg5 arg6 harg6 arg7 harg7 arg8 harg8 arg9 harg9 hc0 x0 x1 x2 x3 x4 x5).2.1 S512x128.size (by sl_kernel_rfl) y

/-- What that run leaves in the scratch: its pieces read back over junk. -/
def soutA (c : Dev nD) (i : grid1.Coords) (arg2 : Memref sig .tc .vmem S1x512x128 .f32) (harg2 : arg2.IsWhole) (arg3 : Memref sig .tc .vmem S128x128 .f32) (harg3 : arg3.IsWhole) (arg4 : Memref sig .tc .vmem S1x128x512 .f32) (harg4 : arg4.IsWhole) (arg5 : Memref sig .tc .vmem S1x128x1 .f32) (harg5 : arg5.IsWhole) (arg6 : Memref sig .tc .vmem S1x1x512 .f32) (harg6 : arg6.IsWhole) (arg7 : Memref sig .tc .vmem S1x128 .f32) (harg7 : arg7.IsWhole) (arg8 : Memref sig .tc .vmem S1x128x128 .f32) (harg8 : arg8.IsWhole) (arg9 : Memref sig .tc .vmem S512x128 .f32) (harg9 : arg9.IsWhole) (hc0 : cond0 i)
    (x0 : Vec F S1x512x128 .f32) (x1 : Vec F S128x128 .f32) (x2 : Vec F S1x128x512 .f32) (x3 : Vec F S1x128x1 .f32) (x4 : Vec F S1x1x512 .f32) (x5 : Vec F S1x128 .f32) : Vec F S512x128 .f32 :=
  VS.read (Elt F) (VS.writes (Elt F) VS.junk (kernelRunA c i arg2 harg2 arg3 harg3 arg4 harg4 arg5 harg5 arg6 harg6 arg7 harg7 arg8 harg8 arg9 harg9 hc0 x0 x1 x2 x3 x4 x5).2.1)

/-- Where the condition fails, the run's pieces for the output tile its block, so they cover it. -/
theorem coverB_6 (c : Dev nD) (i : grid1.Coords) (arg2 : Memref sig .tc .vmem S1x512x128 .f32) (harg2 : arg2.IsWhole) (arg3 : Memref sig .tc .vmem S128x128 .f32) (harg3 : arg3.IsWhole) (arg4 : Memref sig .tc .vmem S1x128x512 .f32) (harg4 : arg4.IsWhole) (arg5 : Memref sig .tc .vmem S1x128x1 .f32) (harg5 : arg5.IsWhole) (arg6 : Memref sig .tc .vmem S1x1x512 .f32) (harg6 : arg6.IsWhole) (arg7 : Memref sig .tc .vmem S1x128 .f32) (harg7 : arg7.IsWhole) (arg8 : Memref sig .tc .vmem S1x128x128 .f32) (harg8 : arg8.IsWhole) (arg9 : Memref sig .tc .vmem S512x128 .f32) (harg9 : arg9.IsWhole) (hc0 : ¬cond0 i)
    (x0 : Vec F S1x512x128 .f32) (x1 : Vec F S128x128 .f32) (x2 : Vec F S1x128x512 .f32) (x3 : Vec F S1x128x1 .f32) (x4 : Vec F S1x1x512 .f32) (x5 : Vec F S1x128 .f32) (xs : Vec F S512x128 .f32) (y : S1x128x128.Idx) :
    ∃ pc ∈ (kernelRunB c i arg2 harg2 arg3 harg3 arg4 harg4 arg5 harg5 arg6 harg6 arg7 harg7 arg8 harg8 arg9 harg9 hc0 x0 x1 x2 x3 x4 x5 xs).1, y ∈ pc.1.set :=
  View.cover_of_tiledL (kernelRunB c i arg2 harg2 arg3 harg3 arg4 harg4 arg5 harg5 arg6 harg6 arg7 harg7 arg8 harg8 arg9 harg9 hc0 x0 x1 x2 x3 x4 x5 xs).1 S1x128x128.size (by sl_kernel_rfl) y

/-- What that run leaves in the output's staging buffer: its pieces read back over junk. -/
def outB_6 (c : Dev nD) (i : grid1.Coords) (arg2 : Memref sig .tc .vmem S1x512x128 .f32) (harg2 : arg2.IsWhole) (arg3 : Memref sig .tc .vmem S128x128 .f32) (harg3 : arg3.IsWhole) (arg4 : Memref sig .tc .vmem S1x128x512 .f32) (harg4 : arg4.IsWhole) (arg5 : Memref sig .tc .vmem S1x128x1 .f32) (harg5 : arg5.IsWhole) (arg6 : Memref sig .tc .vmem S1x1x512 .f32) (harg6 : arg6.IsWhole) (arg7 : Memref sig .tc .vmem S1x128 .f32) (harg7 : arg7.IsWhole) (arg8 : Memref sig .tc .vmem S1x128x128 .f32) (harg8 : arg8.IsWhole) (arg9 : Memref sig .tc .vmem S512x128 .f32) (harg9 : arg9.IsWhole) (hc0 : ¬cond0 i)
    (x0 : Vec F S1x512x128 .f32) (x1 : Vec F S128x128 .f32) (x2 : Vec F S1x128x512 .f32) (x3 : Vec F S1x128x1 .f32) (x4 : Vec F S1x1x512 .f32) (x5 : Vec F S1x128 .f32) (xs : Vec F S512x128 .f32) : Vec F S1x128x128 .f32 :=
  VO6.read (Elt F) (VO6.writes (Elt F) VO6.junk (kernelRunB c i arg2 harg2 arg3 harg3 arg4 harg4 arg5 harg5 arg6 harg6 arg7 harg7 arg8 harg8 arg9 harg9 hc0 x0 x1 x2 x3 x4 x5 xs).1)

/-! ## What the output's buffer and the scratch hold after each point -/

/-- The output's staging buffer and the scratch after the body at position `n`: where the row-block coordinate is
    zero what that case's run leaves from the point's blocks; elsewhere the output from the point's blocks and the
    scratch the point before left, and the scratch unchanged. -/
def outsAt (c : Dev nD) : (n : ℕ) → n < cfg1.N → Vec F S1x128x128 .f32 × Vec F S512x128 .f32
  | 0, hn => (outA_6 c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) scM (Memref.isWhole_whole _) ((hcond0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩), soutA c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) scM (Memref.isWhole_whole _) ((hcond0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩))
  | n + 1, hn =>
    if h0 : (n + 1) % 4 = 0 then
      (outA_6 c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM (Memref.isWhole_whole _) ((hcond0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩), soutA c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM (Memref.isWhole_whole _) ((hcond0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩))
    else
      (outB_6 c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM (Memref.isWhole_whole _) (fun h => h0 ((hcond0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt c n (Nat.lt_of_succ_lt hn)).2, (outsAt c n (Nat.lt_of_succ_lt hn)).2)

/-- `outsAt` at a point where the condition holds. -/
theorem outsAt_A (c : Dev nD) (t : Fin cfg1.N) (h0 : t.val % 4 = 0) :
    outsAt V c t.val t.isLt = (outA_6 c (grid1.coords t) (ms0 t) (hs0 t) (ms1 t) (hs1 t) (ms2 t) (hs2 t) (ms3 t) (hs3 t) (ms4 t) (hs4 t) (ms5 t) (hs5 t) (ms6 t) (hs6 t) scM (Memref.isWhole_whole _) ((hcond0 t).mpr h0) (iblk V c 0 t) (iblk V c 1 t) (iblk V c 2 t) (iblk V c 3 t) (iblk V c 4 t) (iblk V c 5 t), soutA c (grid1.coords t) (ms0 t) (hs0 t) (ms1 t) (hs1 t) (ms2 t) (hs2 t) (ms3 t) (hs3 t) (ms4 t) (hs4 t) (ms5 t) (hs5 t) (ms6 t) (hs6 t) scM (Memref.isWhole_whole _) ((hcond0 t).mpr h0) (iblk V c 0 t) (iblk V c 1 t) (iblk V c 2 t) (iblk V c 3 t) (iblk V c 4 t) (iblk V c 5 t)) := by
  obtain ⟨n, hn⟩ := t
  cases n with
  | zero => exact rfl
  | succ n => exact (dif_pos h0).trans rfl

/-- `outsAt` at a point where it fails: over what the point before left. -/
theorem outsAt_B (c : Dev nD) (t : Fin cfg1.N) (h0 : ¬t.val % 4 = 0) :
    outsAt V c t.val t.isLt = (outB_6 c (grid1.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcond0 t).mp h)) (iblk V c 0 t) (iblk V c 1 t) (iblk V c 2 t) (iblk V c 3 t) (iblk V c 4 t) (iblk V c 5 t) (outsAt V c (t.val - 1) (Nat.lt_of_le_of_lt (Nat.sub_le _ _) t.isLt)).2, (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The invariant -/

/-- The region's invariant before position `n`: before the first point what the launch hands over (every scoped
    buffer at anything); afterwards the scratch at what the point before left in it, the other scoped buffers at
    anything, and the generator register at some state. -/
def PhiS (c : Dev nD) : (n : ℕ) → n ≤ cfg1.N → sProp 𝕄
  | 0, _ => Pipeline.ΦA spec1 c
  | n + 1, hn => iprop(scopedWith c (owns (c : Thread nD τ) scM fullShare ((outsAt V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(scopedWith c (owns (c : Thread nD τ) scM fullShare ((outsAt V c n hn).2)) ∗ (∃ r, prngReg c r)) := rfl

theorem PhiS_pos (c : Dev nD) (n : ℕ) (h : n ≤ cfg1.N) (hz : n ≠ 0) :
    PhiS V c n h = iprop(scopedWith c (owns (c : Thread nD τ) scM fullShare ((outsAt V c (n - 1) (by omega)).2)) ∗ (∃ r, prngReg c r)) := by
  cases n with
  | zero => exact absurd rfl hz
  | succ n => rfl

/-! ## The proof data -/

/-- The region's proof data on core `c`: the arrays as the region finds them; after the body at point `t` each
    input's buffer at its block and the output's at `outsAt`'s first component; the invariant `PhiS`; nothing owed;
    full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = iblk V c 3 t := by dsimp only [dat]
theorem after4 (c : Dev nD) (t : Fin cfg1.N) : (dat V c).after 4 t = iblk V c 4 t := by dsimp only [dat]
theorem after5 (c : Dev nD) (t : Fin cfg1.N) : (dat V c).after 5 t = iblk V c 5 t := by dsimp only [dat]
theorem after6 (c : Dev nD) (t : Fin cfg1.N) : (dat V c).after 6 t = (outsAt V c t.val t.isLt).1 := by dsimp only [dat]

theorem before0 (c : Dev nD) (t : Fin cfg1.N) (d) : (dat V c).before 0 t d = iblk V c 0 t :=
  before0_of V (dat V c) (A_eq V c 0) (after0 V c) t d
theorem before1 (c : Dev nD) (t : Fin cfg1.N) (d) : (dat V c).before 1 t d = iblk V c 1 t :=
  before1_of V (dat V c) (A_eq V c 1) (after1 V c) t d
theorem before2 (c : Dev nD) (t : Fin cfg1.N) (d) : (dat V c).before 2 t d = iblk V c 2 t :=
  before2_of V (dat V c) (A_eq V c 2) (after2 V c) t d
theorem before3 (c : Dev nD) (t : Fin cfg1.N) (d) : (dat V c).before 3 t d = iblk V c 3 t :=
  before3_of V (dat V c) (A_eq V c 3) (after3 V c) t d
theorem before4 (c : Dev nD) (t : Fin cfg1.N) (d) : (dat V c).before 4 t d = iblk V c 4 t :=
  before4_of V (dat V c) (A_eq V c 4) (after4 V c) t d
theorem before5 (c : Dev nD) (t : Fin cfg1.N) (d) : (dat V c).before 5 t d = iblk V c 5 t :=
  before5_of V (dat V c) (A_eq V c 5) (after5 V c) t d

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d)))

/-- and what it returns: no window is idle at any point, so each buffer at what the body leaves. -/
def bodyPost (c : Dev nD) (t : Fin cfg1.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t)
    ∗ owns (c : Thread nD τ) (ms5 t) fullShare ((dat V c).after 5 t)
    ∗ owns (c : Thread nD τ) (ms6 t) fullShare ((dat V c).after 6 t))

set_option maxHeartbeats 4800000 in
/-- The body at any point. The inputs' memrefs hold their blocks; the closed form of the condition says which case
    the point is in. The invariant hands the body the scratch — at anything before the first point, at what the
    point before left otherwise — and takes it back at this point's contents; the output's buffer goes in at
    anything and comes back with this point's block; the other scoped buffers, the generator register and the
    core's dues pass through. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4, before5]
  rw [show (dat V c).owesAt () t.succ = (dat V c).owesAt () t.castSucc from rfl]
  rw [show (dat V c).Φ t.succ = PhiS V c (t.val + 1) t.isLt from rfl, PhiS_succ]
  rw [after0, after1, after2, after3, after4, after5, after6]
  by_cases h0 : t.val % 4 = 0
  · rw [outsAt_A V c t h0]
    unfold outA_6 soutA; (try dsimp only)
    by_cases hz : t.val = 0
    · rw [PhiS_castSucc V c t, PhiS_zero V c _ _ hz, PhiA_eq]; unfold scopedWith
      iintro ⟨⟨⟨HR0, HR1, HR2, HR3, HR4, HR5, HR6, HR7, HR8, HR9, HR10, HR11, HR12, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRunA c (grid1.coords t) _ _ _ _ _ _ _ _ _ _ _ _ _ _ _ _ ((hcond0 t).mpr h0) (iblk V c 0 t) (iblk V c 1 t) (iblk V c 2 t) (iblk V c 3 t) (iblk V c 4 t) (iblk V c 5 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, ⟨%es, HS⟩⟩
      isplitl [HR0 HR1 HR2 HR3 HR4 HR5 HR6 HR7 HR8 HR9 HR10 HR11 HR12 HS Hg]
      · isplitl [HR0 HR1 HR2 HR3 HR4 HR5 HR6 HR7 HR8 HR9 HR10 HR11 HR12 HS]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          unfold owns; iexists _; isplitr
          swap; · iexact HS
          ipureintro; exact View.read_writes_of_cover _ _ _ _ _ (scoverA c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverA_6 c _ _ _ _ _ _ _ _ _ _ _ _ _ _ _ _ _ _ _ _ _ _ _ _)
    · rw [PhiS_castSucc V c t, PhiS_pos V c _ _ hz]; unfold scopedWith
      iintro ⟨⟨⟨HR0, HR1, HR2, HR3, HR4, HR5, HR6, HR7, HR8, HR9, HR10, HR11, HR12, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRunA c (grid1.coords t) _ _ _ _ _ _ _ _ _ _ _ _ _ _ _ _ ((hcond0 t).mpr h0) (iblk V c 0 t) (iblk V c 1 t) (iblk V c 2 t) (iblk V c 3 t) (iblk V c 4 t) (iblk V c 5 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexists _; iexact HS
      iintro ⟨H0, H1, H2, H3, H4, H5, ⟨%e6, H6⟩, ⟨%es, HS⟩⟩
      isplitl [HR0 HR1 HR2 HR3 HR4 HR5 HR6 HR7 HR8 HR9 HR10 HR11 HR12 HS Hg]
      · isplitl [HR0 HR1 HR2 HR3 HR4 HR5 HR6 HR7 HR8 HR9 HR10 HR11 HR12 HS]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          unfold owns; iexists _; isplitr
          swap; · iexact HS
          ipureintro; exact View.read_writes_of_cover _ _ _ _ _ (scoverA c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverA_6 c _ _ _ _ _ _ _ _ _ _ _ _ _ _ _ _ _ _ _ _ _ _ _ _)
  · rw [outsAt_B V c t h0]
    unfold outB_6; (try dsimp only)
    have hz : t.val ≠ 0 := fun h => h0 (by rw [h])
    rw [PhiS_castSucc V c t, PhiS_pos V c _ _ hz]; unfold scopedWith
    iintro ⟨⟨⟨HR0, HR1, HR2, HR3, HR4, HR5, HR6, HR7, HR8, HR9, HR10, HR11, HR12, HS⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRunB c (grid1.coords t) _ _ _ _ _ _ _ _ _ _ _ _ _ _ _ _ (fun h => h0 ((hcond0 t).mp h)) (iblk V c 0 t) (iblk V c 1 t) (iblk V c 2 t) (iblk V c 3 t) (iblk V c 4 t) (iblk V c 5 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, ⟨%e6, H6⟩, HS⟩
    isplitl [HR0 HR1 HR2 HR3 HR4 HR5 HR6 HR7 HR8 HR9 HR10 HR11 HR12 HS Hg]
    · isplitl [HR0 HR1 HR2 HR3 HR4 HR5 HR6 HR7 HR8 HR9 HR10 HR11 HR12 HS]
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        isplitl [HR10]; · iexact HR10
        isplitl [HR11]; · iexact HR11
        isplitl [HR12]; · iexact HR12
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (coverB_6 c _ _ _ _ _ _ _ _ _ _ _ _ _ _ _ _ _ _ _ _ _ _ _ _ _)

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives the launch's form back: the scratch's contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]; unfold scopedWith
  iintro ⟨⟨HR0, HR1, HR2, HR3, HR4, HR5, HR6, HR7, HR8, HR9, HR10, HR11, HR12, HS⟩, Hg⟩
  isplitl [HR0 HR1 HR2 HR3 HR4 HR5 HR6 HR7 HR8 HR9 HR10 HR11 HR12 HS]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    iexists _; iexact HS
  iexact Hg

/-- The same after the last point. -/
theorem hout (c : Dev nD) : (dat V c).Φ (Fin.last cfg1.N) ⊢ Pipeline.ΦA spec1 c :=
  Phi_out V c _ (by rw [Fin.val_last]; have : cfg1.N = 32 := N_1; omega)

end Cert.KernelIdeal.R1

end
-- ==== Proof.KIMain.lean ====
/-
  The program's run as its four items in order: the four reshapes before the first kernel region, that region, the
  host lines that turn the degree into its power -1/2 as a column and as a row, the second kernel region.

  Between two items every unscoped buffer of a core is held whole at a valuation: W0 the launch memory, W1 after the
  reshapes, W2 the same with the first region's two outputs at what its pipeline leaves, W3 after the host lines, W4
  with the second region's output at what its pipeline leaves. The first region reads the node features through two
  windows: entering it the array is dealt to them at the two halves of the full share, and leaving it the halves are
  joined. The run's post says every unscoped buffer ends at W4; the frame and the results are read off it.
-/
import proofs.«112107_j17961553231914_2_alg».proof.Proof.Gen.KernelIdeal.Regions
import proofs.«112107_j17961553231914_2_alg».proof.Proof.KI0Frame
import proofs.«112107_j17961553231914_2_alg».proof.Proof.KI1Frame
import proofs.«112107_j17961553231914_2_alg».proof.Proof.LibSharedOctet
import Idealize.ShloMosaic.Lib.Pipeline.Frame
import Idealize.ShloMosaic.Lib.Pipeline.Regions
import Idealize.ShloMosaic.Lib.Pipeline.RegionsLoop

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- Core c's buffers at launch. -/
abbrev W0 (c : Dev nD) : Valuation τ sig (Elt F) := fun b => m (c, b)
/-- After the four reshapes. -/
abbrev W1 (c : Dev nD) : Valuation τ sig (Elt F) := StableHlo.after hostOps0 (W0 m c)
/-- The same read at the TensorCore's references: what the first region's proof data take. -/
abbrev E1 : (c : Dev nD) → (b : Ref sig .tc) → Buf (Elt F) ((c : Thread nD τ).loc b) := fun c b => W1 m c b
/-- After the first region: its two outputs at what its pipeline leaves, every other buffer as entered. -/
def W2 (c : Dev nD) : Valuation τ sig (Elt F) :=
  Function.update (Function.update (W1 m c) main_v4_0 ((R0.dat (E1 m) c).arrAt 6 cfg0.N)) main_v4_1 ((R0.dat (E1 m) c).arrAt 7 cfg0.N)
/-- After the host lines between the regions. -/
abbrev W3 (c : Dev nD) : Valuation τ sig (Elt F) := StableHlo.after hostOps1 (W2 m c)
abbrev E3 : (c : Dev nD) → (b : Ref sig .tc) → Buf (Elt F) ((c : Thread nD τ).loc b) := fun c b => W3 m c b
/-- After the second region: its output at what its pipeline leaves. -/
def W4 (c : Dev nD) : Valuation τ sig (Elt F) :=
  Function.update (W3 m c) main_v9 ((R1.dat (E3 m) c).arrAt 6 cfg1.N)

theorem W2_v4_0 (c : Dev nD) : W2 m c main_v4_0 = (R0.dat (E1 m) c).arrAt 6 cfg0.N := by
  unfold W2
  rw [Function.update_of_ne (StableHlo.devRef_ne_of_ne (by decide : main_v4_0 ≠ main_v4_1)), Function.update_self]
theorem W2_v4_1 (c : Dev nD) : W2 m c main_v4_1 = (R0.dat (E1 m) c).arrAt 7 cfg0.N := by
  unfold W2; rw [Function.update_self]
theorem W2_of (c : Dev nD) (r : Ref sig .tc) (h0 : r ≠ main_v4_0) (h1 : r ≠ main_v4_1) : W2 m c r = W1 m c r := by
  unfold W2
  rw [Function.update_of_ne (StableHlo.devRef_ne_of_ne h1), Function.update_of_ne (StableHlo.devRef_ne_of_ne h0)]
theorem W4_v9 (c : Dev nD) : W4 m c main_v9 = (R1.dat (E3 m) c).arrAt 6 cfg1.N := by
  unfold W4; rw [Function.update_self]
theorem W4_of (c : Dev nD) (r : Ref sig .tc) (h : r ≠ main_v9) : W4 m c r = W3 m c r := by
  unfold W4; rw [Function.update_of_ne (StableHlo.devRef_ne_of_ne h)]
theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h

/-- Leaving the first region each window's array holds what the next valuation says: an input's as entered, the two
    outputs' what the pipeline leaves. -/
theorem hF0 (c : Dev nD) (w : Fin cfg0.W) : (R0.dat (E1 m) c).arrAt w cfg0.N = W2 m c (Pipeline.arrRef spec0 w) :=
  match w with
  | ⟨0, _⟩ => (((R0.dat (E1 m) c).arrAt_in 0 rfl _).trans (R0.A_eq (E1 m) c 0)).trans (W2_of m c main_arg0 (by decide) (by decide)).symm
  | ⟨1, _⟩ => (((R0.dat (E1 m) c).arrAt_in 1 rfl _).trans (R0.A_eq (E1 m) c 1)).trans (W2_of m c main_arg0 (by decide) (by decide)).symm
  | ⟨2, _⟩ => (((R0.dat (E1 m) c).arrAt_in 2 rfl _).trans (R0.A_eq (E1 m) c 2)).trans (W2_of m c main_arg1 (by decide) (by decide)).symm
  | ⟨3, _⟩ => (((R0.dat (E1 m) c).arrAt_in 3 rfl _).trans (R0.A_eq (E1 m) c 3)).trans (W2_of m c main_v0 (by decide) (by decide)).symm
  | ⟨4, _⟩ => (((R0.dat (E1 m) c).arrAt_in 4 rfl _).trans (R0.A_eq (E1 m) c 4)).trans (W2_of m c main_v1 (by decide) (by decide)).symm
  | ⟨5, _⟩ => (((R0.dat (E1 m) c).arrAt_in 5 rfl _).trans (R0.A_eq (E1 m) c 5)).trans (W2_of m c main_v2 (by decide) (by decide)).symm
  | ⟨6, _⟩ => (W2_v4_0 m c).symm
  | ⟨7, _⟩ => (W2_v4_1 m c).symm

/-- Every buffer that is no array of the first region's is left as entered. -/
theorem hrest0 (c : Dev nD) (b : Ref sig .tc) (hb : b ∉ Finset.univ.image (Pipeline.arrRef spec0)) : W2 m c b = W1 m c b :=
  W2_of m c b (fun e => hb (Finset.mem_image.mpr ⟨6, Finset.mem_univ _, e.symm⟩)) (fun e => hb (Finset.mem_image.mpr ⟨7, Finset.mem_univ _, e.symm⟩))

theorem hF1 (c : Dev nD) (w : Fin cfg1.W) : (R1.dat (E3 m) c).arrAt w cfg1.N = W4 m c (Pipeline.arrRef spec1 w) :=
  match w with
  | ⟨0, _⟩ => (((R1.dat (E3 m) c).arrAt_in 0 rfl _).trans (R1.A_eq (E3 m) c 0)).trans (W4_of m c main_arg0 (by decide)).symm
  | ⟨1, _⟩ => (((R1.dat (E3 m) c).arrAt_in 1 rfl _).trans (R1.A_eq (E3 m) c 1)).trans (W4_of m c main_arg5 (by decide)).symm
  | ⟨2, _⟩ => (((R1.dat (E3 m) c).arrAt_in 2 rfl _).trans (R1.A_eq (E3 m) c 2)).trans (W4_of m c main_v4_0 (by decide)).symm
  | ⟨3, _⟩ => (((R1.dat (E3 m) c).arrAt_in 3 rfl _).trans (R1.A_eq (E3 m) c 3)).trans (W4_of m c main_v7 (by decide)).symm
  | ⟨4, _⟩ => (((R1.dat (E3 m) c).arrAt_in 4 rfl _).trans (R1.A_eq (E3 m) c 4)).trans (W4_of m c main_v8 (by decide)).symm
  | ⟨5, _⟩ => (((R1.dat (E3 m) c).arrAt_in 5 rfl _).trans (R1.A_eq (E3 m) c 5)).trans (W4_of m c main_v3 (by decide)).symm
  | ⟨6, _⟩ => (W4_v9 m c).symm

theorem hrest1 (c : Dev nD) (b : Ref sig .tc) (hb : b ∉ Finset.univ.image (Pipeline.arrRef spec1)) : W4 m c b = W3 m c b :=
  W4_of m c b (fun e => hb (Finset.mem_image.mpr ⟨6, Finset.mem_univ _, e.symm⟩))

/-! ## The proof data family and the thread state -/

abbrev adm : (p : Fin 2) → (pcfgs (F := F) p).Adm := fun p => (cfgs p).toPCfg_adm

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => R0.dat (E1 m) c
  | ⟨1, _⟩ => fun c => R1.dat (E3 m) c

abbrev 𝒱₀ : Variants := Variants.none
abbrev L : GSem nD τ sig → Finset Unit := fun _ => ∅
abbrev lv : GSem nD τ sig → Unit → ℕ := fun _ _ => 0

/-- What rides beside the buffers through every item: the generator register at some state and the core owing nothing. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the owes. -/
abbrev Tₙ (c : Dev nD) : sProp 𝕄 := iprop(StableHlo.held (c : Thread nD τ) (Pipeline.ucRefs τ sig) (W4 m c) ∗ ∃ r, prngReg c r)

/-! ## The first region's arrays at its entry and its exit: the shared array dealt and joined -/

/-- ENTRY: every unscoped buffer at W1 is the first region's arrays at their entry contents — the node features dealt
    between the two windows that read them — beside the unscoped rest. -/
theorem entry0 (c : Dev nD) :
    (unscopedBufs c (fun b => W1 m c b) : sProp 𝕄)
      ⊢ iprop((pdats m 0 c).arrays ((pdats m 0 c).arrAt · 0) ∗ Pipeline.unscopedRest (Ix := Unit) (Name := ℕ) (U := UR sig nD τ) (Lvl := ℕ) spec0 c (E1 m c)) := by
  rw [Pipeline.unscopedBufs_split₀ cfgs 0 winFacts₀0.arr_unscoped c (fun b => W1 m c b)]
  refine sep_mono ?_ .rfl
  exact Pipeline.arrays_split_octet cfgs (fun p c => pdats m p c) 0 c arr_whole0 0 1 2 3 4 5 6 7 (by decide) (by decide) rfl (by decide)
    fullShare.left fullShare.right (PosShare.mem_left_op_right fullShare) rfl rfl rfl rfl rfl rfl rfl rfl
    (fun b => W1 m c b) _ (fun w => R0.A_eq (E1 m) c w)

/-- EXIT: the arrays at what the pipeline leaves, beside the unscoped rest as entered, are every unscoped buffer at W2. -/
theorem exit0 (c : Dev nD) :
    iprop((pdats m 0 c).arrays ((pdats m 0 c).arrAt · cfg0.N) ∗ Pipeline.unscopedRest (Ix := Unit) (Name := ℕ) (U := UR sig nD τ) (Lvl := ℕ) spec0 c (E1 m c))
      ⊢ (unscopedBufs c (fun b => W2 m c b) : sProp 𝕄) := by
  rw [Pipeline.unscopedBufs_split₀ cfgs 0 winFacts₀0.arr_unscoped c (fun b => W2 m c b)]
  refine sep_mono ?_ (Entails.of_eq ?_)
  · exact Pipeline.arrays_join_octet cfgs (fun p c => pdats m p c) 0 c arr_whole0 0 1 2 3 4 5 6 7 (by decide) (by decide) rfl (by decide)
      fullShare.left fullShare.right (PosShare.mem_left_op_right fullShare) rfl rfl rfl rfl rfl rfl rfl rfl
      (fun b => W2 m c b) _ (fun w => hF0 m c w)
  · unfold Pipeline.unscopedRest
    exact bigSep_congr fun b hb => by
      show (((c : Thread nD τ).loc b) ↦{fullShare} W1 m c b : sProp 𝕄) = (((c : Thread nD τ).loc b) ↦{fullShare} W2 m c b)
      rw [hrest0 m c b (Finset.mem_sdiff.mp hb).2]

/-! ## The regions as segments -/

set_option backward.isDefEq.respectTransparency.types false in
/-- The first kernel region over the thread state: entered from every unscoped buffer at W1, left at W2. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (R0.body_obligation (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := entry0 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (R0.hin (E1 m) c)
    unfold Pipeline.ΦA
    iintro ⟨Hp, -, Hr⟩
    isplitl [Hr]; · iexact Hr
    iexact Hp
  hout c := by
    rw [Pipeline.ownSems0_none]
    refine (R0.hout (E1 m) c).trans ?_
    unfold Pipeline.ΦA
    iintro ⟨Hr, Hp⟩
    isplitl [Hp]; · iexact Hp
    isplitr; · iempintro
    iexact Hr
  hexit c := by
    have hjoin := exit0 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel region: entered from every unscoped buffer at W3, left at W4. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun w => R1.A_eq (E3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (R1.hin (E3 m) c)
    unfold Pipeline.ΦA
    iintro ⟨Hp, -, Hr⟩
    isplitl [Hr]; · iexact Hr
    iexact Hp
  hout c := by
    rw [Pipeline.ownSems0_none]
    refine (R1.hout (E3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (fun b => W4 m c b) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]

theorem main_run (c : Dev nD) : main (F := F) c = Pipeline.Seg.run (segs m) := (main_chain c).trans (by chain_rfl)

set_option backward.isDefEq.respectTransparency.types false in
/-- THE RUN. From any memory with zero counters every weakly fair execution of the program terminates, nothing
    faulting, and in every final memory every unscoped buffer of every core holds what W4 says. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      rw [ownU_emb₁]
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-! ## What the arguments end at -/

theorem W4_main_arg0 (c : Dev nD) : W4 m c main_arg0 = m ((c : Thread nD τ).loc main_arg0) :=
  (W4_of m c main_arg0 (by decide)).trans <| (W3_of m c main_arg0 (by decide)).trans <| (W2_of m c main_arg0 (by decide) (by decide)).trans <| (W1_of m c main_arg0 (by decide)).trans rfl
theorem W4_main_arg1 (c : Dev nD) : W4 m c main_arg1 = m ((c : Thread nD τ).loc main_arg1) :=
  (W4_of m c main_arg1 (by decide)).trans <| (W3_of m c main_arg1 (by decide)).trans <| (W2_of m c main_arg1 (by decide) (by decide)).trans <| (W1_of m c main_arg1 (by decide)).trans rfl
theorem W4_main_arg2 (c : Dev nD) : W4 m c main_arg2 = m ((c : Thread nD τ).loc main_arg2) :=
  (W4_of m c main_arg2 (by decide)).trans <| (W3_of m c main_arg2 (by decide)).trans <| (W2_of m c main_arg2 (by decide) (by decide)).trans <| (W1_of m c main_arg2 (by decide)).trans rfl
theorem W4_main_arg3 (c : Dev nD) : W4 m c main_arg3 = m ((c : Thread nD τ).loc main_arg3) :=
  (W4_of m c main_arg3 (by decide)).trans <| (W3_of m c main_arg3 (by decide)).trans <| (W2_of m c main_arg3 (by decide) (by decide)).trans <| (W1_of m c main_arg3 (by decide)).trans rfl
theorem W4_main_arg4 (c : Dev nD) : W4 m c main_arg4 = m ((c : Thread nD τ).loc main_arg4) :=
  (W4_of m c main_arg4 (by decide)).trans <| (W3_of m c main_arg4 (by decide)).trans <| (W2_of m c main_arg4 (by decide) (by decide)).trans <| (W1_of m c main_arg4 (by decide)).trans rfl
theorem W4_main_arg5 (c : Dev nD) : W4 m c main_arg5 = m ((c : Thread nD τ).loc main_arg5) :=
  (W4_of m c main_arg5 (by decide)).trans <| (W3_of m c main_arg5 (by decide)).trans <| (W2_of m c main_arg5 (by decide) (by decide)).trans <| (W1_of m c main_arg5 (by decide)).trans rfl
theorem W4_main_arg6 (c : Dev nD) : W4 m c main_arg6 = m ((c : Thread nD τ).loc main_arg6) :=
  (W4_of m c main_arg6 (by decide)).trans <| (W3_of m c main_arg6 (by decide)).trans <| (W2_of m c main_arg6 (by decide) (by decide)).trans <| (W1_of m c main_arg6 (by decide)).trans rfl

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c)⟩) (run m ρ)

/-- The results: the two result arrays end at what the pipelines leave, the arguments as launched. -/
theorem results : θ_run defs (onTc (τ := τ) (main (F := F))) ⟨m, fun _ => 0, ρ⟩ (fun r => ∀ c : Dev nD,
      r.2.mem ((c.tc : Thread nD τ).loc main_v9) = (R1.dat (E3 m) c).arrAt 6 cfg1.N
      ∧ r.2.mem ((c.tc : Thread nD τ).loc main_v4_0) = (R0.dat (E1 m) c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v9 (by decide))).trans (W4_v9 m c),
     (h c _ (mem_uc main_v4_0 (by decide))).trans ((W4_of m c main_v4_0 (by decide)).trans ((W3_of m c main_v4_0 (by decide)).trans (W2_v4_0 m c))),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c)⟩) (run m ρ)

end Cert.KernelIdeal.Run

end
-- ==== Proof.KI0Value.lean ====
/-
  The first kernel region's values, generic in the float instance: what the pieces each case's run leaves are in terms
  of the body's payloads, and from them the contents of the three buffers after every point. The block of scores a
  point computes (its edge-weight block) depends on the point's own input blocks only; the column accumulator after
  the point with column tile j is the zero column plus the row sums of the blocks of the column tiles 0 … j of the
  point's row tile, added one tile at a time; at j = 3 the degree output's block is that accumulator.
-/
import proofs.«112107_j17961553231914_2_alg».proof.Proof.Gen.KernelIdeal.Launch
import proofs.«112107_j17961553231914_2_alg».proof.Proof.Gen.KernelIdeal.Skeleton
import proofs.«112107_j17961553231914_2_alg».proof.Proof.Gen.KernelIdeal.Points
import proofs.«112107_j17961553231914_2_alg».proof.Proof.KI0Frame
import Idealize.ShloMosaic.Lib.Pipeline.Value
import Idealize.ShloMosaic.Lib.Pipeline.FrameBody
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-! ## The found pieces are the payloads -/

/-- In case A the edge-weight output's staging buffer is left at the block of scores the point computes. -/
theorem out0_A_6_eq (c : Dev nD) (i : grid0.Coords) (arg3 : Memref sig .tc .vmem S1x128x128 .f32) (harg3 : arg3.IsWhole) (arg4 : Memref sig .tc .vmem S1x128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x128x128 .f32) (harg9 : arg9.IsWhole) (arg10 : Memref sig .tc .vmem S1x128x1 .f32) (harg10 : arg10.IsWhole) (arg11 : Memref sig .tc .vmem S128x1 .f32) (harg11 : arg11.IsWhole) (hc0 : cond0_0 i) (hc1 : ¬cond0_1 i)
    (x0 : Vec F S1x128x128 .f32) (x1 : Vec F S1x128x128 .f32) (x2 : Vec F S128x128 .f32) (x3 : Vec F S1x128 .f32) (x4 : Vec F S1x128 .f32) (x5 : Vec F S1x1 .f32) :
    out0_A_6 c i arg3 harg3 arg4 harg4 arg5 harg5 arg6 harg6 arg7 harg7 arg8 harg8 arg9 harg9 arg10 harg10 arg11 harg11 hc0 hc1 x0 x1 x2 x3 x4 x5 = k0_pay1 (k0_pay5 x0 x1 x2 x3 x4 x5) := by
  unfold out0_A_6
  rw [View.read_writes_eq_canon _ _ _ (cover0_A_6 c i arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_unit_zero (S := S1x128x128) hz3]
  simp only [View.readAt_eq_ld, harg3.read_unread, harg4.read_unread, harg5.read_unread, harg6.read_unread, harg7.read_unread, harg8.read_unread, harg9.read_unread, harg10.read_unread, harg11.read_unread, View.ld_unit_zero (S := S1x128x128) hz3, View.ld_unit_zero (S := S128x128) hz2, View.ld_unit_zero (S := S1x128) hz2, View.ld_unit_zero (S := S1x1) hz2, View.ld_unit_zero (S := S1x128x1) hz3, View.ld_unit_zero (S := S128x1) hz2]

/-- In case B the edge-weight output's staging buffer is left at the block of scores the point computes. -/
theorem out0_B_6_eq (c : Dev nD) (i : grid0.Coords) (arg3 : Memref sig .tc .vmem S1x128x128 .f32) (harg3 : arg3.IsWhole) (arg4 : Memref sig .tc .vmem S1x128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x128x128 .f32) (harg9 : arg9.IsWhole) (arg10 : Memref sig .tc .vmem S1x128x1 .f32) (harg10 : arg10.IsWhole) (arg11 : Memref sig .tc .vmem S128x1 .f32) (harg11 : arg11.IsWhole) (hc0 : ¬cond0_0 i) (hc1 : ¬cond0_1 i)
    (x0 : Vec F S1x128x128 .f32) (x1 : Vec F S1x128x128 .f32) (x2 : Vec F S128x128 .f32) (x3 : Vec F S1x128 .f32) (x4 : Vec F S1x128 .f32) (x5 : Vec F S1x1 .f32) (xs0 : Vec F S128x1 .f32) :
    out0_B_6 c i arg3 harg3 arg4 harg4 arg5 harg5 arg6 harg6 arg7 harg7 arg8 harg8 arg9 harg9 arg10 harg10 arg11 harg11 hc0 hc1 x0 x1 x2 x3 x4 x5 xs0 = k0_pay1 (k0_pay5 x0 x1 x2 x3 x4 x5) := by
  unfold out0_B_6
  rw [View.read_writes_eq_canon _ _ _ (cover0_B_6 c i arg3 harg3 arg4 harg4 arg5 harg5 arg6 harg6 arg7 harg7 arg8 harg8 arg9 harg9 arg10 harg10 arg11 harg11 hc0 hc1 x0 x1 x2 x3 x4 x5 xs0)]
  unfold kernelRun0_B
  dsimp only
  sl_unfold_words
  rw [View.canon_unit_zero (S := S1x128x128) hz3]
  simp only [View.readAt_eq_ld, harg3.read_unread, harg4.read_unread, harg5.read_unread, harg6.read_unread, harg7.read_unread, harg8.read_unread, harg9.read_unread, harg10.read_unread, harg11.read_unread, View.ld_unit_zero (S := S1x128x128) hz3, View.ld_unit_zero (S := S128x128) hz2, View.ld_unit_zero (S := S1x128) hz2, View.ld_unit_zero (S := S1x1) hz2, View.ld_unit_zero (S := S1x128x1) hz3, View.ld_unit_zero (S := S128x1) hz2]

/-- In case C the edge-weight output's staging buffer is left at the block of scores the point computes. -/
theorem out0_C_6_eq (c : Dev nD) (i : grid0.Coords) (arg3 : Memref sig .tc .vmem S1x128x128 .f32) (harg3 : arg3.IsWhole) (arg4 : Memref sig .tc .vmem S1x128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x128x128 .f32) (harg9 : arg9.IsWhole) (arg10 : Memref sig .tc .vmem S1x128x1 .f32) (harg10 : arg10.IsWhole) (arg11 : Memref sig .tc .vmem S128x1 .f32) (harg11 : arg11.IsWhole) (hc0 : ¬cond0_0 i) (hc1 : cond0_1 i)
    (x0 : Vec F S1x128x128 .f32) (x1 : Vec F S1x128x128 .f32) (x2 : Vec F S128x128 .f32) (x3 : Vec F S1x128 .f32) (x4 : Vec F S1x128 .f32) (x5 : Vec F S1x1 .f32) (xs0 : Vec F S128x1 .f32) :
    out0_C_6 c i arg3 harg3 arg4 harg4 arg5 harg5 arg6 harg6 arg7 harg7 arg8 harg8 arg9 harg9 arg10 harg10 arg11 harg11 hc0 hc1 x0 x1 x2 x3 x4 x5 xs0 = k0_pay1 (k0_pay5 x0 x1 x2 x3 x4 x5) := by
  unfold out0_C_6
  rw [View.read_writes_eq_canon _ _ _ (cover0_C_6 c i arg3 harg3 arg4 harg4 arg5 harg5 arg6 harg6 arg7 harg7 arg8 harg8 arg9 harg9 arg10 harg10 arg11 harg11 hc0 hc1 x0 x1 x2 x3 x4 x5 xs0)]
  unfold kernelRun0_C
  dsimp only
  sl_unfold_words
  rw [View.canon_unit_zero (S := S1x128x128) hz3]
  simp only [View.readAt_eq_ld, harg3.read_unread, harg4.read_unread, harg5.read_unread, harg6.read_unread, harg7.read_unread, harg8.read_unread, harg9.read_unread, harg10.read_unread, harg11.read_unread, View.ld_unit_zero (S := S1x128x128) hz3, View.ld_unit_zero (S := S128x128) hz2, View.ld_unit_zero (S := S1x128) hz2, View.ld_unit_zero (S := S1x1) hz2, View.ld_unit_zero (S := S1x128x1) hz3, View.ld_unit_zero (S := S128x1) hz2]

/-- In case A the accumulator is left at the zero column plus the block's row sums: the reset is read back and summed into. -/
theorem sout0_A_eq (c : Dev nD) (i : grid0.Coords) (arg3 : Memref sig .tc .vmem S1x128x128 .f32) (harg3 : arg3.IsWhole) (arg4 : Memref sig .tc .vmem S1x128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x128x128 .f32) (harg9 : arg9.IsWhole) (arg10 : Memref sig .tc .vmem S1x128x1 .f32) (harg10 : arg10.IsWhole) (arg11 : Memref sig .tc .vmem S128x1 .f32) (harg11 : arg11.IsWhole) (hc0 : cond0_0 i) (hc1 : ¬cond0_1 i)
    (x0 : Vec F S1x128x128 .f32) (x1 : Vec F S1x128x128 .f32) (x2 : Vec F S128x128 .f32) (x3 : Vec F S1x128 .f32) (x4 : Vec F S1x128 .f32) (x5 : Vec F S1x1 .f32) :
    sout0_A c i arg3 harg3 arg4 harg4 arg5 harg5 arg6 harg6 arg7 harg7 arg8 harg8 arg9 harg9 arg10 harg10 arg11 harg11 hc0 hc1 x0 x1 x2 x3 x4 x5 = k0_pay3 (k0_pay5 x0 x1 x2 x3 x4 x5) (k0_pay2 (F := F)) := by
  unfold sout0_A
  rw [View.read_writes_eq_canon _ _ _ (scover0_A c i arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S128x1) hz2]
  simp only [View.readCov_unit_zero (S := S128x1) _ hz2]
  simp only [View.readAt_eq_ld, harg3.read_unread, harg4.read_unread, harg5.read_unread, harg6.read_unread, harg7.read_unread, harg8.read_unread, harg9.read_unread, harg10.read_unread, harg11.read_unread, View.ld_unit_zero (S := S1x128x128) hz3, View.ld_unit_zero (S := S128x128) hz2, View.ld_unit_zero (S := S1x128) hz2, View.ld_unit_zero (S := S1x1) hz2, View.ld_unit_zero (S := S1x128x1) hz3, View.ld_unit_zero (S := S128x1) hz2]

/-- In case B the accumulator gains the block's row sums over what the point before left. -/
theorem sout0_B_eq (c : Dev nD) (i : grid0.Coords) (arg3 : Memref sig .tc .vmem S1x128x128 .f32) (harg3 : arg3.IsWhole) (arg4 : Memref sig .tc .vmem S1x128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x128x128 .f32) (harg9 : arg9.IsWhole) (arg10 : Memref sig .tc .vmem S1x128x1 .f32) (harg10 : arg10.IsWhole) (arg11 : Memref sig .tc .vmem S128x1 .f32) (harg11 : arg11.IsWhole) (hc0 : ¬cond0_0 i) (hc1 : ¬cond0_1 i)
    (x0 : Vec F S1x128x128 .f32) (x1 : Vec F S1x128x128 .f32) (x2 : Vec F S128x128 .f32) (x3 : Vec F S1x128 .f32) (x4 : Vec F S1x128 .f32) (x5 : Vec F S1x1 .f32) (xs0 : Vec F S128x1 .f32) :
    sout0_B c i arg3 harg3 arg4 harg4 arg5 harg5 arg6 harg6 arg7 harg7 arg8 harg8 arg9 harg9 arg10 harg10 arg11 harg11 hc0 hc1 x0 x1 x2 x3 x4 x5 xs0 = k0_pay3 (k0_pay5 x0 x1 x2 x3 x4 x5) xs0 := by
  unfold sout0_B
  rw [View.read_writes_eq_canon _ _ _ (scover0_B c i arg3 harg3 arg4 harg4 arg5 harg5 arg6 harg6 arg7 harg7 arg8 harg8 arg9 harg9 arg10 harg10 arg11 harg11 hc0 hc1 x0 x1 x2 x3 x4 x5 xs0)]
  unfold kernelRun0_B
  dsimp only
  sl_unfold_words
  rw [View.canon_unit_zero (S := S128x1) hz2]
  simp only [View.readAt_eq_ld, harg3.read_unread, harg4.read_unread, harg5.read_unread, harg6.read_unread, harg7.read_unread, harg8.read_unread, harg9.read_unread, harg10.read_unread, harg11.read_unread, View.ld_unit_zero (S := S1x128x128) hz3, View.ld_unit_zero (S := S128x128) hz2, View.ld_unit_zero (S := S1x128) hz2, View.ld_unit_zero (S := S1x1) hz2, View.ld_unit_zero (S := S1x128x1) hz3, View.ld_unit_zero (S := S128x1) hz2]

/-- In case C likewise, -/
theorem sout0_C_eq (c : Dev nD) (i : grid0.Coords) (arg3 : Memref sig .tc .vmem S1x128x128 .f32) (harg3 : arg3.IsWhole) (arg4 : Memref sig .tc .vmem S1x128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x128x128 .f32) (harg9 : arg9.IsWhole) (arg10 : Memref sig .tc .vmem S1x128x1 .f32) (harg10 : arg10.IsWhole) (arg11 : Memref sig .tc .vmem S128x1 .f32) (harg11 : arg11.IsWhole) (hc0 : ¬cond0_0 i) (hc1 : cond0_1 i)
    (x0 : Vec F S1x128x128 .f32) (x1 : Vec F S1x128x128 .f32) (x2 : Vec F S128x128 .f32) (x3 : Vec F S1x128 .f32) (x4 : Vec F S1x128 .f32) (x5 : Vec F S1x1 .f32) (xs0 : Vec F S128x1 .f32) :
    sout0_C c i arg3 harg3 arg4 harg4 arg5 harg5 arg6 harg6 arg7 harg7 arg8 harg8 arg9 harg9 arg10 harg10 arg11 harg11 hc0 hc1 x0 x1 x2 x3 x4 x5 xs0 = k0_pay3 (k0_pay5 x0 x1 x2 x3 x4 x5) xs0 := by
  unfold sout0_C
  rw [View.read_writes_eq_canon _ _ _ (scover0_C c i arg3 harg3 arg4 harg4 arg5 harg5 arg6 harg6 arg7 harg7 arg8 harg8 arg9 harg9 arg10 harg10 arg11 harg11 hc0 hc1 x0 x1 x2 x3 x4 x5 xs0)]
  unfold kernelRun0_C
  dsimp only
  sl_unfold_words
  rw [View.canon_unit_zero (S := S128x1) hz2]
  simp only [View.readAt_eq_ld, harg3.read_unread, harg4.read_unread, harg5.read_unread, harg6.read_unread, harg7.read_unread, harg8.read_unread, harg9.read_unread, harg10.read_unread, harg11.read_unread, View.ld_unit_zero (S := S1x128x128) hz3, View.ld_unit_zero (S := S128x128) hz2, View.ld_unit_zero (S := S1x128) hz2, View.ld_unit_zero (S := S1x1) hz2, View.ld_unit_zero (S := S1x128x1) hz3, View.ld_unit_zero (S := S128x1) hz2]

/-- and the degree output's staging buffer receives the accumulator just completed. -/
theorem out0_C_7_eq (c : Dev nD) (i : grid0.Coords) (arg3 : Memref sig .tc .vmem S1x128x128 .f32) (harg3 : arg3.IsWhole) (arg4 : Memref sig .tc .vmem S1x128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x128x128 .f32) (harg9 : arg9.IsWhole) (arg10 : Memref sig .tc .vmem S1x128x1 .f32) (harg10 : arg10.IsWhole) (arg11 : Memref sig .tc .vmem S128x1 .f32) (harg11 : arg11.IsWhole) (hc0 : ¬cond0_0 i) (hc1 : cond0_1 i)
    (x0 : Vec F S1x128x128 .f32) (x1 : Vec F S1x128x128 .f32) (x2 : Vec F S128x128 .f32) (x3 : Vec F S1x128 .f32) (x4 : Vec F S1x128 .f32) (x5 : Vec F S1x1 .f32) (xs0 : Vec F S128x1 .f32) :
    out0_C_7 c i arg3 harg3 arg4 harg4 arg5 harg5 arg6 harg6 arg7 harg7 arg8 harg8 arg9 harg9 arg10 harg10 arg11 harg11 hc0 hc1 x0 x1 x2 x3 x4 x5 xs0 = k0_pay4 (k0_pay3 (k0_pay5 x0 x1 x2 x3 x4 x5) xs0) := by
  unfold out0_C_7
  rw [View.read_writes_eq_canon _ _ _ (cover0_C_7 c i arg3 harg3 arg4 harg4 arg5 harg5 arg6 harg6 arg7 harg7 arg8 harg8 arg9 harg9 arg10 harg10 arg11 harg11 hc0 hc1 x0 x1 x2 x3 x4 x5 xs0)]
  unfold kernelRun0_C
  dsimp only
  sl_unfold_words
  rw [View.canon_unit_zero (S := S1x128x1) hz3]
  simp only [View.readCov_unit_zero (S := S128x1) _ hz2]
  simp only [View.readAt_eq_ld, harg3.read_unread, harg4.read_unread, harg5.read_unread, harg6.read_unread, harg7.read_unread, harg8.read_unread, harg9.read_unread, harg10.read_unread, harg11.read_unread, View.ld_unit_zero (S := S1x128x128) hz3, View.ld_unit_zero (S := S128x128) hz2, View.ld_unit_zero (S := S1x128) hz2, View.ld_unit_zero (S := S1x1) hz2, View.ld_unit_zero (S := S1x128x1) hz3, View.ld_unit_zero (S := S128x1) hz2]

/-! ## The buffers after each point -/

/-- The block of scores point t computes, from its six input blocks. -/
def scoreBlk (c : Dev nD) (t : Fin cfg0.N) : FVec F S128x128 .f32 :=
  k0_pay5 (iblk V c 0 t) (iblk V c 1 t) (iblk V c 2 t) (iblk V c 3 t) (iblk V c 4 t) (iblk V c 5 t)

/-- THE EDGE-WEIGHT OUTPUT's block after point t is the point's block of scores, re-laid. -/
theorem after6_eq (c : Dev nD) (t : Fin cfg0.N) : (dat V c).after 6 t = k0_pay1 (scoreBlk V c t) := by
  rw [after0_6]
  unfold scoreBlk
  by_cases h0 : t.val % 4 = 0
  · rw [outsAt0_A V c t h0]; dsimp only
    exact out0_A_6_eq (F := F) _ _ _ _ _ _ _ _ _ _ _ _ _ _ _ _ _ _ _ _ _ _ _ _ _ _ _ _
  · by_cases h1 : t.val % 4 = 3
    · rw [outsAt0_C V c t h0 h1]; dsimp only
      exact out0_C_6_eq (F := F) _ _ _ _ _ _ _ _ _ _ _ _ _ _ _ _ _ _ _ _ _ _ _ _ _ _ _ _ _
    · rw [outsAt0_B V c t h0 h1]; dsimp only
      exact out0_B_6_eq (F := F) _ _ _ _ _ _ _ _ _ _ _ _ _ _ _ _ _ _ _ _ _ _ _ _ _ _ _ _ _

/-- THE ACCUMULATOR after point t: at the first column tile the zero column plus the block's row sums, afterwards what
    the point before left plus the block's row sums. -/
theorem acc_zero (c : Dev nD) (t : Fin cfg0.N) (h0 : t.val % 4 = 0) :
    (outsAt0 V c t.val t.isLt).2.2 = k0_pay3 (scoreBlk V c t) (k0_pay2 (F := F)) := by
  rw [outsAt0_A V c t h0]; dsimp only; unfold scoreBlk
  exact sout0_A_eq (F := F) _ _ _ _ _ _ _ _ _ _ _ _ _ _ _ _ _ _ _ _ _ _ _ _ _ _ _ _

theorem acc_succ (c : Dev nD) (t : Fin cfg0.N) (h0 : ¬t.val % 4 = 0) :
    (outsAt0 V c t.val t.isLt).2.2
      = k0_pay3 (scoreBlk V c t) ((outsAt0 V c (t.val - 1) (Nat.lt_of_le_of_lt (Nat.sub_le _ _) t.isLt)).2.2) := by
  unfold scoreBlk
  by_cases h1 : t.val % 4 = 3
  · rw [outsAt0_C V c t h0 h1]; dsimp only
    exact sout0_C_eq (F := F) _ _ _ _ _ _ _ _ _ _ _ _ _ _ _ _ _ _ _ _ _ _ _ _ _ _ _ _ _
  · rw [outsAt0_B V c t h0 h1]; dsimp only
    exact sout0_B_eq (F := F) _ _ _ _ _ _ _ _ _ _ _ _ _ _ _ _ _ _ _ _ _ _ _ _ _ _ _ _ _

/-- THE DEGREE OUTPUT's block after a point whose column tile is the last is the accumulator as it then stands. -/
theorem after7_eq (c : Dev nD) (t : Fin cfg0.N) (h1 : t.val % 4 = 3) :
    (dat V c).after 7 t = k0_pay4 ((outsAt0 V c t.val t.isLt).2.2) := by
  have h0 : ¬t.val % 4 = 0 := by omega
  rw [after0_7, acc_succ V c t h0, outsAt0_C V c t h0 h1]; dsimp only; unfold scoreBlk
  exact out0_C_7_eq (F := F) _ _ _ _ _ _ _ _ _ _ _ _ _ _ _ _ _ _ _ _ _ _ _ _ _ _ _ _ _

end Cert.KernelIdeal.R0

end
-- ==== Proof.KI0GeoIdx.lean ====
/-
  The first region's grid and index maps as arithmetic.

  The grid has 8 x 4 x 4 = 128 points, run with the last axis fastest, so point t is graph t / 16, row tile
  (t / 4) % 4 and column tile t % 4. Each window's block index at point t is read off the printed index maps
  once, by evaluating them at all 128 points: the two feature windows sit at (graph, row tile, 0) and
  (graph, column tile, 0), the four parameter windows at the origin, the edge-weight output at
  (graph, row tile, column tile) and the degree output at (graph, row tile, 0).
-/
import proofs.«112107_j17961553231914_2_alg».proof.Proof.KI0Kit
import Idealize.ShloMosaic.Lib.ValueIdx

noncomputable section

namespace Cert.KernelIdeal.R0

open Cert.KernelIdeal Cert.KernelIdeal.Gen
open Idealize.ShloMosaic Idealize.ShloMosaic.TcCoe Idealize.ShloMosaic.ValueIdx
open Idealize.ShloMosaic.Pipeline (Dat Cfg Window)

/-- The grid has 128 points. -/
theorem pt_lt (t : Fin cfg0.N) : t.val < 128 := Nat.lt_of_lt_of_eq t.isLt (N_0 : cfg0.N = 128)

/-- The graph point t works on. -/
abbrev ptGraph (t : Fin cfg0.N) : Fin 8 := ⟨t.val / 16, by have := pt_lt t; omega⟩
/-- Row p of point t's row tile, as a node of the graph. -/
abbrev ptRow (t : Fin cfg0.N) (p : Fin 128) : Fin 512 := ⟨128 * (t.val / 4 % 4) + p.val, by have := p.isLt; omega⟩
/-- Column q of point t's column tile, as a node of the graph. -/
abbrev ptCol (t : Fin cfg0.N) (q : Fin 128) : Fin 512 := ⟨128 * (t.val % 4) + q.val, by have := q.isLt; omega⟩

/-- The row-feature window's block index: (graph, row tile, 0). -/
theorem index0_0 : ∀ t : Fin cfg0.N, win0_0.index t (0 : Fin 3) = t.val / 16
    ∧ win0_0.index t (1 : Fin 3) = t.val / 4 % 4 ∧ win0_0.index t (2 : Fin 3) = 0 :=
  (by decide +kernel : ∀ t : Fin grid0.N, _)

/-- The column-feature window's block index: (graph, column tile, 0). -/
theorem index0_1 : ∀ t : Fin cfg0.N, win0_1.index t (0 : Fin 3) = t.val / 16
    ∧ win0_1.index t (1 : Fin 3) = t.val % 4 ∧ win0_1.index t (2 : Fin 3) = 0 :=
  (by decide +kernel : ∀ t : Fin grid0.N, _)

/-- The first weight matrix is one block. -/
theorem index0_2 : ∀ t : Fin cfg0.N, win0_2.index t (0 : Fin 2) = 0 ∧ win0_2.index t (1 : Fin 2) = 0 :=
  (by decide +kernel : ∀ t : Fin grid0.N, _)

/-- The first bias row is one block. -/
theorem index0_3 : ∀ t : Fin cfg0.N, win0_3.index t (0 : Fin 2) = 0 ∧ win0_3.index t (1 : Fin 2) = 0 :=
  (by decide +kernel : ∀ t : Fin grid0.N, _)

/-- The second weight row is one block. -/
theorem index0_4 : ∀ t : Fin cfg0.N, win0_4.index t (0 : Fin 2) = 0 ∧ win0_4.index t (1 : Fin 2) = 0 :=
  (by decide +kernel : ∀ t : Fin grid0.N, _)

/-- The second bias is one block. -/
theorem index0_5 : ∀ t : Fin cfg0.N, win0_5.index t (0 : Fin 2) = 0 ∧ win0_5.index t (1 : Fin 2) = 0 :=
  (by decide +kernel : ∀ t : Fin grid0.N, _)

/-- The edge-weight output's block index: (graph, row tile, column tile). -/
theorem index0_6 : ∀ t : Fin cfg0.N, win0_6.index t (0 : Fin 3) = t.val / 16
    ∧ win0_6.index t (1 : Fin 3) = t.val / 4 % 4 ∧ win0_6.index t (2 : Fin 3) = t.val % 4 :=
  (by decide +kernel : ∀ t : Fin grid0.N, _)

/-- The degree output's block index: (graph, row tile, 0). -/
theorem index0_7 : ∀ t : Fin cfg0.N, win0_7.index t (0 : Fin 3) = t.val / 16
    ∧ win0_7.index t (1 : Fin 3) = t.val / 4 % 4 ∧ win0_7.index t (2 : Fin 3) = 0 :=
  (by decide +kernel : ∀ t : Fin grid0.N, _)

end Cert.KernelIdeal.R0

end
-- ==== Proof.KI0GeoIn.lean ====
/-
  The first region's input blocks read at coordinates.

  A block's coordinate on an axis is the block index times the block size plus the coordinate inside the
  block. So the row-feature block at point t holds, at (0, p, d), feature d of row p of the point's row tile
  in the point's graph; the column-feature block the same for the column tile; and the four parameter
  windows, each one block at the origin, hold their arrays.
-/
import proofs.«112107_j17961553231914_2_alg».proof.Proof.KI0GeoIdx
import Idealize.ShloMosaic.Lib.Pipeline.Value

noncomputable section

namespace Cert.KernelIdeal.R0

open Cert.KernelIdeal Cert.KernelIdeal.Gen
open Idealize.ShloMosaic Idealize.ShloMosaic.TcCoe Idealize.ShloMosaic.ValueIdx
open Idealize.ShloMosaic.Pipeline (Dat Cfg Window)

variable {F : FTy → Type} [FloatOps F]

variable (V : (c : Dev nD) → (b : Ref sig .tc) → Buf (Elt F) ((c : Thread nD τ).loc b))

/-- The row-feature block at point t: feature d of row p of the row tile. -/
theorem iblk0_apply (c : Dev nD) (t : Fin cfg0.N) (p d : Fin 128) :
    (iblk V c 0 t : S1x128x128.Idx → Elt F .f32) (ix3 (0 : Fin 1) p d)
      = (V c main_arg0 : S8x512x128.Idx → Elt F .f32) (ix3 (ptGraph t) (ptRow t p) d) := by
  obtain ⟨e0, e1, e2⟩ := index0_0 t
  unfold iblk
  rw [View.read_apply]
  show V c main_arg0 _ = V c main_arg0 _
  congr 1
  funext a
  apply Fin.ext
  match a with
  | ⟨0, _⟩ => show win0_0.index t (0 : Fin 3) * 1 + 1 * 0 = t.val / 16; omega
  | ⟨1, _⟩ => show win0_0.index t (1 : Fin 3) * 128 + 1 * p.val = 128 * (t.val / 4 % 4) + p.val; omega
  | ⟨2, _⟩ => show win0_0.index t (2 : Fin 3) * 128 + 1 * d.val = d.val; omega

/-- The column-feature block at point t: feature d of column node q of the column tile. -/
theorem iblk1_apply (c : Dev nD) (t : Fin cfg0.N) (q d : Fin 128) :
    (iblk V c 1 t : S1x128x128.Idx → Elt F .f32) (ix3 (0 : Fin 1) q d)
      = (V c main_arg0 : S8x512x128.Idx → Elt F .f32) (ix3 (ptGraph t) (ptCol t q) d) := by
  obtain ⟨e0, e1, e2⟩ := index0_1 t
  unfold iblk
  rw [View.read_apply]
  show V c main_arg0 _ = V c main_arg0 _
  congr 1
  funext a
  apply Fin.ext
  match a with
  | ⟨0, _⟩ => show win0_1.index t (0 : Fin 3) * 1 + 1 * 0 = t.val / 16; omega
  | ⟨1, _⟩ => show win0_1.index t (1 : Fin 3) * 128 + 1 * q.val = 128 * (t.val % 4) + q.val; omega
  | ⟨2, _⟩ => show win0_1.index t (2 : Fin 3) * 128 + 1 * d.val = d.val; omega

/-- The first weight matrix's block is the matrix. -/
theorem iblk2_eq (c : Dev nD) (t : Fin cfg0.N) :
    (iblk V c 2 t : S128x128.Idx → Elt F .f32) = (V c main_arg1 : S128x128.Idx → Elt F .f32) := by
  obtain ⟨e0, e1⟩ := index0_2 t
  funext k
  unfold iblk
  rw [View.read_apply]
  show V c main_arg1 _ = V c main_arg1 _
  congr 1
  funext a
  apply Fin.ext
  match a with
  | ⟨0, _⟩ => show win0_2.index t (0 : Fin 2) * 128 + 1 * (k 0).val = (k 0).val; omega
  | ⟨1, _⟩ => show win0_2.index t (1 : Fin 2) * 128 + 1 * (k 1).val = (k 1).val; omega

/-- The first bias row's block is the row. -/
theorem iblk3_eq (c : Dev nD) (t : Fin cfg0.N) :
    (iblk V c 3 t : S1x128.Idx → Elt F .f32) = (V c main_v0 : S1x128.Idx → Elt F .f32) := by
  obtain ⟨e0, e1⟩ := index0_3 t
  funext k
  unfold iblk
  rw [View.read_apply]
  show V c main_v0 _ = V c main_v0 _
  congr 1
  funext a
  apply Fin.ext
  match a with
  | ⟨0, _⟩ => show win0_3.index t (0 : Fin 2) * 1 + 1 * (k 0).val = (k 0).val; omega
  | ⟨1, _⟩ => show win0_3.index t (1 : Fin 2) * 128 + 1 * (k 1).val = (k 1).val; omega

/-- The second weight row's block is the row. -/
theorem iblk4_eq (c : Dev nD) (t : Fin cfg0.N) :
    (iblk V c 4 t : S1x128.Idx → Elt F .f32) = (V c main_v1 : S1x128.Idx → Elt F .f32) := by
  obtain ⟨e0, e1⟩ := index0_4 t
  funext k
  unfold iblk
  rw [View.read_apply]
  show V c main_v1 _ = V c main_v1 _
  congr 1
  funext a
  apply Fin.ext
  match a with
  | ⟨0, _⟩ => show win0_4.index t (0 : Fin 2) * 1 + 1 * (k 0).val = (k 0).val; omega
  | ⟨1, _⟩ => show win0_4.index t (1 : Fin 2) * 128 + 1 * (k 1).val = (k 1).val; omega

/-- The second bias's block is the one-element array. -/
theorem iblk5_eq (c : Dev nD) (t : Fin cfg0.N) :
    (iblk V c 5 t : S1x1.Idx → Elt F .f32) = (V c main_v2 : S1x1.Idx → Elt F .f32) := by
  obtain ⟨e0, e1⟩ := index0_5 t
  funext k
  unfold iblk
  rw [View.read_apply]
  show V c main_v2 _ = V c main_v2 _
  congr 1
  funext a
  apply Fin.ext
  match a with
  | ⟨0, _⟩ => show win0_5.index t (0 : Fin 2) * 1 + 1 * (k 0).val = (k 0).val; omega
  | ⟨1, _⟩ => show win0_5.index t (1 : Fin 2) * 1 + 1 * (k 1).val = (k 1).val; omega

/-- An input array is never written back: after the last point it is what the proof data started from. -/
theorem arrAt0_0 {c : Dev nD} (dat : Dat τ (Elt F) Unit ℕ (UR sig nD τ) ℕ cfg0 c) : dat.arrAt 0 cfg0.N = dat.A 0 :=
  dat.arrAt_in 0 rfl cfg0.N
theorem arrAt0_1 {c : Dev nD} (dat : Dat τ (Elt F) Unit ℕ (UR sig nD τ) ℕ cfg0 c) : dat.arrAt 1 cfg0.N = dat.A 1 :=
  dat.arrAt_in 1 rfl cfg0.N
theorem arrAt0_2 {c : Dev nD} (dat : Dat τ (Elt F) Unit ℕ (UR sig nD τ) ℕ cfg0 c) : dat.arrAt 2 cfg0.N = dat.A 2 :=
  dat.arrAt_in 2 rfl cfg0.N
theorem arrAt0_3 {c : Dev nD} (dat : Dat τ (Elt F) Unit ℕ (UR sig nD τ) ℕ cfg0 c) : dat.arrAt 3 cfg0.N = dat.A 3 :=
  dat.arrAt_in 3 rfl cfg0.N
theorem arrAt0_4 {c : Dev nD} (dat : Dat τ (Elt F) Unit ℕ (UR sig nD τ) ℕ cfg0 c) : dat.arrAt 4 cfg0.N = dat.A 4 :=
  dat.arrAt_in 4 rfl cfg0.N
theorem arrAt0_5 {c : Dev nD} (dat : Dat τ (Elt F) Unit ℕ (UR sig nD τ) ℕ cfg0 c) : dat.arrAt 5 cfg0.N = dat.A 5 :=
  dat.arrAt_in 5 rfl cfg0.N

end Cert.KernelIdeal.R0

end
-- ==== Proof.KI0GeoOut.lean ====
/-
  The first region's two outputs: which entries a point's block holds, and the arrays after the last point.

  Point t's block of the edge-weight array is graph t / 16, rows 128 ((t / 4) % 4) .. + 127 and columns
  128 (t % 4) .. + 127; entry (b, r, s) lies in the block of the point 16 b + 4 (r / 128) + s / 128, and
  every point writes its block back. Point t's block of the degree array is graph t / 16 and the same
  rows; it is written back only at the last column tile, and entry (b, r, 0) lies in the block of the
  point 16 b + 4 (r / 128) + 3, which is one of those. So if every write-back is the point's block of one
  whole-array function, the array ends holding that function.
-/
import proofs.«112107_j17961553231914_2_alg».proof.Proof.KI0GeoIdx
import Idealize.ShloMosaic.Lib.Pipeline.Value

noncomputable section

namespace Cert.KernelIdeal.R0

open Cert.KernelIdeal Cert.KernelIdeal.Gen
open Idealize.ShloMosaic Idealize.ShloMosaic.TcCoe Idealize.ShloMosaic.ValueIdx
open Idealize.ShloMosaic.Pipeline (Dat Cfg Window)

variable {F : FTy → Type} [FloatOps F]

/-- An entry of the edge-weight array lies in point t's block iff its graph, row tile and column tile are the point's. -/
theorem mem_blk6 (t : Fin cfg0.N) (k : S8x512x512.Idx) :
    k ∈ ((cfg0.win 6).blk t).view.set ↔ (k 0).val = t.val / 16
      ∧ 128 * (t.val / 4 % 4) ≤ (k 1).val ∧ (k 1).val < 128 * (t.val / 4 % 4) + 128
      ∧ 128 * (t.val % 4) ≤ (k 2).val ∧ (k 2).val < 128 * (t.val % 4) + 128 := by
  obtain ⟨e0, e1, e2⟩ := index0_6 t
  show k ∈ ((View.whole main_v4_0).slice (win0_6.rect t)).set ↔ _
  rw [View.set_slice_whole, Rect.mem_set_unit]
  constructor
  · intro h
    have h0 : win0_6.index t (0 : Fin 3) * 1 ≤ (k 0).val ∧ (k 0).val < win0_6.index t (0 : Fin 3) * 1 + 1 := h 0
    have h1 : win0_6.index t (1 : Fin 3) * 128 ≤ (k 1).val ∧ (k 1).val < win0_6.index t (1 : Fin 3) * 128 + 128 := h 1
    have h2 : win0_6.index t (2 : Fin 3) * 128 ≤ (k 2).val ∧ (k 2).val < win0_6.index t (2 : Fin 3) * 128 + 128 := h 2
    omega
  · intro h a
    match a with
    | ⟨0, _⟩ => show win0_6.index t (0 : Fin 3) * 1 ≤ (k 0).val ∧ (k 0).val < win0_6.index t (0 : Fin 3) * 1 + 1; omega
    | ⟨1, _⟩ => show win0_6.index t (1 : Fin 3) * 128 ≤ (k 1).val ∧ (k 1).val < win0_6.index t (1 : Fin 3) * 128 + 128; omega
    | ⟨2, _⟩ => show win0_6.index t (2 : Fin 3) * 128 ≤ (k 2).val ∧ (k 2).val < win0_6.index t (2 : Fin 3) * 128 + 128; omega

/-- Point t's block of a whole edge-weight array: entry (p, q) of the block is row p of the row tile against column q of
    the column tile. -/
theorem blk6_read (G : S8x512x512.Idx → Elt F .f32) (t : Fin cfg0.N) (p q : Fin 128) :
    (((cfg0.win 6).blk t).view.read (Elt F) G : S1x128x128.Idx → Elt F .f32) (ix3 (0 : Fin 1) p q)
      = G (ix3 (ptGraph t) (ptRow t p) (ptCol t q)) := by
  obtain ⟨e0, e1, e2⟩ := index0_6 t
  rw [View.read_apply]
  show G _ = G _
  congr 1
  funext a
  apply Fin.ext
  match a with
  | ⟨0, _⟩ => show win0_6.index t (0 : Fin 3) * 1 + 1 * 0 = t.val / 16; omega
  | ⟨1, _⟩ => show win0_6.index t (1 : Fin 3) * 128 + 1 * p.val = 128 * (t.val / 4 % 4) + p.val; omega
  | ⟨2, _⟩ => show win0_6.index t (2 : Fin 3) * 128 + 1 * q.val = 128 * (t.val % 4) + q.val; omega

/-- The edge-weight array after the last point: if every point writes back its block of G, the array is G. -/
theorem final6 {c : Dev nD} (dat : Dat τ (Elt F) Unit ℕ (UR sig nD τ) ℕ cfg0 c) (G : S8x512x512.Idx → Elt F .f32)
    (hG : ∀ t : Fin cfg0.N, dat.flushed 6 t = ((cfg0.win 6).blk t).view.read (Elt F) G) :
    dat.arrAt 6 cfg0.N = G :=
  dat.arrAt_eq_of_cover 6 G (fun t _ => hG t) fun k => by
    have h0 : (k 0).val < 8 := (k 0).isLt
    have h1 : (k 1).val < 512 := (k 1).isLt
    have h2 : (k 2).val < 512 := (k 2).isLt
    refine ⟨⟨16 * (k 0).val + 4 * ((k 1).val / 128) + (k 2).val / 128,
      Nat.lt_of_lt_of_eq (by omega : _ < 128) (N_0 : cfg0.N = 128).symm⟩, flush0_6 _, ?_⟩
    rw [mem_blk6]
    dsimp only
    omega

/-- An entry of the degree array lies in point t's block iff its graph and row tile are the point's. -/
theorem mem_blk7 (t : Fin cfg0.N) (k : S8x512x1.Idx) :
    k ∈ ((cfg0.win 7).blk t).view.set ↔ (k 0).val = t.val / 16
      ∧ 128 * (t.val / 4 % 4) ≤ (k 1).val ∧ (k 1).val < 128 * (t.val / 4 % 4) + 128 := by
  obtain ⟨e0, e1, e2⟩ := index0_7 t
  have hk2 : (k 2).val < 1 := (k 2).isLt
  show k ∈ ((View.whole main_v4_1).slice (win0_7.rect t)).set ↔ _
  rw [View.set_slice_whole, Rect.mem_set_unit]
  constructor
  · intro h
    have h0 : win0_7.index t (0 : Fin 3) * 1 ≤ (k 0).val ∧ (k 0).val < win0_7.index t (0 : Fin 3) * 1 + 1 := h 0
    have h1 : win0_7.index t (1 : Fin 3) * 128 ≤ (k 1).val ∧ (k 1).val < win0_7.index t (1 : Fin 3) * 128 + 128 := h 1
    omega
  · intro h a
    match a with
    | ⟨0, _⟩ => show win0_7.index t (0 : Fin 3) * 1 ≤ (k 0).val ∧ (k 0).val < win0_7.index t (0 : Fin 3) * 1 + 1; omega
    | ⟨1, _⟩ => show win0_7.index t (1 : Fin 3) * 128 ≤ (k 1).val ∧ (k 1).val < win0_7.index t (1 : Fin 3) * 128 + 128; omega
    | ⟨2, _⟩ => show win0_7.index t (2 : Fin 3) * 1 ≤ (k 2).val ∧ (k 2).val < win0_7.index t (2 : Fin 3) * 1 + 1; omega

/-- Point t's block of a whole degree array: entry p of the block is row p of the row tile. -/
theorem blk7_read (G : S8x512x1.Idx → Elt F .f32) (t : Fin cfg0.N) (p : Fin 128) :
    (((cfg0.win 7).blk t).view.read (Elt F) G : S1x128x1.Idx → Elt F .f32) (ix3 (0 : Fin 1) p (0 : Fin 1))
      = G (ix3 (ptGraph t) (ptRow t p) (0 : Fin 1)) := by
  obtain ⟨e0, e1, e2⟩ := index0_7 t
  rw [View.read_apply]
  show G _ = G _
  congr 1
  funext a
  apply Fin.ext
  match a with
  | ⟨0, _⟩ => show win0_7.index t (0 : Fin 3) * 1 + 1 * 0 = t.val / 16; omega
  | ⟨1, _⟩ => show win0_7.index t (1 : Fin 3) * 128 + 1 * p.val = 128 * (t.val / 4 % 4) + p.val; omega
  | ⟨2, _⟩ => show win0_7.index t (2 : Fin 3) * 1 + 1 * 0 = 0; omega

/-- The degree array after the last point: if every point of the last column tile writes back its block of G, the
    array is G. -/
theorem final7 {c : Dev nD} (dat : Dat τ (Elt F) Unit ℕ (UR sig nD τ) ℕ cfg0 c) (G : S8x512x1.Idx → Elt F .f32)
    (hG : ∀ t : Fin cfg0.N, t.val % 4 = 3 → dat.flushed 7 t = ((cfg0.win 7).blk t).view.read (Elt F) G) :
    dat.arrAt 7 cfg0.N = G :=
  dat.arrAt_eq_of_cover 7 G (fun t hf => hG t ((flush0_7 t).mp hf)) fun k => by
    have h0 : (k 0).val < 8 := (k 0).isLt
    have h1 : (k 1).val < 512 := (k 1).isLt
    refine ⟨⟨16 * (k 0).val + 4 * ((k 1).val / 128) + 3,
      Nat.lt_of_lt_of_eq (by omega : _ < 128) (N_0 : cfg0.N = 128).symm⟩, (flush0_7 _).mpr (by dsimp only; omega), ?_⟩
    rw [mem_blk7]
    dsimp only
    omega

end Cert.KernelIdeal.R0

end
-- ==== Proof.PayStore.lean ====
/-
  The values the first kernel stores, read at an index.

  The block of edge weights is stored under a leading unit axis, so its element (0, p, q) is element (p, q) of the
  computed block; the row sums leave the kernel the same way. The running row sums start at zero and each column
  tile adds, to the sum so far, the sum of its row of edge weights.
-/
import proofs.«112107_j17961553231914_2_alg».proof.Proof.Gen.KernelIdeal.Skeleton
import Idealize.ShloMosaic.Lib.ValueLayout
import Idealize.ShloMosaic.PureOps.Ideal.Laws

noncomputable section

namespace Cert.GcnPay

open Idealize.ShloMosaic Idealize.ShloMosaic.ValueIdx Cert.KernelIdeal Cert.KernelIdeal.Gen

/-- The stored block of edge weights at (0, p, q) is the computed block at (p, q). -/
theorem pay1_apply (v35 : FVec Ideal S128x128 .f32) (p q : Fin 128) :
    k0_pay1 v35 (ix3 (0 : Fin 1) p q) = v35 (ix2 p q) := by
  unfold k0_pay1
  exact shapeCast_ab_1ab_apply v35 _ 0 p q

/-- The stored column of row sums at (0, p, 0) is the accumulated column at (p, 0). -/
theorem pay4_apply (v52 : Vec Ideal S128x1 .f32) (p : Fin 128) :
    k0_pay4 v52 (ix3 (0 : Fin 1) p (0 : Fin 1)) = v52 (ix2 p (0 : Fin 1)) := by
  unfold k0_pay4
  exact shapeCast_ab_1ab_apply v52 _ 0 p 0

/-- The running row sums start at zero. -/
theorem pay2_apply (p : Fin 128) : k0_pay2 (F := Ideal) (ix2 p (0 : Fin 1)) = 0 := by
  unfold k0_pay2
  rw [shapeCast_self]
  exact Ideal.ofBits_zero_f32

/-- A [128] vector viewed as a [128, 1] column reads, at (p, 0), the vector at p. -/
theorem shapeCast_a_a1_apply {α : Type} (x : S128.Idx → α) (h : S128.ShapeCasts S128x1) (p : Fin 128) :
    shapeCast S128x1 x h (ix2 p (0 : Fin 1)) = x (ix1 p) :=
  shapeCast_apply x h _ _ (by
    rw [Shape.rowMajor_val_two, Shape.rowMajor_val_one]
    show p.val = p.val * 1 + 0
    omega)

/-- The sum of a [128, 128] block over its second axis, at p, is the sum of row p. -/
theorem rowSum_apply (v35 : FVec Ideal S128x128 .f32) (h : S128x128.Reduces [1] S128)
    (hφ : FKind.Formats .f32) (hacc : (0x00000000#32 : BitVec 32) = FKind.add.neutral .f32 hφ) (p : Fin 128) :
    multiReduction (F := Ideal) .add [1] S128 v35 0x00000000#32 h hφ hacc (ix1 p) = ∑ q : Fin 128, v35 (ix2 p q) := by
  refine (Ideal.multiReduction_add_single v35 0x00000000#32 h hφ hacc (ix1 p)).trans ?_
  refine Finset.sum_congr rfl fun q _ => congrArg v35 ?_
  funext a
  match a with
  | ⟨0, _⟩ => rfl
  | ⟨1, _⟩ => rfl

/-- A column tile's update of the running row sums: the sum so far plus the sum of row p of the tile. -/
theorem pay3_apply (v35 : FVec Ideal S128x128 .f32) (v42 : Vec Ideal S128x1 .f32) (p : Fin 128) :
    k0_pay3 v35 v42 (ix2 p (0 : Fin 1)) = v42 (ix2 p (0 : Fin 1)) + ∑ q : Fin 128, v35 (ix2 p q) := by
  unfold k0_pay3
  rw [shapeCast_self]
  show v42 (ix2 p (0 : Fin 1)) + _ = _
  rw [shapeCast_a_a1_apply]
  exact congrArg (fun t => v42 (ix2 p (0 : Fin 1)) + t) (rowSum_apply v35 _ _ _ p)

end Cert.GcnPay

end
-- ==== Proof.PayIdx.lean ====
/-
  Every index of the kernels' blocks is an index by coordinates.

  An index of a [128, 128] or [512, 128] block is (p, q); of a block under a leading unit axis, (0, p, q); of a column
  [128, 1], (p, 0); and of a column under a leading unit axis, (0, p, 0). A coordinate on an axis of size one is zero.
-/
import proofs.«112107_j17961553231914_2_alg».proof.Proof.Gen.KernelIdeal.Skeleton
import Idealize.ShloMosaic.Lib.ValueLayout
import Idealize.ShloMosaic.PureOps.Ideal.Laws

noncomputable section

namespace Cert.GcnPay

open Idealize.ShloMosaic Idealize.ShloMosaic.ValueIdx Cert.KernelIdeal Cert.KernelIdeal.Gen

/-- A coordinate below one is zero. -/
theorem fin_one_val {n : Nat} (h : n < 1) : n = 0 := Nat.lt_one_iff.mp h

theorem idx_S128x128 (j : S128x128.Idx) : j = ix2 (j 0) (j 1) := eq_ix2 j

theorem exists_idx_S128x128 (j : S128x128.Idx) : ∃ p q : Fin 128, j = ix2 p q := ⟨j 0, j 1, eq_ix2 j⟩

theorem idx_S512x128 (j : S512x128.Idx) : j = ix2 (j 0) (j 1) := eq_ix2 j

theorem exists_idx_S512x128 (j : S512x128.Idx) : ∃ (n : Fin 512) (o : Fin 128), j = ix2 n o := ⟨j 0, j 1, eq_ix2 j⟩

theorem idx_S1x128x128 (j : S1x128x128.Idx) : j = ix3 (0 : Fin 1) (j 1) (j 2) := by
  funext a
  match a with
  | ⟨0, _⟩ => exact Fin.ext (fin_one_val (j 0).isLt)
  | ⟨1, _⟩ => rfl
  | ⟨2, _⟩ => rfl

theorem exists_idx_S1x128x128 (j : S1x128x128.Idx) : ∃ p q : Fin 128, j = ix3 (0 : Fin 1) p q :=
  ⟨j 1, j 2, idx_S1x128x128 j⟩

theorem idx_S128x1 (j : S128x1.Idx) : j = ix2 (j 0) (0 : Fin 1) := by
  funext a
  match a with
  | ⟨0, _⟩ => rfl
  | ⟨1, _⟩ => exact Fin.ext (fin_one_val (j 1).isLt)

theorem exists_idx_S128x1 (j : S128x1.Idx) : ∃ p : Fin 128, j = ix2 p (0 : Fin 1) := ⟨j 0, idx_S128x1 j⟩

theorem idx_S1x128x1 (j : S1x128x1.Idx) : j = ix3 (0 : Fin 1) (j 1) (0 : Fin 1) := by
  funext a
  match a with
  | ⟨0, _⟩ => exact Fin.ext (fin_one_val (j 0).isLt)
  | ⟨1, _⟩ => rfl
  | ⟨2, _⟩ => exact Fin.ext (fin_one_val (j 2).isLt)

theorem exists_idx_S1x128x1 (j : S1x128x1.Idx) : ∃ p : Fin 128, j = ix3 (0 : Fin 1) p (0 : Fin 1) :=
  ⟨j 1, idx_S1x128x1 j⟩

end Cert.GcnPay

end
-- ==== Proof.Spec.lean ====
/-
  The mathematics both programs compute, as functions of coordinates on the extended reals.

  For each of 8 graphs with 512 nodes carrying 128 features, an edge weight is scored for every ordered
  pair of nodes by a two-layer perceptron applied to the absolute feature difference:
    hid  b i j h = (sum over d of |x b i d - x b j d| * w1 d h) + b1 h
    score b i j  = (sum over h of max (hid b i j h) 0 * w2 h 0) + b2 0
    adj  b i j   = 1 / (1 + exp (-(score b i j))).
  The weighted degree of node i is the sum of its row of edge weights, and the layer's output is the
  symmetrically normalised aggregation of the projected features:
    deg b i   = sum over j of adj b i j
    xw b n o  = sum over d of x b n d * gw d o
    out b i o = (sum over j of ((adj b i j * deg b i ^ (-1/2)) * deg b j ^ (-1/2)) * xw b j o) + gb o.
  Nothing here is assumed finite: every operation is the exact one on the extended reals.
-/
import Idealize.ShloMosaic.PureOps.Ideal
import Idealize.ShloMosaic.Lib.ValueIdx

noncomputable section

namespace Cert.GcnSpec

open Idealize.ShloMosaic Idealize.ShloMosaic.ValueIdx

/-- Node features of all graphs, [8, 512, 128]. -/
abbrev SX : Shape := ⟨3, ![8, 512, 128]⟩
/-- A square weight matrix, [128, 128]. -/
abbrev SW : Shape := ⟨2, ![128, 128]⟩
/-- A bias vector, [128]. -/
abbrev SB : Shape := ⟨1, ![128]⟩
/-- The second layer's weight column, [128, 1]. -/
abbrev SC : Shape := ⟨2, ![128, 1]⟩
/-- The second layer's bias, [1]. -/
abbrev S1 : Shape := ⟨1, ![1]⟩
/-- Edge weights of all graphs, [8, 512, 512]. -/
abbrev SA : Shape := ⟨3, ![8, 512, 512]⟩

variable (x : SX.Idx → EReal) (w1 : SW.Idx → EReal) (b1 : SB.Idx → EReal) (w2 : SC.Idx → EReal)
  (b2 : S1.Idx → EReal) (gw : SW.Idx → EReal) (gb : SB.Idx → EReal)

/-- Hidden unit `h` of the edge perceptron for the pair `(i, j)` of graph `b`, before the rectifier. -/
def hid (b : Fin 8) (i j : Fin 512) (h : Fin 128) : EReal :=
  (∑ d : Fin 128, max (x (ix3 b i d) - x (ix3 b j d)) (-(x (ix3 b i d) - x (ix3 b j d))) * w1 (ix2 d h)) + b1 (ix1 h)

/-- The pair's score: the rectified hidden units against the second layer's weights, plus its bias. -/
def score (b : Fin 8) (i j : Fin 512) : EReal :=
  (∑ h : Fin 128, max (hid x w1 b1 b i j h) 0 * w2 (ix2 h 0)) + b2 (ix1 0)

/-- The edge weight: the logistic function of the score. -/
def adj (b : Fin 8) (i j : Fin 512) : EReal := Ideal.logistic (score x w1 b1 w2 b2 b i j)

/-- The weighted degree of node `i`: its row of edge weights summed. -/
def deg (b : Fin 8) (i : Fin 512) : EReal := ∑ j : Fin 512, adj x w1 b1 w2 b2 b i j

/-- The degree to the power -1/2. -/
def dinv (b : Fin 8) (i : Fin 512) : EReal := Ideal.rsqrt (deg x w1 b1 w2 b2 b i)

/-- The projected features. -/
def xw (b : Fin 8) (n : Fin 512) (o : Fin 128) : EReal := ∑ d : Fin 128, x (ix3 b n d) * gw (ix2 d o)

/-- The layer's output: normalised edge weights against the projected features, plus the bias. -/
def out (b : Fin 8) (i : Fin 512) (o : Fin 128) : EReal :=
  (∑ j : Fin 512, adj x w1 b1 w2 b2 b i j * dinv x w1 b1 w2 b2 b i * dinv x w1 b1 w2 b2 b j * xw x gw b j o) + gb (ix1 o)

/-- The edge weights as one array. -/
def adjArr : SA.Idx → EReal := fun k => adj x w1 b1 w2 b2 (k 0) (k 1) (k 2)

/-- The output as one array. -/
def outArr : SX.Idx → EReal := fun k => out x w1 b1 w2 b2 gw gb (k 0) (k 1) (k 2)

end Cert.GcnSpec

end
-- ==== Proof.PayDot.lean ====
/-
  The three matrix products of the kernels, read at an index.

  Each contracts the left operand's second axis with the right operand's first and accumulates into zero, so the
  element (a, c) of the product is the sum over k of left (a, k) times right (k, c). The contraction index has one
  axis; the sum over it is re-indexed through its one coordinate.
-/
import proofs.«112107_j17961553231914_2_alg».proof.Proof.Gen.KernelIdeal.Skeleton
import Idealize.ShloMosaic.Lib.ValueLayout
import Idealize.ShloMosaic.PureOps.Ideal.Laws

noncomputable section

namespace Cert.GcnPay

open Idealize.ShloMosaic Idealize.ShloMosaic.ValueIdx Cert.KernelIdeal Cert.KernelIdeal.Gen

/-- The left operand's row is the result's row. -/
theorem dotHid_lhs0 (i : S16384x128.Idx) (q : dot_S16384x128_S128x128_S16384x128_1_0_0_1_n_n.contr.Idx) :
    (dot_S16384x128_S128x128_S16384x128_1_0_0_1_n_n.lhsIdx i q 0).val = (i 0).val := by
  unfold DotDims.lhsIdx
  rw [dif_neg (show ¬(0 : Fin S16384x128.rank) ∈ dot_S16384x128_S128x128_S16384x128_1_0_0_1_n_n.lhsBatch by decide),
    dif_pos (show (0 : Fin S16384x128.rank) ∈ dot_S16384x128_S128x128_S16384x128_1_0_0_1_n_n.lhsNonContracting by decide)]
  rfl

/-- The right operand's column is the result's column. -/
theorem dotHid_rhs1 (i : S16384x128.Idx) (q : dot_S16384x128_S128x128_S16384x128_1_0_0_1_n_n.contr.Idx) :
    (dot_S16384x128_S128x128_S16384x128_1_0_0_1_n_n.rhsIdx i q 1).val = (i 1).val := by
  unfold DotDims.rhsIdx
  rw [dif_neg (show ¬(1 : Fin S128x128.rank) ∈ dot_S16384x128_S128x128_S16384x128_1_0_0_1_n_n.rhsBatch by decide),
    dif_pos (show (1 : Fin S128x128.rank) ∈ dot_S16384x128_S128x128_S16384x128_1_0_0_1_n_n.rhsNonContracting by decide)]
  rfl

/-- The first layer of the edge perceptron: [16384, 128] features of the pairs against the [128, 128] weights. -/
theorem dotHid_apply (l : FVec Ideal S16384x128 .bf16) (r : FVec Ideal S128x128 .bf16) (a : Fin 16384) (c : Fin 128) :
    matmul dot_S16384x128_S128x128_S16384x128_1_0_0_1_n_n none l r (constant (F := Ideal) S16384x128 .f32 0x00000000#32) (ix2 a c)
      = ∑ k : Fin 128, l (ix2 a k) * r (ix2 k c) := by
  simp only [matmul]
  rw [Ideal.matmul_constant_zero_apply,
    ← Equiv.sum_comp (contrEquiv1 dot_S16384x128_S128x128_S16384x128_1_0_0_1_n_n 128 rfl rfl).symm]
  refine Finset.sum_congr rfl fun k _ => ?_
  have hk := contrEquiv1_symm_val dot_S16384x128_S128x128_S16384x128_1_0_0_1_n_n 128 rfl rfl k
  have el : dot_S16384x128_S128x128_S16384x128_1_0_0_1_n_n.lhsIdx (ix2 a c) ((contrEquiv1 dot_S16384x128_S128x128_S16384x128_1_0_0_1_n_n 128 rfl rfl).symm k) = ix2 a k :=
    funext fun x => Fin.ext (by
      match x with
      | ⟨0, _⟩ => exact dotHid_lhs0 _ _
      | ⟨1, _⟩ => exact (dot_S16384x128_S128x128_S16384x128_1_0_0_1_n_n.lhsIdx_val_of_single rfl _ _).trans hk)
  have er : dot_S16384x128_S128x128_S16384x128_1_0_0_1_n_n.rhsIdx (ix2 a c) ((contrEquiv1 dot_S16384x128_S128x128_S16384x128_1_0_0_1_n_n 128 rfl rfl).symm k) = ix2 k c :=
    funext fun x => Fin.ext (by
      match x with
      | ⟨0, _⟩ => exact (dot_S16384x128_S128x128_S16384x128_1_0_0_1_n_n.rhsIdx_val_of_single rfl _ _).trans hk
      | ⟨1, _⟩ => exact dotHid_rhs1 _ _)
  rw [el, er]

/-- The left operand's row is the result's row. -/
theorem dotProj_lhs0 (i : S512x128.Idx) (q : dot_S512x128_S128x128_S512x128_1_0_0_1_n_n.contr.Idx) :
    (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide),
    dif_pos (show (0 : Fin S512x128.rank) ∈ dot_S512x128_S128x128_S512x128_1_0_0_1_n_n.lhsNonContracting by decide)]
  rfl

/-- The right operand's column is the result's column. -/
theorem dotProj_rhs1 (i : S512x128.Idx) (q : dot_S512x128_S128x128_S512x128_1_0_0_1_n_n.contr.Idx) :
    (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide),
    dif_pos (show (1 : Fin S128x128.rank) ∈ dot_S512x128_S128x128_S512x128_1_0_0_1_n_n.rhsNonContracting by decide)]
  rfl

/-- The projection: [512, 128] node features against the [128, 128] weights. -/
theorem dotProj_apply (l : FVec Ideal S512x128 .bf16) (r : FVec Ideal S128x128 .bf16) (a : Fin 512) (c : Fin 128) :
    matmul dot_S512x128_S128x128_S512x128_1_0_0_1_n_n none l r (constant (F := Ideal) S512x128 .f32 0x00000000#32) (ix2 a c)
      = ∑ k : Fin 128, l (ix2 a k) * r (ix2 k c) := by
  simp only [matmul]
  rw [Ideal.matmul_constant_zero_apply,
    ← Equiv.sum_comp (contrEquiv1 dot_S512x128_S128x128_S512x128_1_0_0_1_n_n 128 rfl rfl).symm]
  refine Finset.sum_congr rfl fun k _ => ?_
  have hk := contrEquiv1_symm_val dot_S512x128_S128x128_S512x128_1_0_0_1_n_n 128 rfl rfl k
  have el : dot_S512x128_S128x128_S512x128_1_0_0_1_n_n.lhsIdx (ix2 a c) ((contrEquiv1 dot_S512x128_S128x128_S512x128_1_0_0_1_n_n 128 rfl rfl).symm k) = ix2 a k :=
    funext fun x => Fin.ext (by
      match x with
      | ⟨0, _⟩ => exact dotProj_lhs0 _ _
      | ⟨1, _⟩ => exact (dot_S512x128_S128x128_S512x128_1_0_0_1_n_n.lhsIdx_val_of_single rfl _ _).trans hk)
  have er : dot_S512x128_S128x128_S512x128_1_0_0_1_n_n.rhsIdx (ix2 a c) ((contrEquiv1 dot_S512x128_S128x128_S512x128_1_0_0_1_n_n 128 rfl rfl).symm k) = ix2 k c :=
    funext fun x => Fin.ext (by
      match x with
      | ⟨0, _⟩ => exact (dot_S512x128_S128x128_S512x128_1_0_0_1_n_n.rhsIdx_val_of_single rfl _ _).trans hk
      | ⟨1, _⟩ => exact dotProj_rhs1 _ _)
  rw [el, er]

/-- The left operand's row is the result's row. -/
theorem dotAgg_lhs0 (i : S128x128.Idx) (q : dot_S128x512_S512x128_S128x128_1_0_0_1_n_n.contr.Idx) :
    (dot_S128x512_S512x128_S128x128_1_0_0_1_n_n.lhsIdx i q 0).val = (i 0).val := by
  unfold DotDims.lhsIdx
  rw [dif_neg (show ¬(0 : Fin S128x512.rank) ∈ dot_S128x512_S512x128_S128x128_1_0_0_1_n_n.lhsBatch by decide),
    dif_pos (show (0 : Fin S128x512.rank) ∈ dot_S128x512_S512x128_S128x128_1_0_0_1_n_n.lhsNonContracting by decide)]
  rfl

/-- The right operand's column is the result's column. -/
theorem dotAgg_rhs1 (i : S128x128.Idx) (q : dot_S128x512_S512x128_S128x128_1_0_0_1_n_n.contr.Idx) :
    (dot_S128x512_S512x128_S128x128_1_0_0_1_n_n.rhsIdx i q 1).val = (i 1).val := by
  unfold DotDims.rhsIdx
  rw [dif_neg (show ¬(1 : Fin S512x128.rank) ∈ dot_S128x512_S512x128_S128x128_1_0_0_1_n_n.rhsBatch by decide),
    dif_pos (show (1 : Fin S512x128.rank) ∈ dot_S128x512_S512x128_S128x128_1_0_0_1_n_n.rhsNonContracting by decide)]
  rfl

/-- The aggregation: [128, 512] normalised edge weights against the [512, 128] projected features. -/
theorem dotAgg_apply (l : FVec Ideal S128x512 .bf16) (r : FVec Ideal S512x128 .bf16) (a : Fin 128) (c : Fin 128) :
    matmul dot_S128x512_S512x128_S128x128_1_0_0_1_n_n none l r (constant (F := Ideal) S128x128 .f32 0x00000000#32) (ix2 a c)
      = ∑ k : Fin 512, l (ix2 a k) * r (ix2 k c) := by
  simp only [matmul]
  rw [Ideal.matmul_constant_zero_apply,
    ← Equiv.sum_comp (contrEquiv1 dot_S128x512_S512x128_S128x128_1_0_0_1_n_n 512 rfl rfl).symm]
  refine Finset.sum_congr rfl fun k _ => ?_
  have hk := contrEquiv1_symm_val dot_S128x512_S512x128_S128x128_1_0_0_1_n_n 512 rfl rfl k
  have el : dot_S128x512_S512x128_S128x128_1_0_0_1_n_n.lhsIdx (ix2 a c) ((contrEquiv1 dot_S128x512_S512x128_S128x128_1_0_0_1_n_n 512 rfl rfl).symm k) = ix2 a k :=
    funext fun x => Fin.ext (by
      match x with
      | ⟨0, _⟩ => exact dotAgg_lhs0 _ _
      | ⟨1, _⟩ => exact (dot_S128x512_S512x128_S128x128_1_0_0_1_n_n.lhsIdx_val_of_single rfl _ _).trans hk)
  have er : dot_S128x512_S512x128_S128x128_1_0_0_1_n_n.rhsIdx (ix2 a c) ((contrEquiv1 dot_S128x512_S512x128_S128x128_1_0_0_1_n_n 512 rfl rfl).symm k) = ix2 k c :=
    funext fun x => Fin.ext (by
      match x with
      | ⟨0, _⟩ => exact (dot_S128x512_S512x128_S128x128_1_0_0_1_n_n.rhsIdx_val_of_single rfl _ _).trans hk
      | ⟨1, _⟩ => exact dotAgg_rhs1 _ _)
  rw [el, er]

end Cert.GcnPay

end
-- ==== Proof.PayLayout.lean ====
/-
  The layout operations of the kernels, read at an index given by coordinates.

  The edge kernel forms the [128, 128, 128] array of feature differences of all pairs (p, q) of a row block and a column
  block, flattens the pairs into 16384 rows (pair (p, q) is row p * 128 + q), and after the perceptron unflattens the
  16384 scores into the [128, 128] block. The lemmas below read each reshaping, each broadcast along a unit axis, the
  scalar read out of a [1, 1] vector, and the sum along the lanes of a [16384, 128] array.
-/
import proofs.«112107_j17961553231914_2_alg».proof.Proof.Gen.KernelIdeal.Skeleton
import Idealize.ShloMosaic.Lib.ValueLayout
import Idealize.ShloMosaic.PureOps.Ideal.Laws

noncomputable section

namespace Cert.GcnPay

open Idealize.ShloMosaic Idealize.ShloMosaic.ValueIdx Cert.KernelIdeal Cert.KernelIdeal.Gen

variable {α : Type}

/-- The row of the flattened pair array that holds the pair (p, q). -/
def pairRow (p q : Fin 128) : Fin 16384 := ⟨p.val * 128 + q.val, by omega⟩

/-- The [16384] scores viewed as [128, 128] read, at (p, q), the score of row p * 128 + q. -/
theorem shapeCast_flat_square_apply (x : S16384.Idx → α) (h : S16384.ShapeCasts S128x128) (p q : Fin 128) :
    shapeCast S128x128 x h (ix2 p q) = x (ix1 (pairRow p q)) :=
  shapeCast_apply x h _ _ (by
    rw [Shape.rowMajor_val_one, Shape.rowMajor_val_two]
    rfl)

/-- The [128, 128, 128] array of the pairs viewed as [16384, 128] reads, at row p * 128 + q, the pair (p, q). -/
theorem shapeCast_cube_rows_apply (x : S128x128x128.Idx → α) (h : S128x128x128.ShapeCasts S16384x128) (p q d : Fin 128) :
    shapeCast S16384x128 x h (ix2 (pairRow p q) d) = x (ix3 p q d) :=
  shapeCast_apply x h _ _ (by
    rw [Shape.rowMajor_val_three, Shape.rowMajor_val_two]
    rfl)

/-- A [128, 128] block viewed as [128, 1, 128] reads, at (p, 0, d), the block at (p, d). -/
theorem shapeCast_ab_a1b_apply (x : S128x128.Idx → α) (h : S128x128.ShapeCasts S128x1x128) (p d : Fin 128) :
    shapeCast S128x1x128 x h (ix3 p (0 : Fin 1) d) = x (ix2 p d) :=
  shapeCast_apply x h _ _ (by
    rw [Shape.rowMajor_val_three, Shape.rowMajor_val_two]
    show p.val * 128 + d.val = (p.val * 1 + 0) * 128 + d.val
    omega)

/-- A [128, 1, 128] array broadcast along its unit axis reads, at (p, q, d), the operand at (p, 0, d). -/
theorem broadcastTo_a1c_abc_apply (x : S128x1x128.Idx → α) (h : S128x1x128.Broadcasts S128x128x128) (p q d : Fin 128) :
    broadcastTo S128x128x128 x h (ix3 p q d) = x (ix3 p (0 : Fin 1) d) := by
  refine broadcastTo_apply x h (ix3 p q d) (ix3 p (0 : Fin 1) d) fun ax => ?_
  match ax with
  | ⟨0, _⟩ => rfl
  | ⟨1, _⟩ => rfl
  | ⟨2, _⟩ => rfl

/-- A [1, 128, 128] array broadcast along its unit axis reads, at (p, q, d), the operand at (0, q, d). -/
theorem broadcastTo_1bc_abc_apply (x : S1x128x128.Idx → α) (h : S1x128x128.Broadcasts S128x128x128) (p q d : Fin 128) :
    broadcastTo S128x128x128 x h (ix3 p q d) = x (ix3 (0 : Fin 1) q d) := by
  refine broadcastTo_apply x h (ix3 p q d) (ix3 (0 : Fin 1) q d) fun ax => ?_
  match ax with
  | ⟨0, _⟩ => rfl
  | ⟨1, _⟩ => rfl
  | ⟨2, _⟩ => rfl

/-- A [128, 1] column broadcast over 512 columns reads, at (p, j), the column at (p, 0). -/
theorem broadcastTo_a1_ab_apply (x : S128x1.Idx → α) (h : S128x1.Broadcasts S128x512) (p : Fin 128) (j : Fin 512) :
    broadcastTo S128x512 x h (ix2 p j) = x (ix2 p (0 : Fin 1)) := by
  refine broadcastTo_apply x h (ix2 p j) (ix2 p (0 : Fin 1)) fun ax => ?_
  match ax with
  | ⟨0, _⟩ => rfl
  | ⟨1, _⟩ => rfl

/-- The one element of a [1, 1] vector. -/
theorem extract00_apply (x : S1x1.Idx → α) (h : ∀ a, (![0, 0] : Fin 2 → Nat) a < S1x1.size a) :
    extractAt ![0, 0] x h = x (ix2 (0 : Fin 1) (0 : Fin 1)) := by
  unfold extractAt
  refine congrArg x (funext fun a => ?_)
  match a with
  | ⟨0, _⟩ => rfl
  | ⟨1, _⟩ => rfl

/-- The sum of a [16384, 128] array along its lanes, at row r, is the sum of that row. -/
theorem laneSum_apply (x : FVec Ideal S16384x128 .f32) (h : S16384x128.Reduces [1] S16384) (hφ : FKind.Formats .f32)
    (hacc : (0x00000000#32 : BitVec 32) = FKind.add.neutral .f32 hφ) (r : Fin 16384) :
    multiReduction (F := Ideal) .add [1] S16384 x 0x00000000#32 h hφ hacc (ix1 r) = ∑ c : Fin 128, x (ix2 r c) := by
  refine (Ideal.multiReduction_add_single x 0x00000000#32 h hφ hacc (ix1 r)).trans ?_
  refine Finset.sum_congr rfl fun c _ => congrArg x ?_
  funext a
  match a with
  | ⟨0, _⟩ => rfl
  | ⟨1, _⟩ => rfl

end Cert.GcnPay

end
-- ==== Proof.PayEdge.lean ====
/-
  The edge weights the first kernel computes, read at an index.

  For the pair (p, q) of a row block and a column block the kernel forms the absolute feature difference, sends it
  through the two-layer perceptron — a [16384, 128] by [128, 128] product for all pairs at once, pair (p, q) in row
  p * 128 + q, a bias, the rectifier, and a weighted sum along the lanes — adds the last bias and applies the logistic
  function. Absolute value is max x (-x) on the extended reals, and a change of float format is the identity.
-/
import proofs.«112107_j17961553231914_2_alg».proof.Proof.Gen.KernelIdeal.Skeleton
import Idealize.ShloMosaic.Lib.ValueLayout
import Idealize.ShloMosaic.PureOps.Ideal.Laws
import proofs.«112107_j17961553231914_2_alg».proof.Proof.PayDot
import proofs.«112107_j17961553231914_2_alg».proof.Proof.PayLayout

noncomputable section

namespace Cert.GcnPay

open Idealize.ShloMosaic Idealize.ShloMosaic.ValueIdx Cert.KernelIdeal Cert.KernelIdeal.Gen

/-- The flattened array of absolute differences at the row of the pair (p, q): |x (p, d) - y (q, d)|. -/
theorem pairDiff_apply (x y : FVec Ideal S128x128 .bf16) (h1 : S128x128.ShapeCasts S128x1x128)
    (h2 : S128x1x128.Broadcasts S128x128x128) (h3 : S128x128.ShapeCasts S1x128x128)
    (h4 : S1x128x128.Broadcasts S128x128x128) (h5 : S128x128x128.ShapeCasts S16384x128) (p q d : Fin 128) :
    shapeCast S16384x128
        (absf (subf (broadcastTo S128x128x128 (shapeCast S128x1x128 x h1) h2)
          (broadcastTo S128x128x128 (shapeCast S1x128x128 y h3) h4))) h5 (ix2 (pairRow p q) d)
      = max (x (ix2 p d) - y (ix2 q d)) (-(x (ix2 p d) - y (ix2 q d))) := by
  rw [shapeCast_cube_rows_apply]
  show max (broadcastTo S128x128x128 (shapeCast S128x1x128 x h1) h2 (ix3 p q d)
        - broadcastTo S128x128x128 (shapeCast S1x128x128 y h3) h4 (ix3 p q d))
      (-(broadcastTo S128x128x128 (shapeCast S128x1x128 x h1) h2 (ix3 p q d)
        - broadcastTo S128x128x128 (shapeCast S1x128x128 y h3) h4 (ix3 p q d))) = _
  rw [broadcastTo_a1c_abc_apply, broadcastTo_1bc_abc_apply, shapeCast_ab_a1b_apply, shapeCast_ab_1ab_apply]

/-- The logistic function of a vector at an index is the logistic function of the element. -/
theorem logistic_apply {s : Shape} {φ : FTy} (x : FVec Ideal s φ) (i : s.Idx) : logistic x i = Ideal.logistic (x i) := rfl

/-- The zero the rectifier compares against. -/
theorem scalarZero : (Scalar.ofBits .f32 0x00000000#32 : Ideal .f32) = 0 := Ideal.ofBits_zero_f32

/-- The edge weight of the pair (p, q). -/
theorem pay5_apply (v0 v3 : Vec Ideal S1x128x128 .f32) (v13 : Vec Ideal S128x128 .f32) (v16 v23 : Vec Ideal S1x128 .f32)
    (v30 : Vec Ideal S1x1 .f32) (p q : Fin 128) :
    k0_pay5 v0 v3 v13 v16 v23 v30 (ix2 p q)
      = Ideal.logistic ((∑ h : Fin 128,
            max ((∑ d : Fin 128,
                  max (v0 (ix3 (0 : Fin 1) p d) - v3 (ix3 (0 : Fin 1) q d))
                      (-(v0 (ix3 (0 : Fin 1) p d) - v3 (ix3 (0 : Fin 1) q d))) * v13 (ix2 d h))
                + v16 (ix2 (0 : Fin 1) h)) 0 * v23 (ix2 (0 : Fin 1) h))
          + v30 (ix2 (0 : Fin 1) (0 : Fin 1))) := by
  unfold k0_pay5
  refine (logistic_apply _ _).trans (congrArg Ideal.logistic ?_)
  rw [shapeCast_flat_square_apply]
  simp only [addf_apply, broadcast_apply]
  rw [extract00_apply]
  refine congrArg (fun t => t + v30 (ix2 (0 : Fin 1) (0 : Fin 1))) ?_
  refine (laneSum_apply _ _ _ _ (pairRow p q)).trans (Finset.sum_congr rfl fun h _ => ?_)
  simp only [extf_apply, mulf_apply, truncf_apply, maximumf_apply, addf_apply, broadcast_apply]
  rw [broadcastTo_1b_ab_apply, broadcastTo_1b_ab_apply, dotHid_apply, scalarZero]
  simp only [truncf_apply]
  rw [shapeCast_self, shapeCast_self]
  refine congrArg (fun t => max (t + v16 (ix2 (0 : Fin 1) h)) 0 * v23 (ix2 (0 : Fin 1) h))
    (Finset.sum_congr rfl fun d _ => ?_)
  rw [pairDiff_apply]
  simp only [truncf_apply]
  rw [shapeCast_1ab_ab_apply, shapeCast_1ab_ab_apply]

end Cert.GcnPay

end
-- ==== Proof.PayOut.lean ====
/-
  The values the second kernel stores, read at an index.

  At the first row block of a graph the kernel projects the graph's 512 nodes, x times gw, into a scratch array. At
  every row block it scales the block's edge weights by the row's and the column's inverse root degree, multiplies the
  result with the projected features and adds the bias.
-/
import proofs.«112107_j17961553231914_2_alg».proof.Proof.Gen.KernelIdeal.Skeleton
import Idealize.ShloMosaic.Lib.ValueLayout
import Idealize.ShloMosaic.PureOps.Ideal.Laws
import proofs.«112107_j17961553231914_2_alg».proof.Proof.PayDot
import proofs.«112107_j17961553231914_2_alg».proof.Proof.PayLayout

noncomputable section

namespace Cert.GcnPay

open Idealize.ShloMosaic Idealize.ShloMosaic.ValueIdx Cert.KernelIdeal Cert.KernelIdeal.Gen

/-- The projected features: row n of the graph's features against column o of the weights. -/
theorem k1_pay1_apply (v24 : Vec Ideal S1x512x128 .f32) (v27 : Vec Ideal S128x128 .f32) (n : Fin 512) (o : Fin 128) :
    k1_pay1 v24 v27 (ix2 n o) = ∑ d : Fin 128, v24 (ix3 (0 : Fin 1) n d) * v27 (ix2 d o) := by
  unfold k1_pay1
  rw [shapeCast_self]
  refine (dotProj_apply _ _ n o).trans ?_
  refine Finset.sum_congr rfl fun d _ => ?_
  simp only [truncf_apply]
  rw [shapeCast_1ab_ab_apply]

/-- The aggregation: the row's edge weights, each scaled by the row's factor and by its column's factor, against the
    projected features, plus the bias. -/
theorem k1_pay2_apply (v3 : Vec Ideal S1x128x512 .f32) (v5 : Vec Ideal S1x128x1 .f32) (v7 : Vec Ideal S1x1x512 .f32)
    (v14 : Vec Ideal S512x128 .f32) (v17 : Vec Ideal S1x128 .f32) (p o : Fin 128) :
    k1_pay2 v3 v5 v7 v14 v17 (ix3 (0 : Fin 1) p o)
      = (∑ j : Fin 512, v3 (ix3 (0 : Fin 1) p j) * v5 (ix3 (0 : Fin 1) p (0 : Fin 1))
            * v7 (ix3 (0 : Fin 1) (0 : Fin 1) j) * v14 (ix2 j o))
          + v17 (ix2 (0 : Fin 1) o) := by
  unfold k1_pay2
  rw [shapeCast_ab_1ab_apply]
  simp only [addf_apply]
  rw [shapeCast_self, broadcastTo_1b_ab_apply, dotAgg_apply]
  refine congrArg (fun t => t + v17 (ix2 (0 : Fin 1) o)) (Finset.sum_congr rfl fun j _ => ?_)
  simp only [truncf_apply, mulf_apply]
  rw [shapeCast_1ab_ab_apply, broadcastTo_a1_ab_apply, shapeCast_1ab_ab_apply, broadcastTo_1b_ab_apply,
    shapeCast_1ab_ab_apply]

end Cert.GcnPay

end
-- ==== Proof.BridgeSum.lean ====
/-
  A sum over 512 indices as four consecutive tiles of 128.

  Index s of 512 is tile s / 128, position s % 128, so a sum over the 512 indices is the sum over the four tiles of
  the sums over each tile; accumulating the four tile sums one after another, starting from zero, gives the whole
  sum. This holds in any additive commutative monoid, so on the extended reals with no finiteness assumed.
-/
import Mathlib.Algebra.BigOperators.Fin
import Mathlib.Algebra.BigOperators.Group.Finset.Sigma

namespace Cert.GcnBridge

open scoped BigOperators

/-- Index 128 * k + q: position q of tile k. -/
def rowOf (k : Fin 4) (q : Fin 128) : Fin 512 := ⟨128 * k.val + q.val, by omega⟩

@[simp] theorem rowOf_val (k : Fin 4) (q : Fin 128) : (rowOf k q).val = 128 * k.val + q.val := rfl

/-- The pairs (tile, position) are the 512 indices. -/
def rowEquiv : Fin 4 × Fin 128 ≃ Fin 512 where
  toFun kq := rowOf kq.1 kq.2
  invFun s := (⟨s.val / 128, by omega⟩, ⟨s.val % 128, by omega⟩)
  left_inv := by
    rintro ⟨k, q⟩
    refine Prod.ext (Fin.ext ?_) (Fin.ext ?_)
    · show (128 * k.val + q.val) / 128 = k.val
      omega
    · show (128 * k.val + q.val) % 128 = q.val
      omega
  right_inv s := by
    refine Fin.ext ?_
    show 128 * (s.val / 128) + s.val % 128 = s.val
    omega

variable {M : Type*} [AddCommMonoid M]

/-- A sum over the 512 indices is the sum over the tiles of the sums over each tile. -/
theorem sum_rowOf (f : Fin 512 → M) : ∑ s : Fin 512, f s = ∑ k : Fin 4, ∑ q : Fin 128, f (rowOf k q) :=
  (Equiv.sum_comp rowEquiv f).symm.trans (Fintype.sum_prod_type' fun k q => f (rowOf k q))

/-- The four tile sums added one after another, starting from zero, are the whole sum. -/
theorem sum_four_tiles (f : Fin 512 → M) :
    (((0 + ∑ q : Fin 128, f (rowOf 0 q)) + ∑ q : Fin 128, f (rowOf 1 q)) + ∑ q : Fin 128, f (rowOf 2 q))
        + ∑ q : Fin 128, f (rowOf 3 q)
      = ∑ s : Fin 512, f s := by
  rw [sum_rowOf, Fin.sum_univ_four, zero_add]

/-- An accumulator set to zero plus the first tile's sum, to which each further tile's sum is added, ends at the
    whole sum. -/
theorem acc_four_tiles (f : Fin 512 → M) (a0 a1 a2 a3 : M)
    (h0 : a0 = 0 + ∑ q : Fin 128, f (rowOf 0 q)) (h1 : a1 = a0 + ∑ q : Fin 128, f (rowOf 1 q))
    (h2 : a2 = a1 + ∑ q : Fin 128, f (rowOf 2 q)) (h3 : a3 = a2 + ∑ q : Fin 128, f (rowOf 3 q)) :
    a3 = ∑ s : Fin 512, f s := by
  rw [h3, h2, h1, h0]
  exact sum_four_tiles f

/-- The same for an accumulator indexed by the tile just added. -/
theorem acc_tiles (f : Fin 512 → M) (a : Fin 4 → M) (h0 : a 0 = 0 + ∑ q : Fin 128, f (rowOf 0 q))
    (hs : ∀ k : Fin 3, a k.succ = a k.castSucc + ∑ q : Fin 128, f (rowOf k.succ q)) :
    a 3 = ∑ s : Fin 512, f s :=
  acc_four_tiles f (a 0) (a 1) (a 2) (a 3) h0 (hs 0) (hs 1) (hs 2)

end Cert.GcnBridge
-- ==== Proof.BridgeBlocks.lean ====
/-
  The kernels' blocks are the specification's functions.

  At the grid point (graph b, row tile i, column tile j) the first kernel loads rows 128 * i + p and 128 * j + q of the
  graph's features and the perceptron's weights; what it computes at (p, q) is then the specification's edge weight
  of that pair of nodes. The second kernel's projection of the graph's features is the specification's projected
  features, and, given the edge weights of row tile i, the inverse root degrees and the projected features, its
  aggregation at (p, o) is the specification's output for node 128 * i + p.
-/
import proofs.«112107_j17961553231914_2_alg».proof.Proof.Spec
import proofs.«112107_j17961553231914_2_alg».proof.Proof.PayEdge
import proofs.«112107_j17961553231914_2_alg».proof.Proof.PayOut
import proofs.«112107_j17961553231914_2_alg».proof.Proof.BridgeSum

noncomputable section

namespace Cert.GcnBridge

open Idealize.ShloMosaic Idealize.ShloMosaic.ValueIdx Cert.KernelIdeal Cert.KernelIdeal.Gen Cert.GcnPay

variable (x : Cert.GcnSpec.SX.Idx → EReal) (w1 : Cert.GcnSpec.SW.Idx → EReal) (b1 : Cert.GcnSpec.SB.Idx → EReal)
  (w2 : Cert.GcnSpec.SC.Idx → EReal) (b2 : Cert.GcnSpec.S1.Idx → EReal) (gw : Cert.GcnSpec.SW.Idx → EReal)
  (gb : Cert.GcnSpec.SB.Idx → EReal)

/-- The edge weight the first kernel computes at (p, q) of the tile (i, j) of graph b. -/
theorem edge_block (b : Fin 8) (i j : Fin 4)
    (v0 v3 : Vec Ideal S1x128x128 .f32) (v13 : Vec Ideal S128x128 .f32) (v16 v23 : Vec Ideal S1x128 .f32)
    (v30 : Vec Ideal S1x1 .f32)
    (h0 : ∀ p d : Fin 128, v0 (ix3 (0 : Fin 1) p d) = x (ix3 b (rowOf i p) d))
    (h3 : ∀ q d : Fin 128, v3 (ix3 (0 : Fin 1) q d) = x (ix3 b (rowOf j q) d))
    (h13 : ∀ d h : Fin 128, v13 (ix2 d h) = w1 (ix2 d h))
    (h16 : ∀ h : Fin 128, v16 (ix2 (0 : Fin 1) h) = b1 (ix1 h))
    (h23 : ∀ h : Fin 128, v23 (ix2 (0 : Fin 1) h) = w2 (ix2 h (0 : Fin 1)))
    (h30 : v30 (ix2 (0 : Fin 1) (0 : Fin 1)) = b2 (ix1 (0 : Fin 1)))
    (p q : Fin 128) :
    k0_pay5 v0 v3 v13 v16 v23 v30 (ix2 p q) = Cert.GcnSpec.adj x w1 b1 w2 b2 b (rowOf i p) (rowOf j q) := by
  rw [pay5_apply]
  unfold Cert.GcnSpec.adj Cert.GcnSpec.score Cert.GcnSpec.hid
  simp only [h0, h3, h13, h16, h23, h30]

/-- The degree of a node as its row of edge weights accumulated tile by tile from zero. -/
theorem deg_of_tiles (b : Fin 8) (s : Fin 512) (a0 a1 a2 a3 : EReal)
    (h0 : a0 = 0 + ∑ q : Fin 128, Cert.GcnSpec.adj x w1 b1 w2 b2 b s (rowOf 0 q))
    (h1 : a1 = a0 + ∑ q : Fin 128, Cert.GcnSpec.adj x w1 b1 w2 b2 b s (rowOf 1 q))
    (h2 : a2 = a1 + ∑ q : Fin 128, Cert.GcnSpec.adj x w1 b1 w2 b2 b s (rowOf 2 q))
    (h3 : a3 = a2 + ∑ q : Fin 128, Cert.GcnSpec.adj x w1 b1 w2 b2 b s (rowOf 3 q)) :
    a3 = Cert.GcnSpec.deg x w1 b1 w2 b2 b s :=
  acc_four_tiles (fun t => Cert.GcnSpec.adj x w1 b1 w2 b2 b s t) a0 a1 a2 a3 h0 h1 h2 h3

/-- The second kernel's projection at (n, o) for graph b. -/
theorem proj_block (b : Fin 8) (v24 : Vec Ideal S1x512x128 .f32) (v27 : Vec Ideal S128x128 .f32)
    (h24 : ∀ (n : Fin 512) (d : Fin 128), v24 (ix3 (0 : Fin 1) n d) = x (ix3 b n d))
    (h27 : ∀ d o : Fin 128, v27 (ix2 d o) = gw (ix2 d o))
    (n : Fin 512) (o : Fin 128) :
    k1_pay1 v24 v27 (ix2 n o) = Cert.GcnSpec.xw x gw b n o := by
  rw [k1_pay1_apply]
  unfold Cert.GcnSpec.xw
  simp only [h24, h27]

/-- The second kernel's aggregation at (p, o) of row tile i of graph b. -/
theorem agg_block (b : Fin 8) (i : Fin 4)
    (v3 : Vec Ideal S1x128x512 .f32) (v5 : Vec Ideal S1x128x1 .f32) (v7 : Vec Ideal S1x1x512 .f32)
    (v14 : Vec Ideal S512x128 .f32) (v17 : Vec Ideal S1x128 .f32)
    (h3 : ∀ (p : Fin 128) (s : Fin 512), v3 (ix3 (0 : Fin 1) p s) = Cert.GcnSpec.adj x w1 b1 w2 b2 b (rowOf i p) s)
    (h5 : ∀ p : Fin 128, v5 (ix3 (0 : Fin 1) p (0 : Fin 1)) = Cert.GcnSpec.dinv x w1 b1 w2 b2 b (rowOf i p))
    (h7 : ∀ s : Fin 512, v7 (ix3 (0 : Fin 1) (0 : Fin 1) s) = Cert.GcnSpec.dinv x w1 b1 w2 b2 b s)
    (h14 : ∀ (s : Fin 512) (o : Fin 128), v14 (ix2 s o) = Cert.GcnSpec.xw x gw b s o)
    (h17 : ∀ o : Fin 128, v17 (ix2 (0 : Fin 1) o) = gb (ix1 o))
    (p o : Fin 128) :
    k1_pay2 v3 v5 v7 v14 v17 (ix3 (0 : Fin 1) p o) = Cert.GcnSpec.out x w1 b1 w2 b2 gw gb b (rowOf i p) o := by
  rw [k1_pay2_apply]
  unfold Cert.GcnSpec.out
  simp only [h3, h5, h7, h14, h17]

end Cert.GcnBridge

end
-- ==== Proof.KI0Final.lean ====
/-
  The first region's two result arrays are the specification's.

  Point t of the grid is graph t / 16, row tile (t / 4) % 4 and column tile t % 4. The block of scores it computes is
  the specification's edge weights of its rows against its columns, so the edge-weight array, every point writing its
  block back, ends as the specification's. The column accumulator is reset at column tile 0 and gains the row sums of
  each column tile's block; after column tile 3 it holds, for each row of the row tile, the sum of that row's edge
  weights over all 512 columns, tile by tile — the specification's degree —, and that is what is written back.
-/
import proofs.«112107_j17961553231914_2_alg».proof.Proof.KI0Value
import proofs.«112107_j17961553231914_2_alg».proof.Proof.KI0GeoIn
import proofs.«112107_j17961553231914_2_alg».proof.Proof.KI0GeoOut
import proofs.«112107_j17961553231914_2_alg».proof.Proof.PayStore
import proofs.«112107_j17961553231914_2_alg».proof.Proof.PayIdx
import proofs.«112107_j17961553231914_2_alg».proof.Proof.BridgeBlocks

noncomputable section

namespace Cert.KernelIdeal.R0

open Cert.KernelIdeal Cert.KernelIdeal.Gen
open Idealize.ShloMosaic Idealize.ShloMosaic.TcCoe Idealize.ShloMosaic.ValueIdx
open Idealize.ShloMosaic.Pipeline (Dat Cfg Window)
open Cert.GcnPay Cert.GcnBridge

/-! ## The point before, in the same graph and row tile -/

/-- The point run just before t. -/
def prev (t : Fin cfg0.N) : Fin cfg0.N := ⟨t.val - 1, Nat.lt_of_le_of_lt (Nat.sub_le _ _) t.isLt⟩

theorem prev_val (t : Fin cfg0.N) : (prev t).val = t.val - 1 := rfl

/-- Stepping back inside a row of column tiles lowers the column tile by one … -/
theorem prev_mod (t : Fin cfg0.N) (j : Nat) (h : t.val % 4 = j + 1) : (prev t).val % 4 = j := by
  rw [prev_val]; omega

/-- … and keeps the graph … -/
theorem prev_graph (t : Fin cfg0.N) (h : ¬t.val % 4 = 0) : ptGraph (prev t) = ptGraph t :=
  Fin.ext (by show (t.val - 1) / 16 = t.val / 16; omega)

/-- … and the row tile. -/
theorem prev_row (t : Fin cfg0.N) (h : ¬t.val % 4 = 0) (p : Fin 128) : ptRow (prev t) p = ptRow t p :=
  Fin.ext (by show 128 * ((t.val - 1) / 4 % 4) + p.val = 128 * (t.val / 4 % 4) + p.val; omega)

/-- A point's rows and columns are those of its row tile and column tile. -/
theorem ptRow_eq (t : Fin cfg0.N) (k : Fin 4) (hk : t.val / 4 % 4 = k.val) (p : Fin 128) : ptRow t p = rowOf k p :=
  Fin.ext (by show 128 * (t.val / 4 % 4) + p.val = 128 * k.val + p.val; rw [hk])

theorem ptCol_eq (t : Fin cfg0.N) (k : Fin 4) (hk : t.val % 4 = k.val) (q : Fin 128) : ptCol t q = rowOf k q :=
  Fin.ext (by show 128 * (t.val % 4) + q.val = 128 * k.val + q.val; rw [hk])

/-! ## Two arrays equal at every index by coordinates are equal -/

theorem ext_S1x128x128 {α : Type} (f g : S1x128x128.Idx → α)
    (h : ∀ p q : Fin 128, f (ix3 (0 : Fin 1) p q) = g (ix3 (0 : Fin 1) p q)) : f = g :=
  funext fun j => by
    obtain ⟨p, q, rfl⟩ := exists_idx_S1x128x128 j
    exact h p q

theorem ext_S1x128x1 {α : Type} (f g : S1x128x1.Idx → α)
    (h : ∀ p : Fin 128, f (ix3 (0 : Fin 1) p (0 : Fin 1)) = g (ix3 (0 : Fin 1) p (0 : Fin 1))) : f = g :=
  funext fun j => by
    obtain ⟨p, rfl⟩ := exists_idx_S1x128x1 j
    exact h p

/-! ## The values -/

variable (V : (c : Dev nD) → (b : Ref sig .tc) → Buf (Elt Ideal) ((c : Thread nD τ).loc b)) (c : Dev nD)
  (x : Cert.GcnSpec.SX.Idx → EReal) (w1 : Cert.GcnSpec.SW.Idx → EReal) (b1 : Cert.GcnSpec.SB.Idx → EReal)
  (w2 : Cert.GcnSpec.SC.Idx → EReal) (b2 : Cert.GcnSpec.S1.Idx → EReal)
  (hx : (V c main_arg0 : S8x512x128.Idx → EReal) = x) (hw1 : (V c main_arg1 : S128x128.Idx → EReal) = w1)
  (hb1 : ∀ h : Fin 128, (V c main_v0 : S1x128.Idx → EReal) (ix2 (0 : Fin 1) h) = b1 (ix1 h))
  (hw2 : ∀ h : Fin 128, (V c main_v1 : S1x128.Idx → EReal) (ix2 (0 : Fin 1) h) = w2 (ix2 h (0 : Fin 1)))
  (hb2 : (V c main_v2 : S1x1.Idx → EReal) (ix2 (0 : Fin 1) (0 : Fin 1)) = b2 (ix1 (0 : Fin 1)))

include hx hw1 hb1 hw2 hb2

/-- The block of scores point t computes is the specification's edge weights of its rows against its columns. -/
theorem score_blk (t : Fin cfg0.N) (p q : Fin 128) :
    scoreBlk V c t (ix2 p q) = Cert.GcnSpec.adj x w1 b1 w2 b2 (ptGraph t) (ptRow t p) (ptCol t q) := by
  unfold scoreBlk
  exact edge_block x w1 b1 w2 b2 (ptGraph t) ⟨t.val / 4 % 4, Nat.mod_lt _ (by decide)⟩ ⟨t.val % 4, Nat.mod_lt _ (by decide)⟩
    (iblk V c 0 t) (iblk V c 1 t) (iblk V c 2 t) (iblk V c 3 t) (iblk V c 4 t) (iblk V c 5 t)
    (fun p d => (iblk0_apply V c t p d).trans (congrFun hx _))
    (fun q d => (iblk1_apply V c t q d).trans (congrFun hx _))
    (fun d h => congrFun ((iblk2_eq V c t).trans hw1) _)
    (fun h => (congrFun (iblk3_eq V c t) _).trans (hb1 h))
    (fun h => (congrFun (iblk4_eq V c t) _).trans (hw2 h))
    ((congrFun (iblk5_eq V c t) _).trans hb2) p q

/-- THE EDGE-WEIGHT ARRAY after the region is the specification's. -/
theorem adj_final : (dat V c).arrAt 6 cfg0.N = Cert.GcnSpec.adjArr x w1 b1 w2 b2 := by
  refine final6 (dat V c) _ fun t => ?_
  show (cfg0.win 6).cut (grid0.coords t) ((dat V c).after 6 t) = _
  rw [after6_eq]
  refine ext_S1x128x128 _ _ fun p q => ?_
  refine Eq.trans ?_ (blk6_read (F := Ideal) (Cert.GcnSpec.adjArr x w1 b1 w2 b2) t p q).symm
  show k0_pay1 (scoreBlk V c t) (ix3 (0 : Fin 1) p q) = _
  rw [pay1_apply, score_blk V c x w1 b1 w2 b2 hx hw1 hb1 hw2 hb2]
  rfl

/-- The accumulator after a point of column tile 0, at row p: zero plus the row's edge weights over column tile 0. -/
theorem acc_zero_apply (t : Fin cfg0.N) (h0 : t.val % 4 = 0) (p : Fin 128) (b : Fin 8) (s : Fin 512)
    (hb : ptGraph t = b) (hs : ptRow t p = s) :
    (outsAt0 V c t.val t.isLt).2.2 (ix2 p (0 : Fin 1))
      = 0 + ∑ q : Fin 128, Cert.GcnSpec.adj x w1 b1 w2 b2 b s (rowOf 0 q) := by
  subst hb hs
  rw [acc_zero V c t h0, pay3_apply, pay2_apply]
  refine congrArg (fun u => (0 : EReal) + u) (Finset.sum_congr rfl fun q _ => ?_)
  rw [score_blk V c x w1 b1 w2 b2 hx hw1 hb1 hw2 hb2, ptCol_eq t 0 h0 q]

/-- The accumulator after a point of column tile k > 0, at row p: what the point before left plus the row's edge weights
    over column tile k. -/
theorem acc_succ_apply (t : Fin cfg0.N) (k : Fin 4) (hk : t.val % 4 = k.val) (h0 : ¬t.val % 4 = 0) (p : Fin 128)
    (b : Fin 8) (s : Fin 512) (hb : ptGraph t = b) (hs : ptRow t p = s) :
    (outsAt0 V c t.val t.isLt).2.2 (ix2 p (0 : Fin 1))
      = (outsAt0 V c (prev t).val (prev t).isLt).2.2 (ix2 p (0 : Fin 1))
        + ∑ q : Fin 128, Cert.GcnSpec.adj x w1 b1 w2 b2 b s (rowOf k q) := by
  subst hb hs
  rw [acc_succ V c t h0, pay3_apply]
  refine congrArg (fun u => (outsAt0 V c (prev t).val (prev t).isLt).2.2 (ix2 p (0 : Fin 1)) + u)
    (Finset.sum_congr rfl fun q _ => ?_)
  rw [score_blk V c x w1 b1 w2 b2 hx hw1 hb1 hw2 hb2, ptCol_eq t k hk q]

/-- THE DEGREE ARRAY after the region is the specification's degrees. -/
theorem deg_final :
    (dat V c).arrAt 7 cfg0.N = fun k : S8x512x1.Idx => Cert.GcnSpec.deg x w1 b1 w2 b2 (k 0) (k 1) := by
  refine final7 (dat V c) _ fun t h3 => ?_
  show (cfg0.win 7).cut (grid0.coords t) ((dat V c).after 7 t) = _
  rw [after7_eq V c t h3]
  refine ext_S1x128x1 _ _ fun p => ?_
  refine Eq.trans ?_ (blk7_read (F := Ideal)
    (fun k : S8x512x1.Idx => Cert.GcnSpec.deg x w1 b1 w2 b2 (k 0) (k 1)) t p).symm
  show k0_pay4 ((outsAt0 V c t.val t.isLt).2.2) (ix3 (0 : Fin 1) p (0 : Fin 1))
    = Cert.GcnSpec.deg x w1 b1 w2 b2 (ptGraph t) (ptRow t p)
  rw [pay4_apply]
  have n3 : ¬t.val % 4 = 0 := by omega
  have m2 : (prev t).val % 4 = 2 := prev_mod t 2 h3
  have n2 : ¬(prev t).val % 4 = 0 := by omega
  have m1 : (prev (prev t)).val % 4 = 1 := prev_mod _ 1 m2
  have n1 : ¬(prev (prev t)).val % 4 = 0 := by omega
  have m0 : (prev (prev (prev t))).val % 4 = 0 := prev_mod _ 0 m1
  have g2 : ptGraph (prev t) = ptGraph t := prev_graph t n3
  have g1 : ptGraph (prev (prev t)) = ptGraph t := (prev_graph _ n2).trans g2
  have g0 : ptGraph (prev (prev (prev t))) = ptGraph t := (prev_graph _ n1).trans g1
  have r2 : ptRow (prev t) p = ptRow t p := prev_row t n3 p
  have r1 : ptRow (prev (prev t)) p = ptRow t p := (prev_row _ n2 p).trans r2
  have r0 : ptRow (prev (prev (prev t))) p = ptRow t p := (prev_row _ n1 p).trans r1
  exact deg_of_tiles x w1 b1 w2 b2 (ptGraph t) (ptRow t p) _ _ _ _
    (acc_zero_apply V c x w1 b1 w2 b2 hx hw1 hb1 hw2 hb2 (prev (prev (prev t))) m0 p _ _ g0 r0)
    (acc_succ_apply V c x w1 b1 w2 b2 hx hw1 hb1 hw2 hb2 (prev (prev t)) 1 m1 n1 p _ _ g1 r1)
    (acc_succ_apply V c x w1 b1 w2 b2 hx hw1 hb1 hw2 hb2 (prev t) 2 m2 n2 p _ _ g2 r2)
    (acc_succ_apply V c x w1 b1 w2 b2 hx hw1 hb1 hw2 hb2 t 3 h3 n3 p _ _ rfl rfl)

end Cert.KernelIdeal.R0

end
-- ==== Proof.KI1Value.lean ====
/-
  The second kernel region's values, generic in the float instance: what the found pieces of each case's run are
  in terms of the body's two payloads, and from them the contents of the scratch and of the output block after
  every point. The scratch is written only at the first point of each group of four points (one graph), so after
  any point it holds the projection payload of that first point's feature and weight blocks; the output block is
  the aggregation payload of the point's own blocks over that scratch.
-/
import proofs.«112107_j17961553231914_2_alg».proof.Proof.KI1Frame
import Idealize.ShloMosaic.Lib.Pipeline.Value

-- membership in a rectangle of these extents is decided structurally, one step per coordinate of the long axes
set_option maxRecDepth 16384

noncomputable section

namespace Cert.KernelIdeal.R1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Zero offsets, however spelt -/

theorem hz2 : (![0, 0] : Fin 2 → Nat) = fun _ => 0 := funext fun a => by fin_cases a <;> rfl
theorem hz3 : (![0, 0, 0] : Fin 3 → Nat) = fun _ => 0 := funext fun a => by fin_cases a <;> rfl

/-! ## The found pieces are the payloads -/

/-- Where the condition holds the scratch is left at the projection of the feature block by the weight block:
    the one store covers the scratch, and its payload's loads read the whole input buffers. -/
theorem soutA_eq (c : Dev nD) (i : grid1.Coords) (arg2 : Memref sig .tc .vmem S1x512x128 .f32) (harg2 : arg2.IsWhole) (arg3 : Memref sig .tc .vmem S128x128 .f32) (harg3 : arg3.IsWhole) (arg4 : Memref sig .tc .vmem S1x128x512 .f32) (harg4 : arg4.IsWhole) (arg5 : Memref sig .tc .vmem S1x128x1 .f32) (harg5 : arg5.IsWhole) (arg6 : Memref sig .tc .vmem S1x1x512 .f32) (harg6 : arg6.IsWhole) (arg7 : Memref sig .tc .vmem S1x128 .f32) (harg7 : arg7.IsWhole) (arg8 : Memref sig .tc .vmem S1x128x128 .f32) (harg8 : arg8.IsWhole) (arg9 : Memref sig .tc .vmem S512x128 .f32) (harg9 : arg9.IsWhole) (hc0 : cond0 i)
    (x0 : Vec F S1x512x128 .f32) (x1 : Vec F S128x128 .f32) (x2 : Vec F S1x128x512 .f32) (x3 : Vec F S1x128x1 .f32) (x4 : Vec F S1x1x512 .f32) (x5 : Vec F S1x128 .f32) : soutA c i arg2 harg2 arg3 harg3 arg4 harg4 arg5 harg5 arg6 harg6 arg7 harg7 arg8 harg8 arg9 harg9 hc0 x0 x1 x2 x3 x4 x5 = k1_pay1 x0 x1 := by
  unfold soutA
  rw [View.read_writes_eq_canon _ _ _ (scoverA c i arg2 harg2 arg3 harg3 arg4 harg4 arg5 harg5 arg6 harg6 arg7 harg7 arg8 harg8 arg9 harg9 hc0 x0 x1 x2 x3 x4 x5)]
  unfold kernelRunA
  dsimp only
  sl_unfold_words
  rw [View.canon_unit_zero (S := S512x128) hz2]
  simp only [View.readAt_eq_ld, harg2.read_unread, harg3.read_unread, harg4.read_unread, harg5.read_unread, harg6.read_unread, harg7.read_unread, harg9.read_unread, View.ld_unit_zero (S := S1x512x128) hz3, View.ld_unit_zero (S := S128x128) hz2, View.ld_unit_zero (S := S1x128x512) hz3, View.ld_unit_zero (S := S1x128x1) hz3, View.ld_unit_zero (S := S1x1x512) hz3, View.ld_unit_zero (S := S512x128) hz2, View.ld_unit_zero (S := S1x128) hz2]

/-- Where the condition holds the output block is the aggregation payload of the point's blocks over the
    projection just stored: the scratch read back after its covering store is that store's payload. -/
theorem outA_6_eq (c : Dev nD) (i : grid1.Coords) (arg2 : Memref sig .tc .vmem S1x512x128 .f32) (harg2 : arg2.IsWhole) (arg3 : Memref sig .tc .vmem S128x128 .f32) (harg3 : arg3.IsWhole) (arg4 : Memref sig .tc .vmem S1x128x512 .f32) (harg4 : arg4.IsWhole) (arg5 : Memref sig .tc .vmem S1x128x1 .f32) (harg5 : arg5.IsWhole) (arg6 : Memref sig .tc .vmem S1x1x512 .f32) (harg6 : arg6.IsWhole) (arg7 : Memref sig .tc .vmem S1x128 .f32) (harg7 : arg7.IsWhole) (arg8 : Memref sig .tc .vmem S1x128x128 .f32) (harg8 : arg8.IsWhole) (arg9 : Memref sig .tc .vmem S512x128 .f32) (harg9 : arg9.IsWhole) (hc0 : cond0 i)
    (x0 : Vec F S1x512x128 .f32) (x1 : Vec F S128x128 .f32) (x2 : Vec F S1x128x512 .f32) (x3 : Vec F S1x128x1 .f32) (x4 : Vec F S1x1x512 .f32) (x5 : Vec F S1x128 .f32) : outA_6 c i arg2 harg2 arg3 harg3 arg4 harg4 arg5 harg5 arg6 harg6 arg7 harg7 arg8 harg8 arg9 harg9 hc0 x0 x1 x2 x3 x4 x5 = k1_pay2 x2 x3 x4 (k1_pay1 x0 x1) x5 := by
  unfold outA_6
  rw [View.read_writes_eq_canon _ _ _ (coverA_6 c i arg2 harg2 arg3 harg3 arg4 harg4 arg5 harg5 arg6 harg6 arg7 harg7 arg8 harg8 arg9 harg9 hc0 x0 x1 x2 x3 x4 x5)]
  unfold kernelRunA
  dsimp only
  sl_unfold_words
  rw [View.canon_unit_zero (S := S1x128x128) hz3, View.readCov_unit_zero (S := S512x128) _ hz2]
  simp only [View.readAt_eq_ld, harg2.read_unread, harg3.read_unread, harg4.read_unread, harg5.read_unread, harg6.read_unread, harg7.read_unread, harg9.read_unread, View.ld_unit_zero (S := S1x512x128) hz3, View.ld_unit_zero (S := S128x128) hz2, View.ld_unit_zero (S := S1x128x512) hz3, View.ld_unit_zero (S := S1x128x1) hz3, View.ld_unit_zero (S := S1x1x512) hz3, View.ld_unit_zero (S := S512x128) hz2, View.ld_unit_zero (S := S1x128) hz2]

/-- Where the condition fails the output block is the aggregation payload of the point's blocks over the scratch
    as the body found it. -/
theorem outB_6_eq (c : Dev nD) (i : grid1.Coords) (arg2 : Memref sig .tc .vmem S1x512x128 .f32) (harg2 : arg2.IsWhole) (arg3 : Memref sig .tc .vmem S128x128 .f32) (harg3 : arg3.IsWhole) (arg4 : Memref sig .tc .vmem S1x128x512 .f32) (harg4 : arg4.IsWhole) (arg5 : Memref sig .tc .vmem S1x128x1 .f32) (harg5 : arg5.IsWhole) (arg6 : Memref sig .tc .vmem S1x1x512 .f32) (harg6 : arg6.IsWhole) (arg7 : Memref sig .tc .vmem S1x128 .f32) (harg7 : arg7.IsWhole) (arg8 : Memref sig .tc .vmem S1x128x128 .f32) (harg8 : arg8.IsWhole) (arg9 : Memref sig .tc .vmem S512x128 .f32) (harg9 : arg9.IsWhole) (hc0 : ¬cond0 i)
    (x0 : Vec F S1x512x128 .f32) (x1 : Vec F S128x128 .f32) (x2 : Vec F S1x128x512 .f32) (x3 : Vec F S1x128x1 .f32) (x4 : Vec F S1x1x512 .f32) (x5 : Vec F S1x128 .f32) (xs : Vec F S512x128 .f32) : outB_6 c i arg2 harg2 arg3 harg3 arg4 harg4 arg5 harg5 arg6 harg6 arg7 harg7 arg8 harg8 arg9 harg9 hc0 x0 x1 x2 x3 x4 x5 xs = k1_pay2 x2 x3 x4 xs x5 := by
  unfold outB_6
  rw [View.read_writes_eq_canon _ _ _ (coverB_6 c i arg2 harg2 arg3 harg3 arg4 harg4 arg5 harg5 arg6 harg6 arg7 harg7 arg8 harg8 arg9 harg9 hc0 x0 x1 x2 x3 x4 x5 xs)]
  unfold kernelRunB
  dsimp only
  sl_unfold_words
  rw [View.canon_unit_zero (S := S1x128x128) hz3]
  simp only [View.readAt_eq_ld, harg2.read_unread, harg3.read_unread, harg4.read_unread, harg5.read_unread, harg6.read_unread, harg7.read_unread, harg9.read_unread, View.ld_unit_zero (S := S1x512x128) hz3, View.ld_unit_zero (S := S128x128) hz2, View.ld_unit_zero (S := S1x128x512) hz3, View.ld_unit_zero (S := S1x128x1) hz3, View.ld_unit_zero (S := S1x1x512) hz3, View.ld_unit_zero (S := S512x128) hz2, View.ld_unit_zero (S := S1x128) hz2]

/-! ## The scratch and the output after each point -/

/-- The first point of the group of four that position `n` lies in. -/
def grp (n : ℕ) (hn : n < cfg1.N) : Fin cfg1.N := ⟨4 * (n / 4), lt_of_le_of_lt (Nat.mul_div_le n 4) hn⟩

/-- THE SCRATCH after point `n` holds the projection of the feature block by the weight block as they stand at the
    first point of `n`'s group: it is stored there and untouched until the next group begins. -/
theorem scratch_eq (c : Dev nD) : ∀ (n : ℕ) (hn : n < cfg1.N),
    (outsAt V c n hn).2 = k1_pay1 (iblk V c 0 (grp n hn)) (iblk V c 1 (grp n hn))
  | 0, hn => by
    rw [outsAt_A V c ⟨0, hn⟩ (Nat.zero_mod _)]
    dsimp only
    exact soutA_eq (F := F) _ _ _ _ _ _ _ _ _ _ _ _ _ _ _ _ _ _ _ _ _ _ _ _ _
  | n + 1, hn => by
    by_cases h0 : (n + 1) % 4 = 0
    · rw [outsAt_A V c ⟨n + 1, hn⟩ h0]
      have hg : grp (n + 1) hn = ⟨n + 1, hn⟩ := Fin.ext (by show 4 * ((n + 1) / 4) = n + 1; omega)
      rw [hg]
      dsimp only
      exact soutA_eq (F := F) _ _ _ _ _ _ _ _ _ _ _ _ _ _ _ _ _ _ _ _ _ _ _ _ _
    · rw [outsAt_B V c ⟨n + 1, hn⟩ h0]
      have hg : grp (n + 1) hn = grp n (Nat.lt_of_succ_lt hn) := Fin.ext (by show 4 * ((n + 1) / 4) = 4 * (n / 4); omega)
      rw [hg]
      dsimp only
      exact scratch_eq c n (Nat.lt_of_succ_lt hn)

/-- THE OUTPUT block after point `t` is the aggregation payload of the point's edge-weight rows, its two
    normalisation blocks and the bias over the scratch as it stands after the point. -/
theorem after6_eq (c : Dev nD) (t : Fin cfg1.N) :
    (dat V c).after 6 t = k1_pay2 (iblk V c 2 t) (iblk V c 3 t) (iblk V c 4 t) ((outsAt V c t.val t.isLt).2) (iblk V c 5 t) := by
  rw [after6]
  by_cases h0 : t.val % 4 = 0
  · rw [outsAt_A V c t h0]
    dsimp only
    rw [soutA_eq]
    exact outA_6_eq (F := F) _ _ _ _ _ _ _ _ _ _ _ _ _ _ _ _ _ _ _ _ _ _ _ _ _
  · rw [outsAt_B V c t h0]
    dsimp only
    exact outB_6_eq (F := F) _ _ _ _ _ _ _ _ _ _ _ _ _ _ _ _ _ _ _ _ _ _ _ _ _ _

end Cert.KernelIdeal.R1

end
-- ==== Proof.KI1GeoIdx.lean ====
/-
  The second region's grid and index maps as arithmetic.

  The grid has 8 x 4 = 32 points, run with the last axis fastest, so point t is graph t / 4 and row tile
  t % 4. Each window's block index at point t is read off the printed index maps once, by evaluating them at
  all 32 points: the graph's features and its column factors sit at (graph, 0, 0), the rows of edge weights,
  the row factors and the output at (graph, row tile, 0), the two parameter windows at the origin.
-/
import proofs.«112107_j17961553231914_2_alg».proof.Proof.KI1Kit
import Idealize.ShloMosaic.Lib.ValueIdx

noncomputable section

namespace Cert.KernelIdeal.R1

open Cert.KernelIdeal Cert.KernelIdeal.Gen
open Idealize.ShloMosaic Idealize.ShloMosaic.TcCoe Idealize.ShloMosaic.ValueIdx
open Idealize.ShloMosaic.Pipeline (Dat Cfg Window)

variable {F : FTy → Type} [FloatOps F]

/-- The grid has 32 points. -/
theorem pt_lt (t : Fin cfg1.N) : t.val < 32 := Nat.lt_of_lt_of_eq t.isLt (N_1 : cfg1.N = 32)

/-- The graph point t works on. -/
abbrev ptGraph (t : Fin cfg1.N) : Fin 8 := ⟨t.val / 4, by have := pt_lt t; omega⟩
/-- Row p of point t's row tile, as a node of the graph. -/
abbrev ptRow (t : Fin cfg1.N) (p : Fin 128) : Fin 512 := ⟨128 * (t.val % 4) + p.val, by have := p.isLt; omega⟩

/-- The feature window's block index: (graph, 0, 0). -/
theorem index1_0 : ∀ t : Fin cfg1.N, win1_0.index t (0 : Fin 3) = t.val / 4
    ∧ win1_0.index t (1 : Fin 3) = 0 ∧ win1_0.index t (2 : Fin 3) = 0 :=
  (by decide +kernel : ∀ t : Fin grid1.N, _)

/-- The layer's weight matrix is one block. -/
theorem index1_1 : ∀ t : Fin cfg1.N, win1_1.index t (0 : Fin 2) = 0 ∧ win1_1.index t (1 : Fin 2) = 0 :=
  (by decide +kernel : ∀ t : Fin grid1.N, _)

/-- The edge-weight window's block index: (graph, row tile, 0). -/
theorem index1_2 : ∀ t : Fin cfg1.N, win1_2.index t (0 : Fin 3) = t.val / 4
    ∧ win1_2.index t (1 : Fin 3) = t.val % 4 ∧ win1_2.index t (2 : Fin 3) = 0 :=
  (by decide +kernel : ∀ t : Fin grid1.N, _)

/-- The row-factor window's block index: (graph, row tile, 0). -/
theorem index1_3 : ∀ t : Fin cfg1.N, win1_3.index t (0 : Fin 3) = t.val / 4
    ∧ win1_3.index t (1 : Fin 3) = t.val % 4 ∧ win1_3.index t (2 : Fin 3) = 0 :=
  (by decide +kernel : ∀ t : Fin grid1.N, _)

/-- The column-factor window's block index: (graph, 0, 0). -/
theorem index1_4 : ∀ t : Fin cfg1.N, win1_4.index t (0 : Fin 3) = t.val / 4
    ∧ win1_4.index t (1 : Fin 3) = 0 ∧ win1_4.index t (2 : Fin 3) = 0 :=
  (by decide +kernel : ∀ t : Fin grid1.N, _)

/-- The output bias row is one block. -/
theorem index1_5 : ∀ t : Fin cfg1.N, win1_5.index t (0 : Fin 2) = 0 ∧ win1_5.index t (1 : Fin 2) = 0 :=
  (by decide +kernel : ∀ t : Fin grid1.N, _)

/-- The output's block index: (graph, row tile, 0). -/
theorem index1_6 : ∀ t : Fin cfg1.N, win1_6.index t (0 : Fin 3) = t.val / 4
    ∧ win1_6.index t (1 : Fin 3) = t.val % 4 ∧ win1_6.index t (2 : Fin 3) = 0 :=
  (by decide +kernel : ∀ t : Fin grid1.N, _)

end Cert.KernelIdeal.R1

end
-- ==== Proof.KI1GeoIn.lean ====
/-
  The second region's input blocks read at coordinates.

  A block's coordinate on an axis is the block index times the block size plus the coordinate inside the
  block. So at point t the feature block holds all 512 nodes of the point's graph, the edge-weight block
  the 128 rows of the point's row tile against all 512 column nodes, the row-factor block the factors of
  those 128 rows, the column-factor block the factors of all 512 column nodes of the graph, and the two
  parameter windows, each one block at the origin, hold their arrays.
-/
import proofs.«112107_j17961553231914_2_alg».proof.Proof.KI1GeoIdx
import Idealize.ShloMosaic.Lib.Pipeline.Value

noncomputable section

namespace Cert.KernelIdeal.R1

open Cert.KernelIdeal Cert.KernelIdeal.Gen
open Idealize.ShloMosaic Idealize.ShloMosaic.TcCoe Idealize.ShloMosaic.ValueIdx
open Idealize.ShloMosaic.Pipeline (Dat Cfg Window)

variable {F : FTy → Type} [FloatOps F]

variable (V : (c : Dev nD) → (b : Ref sig .tc) → Buf (Elt F) ((c : Thread nD τ).loc b))

/-- The feature block at point t: feature d of node n of the point's graph. -/
theorem iblk0_apply (c : Dev nD) (t : Fin cfg1.N) (n : Fin 512) (d : Fin 128) :
    (iblk V c 0 t : S1x512x128.Idx → Elt F .f32) (ix3 (0 : Fin 1) n d)
      = (V c main_arg0 : S8x512x128.Idx → Elt F .f32) (ix3 (ptGraph t) n d) := by
  obtain ⟨e0, e1, e2⟩ := index1_0 t
  unfold iblk
  rw [View.read_apply]
  show V c main_arg0 _ = V c main_arg0 _
  congr 1
  funext a
  apply Fin.ext
  match a with
  | ⟨0, _⟩ => show win1_0.index t (0 : Fin 3) * 1 + 1 * 0 = t.val / 4; omega
  | ⟨1, _⟩ => show win1_0.index t (1 : Fin 3) * 512 + 1 * n.val = n.val; omega
  | ⟨2, _⟩ => show win1_0.index t (2 : Fin 3) * 128 + 1 * d.val = d.val; omega

/-- The layer's weight matrix's block is the matrix. -/
theorem iblk1_eq (c : Dev nD) (t : Fin cfg1.N) :
    (iblk V c 1 t : S128x128.Idx → Elt F .f32) = (V c main_arg5 : S128x128.Idx → Elt F .f32) := by
  obtain ⟨e0, e1⟩ := index1_1 t
  funext k
  unfold iblk
  rw [View.read_apply]
  show V c main_arg5 _ = V c main_arg5 _
  congr 1
  funext a
  apply Fin.ext
  match a with
  | ⟨0, _⟩ => show win1_1.index t (0 : Fin 2) * 128 + 1 * (k 0).val = (k 0).val; omega
  | ⟨1, _⟩ => show win1_1.index t (1 : Fin 2) * 128 + 1 * (k 1).val = (k 1).val; omega

/-- The edge-weight block at point t: row p of the row tile against column node s. -/
theorem iblk2_apply (c : Dev nD) (t : Fin cfg1.N) (p : Fin 128) (s : Fin 512) :
    (iblk V c 2 t : S1x128x512.Idx → Elt F .f32) (ix3 (0 : Fin 1) p s)
      = (V c main_v4_0 : S8x512x512.Idx → Elt F .f32) (ix3 (ptGraph t) (ptRow t p) s) := by
  obtain ⟨e0, e1, e2⟩ := index1_2 t
  unfold iblk
  rw [View.read_apply]
  show V c main_v4_0 _ = V c main_v4_0 _
  congr 1
  funext a
  apply Fin.ext
  match a with
  | ⟨0, _⟩ => show win1_2.index t (0 : Fin 3) * 1 + 1 * 0 = t.val / 4; omega
  | ⟨1, _⟩ => show win1_2.index t (1 : Fin 3) * 128 + 1 * p.val = 128 * (t.val % 4) + p.val; omega
  | ⟨2, _⟩ => show win1_2.index t (2 : Fin 3) * 512 + 1 * s.val = s.val; omega

/-- The row-factor block at point t: the factor of row p of the row tile. -/
theorem iblk3_apply (c : Dev nD) (t : Fin cfg1.N) (p : Fin 128) :
    (iblk V c 3 t : S1x128x1.Idx → Elt F .f32) (ix3 (0 : Fin 1) p (0 : Fin 1))
      = (V c main_v7 : S8x512x1.Idx → Elt F .f32) (ix3 (ptGraph t) (ptRow t p) (0 : Fin 1)) := by
  obtain ⟨e0, e1, e2⟩ := index1_3 t
  unfold iblk
  rw [View.read_apply]
  show V c main_v7 _ = V c main_v7 _
  congr 1
  funext a
  apply Fin.ext
  match a with
  | ⟨0, _⟩ => show win1_3.index t (0 : Fin 3) * 1 + 1 * 0 = t.val / 4; omega
  | ⟨1, _⟩ => show win1_3.index t (1 : Fin 3) * 128 + 1 * p.val = 128 * (t.val % 4) + p.val; omega
  | ⟨2, _⟩ => show win1_3.index t (2 : Fin 3) * 1 + 1 * 0 = 0; omega

/-- The column-factor block at point t: the factor of column node s of the point's graph. -/
theorem iblk4_apply (c : Dev nD) (t : Fin cfg1.N) (s : Fin 512) :
    (iblk V c 4 t : S1x1x512.Idx → Elt F .f32) (ix3 (0 : Fin 1) (0 : Fin 1) s)
      = (V c main_v8 : S8x1x512.Idx → Elt F .f32) (ix3 (ptGraph t) (0 : Fin 1) s) := by
  obtain ⟨e0, e1, e2⟩ := index1_4 t
  unfold iblk
  rw [View.read_apply]
  show V c main_v8 _ = V c main_v8 _
  congr 1
  funext a
  apply Fin.ext
  match a with
  | ⟨0, _⟩ => show win1_4.index t (0 : Fin 3) * 1 + 1 * 0 = t.val / 4; omega
  | ⟨1, _⟩ => show win1_4.index t (1 : Fin 3) * 1 + 1 * 0 = 0; omega
  | ⟨2, _⟩ => show win1_4.index t (2 : Fin 3) * 512 + 1 * s.val = s.val; omega

/-- The output bias row's block is the row. -/
theorem iblk5_eq (c : Dev nD) (t : Fin cfg1.N) :
    (iblk V c 5 t : S1x128.Idx → Elt F .f32) = (V c main_v3 : S1x128.Idx → Elt F .f32) := by
  obtain ⟨e0, e1⟩ := index1_5 t
  funext k
  unfold iblk
  rw [View.read_apply]
  show V c main_v3 _ = V c main_v3 _
  congr 1
  funext a
  apply Fin.ext
  match a with
  | ⟨0, _⟩ => show win1_5.index t (0 : Fin 2) * 1 + 1 * (k 0).val = (k 0).val; omega
  | ⟨1, _⟩ => show win1_5.index t (1 : Fin 2) * 128 + 1 * (k 1).val = (k 1).val; omega

/-- An input array is never written back: after the last point it is what the proof data started from. -/
theorem arrAt1_0 {c : Dev nD} (dat : Dat τ (Elt F) Unit ℕ (UR sig nD τ) ℕ cfg1 c) : dat.arrAt 0 cfg1.N = dat.A 0 := dat.arrAt_in 0 rfl cfg1.N
theorem arrAt1_1 {c : Dev nD} (dat : Dat τ (Elt F) Unit ℕ (UR sig nD τ) ℕ cfg1 c) : dat.arrAt 1 cfg1.N = dat.A 1 := dat.arrAt_in 1 rfl cfg1.N
theorem arrAt1_2 {c : Dev nD} (dat : Dat τ (Elt F) Unit ℕ (UR sig nD τ) ℕ cfg1 c) : dat.arrAt 2 cfg1.N = dat.A 2 := dat.arrAt_in 2 rfl cfg1.N
theorem arrAt1_3 {c : Dev nD} (dat : Dat τ (Elt F) Unit ℕ (UR sig nD τ) ℕ cfg1 c) : dat.arrAt 3 cfg1.N = dat.A 3 := dat.arrAt_in 3 rfl cfg1.N
theorem arrAt1_4 {c : Dev nD} (dat : Dat τ (Elt F) Unit ℕ (UR sig nD τ) ℕ cfg1 c) : dat.arrAt 4 cfg1.N = dat.A 4 := dat.arrAt_in 4 rfl cfg1.N
theorem arrAt1_5 {c : Dev nD} (dat : Dat τ (Elt F) Unit ℕ (UR sig nD τ) ℕ cfg1 c) : dat.arrAt 5 cfg1.N = dat.A 5 := dat.arrAt_in 5 rfl cfg1.N

end Cert.KernelIdeal.R1

end
-- ==== Proof.KI1GeoOut.lean ====
/-
  The second region's output: which entries a point's block holds, and the array after the last point.

  Point t's block of the output array is graph t / 4, rows 128 (t % 4) .. + 127 and all 128 output
  features; entry (b, r, o) lies in the block of the point 4 b + r / 128, and every point writes its block
  back. So if every write-back is the point's block of one whole-array function, the array ends holding
  that function.
-/
import proofs.«112107_j17961553231914_2_alg».proof.Proof.KI1GeoIdx
import Idealize.ShloMosaic.Lib.Pipeline.Value

noncomputable section

namespace Cert.KernelIdeal.R1

open Cert.KernelIdeal Cert.KernelIdeal.Gen
open Idealize.ShloMosaic Idealize.ShloMosaic.TcCoe Idealize.ShloMosaic.ValueIdx
open Idealize.ShloMosaic.Pipeline (Dat Cfg Window)

variable {F : FTy → Type} [FloatOps F]

/-- An entry of the output array lies in point t's block iff its graph and row tile are the point's. -/
theorem mem_blk6 (t : Fin cfg1.N) (k : S8x512x128.Idx) :
    k ∈ ((cfg1.win 6).blk t).view.set ↔ (k 0).val = t.val / 4
      ∧ 128 * (t.val % 4) ≤ (k 1).val ∧ (k 1).val < 128 * (t.val % 4) + 128 := by
  obtain ⟨e0, e1, e2⟩ := index1_6 t
  have hk2 : (k 2).val < 128 := (k 2).isLt
  show k ∈ ((View.whole main_v9).slice (win1_6.rect t)).set ↔ _
  rw [View.set_slice_whole, Rect.mem_set_unit]
  constructor
  · intro h
    have h0 : win1_6.index t (0 : Fin 3) * 1 ≤ (k 0).val ∧ (k 0).val < win1_6.index t (0 : Fin 3) * 1 + 1 := h 0
    have h1 : win1_6.index t (1 : Fin 3) * 128 ≤ (k 1).val ∧ (k 1).val < win1_6.index t (1 : Fin 3) * 128 + 128 := h 1
    omega
  · intro h a
    match a with
    | ⟨0, _⟩ => show win1_6.index t (0 : Fin 3) * 1 ≤ (k 0).val ∧ (k 0).val < win1_6.index t (0 : Fin 3) * 1 + 1; omega
    | ⟨1, _⟩ => show win1_6.index t (1 : Fin 3) * 128 ≤ (k 1).val ∧ (k 1).val < win1_6.index t (1 : Fin 3) * 128 + 128; omega
    | ⟨2, _⟩ => show win1_6.index t (2 : Fin 3) * 128 ≤ (k 2).val ∧ (k 2).val < win1_6.index t (2 : Fin 3) * 128 + 128; omega

/-- Point t's block of a whole output array: entry (p, o) of the block is output feature o of row p of the row tile. -/
theorem blk6_read (G : S8x512x128.Idx → Elt F .f32) (t : Fin cfg1.N) (p o : Fin 128) :
    (((cfg1.win 6).blk t).view.read (Elt F) G : S1x128x128.Idx → Elt F .f32) (ix3 (0 : Fin 1) p o)
      = G (ix3 (ptGraph t) (ptRow t p) o) := by
  obtain ⟨e0, e1, e2⟩ := index1_6 t
  rw [View.read_apply]
  show G _ = G _
  congr 1
  funext a
  apply Fin.ext
  match a with
  | ⟨0, _⟩ => show win1_6.index t (0 : Fin 3) * 1 + 1 * 0 = t.val / 4; omega
  | ⟨1, _⟩ => show win1_6.index t (1 : Fin 3) * 128 + 1 * p.val = 128 * (t.val % 4) + p.val; omega
  | ⟨2, _⟩ => show win1_6.index t (2 : Fin 3) * 128 + 1 * o.val = o.val; omega

/-- The output array after the last point: if every point writes back its block of G, the array is G. -/
theorem final6 {c : Dev nD} (dat : Dat τ (Elt F) Unit ℕ (UR sig nD τ) ℕ cfg1 c) (G : S8x512x128.Idx → Elt F .f32)
    (hG : ∀ t : Fin cfg1.N, dat.flushed 6 t = ((cfg1.win 6).blk t).view.read (Elt F) G) :
    dat.arrAt 6 cfg1.N = G :=
  dat.arrAt_eq_of_cover 6 G (fun t _ => hG t) fun k => by
    have h0 : (k 0).val < 8 := (k 0).isLt
    have h1 : (k 1).val < 512 := (k 1).isLt
    refine ⟨⟨4 * (k 0).val + (k 1).val / 128,
      Nat.lt_of_lt_of_eq (by omega : _ < 32) (N_1 : cfg1.N = 32).symm⟩, flush1_6 _, ?_⟩
    rw [mem_blk6]
    dsimp only
    omega

end Cert.KernelIdeal.R1

end
-- ==== Proof.KI1Final.lean ====
/-
  The second region's result array is the specification's output.

  At point t (graph t / 4, row tile t % 4) the block written back is what the body left in the output's
  staging buffer: the aggregation of the point's 128 rows of edge weights, their row factors, the graph's
  column factors and the bias over the scratch, and the scratch holds the projection of the graph's features
  stored at the first point of the graph (the point 4 (t / 4), whose graph is again t / 4). If the arrays
  the region finds are the features, the layer's weights, the specification's edge weights and inverse root
  degrees, and the bias, the block is then the specification's output for the graph's nodes
  128 (t % 4) + p, which is the point's block of the specification's output array; and the blocks tile the
  array.
-/
import proofs.«112107_j17961553231914_2_alg».proof.Proof.KI1Value
import proofs.«112107_j17961553231914_2_alg».proof.Proof.KI1GeoIn
import proofs.«112107_j17961553231914_2_alg».proof.Proof.KI1GeoOut
import proofs.«112107_j17961553231914_2_alg».proof.Proof.BridgeBlocks
import proofs.«112107_j17961553231914_2_alg».proof.Proof.PayIdx

noncomputable section

namespace Cert.KernelIdeal.R1

open Cert.KernelIdeal Cert.KernelIdeal.Gen
open Idealize.ShloMosaic Idealize.ShloMosaic.TcCoe Idealize.ShloMosaic.ValueIdx
open Idealize.ShloMosaic.Pipeline (Dat Cfg Window)

/-- The graph of the first point of t's group of four is t's graph. -/
theorem ptGraph_grp (t : Fin cfg1.N) : ptGraph (grp t.val t.isLt) = ptGraph t :=
  Fin.ext (by show 4 * (t.val / 4) / 4 = t.val / 4; omega)

/-- After the last point the output array is the specification's output array, when the arrays the region finds are
    the features, the layer's weights, the specification's edge weights and inverse root degrees, and the bias. -/
theorem out_final (V : (c : Dev nD) → (b : Ref sig .tc) → Buf (Elt Ideal) ((c : Thread nD τ).loc b)) (c : Dev nD)
    (x : Cert.GcnSpec.SX.Idx → EReal) (w1 : Cert.GcnSpec.SW.Idx → EReal) (b1 : Cert.GcnSpec.SB.Idx → EReal)
    (w2 : Cert.GcnSpec.SC.Idx → EReal) (b2 : Cert.GcnSpec.S1.Idx → EReal) (gw : Cert.GcnSpec.SW.Idx → EReal)
    (gb : Cert.GcnSpec.SB.Idx → EReal)
    (hx : (V c main_arg0 : S8x512x128.Idx → EReal) = x)
    (hgw : (V c main_arg5 : S128x128.Idx → EReal) = gw)
    (hadj : ∀ (b : Fin 8) (r s : Fin 512),
      (V c main_v4_0 : S8x512x512.Idx → EReal) (ix3 b r s) = Cert.GcnSpec.adj x w1 b1 w2 b2 b r s)
    (hd7 : ∀ (b : Fin 8) (r : Fin 512),
      (V c main_v7 : S8x512x1.Idx → EReal) (ix3 b r (0 : Fin 1)) = Cert.GcnSpec.dinv x w1 b1 w2 b2 b r)
    (hd8 : ∀ (b : Fin 8) (s : Fin 512),
      (V c main_v8 : S8x1x512.Idx → EReal) (ix3 b (0 : Fin 1) s) = Cert.GcnSpec.dinv x w1 b1 w2 b2 b s)
    (hgb : ∀ o : Fin 128, (V c main_v3 : S1x128.Idx → EReal) (ix2 (0 : Fin 1) o) = gb (ix1 o)) :
    (dat V c).arrAt 6 cfg1.N = Cert.GcnSpec.outArr x w1 b1 w2 b2 gw gb := by
  refine final6 (dat V c) _ (fun t => ?_)
  show (cfg1.win 6).cut (grid1.coords t) ((dat V c).after 6 t) = _
  rw [after6_eq, scratch_eq]
  funext j
  obtain ⟨p, o, rfl⟩ := Cert.GcnPay.exists_idx_S1x128x128 j
  refine Eq.trans ?_ (blk6_read _ t p o).symm
  exact Cert.GcnBridge.agg_block x w1 b1 w2 b2 gw gb (ptGraph t) ⟨t.val % 4, Nat.mod_lt _ (by decide)⟩ _ _ _ _ _
    (fun p s => (iblk2_apply V c t p s).trans (hadj _ _ _))
    (fun p => (iblk3_apply V c t p).trans (hd7 _ _))
    (fun s => (iblk4_apply V c t s).trans (hd8 _ _))
    (fun s o => Cert.GcnBridge.proj_block x gw (ptGraph t) _ _
      (fun n d => (iblk0_apply V c (grp t.val t.isLt) n d).trans (by rw [ptGraph_grp]; exact congrFun hx _))
      (fun d o => (congrFun (iblk1_eq V c (grp t.val t.isLt)) _).trans (congrFun hgw _)) s o)
    (fun o => (congrFun (iblk5_eq V c t) _).trans (hgb o)) p o

end Cert.KernelIdeal.R1

end
-- ==== Proof.BridgeHost.lean ====
/-
  The host operations around the two kernels, read at an index.

  Before the first kernel the bias vectors, the second layer's weight column and its bias are viewed as arrays with a
  leading unit axis: element (0, h) of the view is element h of the vector, element (h, 0) of the column. After it the
  degrees, a [8, 512, 1] array, are sent through the inverse square root and viewed twice: as a column per row node,
  (b, r, 0), and as a row per column node, (b, 0, s). Both views read the inverse root of the degree of their node.
  Stated for an arbitrary valuation of the buffers before the operations.
-/
import proofs.«112107_j17961553231914_2_alg».proof.Proof.Gen.KernelIdeal.Launch
import Idealize.ShloMosaic.Lib.StableHlo.Run
import Idealize.ShloMosaic.Lib.ValueLayout
import Idealize.ShloMosaic.PureOps.Ideal.Laws

noncomputable section

namespace Cert.GcnBridge

open Idealize.ShloMosaic Idealize.ShloMosaic.ValueIdx Idealize.ShloMosaic.StableHlo Cert.KernelIdeal Cert.KernelIdeal.Gen

variable {α : Type}

/-- A [128, 1] column viewed as a [1, 128] row reads, at (0, h), the column at (h, 0). -/
theorem shapeCast_a1_1a_apply (x : S128x1.Idx → α) (hc : S128x1.ShapeCasts S1x128) (h : Fin 128) :
    shapeCast S1x128 x hc (ix2 (0 : Fin 1) h) = x (ix2 h (0 : Fin 1)) :=
  shapeCast_apply x hc _ _ (by
    rw [Shape.rowMajor_val_two, Shape.rowMajor_val_two]
    show h.val * 1 + 0 = 0 * 128 + h.val
    omega)

/-- A [8, 512, 1] array viewed as [8, 512] reads, at (b, r), the array at (b, r, 0). -/
theorem shapeCast_ab1_ab_apply (x : S8x512x1.Idx → α) (hc : S8x512x1.ShapeCasts S8x512) (b : Fin 8) (r : Fin 512) :
    shapeCast S8x512 x hc (ix2 b r) = x (ix3 b r (0 : Fin 1)) :=
  shapeCast_apply x hc _ _ (by
    rw [Shape.rowMajor_val_three, Shape.rowMajor_val_two]
    show (b.val * 512 + r.val) * 1 + 0 = b.val * 512 + r.val
    omega)

/-- A [8, 512] array given a trailing unit axis reads, at (b, r, 0), the array at (b, r). -/
theorem broadcastInDim_ab_ab1_apply (x : S8x512.Idx → α) (hb : S8x512.BroadcastsInDim S8x512x1 ![0, 1]) (b : Fin 8)
    (r : Fin 512) : broadcastInDim S8x512x1 ![0, 1] hb x (ix3 b r (0 : Fin 1)) = x (ix2 b r) :=
  broadcastInDim_apply _ hb x _ (ix2 b r) fun a => by
    match a with
    | ⟨0, _⟩ => rfl
    | ⟨1, _⟩ => rfl

/-- A [8, 512] array given a middle unit axis reads, at (b, 0, s), the array at (b, s). -/
theorem broadcastInDim_ab_a1b_apply (x : S8x512.Idx → α) (hb : S8x512.BroadcastsInDim S8x1x512 ![0, 2]) (b : Fin 8)
    (s : Fin 512) : broadcastInDim S8x1x512 ![0, 2] hb x (ix3 b (0 : Fin 1) s) = x (ix2 b s) :=
  broadcastInDim_apply _ hb x _ (ix2 b s) fun a => by
    match a with
    | ⟨0, _⟩ => rfl
    | ⟨1, _⟩ => rfl

variable (W : Valuation τ sig (Elt Ideal))

/-! ## Before the first kernel -/

/-- The first layer's bias as a [1, 128] row. -/
theorem host0_v0 (h : Fin 128) :
    (StableHlo.after (hostOps0 (F := Ideal)) W (Proc.devRef .tc main_v0) : S1x128.Idx → EReal) (ix2 (0 : Fin 1) h)
      = (W (Proc.devRef .tc main_arg2) : S128.Idx → EReal) (ix1 h) := by
  have e : (StableHlo.after (hostOps0 (F := Ideal)) W (Proc.devRef .tc main_v0) : S1x128.Idx → EReal)
      = shapeCast S1x128 (W (Proc.devRef .tc main_arg2) : S128.Idx → EReal) shapeCasts_S128_S1x128 := by
    after_results
    rfl
  rw [e]
  exact shapeCast_a_1a_apply _ _ 0 h

/-- The second layer's weight column as a [1, 128] row. -/
theorem host0_v1 (h : Fin 128) :
    (StableHlo.after (hostOps0 (F := Ideal)) W (Proc.devRef .tc main_v1) : S1x128.Idx → EReal) (ix2 (0 : Fin 1) h)
      = (W (Proc.devRef .tc main_arg3) : S128x1.Idx → EReal) (ix2 h (0 : Fin 1)) := by
  have e : (StableHlo.after (hostOps0 (F := Ideal)) W (Proc.devRef .tc main_v1) : S1x128.Idx → EReal)
      = shapeCast S1x128 (W (Proc.devRef .tc main_arg3) : S128x1.Idx → EReal) shapeCasts_S128x1_S1x128 := by
    after_results
    rfl
  rw [e]
  exact shapeCast_a1_1a_apply _ _ h

/-- The second layer's bias as a [1, 1] array. -/
theorem host0_v2 :
    (StableHlo.after (hostOps0 (F := Ideal)) W (Proc.devRef .tc main_v2) : S1x1.Idx → EReal)
        (ix2 (0 : Fin 1) (0 : Fin 1))
      = (W (Proc.devRef .tc main_arg4) : S1.Idx → EReal) (ix1 (0 : Fin 1)) := by
  have e : (StableHlo.after (hostOps0 (F := Ideal)) W (Proc.devRef .tc main_v2) : S1x1.Idx → EReal)
      = shapeCast S1x1 (W (Proc.devRef .tc main_arg4) : S1.Idx → EReal) shapeCasts_S1_S1x1 := by
    after_results
    rfl
  rw [e]
  exact shapeCast_a_1a_apply _ _ 0 0

/-- The output bias as a [1, 128] row. -/
theorem host0_v3 (o : Fin 128) :
    (StableHlo.after (hostOps0 (F := Ideal)) W (Proc.devRef .tc main_v3) : S1x128.Idx → EReal) (ix2 (0 : Fin 1) o)
      = (W (Proc.devRef .tc main_arg6) : S128.Idx → EReal) (ix1 o) := by
  have e : (StableHlo.after (hostOps0 (F := Ideal)) W (Proc.devRef .tc main_v3) : S1x128.Idx → EReal)
      = shapeCast S1x128 (W (Proc.devRef .tc main_arg6) : S128.Idx → EReal) shapeCasts_S128_S1x128 := by
    after_results
    rfl
  rw [e]
  exact shapeCast_a_1a_apply _ _ 0 o

/-! ## Between the kernels -/

/-- The inverse root degrees as a column per row node. -/
theorem host1_v7 (b : Fin 8) (r : Fin 512) :
    (StableHlo.after (hostOps1 (F := Ideal)) W (Proc.devRef .tc main_v7) : S8x512x1.Idx → EReal)
        (ix3 b r (0 : Fin 1))
      = Ideal.rsqrt ((W (Proc.devRef .tc main_v4_1) : S8x512x1.Idx → EReal) (ix3 b r (0 : Fin 1))) := by
  have e : (StableHlo.after (hostOps1 (F := Ideal)) W (Proc.devRef .tc main_v7) : S8x512x1.Idx → EReal)
      = broadcastInDim S8x512x1 ![0, 1] bcast_S8x512_S8x512x1_0_1
          (Host.rsqrt (F := Ideal) (φ := .f32)
            (shapeCast S8x512 (W (Proc.devRef .tc main_v4_1) : S8x512x1.Idx → EReal) shapeCasts_S8x512x1_S8x512)) := by
    after_results
    rfl
  rw [e, broadcastInDim_ab_ab1_apply]
  show Ideal.rsqrt (shapeCast S8x512 (W (Proc.devRef .tc main_v4_1) : S8x512x1.Idx → EReal)
    shapeCasts_S8x512x1_S8x512 (ix2 b r)) = _
  rw [shapeCast_ab1_ab_apply]

/-- The inverse root degrees as a row per column node. -/
theorem host1_v8 (b : Fin 8) (s : Fin 512) :
    (StableHlo.after (hostOps1 (F := Ideal)) W (Proc.devRef .tc main_v8) : S8x1x512.Idx → EReal)
        (ix3 b (0 : Fin 1) s)
      = Ideal.rsqrt ((W (Proc.devRef .tc main_v4_1) : S8x512x1.Idx → EReal) (ix3 b s (0 : Fin 1))) := by
  have e : (StableHlo.after (hostOps1 (F := Ideal)) W (Proc.devRef .tc main_v8) : S8x1x512.Idx → EReal)
      = broadcastInDim S8x1x512 ![0, 2] bcast_S8x512_S8x1x512_0_2
          (Host.rsqrt (F := Ideal) (φ := .f32)
            (shapeCast S8x512 (W (Proc.devRef .tc main_v4_1) : S8x512x1.Idx → EReal) shapeCasts_S8x512x1_S8x512)) := by
    after_results
    rfl
  rw [e, broadcastInDim_ab_a1b_apply]
  show Ideal.rsqrt (shapeCast S8x512 (W (Proc.devRef .tc main_v4_1) : S8x512x1.Idx → EReal)
    shapeCasts_S8x512x1_S8x512 (ix2 b s)) = _
  rw [shapeCast_ab1_ab_apply]

end Cert.GcnBridge

end
-- ==== Proof.KIBridge.lean ====
/-
  The idealized kernel's results are the specification's arrays.

  The first region is entered with the node features and the first layer's weights as launched and with the two
  biases and the second layer's weights re-laid by the reshapes before it; so its edge-weight array is the
  specification's adj and its degree array the specification's deg as a column. The host lines between the regions
  take the degree to the power -1/2 and lay it out as a column and as a row; the second region is entered with those,
  the edge weights the first region left, the features, the projection weights and the re-laid bias; so its array is
  the specification's out. Each argument is walked back through the items that do not write it.
-/
import proofs.«112107_j17961553231914_2_alg».proof.Proof.KIMain
import proofs.«112107_j17961553231914_2_alg».proof.Proof.KI0Final
import proofs.«112107_j17961553231914_2_alg».proof.Proof.KI1Final
import proofs.«112107_j17961553231914_2_alg».proof.Proof.BridgeHost
import proofs.«112107_j17961553231914_2_alg».proof.Proof.Spec

set_option maxRecDepth 16384

noncomputable section

namespace Cert.KernelIdeal.Run

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

/-- The first region's edge-weight array is the specification's. -/
theorem adj_arr (c : Dev nD) :
    (R0.dat (E1 m) c).arrAt 6 cfg0.N = Cert.GcnSpec.adjArr (m ((c : Thread nD τ).loc main_arg0)) (m ((c : Thread nD τ).loc main_arg1)) (m ((c : Thread nD τ).loc main_arg2)) (m ((c : Thread nD τ).loc main_arg3)) (m ((c : Thread nD τ).loc main_arg4)) :=
  R0.adj_final (E1 m) c _ _ _ _ _
    (W1_of m c main_arg0 (by decide)) (W1_of m c main_arg1 (by decide))
    (fun h => Cert.GcnBridge.host0_v0 (W0 m c) h) (fun h => Cert.GcnBridge.host0_v1 (W0 m c) h) (Cert.GcnBridge.host0_v2 (W0 m c))

/-- Its degree array is the specification's degree, as a column. -/
theorem deg_arr (c : Dev nD) :
    (R0.dat (E1 m) c).arrAt 7 cfg0.N = fun k : S8x512x1.Idx => Cert.GcnSpec.deg (m ((c : Thread nD τ).loc main_arg0)) (m ((c : Thread nD τ).loc main_arg1)) (m ((c : Thread nD τ).loc main_arg2)) (m ((c : Thread nD τ).loc main_arg3)) (m ((c : Thread nD τ).loc main_arg4)) (k 0) (k 1) :=
  R0.deg_final (E1 m) c _ _ _ _ _
    (W1_of m c main_arg0 (by decide)) (W1_of m c main_arg1 (by decide))
    (fun h => Cert.GcnBridge.host0_v0 (W0 m c) h) (fun h => Cert.GcnBridge.host0_v1 (W0 m c) h) (Cert.GcnBridge.host0_v2 (W0 m c))

/-- The second region's array is the specification's output. -/
theorem out_arr (c : Dev nD) :
    (R1.dat (E3 m) c).arrAt 6 cfg1.N = Cert.GcnSpec.outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  R1.out_final (E3 m) c _ _ _ _ _ _ _
    ((W3_of m c main_arg0 (by decide)).trans ((W2_of m c main_arg0 (by decide) (by decide)).trans (W1_of m c main_arg0 (by decide))))
    ((W3_of m c main_arg5 (by decide)).trans ((W2_of m c main_arg5 (by decide) (by decide)).trans (W1_of m c main_arg5 (by decide))))
    (fun b r s => congrFun ((W3_of m c main_v4_0 (by decide)).trans ((W2_v4_0 m c).trans (adj_arr m c))) (ix3 b r s))
    (fun b r => (Cert.GcnBridge.host1_v7 (W2 m c) b r).trans
      (congrArg Ideal.rsqrt (congrFun ((W2_v4_1 m c).trans (deg_arr m c)) (ix3 b r (0 : Fin 1)))))
    (fun b s => (Cert.GcnBridge.host1_v8 (W2 m c) b s).trans
      (congrArg Ideal.rsqrt (congrFun ((W2_v4_1 m c).trans (deg_arr m c)) (ix3 b s (0 : Fin 1)))))
    (fun o => (congrFun ((W3_of m c main_v3 (by decide)).trans (W2_of m c main_v3 (by decide) (by decide))) (ix2 (0 : Fin 1) o)).trans
      (Cert.GcnBridge.host0_v3 (W0 m c) o))

/-- THE VALUE RUN: the idealized kernel terminates with its two results at the specification's arrays of its arguments,
    the arguments unchanged. -/
theorem value_run : θ_run (defs (F := Ideal)) (onTc (τ := τ) (main (F := Ideal))) ⟨m, fun _ => 0, ρ⟩ (fun r => ∀ c : Dev nD,
      r.2.mem ((c.tc : Thread nD τ).loc main_v9) = Cert.GcnSpec.outArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v4_0) = Cert.GcnSpec.adjArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (out_arr m c), (h c).2.1.trans (adj_arr m c), (h c).2.2⟩) (results m ρ)

end Cert.KernelIdeal.Run

end
-- ==== Proof.RefHid.lean ====
/-
  The reference's edge perceptron, first layer, read at coordinates.

  The reference forms |x b i d - x b j d| for every pair (i, j) by broadcasting the features along a new
  axis in two ways, subtracting and taking the absolute value; contracts the feature axis d against the
  first weight matrix; and adds the bias broadcast along the last axis. Read at the coordinates
  (b, i, j, h) that is the specification's hidden unit before the rectifier.
-/
import proofs.«112107_j17961553231914_2_alg».proof.Proof.Spec
import proofs.«112107_j17961553231914_2_alg».proof.Proof.Gen.ReferenceIdeal.Read

noncomputable section

namespace Cert.GcnRef

open Cert.ReferenceIdeal Cert.ReferenceIdeal.Gen Cert.ReferenceIdeal.Read Idealize.ShloMosaic Idealize.ShloMosaic.ValueIdx

/-- The feature array read for the row node: broadcasting along the column-node axis forgets j. -/
theorem idx_row (b : Fin 8) (i j : Fin 512) (d : Fin 128) :
    idx_main_v0 (idx_main_v2 (ix4 b i j d)) = ix3 b i d :=
  funext fun a => Fin.ext (by match a with | ⟨0, _⟩ => rfl | ⟨1, _⟩ => rfl | ⟨2, _⟩ => rfl)

/-- The feature array read for the column node: broadcasting along the row-node axis forgets i. -/
theorem idx_col (b : Fin 8) (i j : Fin 512) (d : Fin 128) :
    idx_main_v1 (idx_main_v3 (ix4 b i j d)) = ix3 b j d :=
  funext fun a => Fin.ext (by match a with | ⟨0, _⟩ => rfl | ⟨1, _⟩ => rfl | ⟨2, _⟩ => rfl)

/-- The absolute feature difference of the pair (i, j) at feature d. -/
theorem ref_absdiff (x0 : (⟨S8x512x128, .f32⟩ : BufTy).Contents (Elt Ideal)) (b : Fin 8) (i j : Fin 512) (d : Fin 128) :
    val_main_v5 (F := Ideal) x0 (ix4 b i j d)
      = max (x0 (ix3 b i d) - x0 (ix3 b j d)) (-(x0 (ix3 b i d) - x0 (ix3 b j d))) := by
  rw [val_main_v5_apply, val_main_v4_apply, val_main_v2_apply, val_main_v0_apply, val_main_v3_apply, val_main_v1_apply,
    idx_row, idx_col]
  rfl

/-- The contraction's left index keeps the pair and runs over the features. -/
theorem lidx_hid (b : Fin 8) (i j : Fin 512) (h d : Fin 128) : lidx_main_v6 (ix4 b i j h) d = ix4 b i j d :=
  funext fun a => Fin.ext (by match a with | ⟨0, _⟩ => rfl | ⟨1, _⟩ => rfl | ⟨2, _⟩ => rfl | ⟨3, _⟩ => rfl)

/-- The contraction's right index is the weight matrix's entry (d, h). -/
theorem ridx_hid (b : Fin 8) (i j : Fin 512) (h d : Fin 128) : ridx_main_v6 (ix4 b i j h) d = ix2 d h :=
  funext fun a => Fin.ext (by match a with | ⟨0, _⟩ => rfl | ⟨1, _⟩ => rfl)

/-- The bias is read at the hidden unit's coordinate alone. -/
theorem idx_bias (b : Fin 8) (i j : Fin 512) (h : Fin 128) : idx_main_v7 (idx_main_v8 (ix4 b i j h)) = ix1 h :=
  funext fun a => Fin.ext (by match a with | ⟨0, _⟩ => rfl)

/-- The reference's hidden unit before the rectifier is the specification's. -/
theorem ref_hid (x0 : (⟨S8x512x128, .f32⟩ : BufTy).Contents (Elt Ideal)) (x1 : (⟨S128x128, .f32⟩ : BufTy).Contents (Elt Ideal))
    (x2 : (⟨S128, .f32⟩ : BufTy).Contents (Elt Ideal)) (b : Fin 8) (i j : Fin 512) (h : Fin 128) :
    val_main_v9 (F := Ideal) x0 x1 x2 (ix4 b i j h) = Cert.GcnSpec.hid x0 x1 x2 b i j h := by
  rw [val_main_v9_apply, val_main_v6_apply, val_main_v8_apply, val_main_v7_apply, idx_bias]
  simp only [lidx_hid, ridx_hid, ref_absdiff]
  rfl

end Cert.GcnRef

end
-- ==== Proof.RefAdj.lean ====
/-
  The reference's edge weight read at coordinates.

  The hidden units are rectified (a maximum with a broadcast zero), contracted against the second layer's
  weight column, and the trailing unit axis of the result is dropped; the second bias, a one-element array
  reshaped to a scalar and broadcast, is added; and the logistic function is spelt out as
  1 / (1 + exp (-s)) with the literal one. Read at the coordinates (b, i, j) that is the specification's
  edge weight, so the whole stage is the specification's array of edge weights.
-/
import proofs.«112107_j17961553231914_2_alg».proof.Proof.RefHid

noncomputable section

namespace Cert.GcnRef

open Cert.ReferenceIdeal Cert.ReferenceIdeal.Gen Cert.ReferenceIdeal.Read Idealize.ShloMosaic Idealize.ShloMosaic.ValueIdx

/-- The rectified hidden unit: the maximum of the hidden unit and zero. -/
theorem ref_relu (x0 : (⟨S8x512x128, .f32⟩ : BufTy).Contents (Elt Ideal)) (x1 : (⟨S128x128, .f32⟩ : BufTy).Contents (Elt Ideal))
    (x2 : (⟨S128, .f32⟩ : BufTy).Contents (Elt Ideal)) (b : Fin 8) (i j : Fin 512) (h : Fin 128) :
    val_main_v10 (F := Ideal) x0 x1 x2 (ix4 b i j h) = max (Cert.GcnSpec.hid x0 x1 x2 b i j h) 0 := by
  rw [val_main_v10_apply, val_main_call0_v0_apply, val_main_call0_cst_apply, ref_hid]
  show max _ (Ideal.ofBits .f32 0x00000000#32) = _
  rw [Ideal.ofBits_zero_f32]

/-- Dropping the trailing unit axis keeps the three coordinates: the row-major position of (b, i, j) among
    8 x 512 x 512 entries has quotients and remainders b, i and j. -/
theorem idx_squeeze (b : Fin 8) (i j : Fin 512) : idx_main_v12 (ix3 b i j) = ix4 b i j (0 : Fin 1) :=
  funext fun a => Fin.ext (by
    have hb := b.isLt; have hi := i.isLt; have hj := j.isLt
    match a with
    | ⟨0, _⟩ => show ((b.val * 512 + i.val) * 512 + j.val) / 262144 = b.val; omega
    | ⟨1, _⟩ => show ((b.val * 512 + i.val) * 512 + j.val) / 512 % 512 = i.val; omega
    | ⟨2, _⟩ => show ((b.val * 512 + i.val) * 512 + j.val) / 1 % 512 = j.val; omega
    | ⟨3, _⟩ => rfl)

/-- The second contraction's left index keeps the pair and runs over the hidden units. -/
theorem lidx_score (b : Fin 8) (i j : Fin 512) (h : Fin 128) : lidx_main_v11 (ix4 b i j (0 : Fin 1)) h = ix4 b i j h :=
  funext fun a => Fin.ext (by match a with | ⟨0, _⟩ => rfl | ⟨1, _⟩ => rfl | ⟨2, _⟩ => rfl | ⟨3, _⟩ => rfl)

/-- The second contraction's right index is the weight column's entry (h, 0). -/
theorem ridx_score (b : Fin 8) (i j : Fin 512) (h : Fin 128) :
    ridx_main_v11 (ix4 b i j (0 : Fin 1)) h = ix2 h (0 : Fin 1) :=
  funext fun a => Fin.ext (by match a with | ⟨0, _⟩ => rfl | ⟨1, _⟩ => rfl)

/-- A one-element array has one index. -/
theorem idx_one (k : S1.Idx) : k = ix1 (0 : Fin 1) :=
  funext fun a => Fin.ext (by match a with | ⟨0, _⟩ => exact Nat.lt_one_iff.mp (k 0).isLt)

/-- The second bias reshaped to a scalar is the array's only element. -/
theorem ref_bias2 (x4 : (⟨S1, .f32⟩ : BufTy).Contents (Elt Ideal)) (k : S_.Idx) :
    val_main_v13 (F := Ideal) x4 k = x4 (ix1 (0 : Fin 1)) := by
  unfold val_main_v13 shapeCast
  exact congrArg x4 (idx_one _)

/-- The reference's score of the pair (i, j) is the specification's. -/
theorem ref_score (x0 : (⟨S8x512x128, .f32⟩ : BufTy).Contents (Elt Ideal)) (x1 : (⟨S128x128, .f32⟩ : BufTy).Contents (Elt Ideal))
    (x2 : (⟨S128, .f32⟩ : BufTy).Contents (Elt Ideal)) (x3 : (⟨S128x1, .f32⟩ : BufTy).Contents (Elt Ideal))
    (x4 : (⟨S1, .f32⟩ : BufTy).Contents (Elt Ideal)) (b : Fin 8) (i j : Fin 512) :
    val_main_v15 (F := Ideal) x0 x1 x2 x3 x4 (ix3 b i j) = Cert.GcnSpec.score x0 x1 x2 x3 x4 b i j := by
  rw [val_main_v15_apply, val_main_v12_apply, idx_squeeze, val_main_v11_apply, val_main_v14_apply, ref_bias2]
  simp only [lidx_score, ridx_score, ref_relu]
  rfl

/-- The single-precision word 0x3F800000 is the number one: sign 0, exponent 127, fraction 0. -/
theorem ofBits_one_f32 : Ideal.ofBits .f32 0x3F800000#32 = 1 := by
  simp [Ideal.ofBits, Ideal.ieee, -EReal.coe_mul]; norm_num

/-- The reference's edge weight of the pair (i, j) is the specification's: 1 / (1 + exp (-s)) is the
    logistic function by definition. -/
theorem ref_adj_apply (x0 : (⟨S8x512x128, .f32⟩ : BufTy).Contents (Elt Ideal)) (x1 : (⟨S128x128, .f32⟩ : BufTy).Contents (Elt Ideal))
    (x2 : (⟨S128, .f32⟩ : BufTy).Contents (Elt Ideal)) (x3 : (⟨S128x1, .f32⟩ : BufTy).Contents (Elt Ideal))
    (x4 : (⟨S1, .f32⟩ : BufTy).Contents (Elt Ideal)) (b : Fin 8) (i j : Fin 512) :
    val_main_v21 (F := Ideal) x0 x1 x2 x3 x4 (ix3 b i j) = Cert.GcnSpec.adj x0 x1 x2 x3 x4 b i j := by
  rw [val_main_v21_apply, val_main_v20_apply, val_main_cst_0_apply, val_main_v19_apply, val_main_v18_apply,
    val_main_cst_apply, val_main_v17_apply, val_main_v16_apply, ref_score]
  show Ideal.div (Ideal.ofBits .f32 0x3F800000#32) (Ideal.ofBits .f32 0x3F800000#32 + Ideal.exp (-_)) = _
  rw [ofBits_one_f32]
  rfl

/-- The reference's edge-weight stage is the specification's array of edge weights. -/
theorem ref_adj (x0 : (⟨S8x512x128, .f32⟩ : BufTy).Contents (Elt Ideal)) (x1 : (⟨S128x128, .f32⟩ : BufTy).Contents (Elt Ideal))
    (x2 : (⟨S128, .f32⟩ : BufTy).Contents (Elt Ideal)) (x3 : (⟨S128x1, .f32⟩ : BufTy).Contents (Elt Ideal))
    (x4 : (⟨S1, .f32⟩ : BufTy).Contents (Elt Ideal)) :
    val_main_v21 (F := Ideal) x0 x1 x2 x3 x4 = Cert.GcnSpec.adjArr x0 x1 x2 x3 x4 := by
  funext k
  obtain ⟨b, i, j, rfl⟩ : ∃ (b : Fin 8) (i j : Fin 512), k = ix3 b i j := ⟨k 0, k 1, k 2, eq_ix3 k⟩
  exact ref_adj_apply x0 x1 x2 x3 x4 b i j

end Cert.GcnRef

end
-- ==== Proof.RefOut.lean ====
/-
  The reference's output read at coordinates.

  The degree of a node is the host's sum of its row of edge weights, started from the zero word, and
  0 + s = s for every extended real s; its power -1/2 is the same function on both sides. The normalised
  edge weight multiplies the edge weight by the row node's factor, broadcast along the columns, and then
  by the column node's factor, broadcast along the rows. The features are projected by contracting the
  feature axis against the layer's weight matrix, and the last contraction, batched over the graphs, sums
  the normalised edge weights of row i against the projected features of the column nodes; the bias is
  broadcast along the last axis and added. Read at the coordinates (b, i, o) that is the specification's
  output, so the whole stage is the specification's output array.
-/
import proofs.«112107_j17961553231914_2_alg».proof.Proof.RefAdj

noncomputable section

namespace Cert.GcnRef

open Cert.ReferenceIdeal Cert.ReferenceIdeal.Gen Cert.ReferenceIdeal.Read Idealize.ShloMosaic Idealize.ShloMosaic.ValueIdx

/-- The sum over the last axis reads the row (b, i) at every column. -/
theorem idx_deg (b : Fin 8) (i j : Fin 512) : idx_main_v22 (ix2 b i) j = ix3 b i j :=
  funext fun a => Fin.ext (by match a with | ⟨0, _⟩ => rfl | ⟨1, _⟩ => rfl | ⟨2, _⟩ => rfl)

/-- The reference's degree of node i is the specification's: the sum starts from zero. -/
theorem ref_deg (x0 : (⟨S8x512x128, .f32⟩ : BufTy).Contents (Elt Ideal)) (x1 : (⟨S128x128, .f32⟩ : BufTy).Contents (Elt Ideal))
    (x2 : (⟨S128, .f32⟩ : BufTy).Contents (Elt Ideal)) (x3 : (⟨S128x1, .f32⟩ : BufTy).Contents (Elt Ideal))
    (x4 : (⟨S1, .f32⟩ : BufTy).Contents (Elt Ideal)) (b : Fin 8) (i : Fin 512) :
    val_main_v22 (F := Ideal) x0 x1 x2 x3 x4 (ix2 b i) = Cert.GcnSpec.deg x0 x1 x2 x3 x4 b i := by
  rw [val_main_v22_apply, val_main_cst_1_apply]
  simp only [idx_deg, ref_adj_apply]
  show Ideal.ofBits .f32 0x00000000#32 + _ = _
  rw [Ideal.ofBits_zero_f32, zero_add]
  rfl

/-- The reference's degree to the power -1/2 is the specification's. -/
theorem ref_dinv (x0 : (⟨S8x512x128, .f32⟩ : BufTy).Contents (Elt Ideal)) (x1 : (⟨S128x128, .f32⟩ : BufTy).Contents (Elt Ideal))
    (x2 : (⟨S128, .f32⟩ : BufTy).Contents (Elt Ideal)) (x3 : (⟨S128x1, .f32⟩ : BufTy).Contents (Elt Ideal))
    (x4 : (⟨S1, .f32⟩ : BufTy).Contents (Elt Ideal)) (b : Fin 8) (i : Fin 512) :
    val_main_v23 (F := Ideal) x0 x1 x2 x3 x4 (ix2 b i) = Cert.GcnSpec.dinv x0 x1 x2 x3 x4 b i := by
  rw [val_main_v23_apply, ref_deg]
  rfl

/-- The row node's factor, broadcast along the columns, is read at (b, i). -/
theorem idx_rowfac (b : Fin 8) (i j : Fin 512) : idx_main_v24 (idx_main_v25 (ix3 b i j)) = ix2 b i :=
  funext fun a => Fin.ext (by match a with | ⟨0, _⟩ => rfl | ⟨1, _⟩ => rfl)

/-- The column node's factor, broadcast along the rows, is read at (b, j). -/
theorem idx_colfac (b : Fin 8) (i j : Fin 512) : idx_main_v27 (idx_main_v28 (ix3 b i j)) = ix2 b j :=
  funext fun a => Fin.ext (by match a with | ⟨0, _⟩ => rfl | ⟨1, _⟩ => rfl)

/-- The normalised edge weight: the edge weight times the row node's factor times the column node's. -/
theorem ref_norm (x0 : (⟨S8x512x128, .f32⟩ : BufTy).Contents (Elt Ideal)) (x1 : (⟨S128x128, .f32⟩ : BufTy).Contents (Elt Ideal))
    (x2 : (⟨S128, .f32⟩ : BufTy).Contents (Elt Ideal)) (x3 : (⟨S128x1, .f32⟩ : BufTy).Contents (Elt Ideal))
    (x4 : (⟨S1, .f32⟩ : BufTy).Contents (Elt Ideal)) (b : Fin 8) (i j : Fin 512) :
    val_main_v29 (F := Ideal) x0 x1 x2 x3 x4 (ix3 b i j)
      = Cert.GcnSpec.adj x0 x1 x2 x3 x4 b i j * Cert.GcnSpec.dinv x0 x1 x2 x3 x4 b i
          * Cert.GcnSpec.dinv x0 x1 x2 x3 x4 b j := by
  rw [val_main_v29_apply, val_main_v26_apply, val_main_v25_apply, val_main_v24_apply, val_main_v28_apply,
    val_main_v27_apply, idx_rowfac, idx_colfac, ref_adj_apply, ref_dinv, ref_dinv]
  rfl

/-- The projection's left index keeps the node and runs over the features. -/
theorem lidx_xw (b : Fin 8) (n : Fin 512) (o d : Fin 128) : lidx_main_v30 (ix3 b n o) d = ix3 b n d :=
  funext fun a => Fin.ext (by match a with | ⟨0, _⟩ => rfl | ⟨1, _⟩ => rfl | ⟨2, _⟩ => rfl)

/-- The projection's right index is the weight matrix's entry (d, o). -/
theorem ridx_xw (b : Fin 8) (n : Fin 512) (o d : Fin 128) : ridx_main_v30 (ix3 b n o) d = ix2 d o :=
  funext fun a => Fin.ext (by match a with | ⟨0, _⟩ => rfl | ⟨1, _⟩ => rfl)

/-- The reference's projected features are the specification's. -/
theorem ref_xw (x0 : (⟨S8x512x128, .f32⟩ : BufTy).Contents (Elt Ideal)) (x5 : (⟨S128x128, .f32⟩ : BufTy).Contents (Elt Ideal))
    (b : Fin 8) (n : Fin 512) (o : Fin 128) :
    val_main_v30 (F := Ideal) x0 x5 (ix3 b n o) = Cert.GcnSpec.xw x0 x5 b n o := by
  rw [val_main_v30_apply]
  simp only [lidx_xw, ridx_xw]
  rfl

/-- The batched contraction's left index stays in graph b and row i and runs over the column nodes. -/
theorem lidx_out (b : Fin 8) (i j : Fin 512) (o : Fin 128) : lidx_main_v31 (ix3 b i o) j = ix3 b i j :=
  funext fun a => Fin.ext (by match a with | ⟨0, _⟩ => rfl | ⟨1, _⟩ => rfl | ⟨2, _⟩ => rfl)

/-- The batched contraction's right index stays in graph b and reads node j's projected feature o. -/
theorem ridx_out (b : Fin 8) (i j : Fin 512) (o : Fin 128) : ridx_main_v31 (ix3 b i o) j = ix3 b j o :=
  funext fun a => Fin.ext (by match a with | ⟨0, _⟩ => rfl | ⟨1, _⟩ => rfl | ⟨2, _⟩ => rfl)

/-- The output bias is read at the output feature's coordinate alone. -/
theorem idx_outbias (b : Fin 8) (i : Fin 512) (o : Fin 128) : idx_main_v32 (idx_main_v33 (ix3 b i o)) = ix1 o :=
  funext fun a => Fin.ext (by match a with | ⟨0, _⟩ => rfl)

/-- The reference's output at (b, i, o) is the specification's. -/
theorem ref_out_apply (x0 : (⟨S8x512x128, .f32⟩ : BufTy).Contents (Elt Ideal)) (x1 : (⟨S128x128, .f32⟩ : BufTy).Contents (Elt Ideal))
    (x2 : (⟨S128, .f32⟩ : BufTy).Contents (Elt Ideal)) (x3 : (⟨S128x1, .f32⟩ : BufTy).Contents (Elt Ideal))
    (x4 : (⟨S1, .f32⟩ : BufTy).Contents (Elt Ideal)) (x5 : (⟨S128x128, .f32⟩ : BufTy).Contents (Elt Ideal))
    (x6 : (⟨S128, .f32⟩ : BufTy).Contents (Elt Ideal)) (b : Fin 8) (i : Fin 512) (o : Fin 128) :
    val_main_v34 (F := Ideal) x0 x1 x2 x3 x4 x5 x6 (ix3 b i o) = Cert.GcnSpec.out x0 x1 x2 x3 x4 x5 x6 b i o := by
  rw [val_main_v34_apply, val_main_v31_apply, val_main_v33_apply, val_main_v32_apply, idx_outbias]
  simp only [lidx_out, ridx_out, ref_norm, ref_xw]
  rfl

/-- The reference's last stage is the specification's output array. -/
theorem ref_out (x0 : (⟨S8x512x128, .f32⟩ : BufTy).Contents (Elt Ideal)) (x1 : (⟨S128x128, .f32⟩ : BufTy).Contents (Elt Ideal))
    (x2 : (⟨S128, .f32⟩ : BufTy).Contents (Elt Ideal)) (x3 : (⟨S128x1, .f32⟩ : BufTy).Contents (Elt Ideal))
    (x4 : (⟨S1, .f32⟩ : BufTy).Contents (Elt Ideal)) (x5 : (⟨S128x128, .f32⟩ : BufTy).Contents (Elt Ideal))
    (x6 : (⟨S128, .f32⟩ : BufTy).Contents (Elt Ideal)) :
    val_main_v34 (F := Ideal) x0 x1 x2 x3 x4 x5 x6 = Cert.GcnSpec.outArr x0 x1 x2 x3 x4 x5 x6 := by
  funext k
  obtain ⟨b, i, o, rfl⟩ : ∃ (b : Fin 8) (i : Fin 512) (o : Fin 128), k = ix3 b i o := ⟨k 0, k 1, k 2, eq_ix3 k⟩
  exact ref_out_apply x0 x1 x2 x3 x4 x5 x6 b i o

end Cert.GcnRef

end
-- ==== Proof.RefRun.lean ====
/-
  The reference's run, stated with the specification.

  Every weakly fair execution of the reference terminates with its output buffer holding the
  specification's output array of the seven argument arrays, its edge-weight buffer holding the
  specification's array of edge weights of the first five, and the arguments unchanged: the run's two
  result terms are the last stages of the two chains of operations, and those stages are the
  specification's arrays.
-/
import proofs.«112107_j17961553231914_2_alg».proof.Proof.RefOut

noncomputable section

namespace Cert.GcnRef

open Cert.ReferenceIdeal Cert.ReferenceIdeal.Gen Idealize.ShloMosaic Idealize.ShloMosaic.TcCoe Idealize.SL.Sem Idealize.ShloMosaic.StableHlo

/-- From any memory with zero counters the reference ends, on every core, with the specification's output
    and edge weights of its arguments, and the arguments unchanged. -/
theorem ref_run (m' : (ℓ : Loc nD τ sig) → Buf (Elt Ideal) ℓ) (ρ' : Dev nD → PrngReg) :
    θ_run (Cert.ReferenceIdeal.defs (F := Ideal)) (onTc (τ := τ) (main (F := Ideal))) ⟨m', fun _ => 0, ρ'⟩ fun r => ∀ c : Dev nD,
      r.2.mem ((c.tc : Thread nD τ).loc main_v34) = Cert.GcnSpec.outArr (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6))
      ∧ r.2.mem ((c.tc : Thread nD τ).loc main_v21) = Cert.GcnSpec.adjArr (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6) :=
  (θ_run (Cert.ReferenceIdeal.defs (F := Ideal)) _ _).mono (fun _ h c =>
      ⟨(h c).1.trans ((Read.val_main_v34_eq (F := Ideal) m' c).trans (ref_out _ _ _ _ _ _ _)),
       (h c).2.1.trans ((Read.val_main_v21_eq (F := Ideal) _ _ _ _ _).trans (ref_adj _ _ _ _ _)),
       (h c).2.2⟩)
    (Cert.ReferenceIdeal.Value.run (F := Ideal) m' ρ')

end Cert.GcnRef

end
-- ==== Proof.lean ====
/-
  A dynamic graph-convolution layer on 8 graphs of 512 nodes with 128 features: the kernel and its reference agree on
  the extended reals.

  Both programs score every ordered pair of nodes of a graph by a two-layer perceptron on the absolute feature
  difference, squash the score by the logistic function into an edge weight, sum each node's row of edge weights into
  its degree, and return the edge weights together with the symmetrically normalised aggregation
  (sum over j of ((adj i j * deg i ^ (-1/2)) * deg j ^ (-1/2)) * (x W) j) + bias. Spec.lean states that function.

  The reference computes it with whole-array host operations. The kernel computes it in two pipelined regions: the
  first visits the 128 x 128 tiles of each graph's pair matrix, computing a tile of edge weights from a row block and a
  column block of the same feature array and accumulating the row sums of the four tiles of a row into the degree; host
  lines take the degree to the power -1/2; the second projects a graph's features once and aggregates row tile by row
  tile. On the extended reals a change of float format is the identity, a matrix unit's product into a zero accumulator
  and a lane sum are plain sums, and the logistic operation is 1 / (1 + exp (-s)); the two programs then differ only in
  the tiling and in the grouping of the degree's sum into four tiles, and addition of extended reals is associative and
  commutative with 0 neutral for every value, so nothing needs the inputs to be finite.

  Each program's frame (it terminates, nothing faults, its arguments end unchanged) is its run read at the arguments:
  for the two kernel programs the run of the four items of the program in order, the first region entered with the
  feature array dealt between the two windows that read it and left with the two halves joined; for the reference its
  host operations in order. The idealized kernel's sanctioned idealization rewrote nothing.
-/
import proofs.«112107_j17961553231914_2_alg».proof.Defs
import proofs.«112107_j17961553231914_2_alg».proof.Proof.Gen.Kernel
import proofs.«112107_j17961553231914_2_alg».proof.Proof.Gen.KernelIdeal
import proofs.«112107_j17961553231914_2_alg».proof.Proof.Gen.ReferenceIdeal
import proofs.«112107_j17961553231914_2_alg».proof.Proof.Gen.Pre_finite_inputs
import proofs.«112107_j17961553231914_2_alg».proof.Proof.KMain
import proofs.«112107_j17961553231914_2_alg».proof.Proof.KIBridge
import proofs.«112107_j17961553231914_2_alg».proof.Proof.RefRun
import Idealize.ShloMosaic.Adequacy
import Idealize.ShloMosaic.Init

noncomputable section

namespace Cert.Proof

open Idealize.ShloMosaic Idealize.SL.Sem

/-- The printed kernel runs and leaves its arguments unchanged. -/
theorem frame_k : Cert.frame_Kernel := fun m ρ _ => Cert.Kernel.Run.frame (F := Bits) m ρ

/-- So does its idealization. -/
theorem frame_ki : Cert.frame_KernelIdeal := fun m ρ _ => Cert.KernelIdeal.Run.frame (F := Ideal) m ρ

/-- So does the reference: its run, the results dropped. -/
theorem frame_ri : Cert.frame_ReferenceIdeal := fun m ρ _ =>
  (θ_run Cert.ReferenceIdeal.defs _ _).mono (fun _ h c => (h c).2.2) (Cert.GcnRef.ref_run m ρ)

/-- The idealization rewrote no operation. -/
theorem preserves : Cert.preserves_Kernel_KernelIdeal := trivial

/-- From memories agreeing on the arguments the idealized kernel and the idealized reference both end with the
    specification's two arrays of those arguments. -/
theorem algebraic : Cert.algebraic_KernelIdeal_ReferenceIdeal := by
  intro m ρ m' ρ' _ hagree
  refine ⟨fun c => Cert.GcnSpec.outArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.GcnSpec.adjArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Run.value_run m ρ, ?_⟩
  refine (θ_run Cert.ReferenceIdeal.defs _ _).mono (fun _ h c => ⟨?_, ?_, (h c).2.2⟩) (Cert.GcnRef.ref_run m' ρ')
  · rw [(h c).1, (hagree c).1, (hagree c).2.1, (hagree c).2.2.1, (hagree c).2.2.2.1, (hagree c).2.2.2.2.1, (hagree c).2.2.2.2.2.1, (hagree c).2.2.2.2.2.2]
  · rw [(h c).2.1, (hagree c).1, (hagree c).2.1, (hagree c).2.2.1, (hagree c).2.2.2.1, (hagree c).2.2.2.2.1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
